-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x5000x64 : Shape := ⟨3, ![16, 5000, 64]⟩
abbrev S2x160000 : Shape := ⟨2, ![2, 160000]⟩
abbrev S64x32 : Shape := ⟨2, ![64, 32]⟩
abbrev S32 : Shape := ⟨1, ![32]⟩
abbrev S32x32 : Shape := ⟨2, ![32, 32]⟩
abbrev S160000x512 : Shape := ⟨2, ![160000, 512]⟩
abbrev S512 : Shape := ⟨1, ![512]⟩
abbrev S512x16 : Shape := ⟨2, ![512, 16]⟩
abbrev S16 : Shape := ⟨1, ![16]⟩
abbrev S_ : Shape := ⟨0, ![]⟩

class Facts : Prop where
  bcast_S_S16x5000x64 : S_.BroadcastsInDim S16x5000x64 (![] : Fin 0 → Fin S16x5000x64.rank)
  reducesTo_S16x5000x64_S_d0_1_2 : S16x5000x64.ReducesTo [0, 1, 2] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S160000x512 : S_.BroadcastsInDim S160000x512 (![] : Fin 0 → Fin S160000x512.rank)
  reducesTo_S160000x512_S_d0_1 : S160000x512.ReducesTo [0, 1] S_
  bcast_S_S512 : S_.BroadcastsInDim S512 (![] : Fin 0 → Fin S512.rank)
  reducesTo_S512_S_d0 : S512.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_arg8 : FVec F S512x16 .f32) (main_arg9 : FVec F S16 .f32) (main_v33 : IVec S_ 1) : IVec S_ 1 :=
  let main_v34 : FVec F S512x16 .f32 := Host.absf main_arg8
  let main_cst_12 : FVec F S_ .f32 := constant S_ .f32 0x7F800000#32
  let main_v35 : FVec F S512x16 .f32 := broadcastInDim S512x16 ![] bcast_S_S512x16 main_cst_12
  let main_v36 : IVec S512x16 1 := cmpf .olt main_v34 main_v35
  let main_c_13 : IVec S_ 1 := constantI S_ 1 1#1
  let main_v37 : IVec S_ 1 := (fun x v => Host.reduce IntOp.andi x v reducesTo_S512x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_c_16 : IVec S_ 32 := constantI S_ 32 0#32
  let main_v44 : IVec S2x160000 32 := broadcastInDim S2x160000 ![] bcast_S_S2x160000 main_c_16
  let main_v45 : IVec S2x160000 1 := cmpi .sge main_arg1 main_v44
  let main_c_17 : IVec S_ 32 := constantI S_ 32 5000#32
  let main_v46 : IVec S2x160000 32 := broadcastInDim S2x160000 ![] bcast_S_S2x160000 main_c_17
  let main_v47 : IVec S2x160000 1 := cmpi .slt main_arg1 main_v46
  let main_v48 : IVec S2x160000 1 := andi main_v45 main_v47
  let main_c_18 : IVec S_ 1 := constantI S_ 1 1#1
  let main_v49 : IVec S_ 1 := (fun x v => Host.reduce IntOp.andi x v reducesTo_S2x160000_S_d0_1 h_S_) main_v48 main_c_18
  let main_v50 : IVec S_ 1 := andi main_v43 main_v49
  main_v50

def fn_part1 {F : FTy → Type} [FloatOps F] (main_arg1 : IVec S2x160000 32) (main_arg5 : FVec F S32 .f32) (main_arg6 : FVec F S160000x512 .f32) (main_arg7 : FVec F S512 .f32) (main_arg8 : FVec F S512x16 .f32) (main_arg9 : FVec F S16 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S160000x512 .f32 := Host.absf main_arg6
  let main_cst_8 : FVec F S_ .f32 := constant S_ .f32 0x7F800000#32
  let main_v25 : FVec F S160000x512 .f32 := broadcastInDim S160000x512 ![] bcast_S_S160000x512 main_cst_8
  let main_v26 : IVec S160000x512 1 := cmpf .olt main_v24 main_v25
  let main_c_9 : IVec S_ 1 := constantI S_ 1 1#1
  let main_v27 : IVec S_ 1 := (fun x v => Host.reduce IntOp.andi x v reducesTo_S160000x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg8 main_arg9 main_v33

def fn {F : FTy → Type} [FloatOps F] (main_arg0 : FVec F S16x5000x64 .f32) (main_arg1 : IVec S2x160000 32) (main_arg2 : FVec F S64x32 .f32) (main_arg3 : FVec F S32 .f32) (main_arg4 : FVec F S32x32 .f32) (main_arg5 : FVec F S32 .f32) (main_arg6 : FVec F S160000x512 .f32) (main_arg7 : FVec F S512 .f32) (main_arg8 : FVec F S512x16 .f32) (main_arg9 : FVec F S16 .f32) : IVec S_ 1 :=
  let main_v0 : FVec F S16x5000x64 .f32 := Host.absf main_arg0
  let main_cst : FVec F S_ .f32 := constant S_ .f32 0x7F800000#32
  let main_v1 : FVec F S16x5000x64 .f32 := broadcastInDim S16x5000x64 ![] bcast_S_S16x5000x64 main_cst
  let main_v2 : IVec S16x5000x64 1 := cmpf .olt main_v0 main_v1
  let main_c : IVec S_ 1 := constantI S_ 1 1#1
  let main_v3 : IVec S_ 1 := (fun x v => Host.reduce IntOp.andi x v reducesTo_S16x5000x64_S_d0_1_2 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_arg5 main_arg6 main_arg7 main_arg8 main_arg9 main_v13 main_v16
-- ==== Kernel.lean ====
abbrev S16x5000x64 : Shape := ⟨3, ![16, 5000, 64]⟩
abbrev S2x160000 : Shape := ⟨2, ![2, 160000]⟩
abbrev S64x32 : Shape := ⟨2, ![64, 32]⟩
abbrev S32 : Shape := ⟨1, ![32]⟩
abbrev S32x32 : Shape := ⟨2, ![32, 32]⟩
abbrev S160000x512 : Shape := ⟨2, ![160000, 512]⟩
abbrev S512 : Shape := ⟨1, ![512]⟩
abbrev S512x16 : Shape := ⟨2, ![512, 16]⟩
abbrev S16 : Shape := ⟨1, ![16]⟩
abbrev S5000 : Shape := ⟨1, ![5000]⟩
abbrev S1x160000 : Shape := ⟨2, ![1, 160000]⟩
abbrev S160000 : Shape := ⟨1, ![160000]⟩
abbrev S165000 : Shape := ⟨1, ![165000]⟩
abbrev S_ : Shape := ⟨0, ![]⟩
abbrev S165000x1 : Shape := ⟨2, ![165000, 1]⟩
abbrev S5000x5000 : Shape := ⟨2, ![5000, 5000]⟩
abbrev S165000x2 : Shape := ⟨2, ![165000, 2]⟩
abbrev S5000x16x64 : Shape := ⟨3, ![5000, 16, 64]⟩
abbrev S80000x64 : Shape := ⟨2, ![80000, 64]⟩
abbrev S80000x32 : Shape := ⟨2, ![80000, 32]⟩
abbrev S5000x512 : Shape := ⟨2, ![5000, 512]⟩
abbrev S1x32 : Shape := ⟨2, ![1, 32]⟩
abbrev S16x32 : Shape := ⟨2, ![16, 32]⟩
abbrev S200x5000 : Shape := ⟨2, ![200, 5000]⟩
abbrev S200x512 : Shape := ⟨2, ![200, 512]⟩
abbrev S1x512 : Shape := ⟨2, ![1, 512]⟩
abbrev S5000x16x32 : Shape := ⟨3, ![5000, 16, 32]⟩
abbrev S16x5000x32 : Shape := ⟨3, ![16, 5000, 32]⟩
abbrev S16x160000 : Shape := ⟨2, ![16, 160000]⟩
abbrev S16x512 : Shape := ⟨2, ![16, 512]⟩
abbrev S16x3200 : Shape := ⟨2, ![16, 3200]⟩
abbrev S3200x256 : Shape := ⟨2, ![3200, 256]⟩
abbrev S256 : Shape := ⟨1, ![256]⟩
abbrev S16x256 : Shape := ⟨2, ![16, 256]⟩
abbrev S1x256 : Shape := ⟨2, ![1, 256]⟩
abbrev S16x16 : Shape := ⟨2, ![16, 16]⟩
abbrev S1x16 : Shape := ⟨2, ![1, 16]⟩

abbrev nBuf : Space → Nat
  | .hbm => 103
  | .vmem => 21
  | .smem => 0
  | _ => 0

abbrev bufTy : (tb : Table) → Fin (tcTables nBuf tb) → BufTy
  | .hbm, ⟨0, _⟩ => ⟨S16x5000x64, .f32⟩
  | .hbm, ⟨1, _⟩ => ⟨S2x160000, .i32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S160000x512, .f32⟩
  | .hbm, ⟨7, _⟩ => ⟨S512, .f32⟩
  | .hbm, ⟨8, _⟩ => ⟨S512x16, .f32⟩
  | .hbm, ⟨9, _⟩ => ⟨S16, .f32⟩
  | .hbm, ⟨10, _⟩ => ⟨S5000, .i32⟩
  | .hbm, ⟨11, _⟩ => ⟨S1x160000, .i32⟩
  | .hbm, ⟨12, _⟩ => ⟨S160000, .i32⟩
  | .hbm, ⟨13, _⟩ => ⟨S165000, .i32⟩
  | .hbm, ⟨14, _⟩ => ⟨S1x160000, .i32⟩
  | .hbm, ⟨15, _⟩ => ⟨S160000, .i32⟩
  | .hbm, ⟨16, _⟩ => ⟨S165000, .i32⟩
  | .hbm, ⟨17, _⟩ => ⟨S_, .f32⟩
  | .hbm, ⟨18, _⟩ => ⟨S5000, .f32⟩
  | .hbm, ⟨19, _⟩ => ⟨S_, .i32⟩
  | .hbm, ⟨20, _⟩ => ⟨S165000, .i32⟩
  | .hbm, ⟨21, _⟩ => ⟨S165000, .i1⟩
  | .hbm, ⟨22, _⟩ => ⟨S_, .i32⟩
  | .hbm, ⟨23, _⟩ => ⟨S165000, .i32⟩
  | .hbm, ⟨24, _⟩ => ⟨S165000, .i32⟩
  | .hbm, ⟨25, _⟩ => ⟨S165000, .i32⟩
  | .hbm, ⟨26, _⟩ => ⟨S165000x1, .i32⟩
  | .hbm, ⟨27, _⟩ => ⟨S_, .f32⟩
  | .hbm, ⟨28, _⟩ => ⟨S165000, .f32⟩
  | .hbm, ⟨29, _⟩ => ⟨S5000, .f32⟩
  | .hbm, ⟨30, _⟩ => ⟨S_, .f32⟩
  | .hbm, ⟨31, _⟩ => ⟨S5000, .f32⟩
  | .hbm, ⟨32, _⟩ => ⟨S5000, .i1⟩
  | .hbm, ⟨33, _⟩ => ⟨S5000, .f32⟩
  | .hbm, ⟨34, _⟩ => ⟨S_, .f32⟩
  | .hbm, ⟨35, _⟩ => ⟨S_, .f32⟩
  | .hbm, ⟨36, _⟩ => ⟨S5000, .f32⟩
  | .hbm, ⟨37, _⟩ => ⟨S5000, .f32⟩
  | .hbm, ⟨38, _⟩ => ⟨S_, .i32⟩
  | .hbm, ⟨39, _⟩ => ⟨S165000, .i32⟩
  | .hbm, ⟨40, _⟩ => ⟨S165000, .i1⟩
  | .hbm, ⟨41, _⟩ => ⟨S_, .i32⟩
  | .hbm, ⟨42, _⟩ => ⟨S165000, .i32⟩
  | .hbm, ⟨43, _⟩ => ⟨S165000, .i32⟩
  | .hbm, ⟨44, _⟩ => ⟨S165000, .i32⟩
  | .hbm, ⟨45, _⟩ => ⟨S165000x1, .i32⟩
  | .hbm, ⟨46, _⟩ => ⟨S165000, .f32⟩
  | .hbm, ⟨47, _⟩ => ⟨S_, .i32⟩
  | .hbm, ⟨48, _⟩ => ⟨S165000, .i32⟩
  | .hbm, ⟨49, _⟩ => ⟨S165000, .i1⟩
  | .hbm, ⟨50, _⟩ => ⟨S_, .i32⟩
  | .hbm, ⟨51, _⟩ => ⟨S165000, .i32⟩
  | .hbm, ⟨52, _⟩ => ⟨S165000, .i32⟩
  | .hbm, ⟨53, _⟩ => ⟨S165000, .i32⟩
  | .hbm, ⟨54, _⟩ => ⟨S165000x1, .i32⟩
  | .hbm, ⟨55, _⟩ => ⟨S165000, .f32⟩
  | .hbm, ⟨56, _⟩ => ⟨S165000, .f32⟩
  | .hbm, ⟨57, _⟩ => ⟨S_, .f32⟩
  | .hbm, ⟨58, _⟩ => ⟨S5000x5000, .f32⟩
  | .hbm, ⟨59, _⟩ => ⟨S_, .i32⟩
  | .hbm, ⟨60, _⟩ => ⟨S165000, .i32⟩
  | .hbm, ⟨61, _⟩ => ⟨S165000, .i1⟩
  | .hbm, ⟨62, _⟩ => ⟨S_, .i32⟩
  | .hbm, ⟨63, _⟩ => ⟨S165000, .i32⟩
  | .hbm, ⟨64, _⟩ => ⟨S165000, .i32⟩
  | .hbm, ⟨65, _⟩ => ⟨S165000, .i32⟩
  | .hbm, ⟨66, _⟩ => ⟨S_, .i32⟩
  | .hbm, ⟨67, _⟩ => ⟨S165000, .i32⟩
  | .hbm, ⟨68, _⟩ => ⟨S165000, .i1⟩
  | .hbm, ⟨69, _⟩ => ⟨S_, .i32⟩
  | .hbm, ⟨70, _⟩ => ⟨S165000, .i32⟩
  | .hbm, ⟨71, _⟩ => ⟨S165000, .i32⟩
  | .hbm, ⟨72, _⟩ => ⟨S165000, .i32⟩
  | .hbm, ⟨73, _⟩ => ⟨S165000x1, .i32⟩
  | .hbm, ⟨74, _⟩ => ⟨S165000x1, .i32⟩
  | .hbm, ⟨75, _⟩ => ⟨S165000x2, .i32⟩
  | .hbm, ⟨76, _⟩ => ⟨S5000x5000, .f32⟩
  | .hbm, ⟨77, _⟩ => ⟨S5000x5000, .bf16⟩
  | .hbm, ⟨78, _⟩ => ⟨S5000x16x64, .f32⟩
  | .hbm, ⟨79, _⟩ => ⟨S80000x64, .f32⟩
  | .hbm, ⟨80, _⟩ => ⟨S80000x32, .f32⟩
  | .hbm, ⟨81, _⟩ => ⟨S5000x512, .f32⟩
  | .hbm, ⟨82, _⟩ => ⟨S5000x512, .bf16⟩
  | .hbm, ⟨83, _⟩ => ⟨S1x32, .f32⟩
  | .hbm, ⟨84, _⟩ => ⟨S16x32, .f32⟩
  | .hbm, ⟨85, _⟩ => ⟨S512, .f32⟩
  | .hbm, ⟨86, _⟩ => ⟨S5000x512, .f32⟩
  | .hbm, ⟨87, _⟩ => ⟨S80000x32, .f32⟩
  | .hbm, ⟨88, _⟩ => ⟨S80000x32, .f32⟩
  | .hbm, ⟨89, _⟩ => ⟨S5000x512, .f32⟩
  | .hbm, ⟨90, _⟩ => ⟨S5000x512, .bf16⟩
  | .hbm, ⟨91, _⟩ => ⟨S1x32, .f32⟩
  | .hbm, ⟨92, _⟩ => ⟨S16x32, .f32⟩
  | .hbm, ⟨93, _⟩ => ⟨S512, .f32⟩
  | .hbm, ⟨94, _⟩ => ⟨S5000x512, .f32⟩
  | .hbm, ⟨95, _⟩ => ⟨S5000x16x32, .f32⟩
  | .hbm, ⟨96, _⟩ => ⟨S16x5000x32, .f32⟩
  | .hbm, ⟨97, _⟩ => ⟨S16x160000, .f32⟩
  | .hbm, ⟨98, _⟩ => ⟨S16x512, .f32⟩
  | .hbm, ⟨99, _⟩ => ⟨S16x16, .f32⟩
  | .hbm, ⟨100, _⟩ => ⟨S1x16, .f32⟩
  | .hbm, ⟨101, _⟩ => ⟨S16x16, .f32⟩
  | .hbm, ⟨102, _⟩ => ⟨S16x16, .f32⟩
  | .local _ .vmem, ⟨0, _⟩ => ⟨S200x5000, .bf16⟩
  | .local _ .vmem, ⟨1, _⟩ => ⟨S200x5000, .bf16⟩
  | .local _ .vmem, ⟨2, _⟩ => ⟨S5000x512, .bf16⟩
  | .local _ .vmem, ⟨3, _⟩ => ⟨S512, .f32⟩
  | .local _ .vmem, ⟨4, _⟩ => ⟨S200x512, .f32⟩
  | .local _ .vmem, ⟨5, _⟩ => ⟨S200x512, .f32⟩
  | .local _ .vmem, ⟨6, _⟩ => ⟨S200x5000, .bf16⟩
  | .local _ .vmem, ⟨7, _⟩ => ⟨S200x5000, .bf16⟩
  | .local _ .vmem, ⟨8, _⟩ => ⟨S5000x512, .bf16⟩
  | .local _ .vmem, ⟨9, _⟩ => ⟨S512, .f32⟩
  | .local _ .vmem, ⟨10, _⟩ => ⟨S200x512, .f32⟩
  | .local _ .vmem, ⟨11, _⟩ => ⟨S200x512, .f32⟩
  | .local _ .vmem, ⟨12, _⟩ => ⟨S16x3200, .f32⟩
  | .local _ .vmem, ⟨13, _⟩ => ⟨S16x3200, .f32⟩
  | .local _ .vmem, ⟨14, _⟩ => ⟨S3200x256, .f32⟩
  | .local _ .vmem, ⟨15, _⟩ => ⟨S3200x256, .f32⟩
  | .local _ .vmem, ⟨16, _⟩ => ⟨S256, .f32⟩
  | .local _ .vmem, ⟨17, _⟩ => ⟨S256, .f32⟩
  | .local _ .vmem, ⟨18, _⟩ => ⟨S16x256, .f32⟩
  | .local _ .vmem, ⟨19, _⟩ => ⟨S16x256, .f32⟩
  | .local _ .vmem, ⟨20, _⟩ => ⟨S16x256, .f32⟩
  | _, _ => ⟨S16x5000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_11 : Ref sig .tc := ⟨.hbm, 66, rfl⟩
abbrev main_v41 : Ref sig .tc := ⟨.hbm, 67, rfl⟩
abbrev main_v42 : Ref sig .tc := ⟨.hbm, 68, rfl⟩
abbrev main_c_12 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x5000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x5000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 50], ![false, false]⟩

def k2_cond2 (i : grid2.Coords) : BitVec 1 :=
  let arg1 : BitVec 32 := BitVec.ofNat 32 (i 1).val
  let c49_i32 : BitVec 32 := 49#32
  let v14 : BitVec 1 := Scalar.cmpi .eq arg1 c49_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S16x3200 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S3200x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S16x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S2x160000_S1x160000_0_0 : S2x160000.Slices ![0, 0] S1x160000
  shapeCasts_S1x160000_S160000 : S1x160000.ShapeCasts S160000
  concatenates_S160000_S5000_S165000_d0 : Shape.Concatenates [S160000, S5000] S165000 0
  slices_S2x160000_S1x160000_1_0 : S2x160000.Slices ![1, 0] S1x160000
  bcast_S_S5000 : S_.BroadcastsInDim S5000 (![] : Fin 0 → Fin S5000.rank)
  bcast_S_S165000 : S_.BroadcastsInDim S165000 (![] : Fin 0 → Fin S165000.rank)
  bcast_S165000_S165000x1_0 : S165000.BroadcastsInDim S165000x1 (![0] : Fin 1 → Fin S165000x1.rank)
  bcast_S_S5000x5000 : S_.BroadcastsInDim S5000x5000 (![] : Fin 0 → Fin S5000x5000.rank)
  concatenates_S165000x1_S165000x1_S165000x2_d1 : Shape.Concatenates [S165000x1, S165000x1] S165000x2 1
  bitsLt_bf16_f32 : FTy.bits .bf16 < FTy.bits .f32
  transposes_S16x5000x64_S5000x16x64_1_0_2 : S16x5000x64.Transposes [1, 0, 2] S5000x16x64
  shapeCasts_S5000x16x64_S80000x64 : S5000x16x64.ShapeCasts S80000x64
  shapeCasts_S80000x32_S5000x512 : S80000x32.ShapeCasts S5000x512
  shapeCasts_S32_S1x32 : S32.ShapeCasts S1x32
  bcast_S1x32_S16x32_0_1 : S1x32.BroadcastsInDim S16x32 (![0, 1] : Fin 2 → Fin S16x32.rank)
  shapeCasts_S16x32_S512 : S16x32.ShapeCasts S512
  inb_S200x5000_S200x5000_0_0 : ∀ a, (![0, 0] : Fin 2 → Nat) a + S200x5000.size a ≤ S200x5000.size a
  h_S200x5000 : 0 < S200x5000.numel
  shapeCasts_S200x5000_S200x5000 : S200x5000.ShapeCasts S200x5000
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512_S512_0 : ∀ a, (![0] : Fin 1 → Nat) a + S512.size a ≤ S512.size a
  h_S512 : 0 < S512.numel
  shapeCasts_S512_S1x512 : S512.ShapeCasts S1x512
  broadcasts_S1x512_S200x512 : S1x512.Broadcasts S200x512
  inb_S200x512_S200x512_0_0 : ∀ a, (![0, 0] : Fin 2 → Nat) a + S200x512.size a ≤ S200x512.size a
  h_S200x512 : 0 < S200x512.numel
  shapeCasts_S5000x512_S80000x32 : S5000x512.ShapeCasts S80000x32
  shapeCasts_S5000x512_S5000x16x32 : S5000x512.ShapeCasts S5000x16x32
  transposes_S5000x16x32_S16x5000x32_1_0_2 : S5000x16x32.Transposes [1, 0, 2] S16x5000x32
  shapeCasts_S16x5000x32_S16x160000 : S16x5000x32.ShapeCasts S16x160000
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x3200_S16x3200_0_0 : ∀ a, (![0, 0] : Fin 2 → Nat) a + S16x3200.size a ≤ S16x3200.size a
  h_S16x3200 : 0 < S16x3200.numel
  shapeCasts_S16x3200_S16x3200 : S16x3200.ShapeCasts S16x3200
  inb_S3200x256_S3200x256_0_0 : ∀ a, (![0, 0] : Fin 2 → Nat) a + S3200x256.size a ≤ S3200x256.size a
  h_S3200x256 : 0 < S3200x256.numel
  inb_S256_S256_0 : ∀ a, (![0] : Fin 1 → Nat) a + S256.size a ≤ S256.size a
  h_S256 : 0 < S256.numel
  shapeCasts_S256_S1x256 : S256.ShapeCasts S1x256
  broadcasts_S1x256_S16x256 : S1x256.Broadcasts S16x256
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  scatter_S5000_S165000x1_S165000_n_0_0_1_wf : ScatterDims.WF S5000 S165000x1 S165000 [] [0] [0] 1
  gather_S5000_S165000x1_S165000_n_0_n_n_0_1_1_wf : GatherDims.WF S5000 S165000x1 S165000 [] [0] [] [0] [] 1 ![1]
  scatter_S5000x5000_S165000x2_S165000_n_01_01_1_wf : ScatterDims.WF S5000x5000 S165000x2 S165000 [] [0, 1] [0, 1] 1
  dot_S80000x64_S64x32_S80000x32_1_0_0_1_n_n_wf : DotDims.WF S80000x64 S64x32 S80000x32 [1] [0] [0] [1] [] []
  dot_S200x5000_S5000x512_S200x512_1_0_0_1_n_n_wf : DotDims.WF S200x5000 S5000x512 S200x512 [1] [0] [0] [1] [] []
  dot_S80000x32_S32x32_S80000x32_1_0_0_1_n_n_wf : DotDims.WF S80000x32 S32x32 S80000x32 [1] [0] [0] [1] [] []
  dot_S16x3200_S3200x256_S16x256_1_0_0_1_n_n_wf : DotDims.WF S16x3200 S3200x256 S16x256 [1] [0] [0] [1] [] []
  dot_S16x512_S512x16_S16x16_1_0_0_1_n_n_wf : DotDims.WF S16x512 S512x16 S16x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x5000.size a ≤ S5000x5000.size a
  hwx0_0 : ∀ i : grid0.Coords, EltTy.bits .bf16 = 32 ∨ (Rect.block (s := S5000x5000) S200x5000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5000x512.size a ≤ S5000x512.size a
  hwx0_1 : ∀ i : grid0.Coords, EltTy.bits .bf16 = 32 ∨ (Rect.block (s := S5000x512) S5000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x512.size a ≤ S5000x512.size a
  hwx0_3 : ∀ i : grid0.Coords, EltTy.bits .f32 = 32 ∨ (Rect.block (s := S5000x512) S200x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x5000.size a ≤ S5000x5000.size a
  hwx1_0 : ∀ i : grid1.Coords, EltTy.bits .bf16 = 32 ∨ (Rect.block (s := S5000x5000) S200x5000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5000x512.size a ≤ S5000x512.size a
  hwx1_1 : ∀ i : grid1.Coords, EltTy.bits .bf16 = 32 ∨ (Rect.block (s := S5000x512) S5000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x512.size a ≤ S5000x512.size a
  hwx1_3 : ∀ i : grid1.Coords, EltTy.bits .f32 = 32 ∨ (Rect.block (s := S5000x512) S200x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x3200.size a ≤ S16x160000.size a
  hwx2_0 : ∀ i : grid2.Coords, EltTy.bits .f32 = 32 ∨ (Rect.block (s := S16x160000) S16x3200.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x256.size a ≤ S160000x512.size a
  hwx2_1 : ∀ i : grid2.Coords, EltTy.bits .f32 = 32 ∨ (Rect.block (s := S160000x512) S3200x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S512.size a
  hwx2_2 : ∀ i : grid2.Coords, EltTy.bits .f32 = 32 ∨ (Rect.block (s := S512) S256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16x256.size a ≤ S16x512.size a
  hwx2_3 : ∀ i : grid2.Coords, EltTy.bits .f32 = 32 ∨ (Rect.block (s := S16x512) S16x256.size (cc2_transform_3 i) (hinb2_3 i)).WholeWords (EltTy.packing .f32)

variable [Facts₀]

def scatter_S5000_S165000x1_S165000_n_0_0_1 : ScatterDims S5000 S165000x1 S165000 where
  updateWindowDims := []
  insertedWindowDims := [0]
  scatterDimsToOperandDims := [0]
  indexVectorDim := 1
  wf := scatter_S5000_S165000x1_S165000_n_0_0_1_wf
def gather_S5000_S165000x1_S165000_n_0_n_n_0_1_1 : GatherDims S5000 S165000x1 S165000 where
  offsetDims := []
  collapsedSliceDims := [0]
  operandBatchingDims := []
  startIndicesBatchingDims := []
  startIndexMap := [0]
  indexVectorDim := 1
  sliceSizes := ![1]
  wf := gather_S5000_S165000x1_S165000_n_0_n_n_0_1_1_wf
def scatter_S5000x5000_S165000x2_S165000_n_01_01_1 : ScatterDims S5000x5000 S165000x2 S165000 where
  updateWindowDims := []
  insertedWindowDims := [0, 1]
  scatterDimsToOperandDims := [0, 1]
  indexVectorDim := 1
  wf := scatter_S5000x5000_S165000x2_S165000_n_01_01_1_wf
def dot_S80000x64_S64x32_S80000x32_1_0_0_1_n_n : DotDims S80000x64 S64x32 S80000x32 where
  lhsContracting := [1]
  rhsContracting := [0]
  lhsNonContracting := [0]
  rhsNonContracting := [1]
  lhsBatch := []
  rhsBatch := []
  wf := dot_S80000x64_S64x32_S80000x32_1_0_0_1_n_n_wf
def dot_S200x5000_S5000x512_S200x512_1_0_0_1_n_n : DotDims S200x5000 S5000x512 S200x512 where
  lhsContracting := [1]
  rhsContracting := [0]
  lhsNonContracting := [0]
  rhsNonContracting := [1]
  lhsBatch := []
  rhsBatch := []
  wf := dot_S200x5000_S5000x512_S200x512_1_0_0_1_n_n_wf
def dot_S80000x32_S32x32_S80000x32_1_0_0_1_n_n : DotDims S80000x32 S32x32 S80000x32 where
  lhsContracting := [1]
  rhsContracting := [0]
  lhsNonContracting := [0]
  rhsNonContracting := [1]
  lhsBatch := []
  rhsBatch := []
  wf := dot_S80000x32_S32x32_S80000x32_1_0_0_1_n_n_wf
def dot_S16x3200_S3200x256_S16x256_1_0_0_1_n_n : DotDims S16x3200 S3200x256 S16x256 where
  lhsContracting := [1]
  rhsContracting := [0]
  lhsNonContracting := [0]
  rhsNonContracting := [1]
  lhsBatch := []
  rhsBatch := []
  wf := dot_S16x3200_S3200x256_S16x256_1_0_0_1_n_n_wf
def dot_S16x512_S512x16_S16x16_1_0_0_1_n_n : DotDims S16x512 S512x16 S16x16 where
  lhsContracting := [1]
  rhsContracting := [0]
  lhsNonContracting := [0]
  rhsNonContracting := [1]
  lhsBatch := []
  rhsBatch := []
  wf := dot_S16x512_S512x16_S16x16_1_0_0_1_n_n_wf

abbrev win0_0 : Pipeline.Window sig grid0 :=
  Pipeline.Window.ofSpec (Memref.whole main_v50) S200x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S5000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v59) S200x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S200x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S5000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S200x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v70) S16x3200.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S3200x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v71) S16x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S16x5000x64 : Shape := ⟨3, ![16, 5000, 64]⟩
abbrev S2x160000 : Shape := ⟨2, ![2, 160000]⟩
abbrev S64x32 : Shape := ⟨2, ![64, 32]⟩
abbrev S32 : Shape := ⟨1, ![32]⟩
abbrev S32x32 : Shape := ⟨2, ![32, 32]⟩
abbrev S160000x512 : Shape := ⟨2, ![160000, 512]⟩
abbrev S512 : Shape := ⟨1, ![512]⟩
abbrev S512x16 : Shape := ⟨2, ![512, 16]⟩
abbrev S16 : Shape := ⟨1, ![16]⟩
abbrev S5000 : Shape := ⟨1, ![5000]⟩
abbrev S1x160000 : Shape := ⟨2, ![1, 160000]⟩
abbrev S160000 : Shape := ⟨1, ![160000]⟩
abbrev S165000 : Shape := ⟨1, ![165000]⟩
abbrev S_ : Shape := ⟨0, ![]⟩
abbrev S165000x1 : Shape := ⟨2, ![165000, 1]⟩
abbrev S16x5000x32 : Shape := ⟨3, ![16, 5000, 32]⟩
abbrev S16x165000x32 : Shape := ⟨3, ![16, 165000, 32]⟩
abbrev S1x165000x1 : Shape := ⟨3, ![1, 165000, 1]⟩
abbrev S1x1x32 : Shape := ⟨3, ![1, 1, 32]⟩
abbrev S16x160000 : Shape := ⟨2, ![16, 160000]⟩
abbrev S16x512 : Shape := ⟨2, ![16, 512]⟩
abbrev S1x512 : Shape := ⟨2, ![1, 512]⟩
abbrev S16x16 : Shape := ⟨2, ![16, 16]⟩
abbrev S1x16 : Shape := ⟨2, ![1, 16]⟩

abbrev nBuf : Space → Nat
  | .hbm => 169
  | .vmem => 0
  | .smem => 0
  | _ => 0

abbrev hbmTy0_0 (i : Nat) : BufTy := match i % 128 with
  | 0 => ⟨S16x5000x64, .f32⟩
  | 1 => ⟨S2x160000, .i32⟩
  | 2 => ⟨S64x32, .f32⟩
  | 3 => ⟨S32, .f32⟩
  | 4 => ⟨S32x32, .f32⟩
  | 5 => ⟨S32, .f32⟩
  | 6 => ⟨S160000x512, .f32⟩
  | 7 => ⟨S512, .f32⟩
  | 8 => ⟨S512x16, .f32⟩
  | 9 => ⟨S16, .f32⟩
  | 10 => ⟨S5000, .i32⟩
  | 11 => ⟨S1x160000, .i32⟩
  | 12 => ⟨S160000, .i32⟩
  | 13 => ⟨S165000, .i32⟩
  | 14 => ⟨S1x160000, .i32⟩
  | 15 => ⟨S160000, .i32⟩
  | 16 => ⟨S165000, .i32⟩
  | 17 => ⟨S_, .f32⟩
  | 18 => ⟨S5000, .f32⟩
  | 19 => ⟨S_, .i32⟩
  | 20 => ⟨S165000, .i32⟩
  | 21 => ⟨S165000, .i1⟩
  | 22 => ⟨S_, .i32⟩
  | 23 => ⟨S165000, .i32⟩
  | 24 => ⟨S165000, .i32⟩
  | 25 => ⟨S165000, .i32⟩
  | 26 => ⟨S165000x1, .i32⟩
  | 27 => ⟨S_, .f32⟩
  | 28 => ⟨S165000, .f32⟩
  | 29 => ⟨S5000, .f32⟩
  | 30 => ⟨S_, .f32⟩
  | 31 => ⟨S5000, .f32⟩
  | 32 => ⟨S5000, .i1⟩
  | 33 => ⟨S5000, .f32⟩
  | 34 => ⟨S_, .f32⟩
  | 35 => ⟨S_, .f32⟩
  | 36 => ⟨S5000, .f32⟩
  | 37 => ⟨S5000, .f32⟩
  | 38 => ⟨S_, .i32⟩
  | 39 => ⟨S165000, .i32⟩
  | 40 => ⟨S165000, .i1⟩
  | 41 => ⟨S_, .i32⟩
  | 42 => ⟨S165000, .i32⟩
  | 43 => ⟨S165000, .i32⟩
  | 44 => ⟨S165000, .i32⟩
  | 45 => ⟨S165000x1, .i32⟩
  | 46 => ⟨S165000, .f32⟩
  | 47 => ⟨S_, .i32⟩
  | 48 => ⟨S165000, .i32⟩
  | 49 => ⟨S165000, .i1⟩
  | 50 => ⟨S_, .i32⟩
  | 51 => ⟨S165000, .i32⟩
  | 52 => ⟨S165000, .i32⟩
  | 53 => ⟨S165000, .i32⟩
  | 54 => ⟨S165000x1, .i32⟩
  | 55 => ⟨S165000, .f32⟩
  | 56 => ⟨S165000, .f32⟩
  | 57 => ⟨S16x5000x32, .f32⟩
  | 58 => ⟨S_, .i32⟩
  | 59 => ⟨S165000, .i32⟩
  | 60 => ⟨S165000, .i1⟩
  | 61 => ⟨S_, .i32⟩
  | 62 => ⟨S165000, .i32⟩
  | 63 => ⟨S165000, .i32⟩
  | 64 => ⟨S165000, .i32⟩
  | 65 => ⟨S165000x1, .i32⟩
  | 66 => ⟨S16x165000x32, .f32⟩
  | 67 => ⟨S1x165000x1, .f32⟩
  | 68 => ⟨S16x165000x32, .f32⟩
  | 69 => ⟨S16x165000x32, .f32⟩
  | 70 => ⟨S_, .f32⟩
  | 71 => ⟨S16x5000x32, .f32⟩
  | 72 => ⟨S_, .i32⟩
  | 73 => ⟨S165000, .i32⟩
  | 74 => ⟨S165000, .i1⟩
  | 75 => ⟨S_, .i32⟩
  | 76 => ⟨S165000, .i32⟩
  | 77 => ⟨S165000, .i32⟩
  | 78 => ⟨S165000, .i32⟩
  | 79 => ⟨S165000x1, .i32⟩
  | 80 => ⟨S16x5000x32, .f32⟩
  | 81 => ⟨S1x1x32, .f32⟩
  | 82 => ⟨S16x5000x32, .f32⟩
  | 83 => ⟨S16x5000x32, .f32⟩
  | 84 => ⟨S_, .f32⟩
  | 85 => ⟨S16x5000x32, .f32⟩
  | 86 => ⟨S16x5000x32, .f32⟩
  | 87 => ⟨S_, .f32⟩
  | 88 => ⟨S5000, .f32⟩
  | 89 => ⟨S_, .i32⟩
  | 90 => ⟨S165000, .i32⟩
  | 91 => ⟨S165000, .i1⟩
  | 92 => ⟨S_, .i32⟩
  | 93 => ⟨S165000, .i32⟩
  | 94 => ⟨S165000, .i32⟩
  | 95 => ⟨S165000, .i32⟩
  | 96 => ⟨S165000x1, .i32⟩
  | 97 => ⟨S_, .f32⟩
  | 98 => ⟨S165000, .f32⟩
  | 99 => ⟨S5000, .f32⟩
  | 100 => ⟨S_, .f32⟩
  | 101 => ⟨S5000, .f32⟩
  | 102 => ⟨S5000, .i1⟩
  | 103 => ⟨S5000, .f32⟩
  | 104 => ⟨S_, .f32⟩
  | 105 => ⟨S_, .f32⟩
  | 106 => ⟨S5000, .f32⟩
  | 107 => ⟨S5000, .f32⟩
  | 108 => ⟨S_, .i32⟩
  | 109 => ⟨S165000, .i32⟩
  | 110 => ⟨S165000, .i1⟩
  | 111 => ⟨S_, .i32⟩
  | 112 => ⟨S165000, .i32⟩
  | 113 => ⟨S165000, .i32⟩
  | 114 => ⟨S165000, .i32⟩
  | 115 => ⟨S165000x1, .i32⟩
  | 116 => ⟨S165000, .f32⟩
  | 117 => ⟨S_, .i32⟩
  | 118 => ⟨S165000, .i32⟩
  | 119 => ⟨S165000, .i1⟩
  | 120 => ⟨S_, .i32⟩
  | 121 => ⟨S165000, .i32⟩
  | 122 => ⟨S165000, .i32⟩
  | 123 => ⟨S165000, .i32⟩
  | 124 => ⟨S165000x1, .i32⟩
  | 125 => ⟨S165000, .f32⟩
  | 126 => ⟨S165000, .f32⟩
  | 127 => ⟨S16x5000x32, .f32⟩
  | _ => ⟨S16x5000x64, .f32⟩

abbrev hbmTy0_1 (i : Nat) : BufTy := match i % 128 with
  | 0 => ⟨S_, .i32⟩
  | 1 => ⟨S165000, .i32⟩
  | 2 => ⟨S165000, .i1⟩
  | 3 => ⟨S_, .i32⟩
  | 4 => ⟨S165000, .i32⟩
  | 5 => ⟨S165000, .i32⟩
  | 6 => ⟨S165000, .i32⟩
  | 7 => ⟨S165000x1, .i32⟩
  | 8 => ⟨S16x165000x32, .f32⟩
  | 9 => ⟨S1x165000x1, .f32⟩
  | 10 => ⟨S16x165000x32, .f32⟩
  | 11 => ⟨S16x165000x32, .f32⟩
  | 12 => ⟨S_, .f32⟩
  | 13 => ⟨S16x5000x32, .f32⟩
  | 14 => ⟨S_, .i32⟩
  | 15 => ⟨S165000, .i32⟩
  | 16 => ⟨S165000, .i1⟩
  | 17 => ⟨S_, .i32⟩
  | 18 => ⟨S165000, .i32⟩
  | 19 => ⟨S165000, .i32⟩
  | 20 => ⟨S165000, .i32⟩
  | 21 => ⟨S165000x1, .i32⟩
  | 22 => ⟨S16x5000x32, .f32⟩
  | 23 => ⟨S1x1x32, .f32⟩
  | 24 => ⟨S16x5000x32, .f32⟩
  | 25 => ⟨S16x5000x32, .f32⟩
  | 26 => ⟨S_, .f32⟩
  | 27 => ⟨S16x5000x32, .f32⟩
  | 28 => ⟨S16x5000x32, .f32⟩
  | 29 => ⟨S16x160000, .f32⟩
  | 30 => ⟨S16x512, .f32⟩
  | 31 => ⟨S1x512, .f32⟩
  | 32 => ⟨S16x512, .f32⟩
  | 33 => ⟨S16x512, .f32⟩
  | 34 => ⟨S_, .f32⟩
  | 35 => ⟨S16x512, .f32⟩
  | 36 => ⟨S16x512, .f32⟩
  | 37 => ⟨S16x16, .f32⟩
  | 38 => ⟨S1x16, .f32⟩
  | 39 => ⟨S16x16, .f32⟩
  | 40 => ⟨S16x16, .f32⟩
  | _ => ⟨S16x5000x64, .f32⟩

abbrev hbmTy (i : Nat) : BufTy := match i / 128 with
  | 0 => hbmTy0_0 i
  | 1 => hbmTy0_1 i
  | _ => ⟨S16x5000x64, .f32⟩

abbrev bufTy : (tb : Table) → Fin (tcTables nBuf tb) → BufTy
  | .hbm, ⟨i, _⟩ => hbmTy i
  | _, _ => ⟨S16x5000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_16 : Ref sig .tc := ⟨.hbm, 97, rfl⟩
abbrev main_v65 : Ref sig .tc := ⟨.hbm, 98, rfl⟩
abbrev main_v66 : Ref sig .tc := ⟨.hbm, 99, rfl⟩
abbrev main_cst_17 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_18 : Ref sig .tc := ⟨.hbm, 104, rfl⟩
abbrev main_call2_v0 : Ref sig .tc := ⟨.hbm, 105, rfl⟩
abbrev main_call2_v1 : Ref sig .tc := ⟨.hbm, 106, rfl⟩
abbrev main_v70 : Ref sig .tc := ⟨.hbm, 107, rfl⟩
abbrev main_c_19 : Ref sig .tc := ⟨.hbm, 108, rfl⟩
abbrev main_v71 : Ref sig .tc := ⟨.hbm, 109, rfl⟩
abbrev main_v72 : Ref sig .tc := ⟨.hbm, 110, rfl⟩
abbrev main_c_20 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_21 : Ref sig .tc := ⟨.hbm, 117, rfl⟩
abbrev main_v78 : Ref sig .tc := ⟨.hbm, 118, rfl⟩
abbrev main_v79 : Ref sig .tc := ⟨.hbm, 119, rfl⟩
abbrev main_c_22 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_23 : Ref sig .tc := ⟨.hbm, 128, rfl⟩
abbrev main_v87 : Ref sig .tc := ⟨.hbm, 129, rfl⟩
abbrev main_v88 : Ref sig .tc := ⟨.hbm, 130, rfl⟩
abbrev main_c_24 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_25 : Ref sig .tc := ⟨.hbm, 140, rfl⟩
abbrev main_v97 : Ref sig .tc := ⟨.hbm, 141, rfl⟩
abbrev main_c_26 : Ref sig .tc := ⟨.hbm, 142, rfl⟩
abbrev main_v98 : Ref sig .tc := ⟨.hbm, 143, rfl⟩
abbrev main_v99 : Ref sig .tc := ⟨.hbm, 144, rfl⟩
abbrev main_c_27 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_call3_cst : Ref sig .tc := ⟨.hbm, 154, rfl⟩
abbrev main_call3_v0 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_call4_cst : Ref sig .tc := ⟨.hbm, 162, rfl⟩
abbrev main_call4_v0 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S5000_S165000_d0 : Shape.Concatenates [S160000, S5000] S165000 0
  slices_S2x160000_S1x160000_1_0 : S2x160000.Slices ![1, 0] S1x160000
  bcast_S_S5000 : S_.BroadcastsInDim S5000 (![] : Fin 0 → Fin S5000.rank)
  bcast_S_S165000 : S_.BroadcastsInDim S165000 (![] : Fin 0 → Fin S165000.rank)
  bcast_S165000_S165000x1_0 : S165000.BroadcastsInDim S165000x1 (![0] : Fin 1 → Fin S165000x1.rank)
  bcast_S165000_S1x165000x1_1 : S165000.BroadcastsInDim S1x165000x1 (![1] : Fin 1 → Fin S1x165000x1.rank)
  bcast_S1x165000x1_S16x165000x32_0_1_2 : S1x165000x1.BroadcastsInDim S16x165000x32 (![0, 1, 2] : Fin 3 → Fin S16x165000x32.rank)
  bcast_S_S16x5000x32 : S_.BroadcastsInDim S16x5000x32 (![] : Fin 0 → Fin S16x5000x32.rank)
  bcast_S32_S1x1x32_2 : S32.BroadcastsInDim S1x1x32 (![2] : Fin 1 → Fin S1x1x32.rank)
  bcast_S1x1x32_S16x5000x32_0_1_2 : S1x1x32.BroadcastsInDim S16x5000x32 (![0, 1, 2] : Fin 3 → Fin S16x5000x32.rank)
  shapeCasts_S16x5000x32_S16x160000 : S16x5000x32.ShapeCasts S16x160000
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  scatter_S5000_S165000x1_S165000_n_0_0_1_wf : ScatterDims.WF S5000 S165000x1 S165000 [] [0] [0] 1
  gather_S5000_S165000x1_S165000_n_0_n_n_0_1_1_wf : GatherDims.WF S5000 S165000x1 S165000 [] [0] [] [0] [] 1 ![1]
  dot_S16x5000x64_S64x32_S16x5000x32_2_0_01_1_n_n_wf : DotDims.WF S16x5000x64 S64x32 S16x5000x32 [2] [0] [0, 1] [1] [] []
  gather_S16x5000x32_S165000x1_S16x165000x32_02_1_n_n_1_1_16132_wf : GatherDims.WF S16x5000x32 S165000x1 S16x165000x32 [0, 2] [1] [] [1] [] 1 ![16, 1, 32]
  scatter_S16x5000x32_S165000x1_S16x165000x32_02_1_1_1_wf : ScatterDims.WF S16x5000x32 S165000x1 S16x165000x32 [0, 2] [1] [1] 1
  dot_S16x5000x32_S32x32_S16x5000x32_2_0_01_1_n_n_wf : DotDims.WF S16x5000x32 S32x32 S16x5000x32 [2] [0] [0, 1] [1] [] []
  dot_S16x160000_S160000x512_S16x512_1_0_0_1_n_n_wf : DotDims.WF S16x160000 S160000x512 S16x512 [1] [0] [0] [1] [] []
  dot_S16x512_S512x16_S16x16_1_0_0_1_n_n_wf : DotDims.WF S16x512 S512x16 S16x16 [1] [0] [0] [1] [] []

variable [Facts₀]

def scatter_S5000_S165000x1_S165000_n_0_0_1 : ScatterDims S5000 S165000x1 S165000 where
  updateWindowDims := []
  insertedWindowDims := [0]
  scatterDimsToOperandDims := [0]
  indexVectorDim := 1
  wf := scatter_S5000_S165000x1_S165000_n_0_0_1_wf
def gather_S5000_S165000x1_S165000_n_0_n_n_0_1_1 : GatherDims S5000 S165000x1 S165000 where
  offsetDims := []
  collapsedSliceDims := [0]
  operandBatchingDims := []
  startIndicesBatchingDims := []
  startIndexMap := [0]
  indexVectorDim := 1
  sliceSizes := ![1]
  wf := gather_S5000_S165000x1_S165000_n_0_n_n_0_1_1_wf
def dot_S16x5000x64_S64x32_S16x5000x32_2_0_01_1_n_n : DotDims S16x5000x64 S64x32 S16x5000x32 where
  lhsContracting := [2]
  rhsContracting := [0]
  lhsNonContracting := [0, 1]
  rhsNonContracting := [1]
  lhsBatch := []
  rhsBatch := []
  wf := dot_S16x5000x64_S64x32_S16x5000x32_2_0_01_1_n_n_wf
def gather_S16x5000x32_S165000x1_S16x165000x32_02_1_n_n_1_1_16132 : GatherDims S16x5000x32 S165000x1 S16x165000x32 where
  offsetDims := [0, 2]
  collapsedSliceDims := [1]
  operandBatchingDims := []
  startIndicesBatchingDims := []
  startIndexMap := [1]
  indexVectorDim := 1
  sliceSizes := ![16, 1, 32]
  wf := gather_S16x5000x32_S165000x1_S16x165000x32_02_1_n_n_1_1_16132_wf
def scatter_S16x5000x32_S165000x1_S16x165000x32_02_1_1_1 : ScatterDims S16x5000x32 S165000x1 S16x165000x32 where
  updateWindowDims := [0, 2]
  insertedWindowDims := [1]
  scatterDimsToOperandDims := [1]
  indexVectorDim := 1
  wf := scatter_S16x5000x32_S165000x1_S16x165000x32_02_1_1_1_wf
def dot_S16x5000x32_S32x32_S16x5000x32_2_0_01_1_n_n : DotDims S16x5000x32 S32x32 S16x5000x32 where
  lhsContracting := [2]
  rhsContracting := [0]
  lhsNonContracting := [0, 1]
  rhsNonContracting := [1]
  lhsBatch := []
  rhsBatch := []
  wf := dot_S16x5000x32_S32x32_S16x5000x32_2_0_01_1_n_n_wf
def dot_S16x160000_S160000x512_S16x512_1_0_0_1_n_n : DotDims S16x160000 S160000x512 S16x512 where
  lhsContracting := [1]
  rhsContracting := [0]
  lhsNonContracting := [0]
  rhsNonContracting := [1]
  lhsBatch := []
  rhsBatch := []
  wf := dot_S16x160000_S160000x512_S16x512_1_0_0_1_n_n_wf
def dot_S16x512_S512x16_S16x16_1_0_0_1_n_n : DotDims S16x512 S512x16 S16x16 where
  lhsContracting := [1]
  rhsContracting := [0]
  lhsNonContracting := [0]
  rhsNonContracting := [1]
  lhsBatch := []
  rhsBatch := []
  wf := dot_S16x512_S512x16_S16x16_1_0_0_1_n_n_wf

class Facts : Prop extends Facts₀ where

variable [Facts]
-- ==== Proof.K.Reg0.lean ====
/- Region 0 of the program: the first graph-convolution aggregation, out = relu(A · X + bias), one
   block of 200 rows of the normalised adjacency per grid point. Stated at a parameter V, the contents of
   the buffers when the region is entered: each window's block at a point, what the body leaves in the
   output window's buffer (its one store, over the payload of its three loads), the body's triple, the
   pipeline's proof data and the body obligation. -/
import proofs.«137311_j86784109183564_2_alg».proof.Proof.Gen.Kernel.Launch
import proofs.«137311_j86784109183564_2_alg».proof.Proof.Gen.Kernel.Skeleton
import proofs.«137311_j86784109183564_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. Window 0 is the block of
    200 adjacency rows the point works on; windows 1 and 2 (the features and the bias) are whole arrays,
    the same at every point; window 3 is the block of 200 output rows. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 is fetched at the first point only; its block index never moves, so its buffer
    holds the (whole-array) block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2, likewise fetched at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S200x5000 := Rect.unit (s := S200x5000) ![0, 0] S200x5000.size inb_S200x5000_S200x5000_0_0
abbrev r0_1 : Rect S5000x512 := Rect.unit (s := S5000x512) ![0, 0] S5000x512.size inb_S5000x512_S5000x512_0_0
abbrev r0_2 : Rect S512 := Rect.unit (s := S512) ![0] S512.size inb_S512_S512_0
abbrev r0_3 : Rect S200x512 := Rect.unit (s := S200x512) ![0, 0] S200x512.size inb_S200x512_S200x512_0_0

/-! ## What the body leaves in the output window's buffer -/

/-- Window 3's staging buffer after the body, from the input windows' blocks: the one store, of the
    payload relu(x0 · x1 + x2) of the three loads. -/
def out0_3 (x0 : Vec F S200x5000 .bf16) (x1 : Vec F S5000x512 .bf16) (x2 : Vec F S512 .f32) : Vec F S200x512 .f32 :=
  View.canon [⟨r0_3, k0_pay1 (View.ld x0 r0_0) (View.ld x1 r0_1) (View.ld x2 r0_2)⟩]

/-- The store is of the whole buffer, so it covers it. -/
theorem cover0_3 (p0 : Vec F S200x512 .f32) (y : S200x512.Idx) :
    ∃ pc ∈ ([⟨r0_3, p0⟩] : List (View.Piece (Elt F) S200x512 .f32)), y ∈ pc.1.set :=
  View.cover_of_tiled [⟨r0_3, p0⟩] S200x512.size (by rfl) y

/-! ## The body's triple -/

set_option maxHeartbeats 1000000 in
/-- The body on whole staging memrefs, the inputs' at read contents x0, x1, x2 and the output's at
    anything, runs to the continuation holding the inputs' as they were and the output's at out0_3 of the
    inputs'. The output buffer is loaded once before the store; the loaded value is not used. -/
theorem sound_kernel0 (c : Dev nD) (E : Set ℕ) (i : grid0.Coords) (arg1 : Memref sig .tc .vmem S200x5000 .bf16) (harg1 : arg1.IsWhole) (arg2 : Memref sig .tc .vmem S5000x512 .bf16) (harg2 : arg2.IsWhole) (arg3 : Memref sig .tc .vmem S512 .f32) (harg3 : arg3.IsWhole) (arg4 : Memref sig .tc .vmem S200x512 .f32) (harg4 : arg4.IsWhole)
    (x0 : Vec F S200x5000 .bf16) (x1 : Vec F S5000x512 .bf16) (x2 : Vec F S512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gcn_agg_kernel i arg1 harg1 arg2 harg2 arg3 harg3 arg4 harg4) K := by
  simp only [cc0__gcn_agg_kernel_eq_skeleton]; unfold cc0__gcn_agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them; after the body at
    point t each input's buffer at its block and the output's at out0_3 of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- Region 1 of the program: the second graph-convolution aggregation, out = relu(A · X + bias), one
   block of 200 rows of the normalised adjacency per grid point. Stated at a parameter V, the contents of
   the buffers when the region is entered: each window's block at a point, what the body leaves in the
   output window's buffer (its one store, over the payload of its three loads), the body's triple, the
   pipeline's proof data and the body obligation. -/
import proofs.«137311_j86784109183564_2_alg».proof.Proof.Gen.Kernel.Launch
import proofs.«137311_j86784109183564_2_alg».proof.Proof.Gen.Kernel.Skeleton
import proofs.«137311_j86784109183564_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. Window 0 is the block of
    200 adjacency rows the point works on; windows 1 and 2 (the features and the bias) are whole arrays,
    the same at every point; window 3 is the block of 200 output rows. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose
    array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 is fetched at the first point only; its block index never moves, so its buffer
    holds the (whole-array) block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2, likewise fetched at the first point only. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S200x5000 := Rect.unit (s := S200x5000) ![0, 0] S200x5000.size inb_S200x5000_S200x5000_0_0
abbrev r1_1 : Rect S5000x512 := Rect.unit (s := S5000x512) ![0, 0] S5000x512.size inb_S5000x512_S5000x512_0_0
abbrev r1_2 : Rect S512 := Rect.unit (s := S512) ![0] S512.size inb_S512_S512_0
abbrev r1_3 : Rect S200x512 := Rect.unit (s := S200x512) ![0, 0] S200x512.size inb_S200x512_S200x512_0_0

/-! ## What the body leaves in the output window's buffer -/

/-- Window 3's staging buffer after the body, from the input windows' blocks: the one store, of the
    payload relu(x0 · x1 + x2) of the three loads. -/
def out1_3 (x0 : Vec F S200x5000 .bf16) (x1 : Vec F S5000x512 .bf16) (x2 : Vec F S512 .f32) : Vec F S200x512 .f32 :=
  View.canon [⟨r1_3, k1_pay1 (View.ld x0 r1_0) (View.ld x1 r1_1) (View.ld x2 r1_2)⟩]

/-- The store is of the whole buffer, so it covers it. -/
theorem cover1_3 (p0 : Vec F S200x512 .f32) (y : S200x512.Idx) :
    ∃ pc ∈ ([⟨r1_3, p0⟩] : List (View.Piece (Elt F) S200x512 .f32)), y ∈ pc.1.set :=
  View.cover_of_tiled [⟨r1_3, p0⟩] S200x512.size (by rfl) y

/-! ## The body's triple -/

set_option maxHeartbeats 1000000 in
/-- The body on whole staging memrefs, the inputs' at read contents x0, x1, x2 and the output's at
    anything, runs to the continuation holding the inputs' as they were and the output's at out1_3 of the
    inputs'. The output buffer is loaded once before the store; the loaded value is not used. -/
theorem sound_kernel1 (c : Dev nD) (E : Set ℕ) (i : grid1.Coords) (arg1 : Memref sig .tc .vmem S200x5000 .bf16) (harg1 : arg1.IsWhole) (arg2 : Memref sig .tc .vmem S5000x512 .bf16) (harg2 : arg2.IsWhole) (arg3 : Memref sig .tc .vmem S512 .f32) (harg3 : arg3.IsWhole) (arg4 : Memref sig .tc .vmem S200x512 .f32) (harg4 : arg4.IsWhole)
    (x0 : Vec F S200x5000 .bf16) (x1 : Vec F S5000x512 .bf16) (x2 : Vec F S512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gcn_agg_kernel i arg1 harg1 arg2 harg2 arg3 harg3 arg4 harg4) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them; after the body at
    point t each input's buffer at its block and the output's at out1_3 of the input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Runs.lean ====
import proofs.«137311_j86784109183564_2_alg».proof.Proof.Gen.Kernel.Launch
import proofs.«137311_j86784109183564_2_alg».proof.Proof.Gen.Kernel.Skeleton
import proofs.«137311_j86784109183564_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The third pipeline's windows, read off the arrays as the region finds them

The multilayer head runs on the grid (2, 50): point `t = j * 50 + k` multiplies columns `3200 k … 3200 k + 3199` of the
flattened features by rows `3200 k … 3200 k + 3199`, columns `256 j … 256 j + 255` of the weights, and adds the
product to an accumulator that lives in a scoped buffer of its own from point to point. -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window whose
    block index did not move still holds the block of the point before, which is this point's): for ANY proof data
    whose array is `V`'s and whose body leaves the block in place. The features' window: -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- the weights' window: -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- the bias's window (its block index moves only when `j` does, so it is fetched at `k = 0` alone): -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions on the grid coordinate `k` -/

/-- The first condition, `k = 0`, as the body computes it from the grid coordinates. -/
abbrev cond2_0 (i : grid2.Coords) : Prop := (Scalar.cmpi .ne (Scalar.extui (Scalar.cmpi .eq (BitVec.ofNat 32 (i 1).val) 0#32)) 0#32) = 1#1
/-- It holds at the points `t = 50 j` — decided over the grid. -/
theorem hcond2_0 : ∀ t : Fin cfg2.N, cond2_0 (grid2.coords t) ↔ t.val % 50 = 0 :=
  (by decide +kernel : ∀ t : Fin grid2.N, cond2_0 (grid2.coords t) ↔ t.val % 50 = 0)

/-- The second condition, `k = 49`. -/
abbrev cond2_1 (i : grid2.Coords) : Prop := k2_cond2 i = 1#1
/-- It holds at the points `t = 50 j + 49` — decided over the grid. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle

The three cases the grid meets: A (`k = 0`: the accumulator is reset, then added to), B (`0 < k < 49`: added to),
C (`k = 49`: added to, then the output block is stored). -/

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the points of case A the output is idle: the case stores nothing into it, -/
theorem idleAt2_3_A : ∀ t : Fin cfg2.N, cond2_0 (grid2.coords t) → ¬cond2_1 (grid2.coords t) → cfg2.idle 3 (grid2.coords t) = true := by decide +kernel
/-- and the pipeline does not write its block back there. -/
theorem noFlush2_3_A : ∀ t : Fin cfg2.N, cond2_0 (grid2.coords t) → ¬cond2_1 (grid2.coords t) → (cfg2.win 3).flush t = false := by decide +kernel
/-- The same at the points of case B. -/
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the points of case C the output is live: the case stores into it. -/
theorem liveAt2_3_C : ∀ t : Fin cfg2.N, ¬cond2_0 (grid2.coords t) → cond2_1 (grid2.coords t) → cfg2.idle 3 (grid2.coords t) = false := by decide +kernel

/-! ## The staging memrefs and the accumulator -/

/-- One staging buffer of the output window, through which its contents are stated (the choice does not matter). -/
abbrev VO2_3 : View sig .tc .vmem S16x256 .f32 := (Memref.whole cc2_stg3_0 : Memref sig .tc .vmem S16x256 .f32).view
/-- Each window's current staging memref at point `t`, spelled as the pipeline passes it, and its wholeness. -/
abbrev ms2_0 (t : Fin cfg2.N) : Memref sig .tc .vmem S16x3200 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S3200x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16x256 .f32 := win2_3.stage (cfg2.slots t 3)
abbrev hs2_3 (t : Fin cfg2.N) : (ms2_3 t).IsWhole := hstage2_3 ((cfg2.slots t 3).cast nbuf2_3)
/-- The accumulator: a whole scoped buffer of the body's own, passed beside the windows. -/
abbrev scM2_0 : Memref sig .tc .vmem S16x256 .f32 := Memref.whole cc2_scratch0
/-- The accumulator as a view: what it holds is stated through it. -/
abbrev VS2_0 : View sig .tc .vmem S16x256 .f32 := scM2_0.view

/-- The scoped buffers of the two pipelines before this one (their staging buffers), each at some contents: this
    region never touches them. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's invariant, buffer by buffer: the other pipelines' staging buffers and the accumulator, each owned
    at some contents, and the generator register at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d)) ∗ (∃ r, prngReg c r)) := by
  unfold Pipeline.ΦA; rw [scopedRest2_eq]; simp only [scM2_0, owns_whole]; try rfl

/-- The invariant with the untouched buffers set apart from the accumulator, -/
theorem PhiA2_split (c : Dev nD) :
    (Pipeline.ΦA spec2 c : sProp 𝕄) ⊢ iprop(iprop(rest2 (F := F) c ∗ (∃ d, owns (c : Thread nD τ) scM2_0 fullShare d)) ∗ (∃ r, prngReg c r)) := by
  rw [PhiA2_eq]; unfold rest2
  iintro ⟨⟨R0, R1, R2, R3, R4, R5, R6, R7, R8, R9, R10, R11, HS⟩, Hg⟩
  isplitr [Hg]
  · isplitr [HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    · iexact HS
  · iexact Hg

/-- and put back. -/
theorem PhiA2_join (c : Dev nD) :
    iprop(iprop(rest2 (F := F) c ∗ (∃ d, owns (c : Thread nD τ) scM2_0 fullShare d)) ∗ (∃ r, prngReg c r)) ⊢ (Pipeline.ΦA spec2 c : sProp 𝕄) := by
  rw [PhiA2_eq]; unfold rest2
  iintro ⟨⟨⟨R0, R1, R2, R3, R4, R5, R6, R7, R8, R9, R10, R11⟩, HS⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  · iexact Hg

end Cert.Kernel.Hand

end
-- ==== Proof.K.Reg2RunA.lean ====
import proofs.«137311_j86784109183564_2_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE A (`k = 0`). What the body's stores leave in the accumulator, as pieces (last first) — the zeros, then the
    zeros plus this point's product —, WITH the proof that on whole staging memrefs, the inputs' at their blocks, the
    output's at contents `xi3` handed back untouched (the case stores nothing into it) and the accumulator at
    ANYTHING (the case overwrites it before reading it), the body runs to the continuation holding the inputs' as they
    were and the accumulator with its pieces written. -/
noncomputable def kernelRun2_A (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : cond2_0 i) (hc1 : ¬cond2_1 i)
    (x0 : Vec F S16x3200 .f32) (x1 : Vec F S3200x256 .f32) (x2 : Vec F S256 .f32) :
    Σ' (L3 : List (View.Piece (Elt F) S16x256 .f32)), { LS0 : List (View.Piece (Elt F) S16x256 .f32) //
      ∀ (xi3 : Vec F S16x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__mlp_kernel i arg2 harg2 arg3 harg3 arg4 harg4 arg5 harg5 arg6 harg6) K } := by
  refine ⟨[], ?_, fun xi3 E K => ?run⟩
  case run =>
    simp only [cc2__mlp_kernel_eq_skeleton]; unfold cc2__mlp_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Reg2RunB.lean ====
import proofs.«137311_j86784109183564_2_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE B (`0 < k < 49`). What the body's stores leave in the accumulator — what the point before left (`xs0`) plus
    this point's product —, WITH the proof that on whole staging memrefs, the inputs' at their blocks, the output's
    at contents `xi3` handed back untouched and the accumulator at `xs0`, the body runs to the continuation holding
    the inputs' as they were and the accumulator with its pieces written. -/
noncomputable def kernelRun2_B (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : ¬cond2_1 i)
    (x0 : Vec F S16x3200 .f32) (x1 : Vec F S3200x256 .f32) (x2 : Vec F S256 .f32) (xs0 : Vec F S16x256 .f32) :
    Σ' (L3 : List (View.Piece (Elt F) S16x256 .f32)), { LS0 : List (View.Piece (Elt F) S16x256 .f32) //
      ∀ (xi3 : Vec F S16x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__mlp_kernel i arg2 harg2 arg3 harg3 arg4 harg4 arg5 harg5 arg6 harg6) K } := by
  refine ⟨[], ?_, fun xi3 E K => ?run⟩
  case run =>
    simp only [cc2__mlp_kernel_eq_skeleton]; unfold cc2__mlp_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Reg2RunC.lean ====
import proofs.«137311_j86784109183564_2_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE C (`k = 49`). What the body's stores leave in the accumulator — what the point before left (`xs0`) plus
    this point's product — and in the output's staging memref — the accumulator plus the bias, clamped below at
    zero —, WITH the proof that on whole staging memrefs, the inputs' at their blocks, the output's at anything and
    the accumulator at `xs0`, the body runs to the continuation holding the inputs' as they were and the output and
    the accumulator each with its pieces written. -/
noncomputable def kernelRun2_C (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : cond2_1 i)
    (x0 : Vec F S16x3200 .f32) (x1 : Vec F S3200x256 .f32) (x2 : Vec F S256 .f32) (xs0 : Vec F S16x256 .f32) :
    Σ' (L3 : List (View.Piece (Elt F) S16x256 .f32)), { LS0 : List (View.Piece (Elt F) S16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__mlp_kernel i arg2 harg2 arg3 harg3 arg4 harg4 arg5 harg5 arg6 harg6) K } := by
  refine ⟨?_, ?_, fun E K => ?run⟩
  case run =>
    simp only [cc2__mlp_kernel_eq_skeleton]; unfold cc2__mlp_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Reg2.lean ====
import proofs.«137311_j86784109183564_2_alg».proof.Proof.K.Reg2RunA
import proofs.«137311_j86784109183564_2_alg».proof.Proof.K.Reg2RunB
import proofs.«137311_j86784109183564_2_alg».proof.Proof.K.Reg2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the output (the window is idle at its points and not written back there): no pieces — a placeholder that nothing consults. -/
def out2_A_3 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : cond2_0 i) (hc1 : ¬cond2_1 i)
    (x0 : Vec F S16x3200 .f32) (x1 : Vec F S3200x256 .f32) (x2 : Vec F S256 .f32) : Vec F S16x256 .f32 :=
  VO2_3.read (Elt F) (VO2_3.writes (Elt F) VO2_3.junk (kernelRun2_A c i arg2 harg2 arg3 harg3 arg4 harg4 arg5 harg5 arg6 harg6 hc0 hc1 x0 x1 x2).1)

/-- Case A's stores into the accumulator cover it: each is a piece of the accumulator's own shape. -/
theorem scover2_A_0 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : cond2_0 i) (hc1 : ¬cond2_1 i)
    (x0 : Vec F S16x3200 .f32) (x1 : Vec F S3200x256 .f32) (x2 : Vec F S256 .f32) (y : S16x256.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S16x256.size (by sl_kernel_rfl) y

/-- What case A leaves in the accumulator: its stores read back. -/
def sout2_A_0 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : cond2_0 i) (hc1 : ¬cond2_1 i)
    (x0 : Vec F S16x3200 .f32) (x1 : Vec F S3200x256 .f32) (x2 : Vec F S256 .f32) : Vec F S16x256 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into the output either: a placeholder that nothing consults. -/
def out2_B_3 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : ¬cond2_1 i)
    (x0 : Vec F S16x3200 .f32) (x1 : Vec F S3200x256 .f32) (x2 : Vec F S256 .f32) (xs0 : Vec F S16x256 .f32) : Vec F S16x256 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's stores into the accumulator cover it: each is a piece of the accumulator's own shape. -/
theorem scover2_B_0 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : ¬cond2_1 i)
    (x0 : Vec F S16x3200 .f32) (x1 : Vec F S3200x256 .f32) (x2 : Vec F S256 .f32) (xs0 : Vec F S16x256 .f32) (y : S16x256.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S16x256.size (by sl_kernel_rfl) y

/-- What case B leaves in the accumulator: its stores read back. -/
def sout2_B_0 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : ¬cond2_1 i)
    (x0 : Vec F S16x3200 .f32) (x1 : Vec F S3200x256 .f32) (x2 : Vec F S256 .f32) (xs0 : Vec F S16x256 .f32) : Vec F S16x256 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's store into the output covers its block: one piece of the block's own shape. -/
theorem cover2_C_3 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : cond2_1 i)
    (x0 : Vec F S16x3200 .f32) (x1 : Vec F S3200x256 .f32) (x2 : Vec F S256 .f32) (xs0 : Vec F S16x256 .f32) (y : S16x256.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S16x256.size (by sl_kernel_rfl) y

/-- What case C leaves in the output's staging buffer: its one store read back. -/
def out2_C_3 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : cond2_1 i)
    (x0 : Vec F S16x3200 .f32) (x1 : Vec F S3200x256 .f32) (x2 : Vec F S256 .f32) (xs0 : Vec F S16x256 .f32) : Vec F S16x256 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's stores into the accumulator cover it: each is a piece of the accumulator's own shape. -/
theorem scover2_C_0 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : cond2_1 i)
    (x0 : Vec F S16x3200 .f32) (x1 : Vec F S3200x256 .f32) (x2 : Vec F S256 .f32) (xs0 : Vec F S16x256 .f32) (y : S16x256.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S16x256.size (by sl_kernel_rfl) y

/-- What case C leaves in the accumulator: its stores read back. -/
def sout2_C_0 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : cond2_1 i)
    (x0 : Vec F S16x3200 .f32) (x1 : Vec F S3200x256 .f32) (x2 : Vec F S256 .f32) (xs0 : Vec F S16x256 .f32) : Vec F S16x256 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n`
    (a pair: the output, then the accumulator): the case the closed forms select at `n`, run at the point's memrefs
    and input blocks, cases B and C over what the point before left in the accumulator. Both conditions at once is no
    case (`k` is not 0 and 49 together). -/
def outsAt2 (c : Dev nD) : (n : ℕ) → n < cfg2.N → Vec F S16x256 .f32 × Vec F S16x256 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 50 = 0 then
      if h1 : (n + 1) % 50 = 49 then
        False.elim (by have hN : n + 1 < 100 := lt_of_lt_of_eq hn (show cfg2.N = 100 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 50 = 49 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 50 = 0) (h1 : ¬t.val % 50 = 49) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 50 = 0) (h1 : ¬t.val % 50 = 49) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 50 = 0) (h1 : t.val % 50 = 49) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the other pipelines' buffers and the
    accumulator at anything; afterwards the accumulator at what the point before left in it (`outsAt2`'s second
    component); the generator register at some state throughout. -/
def PhiS (c : Dev nD) : (n : ℕ) → n ≤ cfg2.N → sProp 𝕄
  | 0, _ => iprop(iprop(rest2 (F := F) c ∗ (∃ d, owns (c : Thread nD τ) scM2_0 fullShare d)) ∗ (∃ r, prngReg c r))
  | n + 1, hn => iprop(iprop(rest2 (F := F) c ∗ owns (c : Thread nD τ) scM2_0 fullShare ((outsAt2 V c n hn).2)) ∗ (∃ r, prngReg c r))

theorem PhiS_zero (c : Dev nD) (n : ℕ) (h : n ≤ cfg2.N) (hz : n = 0) :
    PhiS V c n h = iprop(iprop(rest2 (F := F) c ∗ (∃ d, owns (c : Thread nD τ) scM2_0 fullShare d)) ∗ (∃ r, prngReg c r)) := by
  subst hz; rfl

/-- After point `n` (before point `n + 1`): the accumulator at that point's contents. -/
theorem PhiS_succ (c : Dev nD) (n : ℕ) (hn : n < cfg2.N) :
    PhiS V c (n + 1) hn = iprop(iprop(rest2 (F := F) c ∗ owns (c : Thread nD τ) scM2_0 fullShare ((outsAt2 V c n hn).2)) ∗ (∃ r, prngReg c r)) := rfl

/-- Before a point that is not the first: the accumulator at what the point before left. -/
theorem PhiS_pos (c : Dev nD) (n : ℕ) (h : n ≤ cfg2.N) (hz : n ≠ 0) :
    PhiS V c n h = iprop(iprop(rest2 (F := F) c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the third pipeline on core `c`: the arrays as the region finds them (`V`); after the body at
    point `t` each input's buffer at its block and the output's at `outsAt2`'s first component; the invariant
    `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS_castSucc (c : Dev nD) (t : Fin cfg2.N) :
    (dat2 V c).Φ t.castSucc = PhiS V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in;
    the invariant hands the body the accumulator at what the point before left (at anything before the first point;
    case A takes it at anything at every point, so that at `t = 50` what point 49 left is simply forgotten) and takes
    it back at this point's contents; the other pipelines' buffers and the generator register pass through untouched;
    the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 100 := lt_of_lt_of_eq t.isLt (show cfg2.N = 100 from N_2)
  by_cases h0 : t.val % 50 = 0
  · by_cases h1 : t.val % 50 = 49
    · exfalso; omega
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS_castSucc V c t, PhiS_zero V c _ _ hz]
        iintro ⟨⟨⟨HR, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3

      · rw [PhiS_castSucc V c t, PhiS_pos V c _ _ hz]
        iintro ⟨⟨⟨HR, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3

  · by_cases h1 : t.val % 50 = 49
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3_C t (fun h => h0 ((hcond2_0 t).mp h)) ((hcond2_1 t).mpr h1)], after2_3]
      rw [outsAt2_C V c t h0 h1]
      unfold out2_C_3 sout2_C_0; (try dsimp only)
      have hz : t.val ≠ 0 := by omega
      rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)

    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      have hz : t.val ≠ 0 := by omega
      rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  exact PhiA2_split c

/-- After any point but the first the invariant gives the launch's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht]
  refine BIBase.Entails.trans ?_ (PhiA2_join c)
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 100 := N_2; omega)

end Cert.Kernel.Hand

end
-- ==== Proof.K.Run.lean ====
/- The run of @main as nine segments — three stretches of host operations, region 0, a stretch, region 1, a stretch,
   region 2, a stretch — with the contents of every buffer named at each boundary: a stretch applies its operations,
   a region leaves its input arrays as it found them and its output array at the blocks its grid points wrote back.
   From it: every argument array ends as launched, and the result buffer ends at the last boundary's contents. -/
import proofs.«137311_j86784109183564_2_alg».proof.Proof.K.Reg0
import proofs.«137311_j86784109183564_2_alg».proof.Proof.K.Reg1
import proofs.«137311_j86784109183564_2_alg».proof.Proof.K.Reg2
import proofs.«137311_j86784109183564_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at each boundary -/

/-- At launch. -/
abbrev Wd0 : Dev nD → Valuation τ sig (Elt F) := fun c b => (s₀ m ρ).mem ((c : Dev nD), b)
/-- After the first stretch. -/
abbrev Wd1 : Dev nD → Valuation τ sig (Elt F) := fun c => StableHlo.after hostOps0 (Wd0 m ρ c)
/-- After the second stretch. -/
abbrev Wd2 : Dev nD → Valuation τ sig (Elt F) := fun c => StableHlo.after hostOps0_1 (Wd1 m ρ c)
/-- After the third stretch: region 0's entry. -/
abbrev Wd3 : Dev nD → Valuation τ sig (Elt F) := fun c => StableHlo.after hostOps0_2 (Wd2 m ρ c)
abbrev Vr3 : (c : Dev nD) → (b : Ref sig .tc) → Buf (Elt F) ((c : Thread nD τ).loc b) := fun c b => Wd3 m ρ c b

/-- At region 0's exit: its arrays at what the write-backs leave (an input as entered, the output its blocks folded),
    every other buffer as entered. -/
def Wd4 (c : Dev nD) : Valuation τ sig (Elt F) :=
  Pipeline.withArrays spec0 c (Wd3 m ρ c) fun w => (dat0 (Vr3 m ρ) c).arrAt w cfg0.N
theorem Wd4_arr (c : Dev nD) (w : Fin cfg0.W) :
    Wd4 m ρ c (Proc.devRef .tc (Pipeline.arrRef spec0 w)) = (dat0 (Vr3 m ρ) c).arrAt w cfg0.N := by
  unfold Wd4; exact Pipeline.withArrays_arr spec0 launch0.win.arr_inj c _ _ w
theorem Wd4_of_ne (c : Dev nD) (b : Ref sig .tc) (hb : ∀ w, Pipeline.arrRef spec0 w ≠ b) :
    Wd4 m ρ c (Proc.devRef .tc b) = Wd3 m ρ c (Proc.devRef .tc b) := by
  unfold Wd4; exact Pipeline.withArrays_of_ne spec0 c _ _ b hb
/-- The same read at the core's references. -/
abbrev Vr4 : (c : Dev nD) → (b : Ref sig .tc) → Buf (Elt F) ((c : Thread nD τ).loc b) := fun c b => Wd4 m ρ c b
theorem hF0 (c : Dev nD) (w : Fin cfg0.W) : (dat0 (Vr3 m ρ) c).arrAt w cfg0.N = Vr4 m ρ c (Pipeline.arrRef spec0 w) :=
  (Wd4_arr m ρ c w).symm
theorem hrest0 (c : Dev nD) : ∀ b, b ∉ Finset.univ.image (Pipeline.arrRef spec0) → Vr4 m ρ c b = Vr3 m ρ c b :=
  fun b hb => Wd4_of_ne m ρ c b fun w e => hb (Finset.mem_image.mpr ⟨w, Finset.mem_univ _, e⟩)

/-- After the stretch between regions 0 and 1: region 1's entry. -/
abbrev Wd5 : Dev nD → Valuation τ sig (Elt F) := fun c => StableHlo.after hostOps1 (Wd4 m ρ c)
abbrev Vr5 : (c : Dev nD) → (b : Ref sig .tc) → Buf (Elt F) ((c : Thread nD τ).loc b) := fun c b => Wd5 m ρ c b

/-- At region 1's exit: its arrays at what the write-backs leave (an input as entered, the output its blocks folded),
    every other buffer as entered. -/
def Wd6 (c : Dev nD) : Valuation τ sig (Elt F) :=
  Pipeline.withArrays spec1 c (Wd5 m ρ c) fun w => (dat1 (Vr5 m ρ) c).arrAt w cfg1.N
theorem Wd6_arr (c : Dev nD) (w : Fin cfg1.W) :
    Wd6 m ρ c (Proc.devRef .tc (Pipeline.arrRef spec1 w)) = (dat1 (Vr5 m ρ) c).arrAt w cfg1.N := by
  unfold Wd6; exact Pipeline.withArrays_arr spec1 launch1.win.arr_inj c _ _ w
theorem Wd6_of_ne (c : Dev nD) (b : Ref sig .tc) (hb : ∀ w, Pipeline.arrRef spec1 w ≠ b) :
    Wd6 m ρ c (Proc.devRef .tc b) = Wd5 m ρ c (Proc.devRef .tc b) := by
  unfold Wd6; exact Pipeline.withArrays_of_ne spec1 c _ _ b hb
/-- The same read at the core's references. -/
abbrev Vr6 : (c : Dev nD) → (b : Ref sig .tc) → Buf (Elt F) ((c : Thread nD τ).loc b) := fun c b => Wd6 m ρ c b
theorem hF1 (c : Dev nD) (w : Fin cfg1.W) : (dat1 (Vr5 m ρ) c).arrAt w cfg1.N = Vr6 m ρ c (Pipeline.arrRef spec1 w) :=
  (Wd6_arr m ρ c w).symm
theorem hrest1 (c : Dev nD) : ∀ b, b ∉ Finset.univ.image (Pipeline.arrRef spec1) → Vr6 m ρ c b = Vr5 m ρ c b :=
  fun b hb => Wd6_of_ne m ρ c b fun w e => hb (Finset.mem_image.mpr ⟨w, Finset.mem_univ _, e⟩)

/-- After the stretch between regions 1 and 2: region 2's entry. -/
abbrev Wd7 : Dev nD → Valuation τ sig (Elt F) := fun c => StableHlo.after hostOps2 (Wd6 m ρ c)
abbrev Vr7 : (c : Dev nD) → (b : Ref sig .tc) → Buf (Elt F) ((c : Thread nD τ).loc b) := fun c b => Wd7 m ρ c b

/-- At region 2's exit: its arrays at what the write-backs leave (an input as entered, the output its blocks folded),
    every other buffer as entered. -/
def Wd8 (c : Dev nD) : Valuation τ sig (Elt F) :=
  Pipeline.withArrays spec2 c (Wd7 m ρ c) fun w => (dat2 (Vr7 m ρ) c).arrAt w cfg2.N
theorem Wd8_arr (c : Dev nD) (w : Fin cfg2.W) :
    Wd8 m ρ c (Proc.devRef .tc (Pipeline.arrRef spec2 w)) = (dat2 (Vr7 m ρ) c).arrAt w cfg2.N := by
  unfold Wd8; exact Pipeline.withArrays_arr spec2 launch2.win.arr_inj c _ _ w
theorem Wd8_of_ne (c : Dev nD) (b : Ref sig .tc) (hb : ∀ w, Pipeline.arrRef spec2 w ≠ b) :
    Wd8 m ρ c (Proc.devRef .tc b) = Wd7 m ρ c (Proc.devRef .tc b) := by
  unfold Wd8; exact Pipeline.withArrays_of_ne spec2 c _ _ b hb
/-- The same read at the core's references. -/
abbrev Vr8 : (c : Dev nD) → (b : Ref sig .tc) → Buf (Elt F) ((c : Thread nD τ).loc b) := fun c b => Wd8 m ρ c b
theorem hF2 (c : Dev nD) (w : Fin cfg2.W) : (dat2 (Vr7 m ρ) c).arrAt w cfg2.N = Vr8 m ρ c (Pipeline.arrRef spec2 w) :=
  (Wd8_arr m ρ c w).symm
theorem hrest2 (c : Dev nD) : ∀ b, b ∉ Finset.univ.image (Pipeline.arrRef spec2) → Vr8 m ρ c b = Vr7 m ρ c b :=
  fun b hb => Wd8_of_ne m ρ c b fun w e => hb (Finset.mem_image.mpr ⟨w, Finset.mem_univ _, e⟩)

/-- After the last stretch: the return. -/
abbrev Wd9 : Dev nD → Valuation τ sig (Elt F) := fun c => StableHlo.after hostOps3 (Wd8 m ρ c)

/-! ## The arguments end as launched: no stretch writes one, a region reads one through an input window or not at all -/

theorem Wd9_main_arg0 (c : Dev nD) : Wd9 m ρ c (Proc.devRef .tc main_arg0) = m ((c : Thread nD τ).loc main_arg0) :=
  calc Wd9 m ρ c (Proc.devRef .tc main_arg0)
    _ = Wd8 m ρ c (Proc.devRef .tc main_arg0) := StableHlo.after_of_writes_sub hostOps3 _ hostOps3_writes (by decide)
    _ = Wd7 m ρ c (Proc.devRef .tc main_arg0) := Wd8_of_ne m ρ c main_arg0 (by decide)
    _ = Wd6 m ρ c (Proc.devRef .tc main_arg0) := StableHlo.after_of_writes_sub hostOps2 _ hostOps2_writes (by decide)
    _ = Wd5 m ρ c (Proc.devRef .tc main_arg0) := Wd6_of_ne m ρ c main_arg0 (by decide)
    _ = Wd4 m ρ c (Proc.devRef .tc main_arg0) := StableHlo.after_of_writes_sub hostOps1 _ hostOps1_writes (by decide)
    _ = Wd3 m ρ c (Proc.devRef .tc main_arg0) := Wd4_of_ne m ρ c main_arg0 (by decide)
    _ = Wd2 m ρ c (Proc.devRef .tc main_arg0) := StableHlo.after_of_writes_sub hostOps0_2 _ hostOps0_2_writes (by decide)
    _ = Wd1 m ρ c (Proc.devRef .tc main_arg0) := StableHlo.after_of_writes_sub hostOps0_1 _ hostOps0_1_writes (by decide)
    _ = Wd0 m ρ c (Proc.devRef .tc main_arg0) := StableHlo.after_of_writes_sub hostOps0 _ hostOps0_writes (by decide)
    _ = m ((c : Thread nD τ).loc main_arg0) := rfl

theorem Wd9_main_arg1 (c : Dev nD) : Wd9 m ρ c (Proc.devRef .tc main_arg1) = m ((c : Thread nD τ).loc main_arg1) :=
  calc Wd9 m ρ c (Proc.devRef .tc main_arg1)
    _ = Wd8 m ρ c (Proc.devRef .tc main_arg1) := StableHlo.after_of_writes_sub hostOps3 _ hostOps3_writes (by decide)
    _ = Wd7 m ρ c (Proc.devRef .tc main_arg1) := Wd8_of_ne m ρ c main_arg1 (by decide)
    _ = Wd6 m ρ c (Proc.devRef .tc main_arg1) := StableHlo.after_of_writes_sub hostOps2 _ hostOps2_writes (by decide)
    _ = Wd5 m ρ c (Proc.devRef .tc main_arg1) := Wd6_of_ne m ρ c main_arg1 (by decide)
    _ = Wd4 m ρ c (Proc.devRef .tc main_arg1) := StableHlo.after_of_writes_sub hostOps1 _ hostOps1_writes (by decide)
    _ = Wd3 m ρ c (Proc.devRef .tc main_arg1) := Wd4_of_ne m ρ c main_arg1 (by decide)
    _ = Wd2 m ρ c (Proc.devRef .tc main_arg1) := StableHlo.after_of_writes_sub hostOps0_2 _ hostOps0_2_writes (by decide)
    _ = Wd1 m ρ c (Proc.devRef .tc main_arg1) := StableHlo.after_of_writes_sub hostOps0_1 _ hostOps0_1_writes (by decide)
    _ = Wd0 m ρ c (Proc.devRef .tc main_arg1) := StableHlo.after_of_writes_sub hostOps0 _ hostOps0_writes (by decide)
    _ = m ((c : Thread nD τ).loc main_arg1) := rfl

theorem Wd9_main_arg2 (c : Dev nD) : Wd9 m ρ c (Proc.devRef .tc main_arg2) = m ((c : Thread nD τ).loc main_arg2) :=
  calc Wd9 m ρ c (Proc.devRef .tc main_arg2)
    _ = Wd8 m ρ c (Proc.devRef .tc main_arg2) := StableHlo.after_of_writes_sub hostOps3 _ hostOps3_writes (by decide)
    _ = Wd7 m ρ c (Proc.devRef .tc main_arg2) := Wd8_of_ne m ρ c main_arg2 (by decide)
    _ = Wd6 m ρ c (Proc.devRef .tc main_arg2) := StableHlo.after_of_writes_sub hostOps2 _ hostOps2_writes (by decide)
    _ = Wd5 m ρ c (Proc.devRef .tc main_arg2) := Wd6_of_ne m ρ c main_arg2 (by decide)
    _ = Wd4 m ρ c (Proc.devRef .tc main_arg2) := StableHlo.after_of_writes_sub hostOps1 _ hostOps1_writes (by decide)
    _ = Wd3 m ρ c (Proc.devRef .tc main_arg2) := Wd4_of_ne m ρ c main_arg2 (by decide)
    _ = Wd2 m ρ c (Proc.devRef .tc main_arg2) := StableHlo.after_of_writes_sub hostOps0_2 _ hostOps0_2_writes (by decide)
    _ = Wd1 m ρ c (Proc.devRef .tc main_arg2) := StableHlo.after_of_writes_sub hostOps0_1 _ hostOps0_1_writes (by decide)
    _ = Wd0 m ρ c (Proc.devRef .tc main_arg2) := StableHlo.after_of_writes_sub hostOps0 _ hostOps0_writes (by decide)
    _ = m ((c : Thread nD τ).loc main_arg2) := rfl

theorem Wd9_main_arg3 (c : Dev nD) : Wd9 m ρ c (Proc.devRef .tc main_arg3) = m ((c : Thread nD τ).loc main_arg3) :=
  calc Wd9 m ρ c (Proc.devRef .tc main_arg3)
    _ = Wd8 m ρ c (Proc.devRef .tc main_arg3) := StableHlo.after_of_writes_sub hostOps3 _ hostOps3_writes (by decide)
    _ = Wd7 m ρ c (Proc.devRef .tc main_arg3) := Wd8_of_ne m ρ c main_arg3 (by decide)
    _ = Wd6 m ρ c (Proc.devRef .tc main_arg3) := StableHlo.after_of_writes_sub hostOps2 _ hostOps2_writes (by decide)
    _ = Wd5 m ρ c (Proc.devRef .tc main_arg3) := Wd6_of_ne m ρ c main_arg3 (by decide)
    _ = Wd4 m ρ c (Proc.devRef .tc main_arg3) := StableHlo.after_of_writes_sub hostOps1 _ hostOps1_writes (by decide)
    _ = Wd3 m ρ c (Proc.devRef .tc main_arg3) := Wd4_of_ne m ρ c main_arg3 (by decide)
    _ = Wd2 m ρ c (Proc.devRef .tc main_arg3) := StableHlo.after_of_writes_sub hostOps0_2 _ hostOps0_2_writes (by decide)
    _ = Wd1 m ρ c (Proc.devRef .tc main_arg3) := StableHlo.after_of_writes_sub hostOps0_1 _ hostOps0_1_writes (by decide)
    _ = Wd0 m ρ c (Proc.devRef .tc main_arg3) := StableHlo.after_of_writes_sub hostOps0 _ hostOps0_writes (by decide)
    _ = m ((c : Thread nD τ).loc main_arg3) := rfl

theorem Wd9_main_arg4 (c : Dev nD) : Wd9 m ρ c (Proc.devRef .tc main_arg4) = m ((c : Thread nD τ).loc main_arg4) :=
  calc Wd9 m ρ c (Proc.devRef .tc main_arg4)
    _ = Wd8 m ρ c (Proc.devRef .tc main_arg4) := StableHlo.after_of_writes_sub hostOps3 _ hostOps3_writes (by decide)
    _ = Wd7 m ρ c (Proc.devRef .tc main_arg4) := Wd8_of_ne m ρ c main_arg4 (by decide)
    _ = Wd6 m ρ c (Proc.devRef .tc main_arg4) := StableHlo.after_of_writes_sub hostOps2 _ hostOps2_writes (by decide)
    _ = Wd5 m ρ c (Proc.devRef .tc main_arg4) := Wd6_of_ne m ρ c main_arg4 (by decide)
    _ = Wd4 m ρ c (Proc.devRef .tc main_arg4) := StableHlo.after_of_writes_sub hostOps1 _ hostOps1_writes (by decide)
    _ = Wd3 m ρ c (Proc.devRef .tc main_arg4) := Wd4_of_ne m ρ c main_arg4 (by decide)
    _ = Wd2 m ρ c (Proc.devRef .tc main_arg4) := StableHlo.after_of_writes_sub hostOps0_2 _ hostOps0_2_writes (by decide)
    _ = Wd1 m ρ c (Proc.devRef .tc main_arg4) := StableHlo.after_of_writes_sub hostOps0_1 _ hostOps0_1_writes (by decide)
    _ = Wd0 m ρ c (Proc.devRef .tc main_arg4) := StableHlo.after_of_writes_sub hostOps0 _ hostOps0_writes (by decide)
    _ = m ((c : Thread nD τ).loc main_arg4) := rfl

theorem Wd9_main_arg5 (c : Dev nD) : Wd9 m ρ c (Proc.devRef .tc main_arg5) = m ((c : Thread nD τ).loc main_arg5) :=
  calc Wd9 m ρ c (Proc.devRef .tc main_arg5)
    _ = Wd8 m ρ c (Proc.devRef .tc main_arg5) := StableHlo.after_of_writes_sub hostOps3 _ hostOps3_writes (by decide)
    _ = Wd7 m ρ c (Proc.devRef .tc main_arg5) := Wd8_of_ne m ρ c main_arg5 (by decide)
    _ = Wd6 m ρ c (Proc.devRef .tc main_arg5) := StableHlo.after_of_writes_sub hostOps2 _ hostOps2_writes (by decide)
    _ = Wd5 m ρ c (Proc.devRef .tc main_arg5) := Wd6_of_ne m ρ c main_arg5 (by decide)
    _ = Wd4 m ρ c (Proc.devRef .tc main_arg5) := StableHlo.after_of_writes_sub hostOps1 _ hostOps1_writes (by decide)
    _ = Wd3 m ρ c (Proc.devRef .tc main_arg5) := Wd4_of_ne m ρ c main_arg5 (by decide)
    _ = Wd2 m ρ c (Proc.devRef .tc main_arg5) := StableHlo.after_of_writes_sub hostOps0_2 _ hostOps0_2_writes (by decide)
    _ = Wd1 m ρ c (Proc.devRef .tc main_arg5) := StableHlo.after_of_writes_sub hostOps0_1 _ hostOps0_1_writes (by decide)
    _ = Wd0 m ρ c (Proc.devRef .tc main_arg5) := StableHlo.after_of_writes_sub hostOps0 _ hostOps0_writes (by decide)
    _ = m ((c : Thread nD τ).loc main_arg5) := rfl

theorem Wd9_main_arg6 (c : Dev nD) : Wd9 m ρ c (Proc.devRef .tc main_arg6) = m ((c : Thread nD τ).loc main_arg6) :=
  calc Wd9 m ρ c (Proc.devRef .tc main_arg6)
    _ = Wd8 m ρ c (Proc.devRef .tc main_arg6) := StableHlo.after_of_writes_sub hostOps3 _ hostOps3_writes (by decide)
    _ = Wd7 m ρ c (Proc.devRef .tc main_arg6) := (Wd8_arr m ρ c 1).trans (((dat2 (Vr7 m ρ) c).arrAt_in 1 rfl _).trans (A_eq2 (Vr7 m ρ) c 1))
    _ = Wd6 m ρ c (Proc.devRef .tc main_arg6) := StableHlo.after_of_writes_sub hostOps2 _ hostOps2_writes (by decide)
    _ = Wd5 m ρ c (Proc.devRef .tc main_arg6) := Wd6_of_ne m ρ c main_arg6 (by decide)
    _ = Wd4 m ρ c (Proc.devRef .tc main_arg6) := StableHlo.after_of_writes_sub hostOps1 _ hostOps1_writes (by decide)
    _ = Wd3 m ρ c (Proc.devRef .tc main_arg6) := Wd4_of_ne m ρ c main_arg6 (by decide)
    _ = Wd2 m ρ c (Proc.devRef .tc main_arg6) := StableHlo.after_of_writes_sub hostOps0_2 _ hostOps0_2_writes (by decide)
    _ = Wd1 m ρ c (Proc.devRef .tc main_arg6) := StableHlo.after_of_writes_sub hostOps0_1 _ hostOps0_1_writes (by decide)
    _ = Wd0 m ρ c (Proc.devRef .tc main_arg6) := StableHlo.after_of_writes_sub hostOps0 _ hostOps0_writes (by decide)
    _ = m ((c : Thread nD τ).loc main_arg6) := rfl

theorem Wd9_main_arg7 (c : Dev nD) : Wd9 m ρ c (Proc.devRef .tc main_arg7) = m ((c : Thread nD τ).loc main_arg7) :=
  calc Wd9 m ρ c (Proc.devRef .tc main_arg7)
    _ = Wd8 m ρ c (Proc.devRef .tc main_arg7) := StableHlo.after_of_writes_sub hostOps3 _ hostOps3_writes (by decide)
    _ = Wd7 m ρ c (Proc.devRef .tc main_arg7) := (Wd8_arr m ρ c 2).trans (((dat2 (Vr7 m ρ) c).arrAt_in 2 rfl _).trans (A_eq2 (Vr7 m ρ) c 2))
    _ = Wd6 m ρ c (Proc.devRef .tc main_arg7) := StableHlo.after_of_writes_sub hostOps2 _ hostOps2_writes (by decide)
    _ = Wd5 m ρ c (Proc.devRef .tc main_arg7) := Wd6_of_ne m ρ c main_arg7 (by decide)
    _ = Wd4 m ρ c (Proc.devRef .tc main_arg7) := StableHlo.after_of_writes_sub hostOps1 _ hostOps1_writes (by decide)
    _ = Wd3 m ρ c (Proc.devRef .tc main_arg7) := Wd4_of_ne m ρ c main_arg7 (by decide)
    _ = Wd2 m ρ c (Proc.devRef .tc main_arg7) := StableHlo.after_of_writes_sub hostOps0_2 _ hostOps0_2_writes (by decide)
    _ = Wd1 m ρ c (Proc.devRef .tc main_arg7) := StableHlo.after_of_writes_sub hostOps0_1 _ hostOps0_1_writes (by decide)
    _ = Wd0 m ρ c (Proc.devRef .tc main_arg7) := StableHlo.after_of_writes_sub hostOps0 _ hostOps0_writes (by decide)
    _ = m ((c : Thread nD τ).loc main_arg7) := rfl

theorem Wd9_main_arg8 (c : Dev nD) : Wd9 m ρ c (Proc.devRef .tc main_arg8) = m ((c : Thread nD τ).loc main_arg8) :=
  calc Wd9 m ρ c (Proc.devRef .tc main_arg8)
    _ = Wd8 m ρ c (Proc.devRef .tc main_arg8) := StableHlo.after_of_writes_sub hostOps3 _ hostOps3_writes (by decide)
    _ = Wd7 m ρ c (Proc.devRef .tc main_arg8) := Wd8_of_ne m ρ c main_arg8 (by decide)
    _ = Wd6 m ρ c (Proc.devRef .tc main_arg8) := StableHlo.after_of_writes_sub hostOps2 _ hostOps2_writes (by decide)
    _ = Wd5 m ρ c (Proc.devRef .tc main_arg8) := Wd6_of_ne m ρ c main_arg8 (by decide)
    _ = Wd4 m ρ c (Proc.devRef .tc main_arg8) := StableHlo.after_of_writes_sub hostOps1 _ hostOps1_writes (by decide)
    _ = Wd3 m ρ c (Proc.devRef .tc main_arg8) := Wd4_of_ne m ρ c main_arg8 (by decide)
    _ = Wd2 m ρ c (Proc.devRef .tc main_arg8) := StableHlo.after_of_writes_sub hostOps0_2 _ hostOps0_2_writes (by decide)
    _ = Wd1 m ρ c (Proc.devRef .tc main_arg8) := StableHlo.after_of_writes_sub hostOps0_1 _ hostOps0_1_writes (by decide)
    _ = Wd0 m ρ c (Proc.devRef .tc main_arg8) := StableHlo.after_of_writes_sub hostOps0 _ hostOps0_writes (by decide)
    _ = m ((c : Thread nD τ).loc main_arg8) := rfl

theorem Wd9_main_arg9 (c : Dev nD) : Wd9 m ρ c (Proc.devRef .tc main_arg9) = m ((c : Thread nD τ).loc main_arg9) :=
  calc Wd9 m ρ c (Proc.devRef .tc main_arg9)
    _ = Wd8 m ρ c (Proc.devRef .tc main_arg9) := StableHlo.after_of_writes_sub hostOps3 _ hostOps3_writes (by decide)
    _ = Wd7 m ρ c (Proc.devRef .tc main_arg9) := Wd8_of_ne m ρ c main_arg9 (by decide)
    _ = Wd6 m ρ c (Proc.devRef .tc main_arg9) := StableHlo.after_of_writes_sub hostOps2 _ hostOps2_writes (by decide)
    _ = Wd5 m ρ c (Proc.devRef .tc main_arg9) := Wd6_of_ne m ρ c main_arg9 (by decide)
    _ = Wd4 m ρ c (Proc.devRef .tc main_arg9) := StableHlo.after_of_writes_sub hostOps1 _ hostOps1_writes (by decide)
    _ = Wd3 m ρ c (Proc.devRef .tc main_arg9) := Wd4_of_ne m ρ c main_arg9 (by decide)
    _ = Wd2 m ρ c (Proc.devRef .tc main_arg9) := StableHlo.after_of_writes_sub hostOps0_2 _ hostOps0_2_writes (by decide)
    _ = Wd1 m ρ c (Proc.devRef .tc main_arg9) := StableHlo.after_of_writes_sub hostOps0_1 _ hostOps0_1_writes (by decide)
    _ = Wd0 m ρ c (Proc.devRef .tc main_arg9) := StableHlo.after_of_writes_sub hostOps0 _ hostOps0_writes (by decide)
    _ = m ((c : Thread nD τ).loc main_arg9) := rfl

/-! ## The proof data family and the thread state -/

/-- No region has a prefetched table. -/
abbrev padm : (p : Fin 3) → (pcfgs (F := F) p).Adm := fun p => (cfgs p).toPCfg_adm
/-- Every region's proof data, each at its entry contents: a literal match on the region's number. -/
def pdats : (p : Fin 3) → (c : Dev nD) → Dat τ (Elt F) Unit ℕ (UR sig nD τ) ℕ (Pipeline.pin (pcfgs (F := F)) padm p) c
  | ⟨0, _⟩ => fun c => dat0 (Vr3 m ρ) c
  | ⟨1, _⟩ => fun c => dat1 (Vr5 m ρ) c
  | ⟨2, _⟩ => fun c => dat2 (Vr7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A stretch of host operations as a segment over the unscoped buffers, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tlast (c : Dev nD) : sProp 𝕄 := iprop(StableHlo.held (c : Thread nD τ) (Pipeline.ucRefs τ sig) (Wd9 m ρ c) ∗ ∃ r, prngReg c r)

/-! ## The regions as segments -/

-- a library lemma stated over `pin pcs a p` unifies with the pinned configuration only when unification may unfold
-- plain definitions in a metavariable's type
set_option backward.isDefEq.respectTransparency.types false in
/-- Region 0 over the thread state: entered with every unscoped buffer at `Wd3`, left with them at `Wd4`. Its
    arrays are split out of the unscoped buffers and put back at what the write-backs leave; the generator register
    goes into the region's invariant and comes back; nothing is owed; the region has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr3 m ρ) c).loose
  hwaits := Pipeline.hwaits_of_owed_zero _ _ _ _ L lv 0 fun _ _ => rfl
  pre c := iprop(StableHlo.held (c : Thread nD τ) (Pipeline.ucRefs τ sig) (Wd3 m ρ c) ∗ Rst c)
  post c := iprop(StableHlo.held (c : Thread nD τ) (Pipeline.ucRefs τ sig) (Wd4 m ρ c) ∗ Rst c)
  X c := iprop(∃ r, prngReg c r)
  Y c := iprop(∃ r, prngReg c r)
  Z c := Pipeline.unscopedRest (Ix := Unit) (Name := ℕ) (U := UR sig nD τ) (Lvl := ℕ) spec0 c (Vr3 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (Vr3 m ρ c) (Vr4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 1 over the thread state: entered with every unscoped buffer at `Wd5`, left with them at `Wd6`. Its
    arrays are split out of the unscoped buffers and put back at what the write-backs leave; the generator register
    goes into the region's invariant and comes back; nothing is owed; the region has no semaphore of its own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr5 m ρ) c).loose
  hwaits := Pipeline.hwaits_of_owed_zero _ _ _ _ L lv 1 fun _ _ => rfl
  pre c := iprop(StableHlo.held (c : Thread nD τ) (Pipeline.ucRefs τ sig) (Wd5 m ρ c) ∗ Rst c)
  post c := iprop(StableHlo.held (c : Thread nD τ) (Pipeline.ucRefs τ sig) (Wd6 m ρ c) ∗ Rst c)
  X c := iprop(∃ r, prngReg c r)
  Y c := iprop(∃ r, prngReg c r)
  Z c := Pipeline.unscopedRest (Ix := Unit) (Name := ℕ) (U := UR sig nD τ) (Lvl := ℕ) spec1 c (Vr5 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (Vr5 m ρ c) (Vr6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 2 over the thread state: entered with every unscoped buffer at `Wd7`, left with them at `Wd8`. Its
    arrays are split out of the unscoped buffers and put back at what the write-backs leave; the generator register
    goes into the region's invariant and comes back; nothing is owed; the region has no semaphore of its own. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr7 m ρ) c).loose
  hwaits := Pipeline.hwaits_of_owed_zero _ _ _ _ L lv 2 fun _ _ => rfl
  pre c := iprop(StableHlo.held (c : Thread nD τ) (Pipeline.ucRefs τ sig) (Wd7 m ρ c) ∗ Rst c)
  post c := iprop(StableHlo.held (c : Thread nD τ) (Pipeline.ucRefs τ sig) (Wd8 m ρ c) ∗ Rst c)
  X c := iprop(∃ r, prngReg c r)
  Y c := iprop(∃ r, prngReg c r)
  Z c := Pipeline.unscopedRest (Ix := Unit) (Name := ℕ) (U := UR sig nD τ) (Lvl := ℕ) spec2 c (Vr7 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (Vr7 m ρ) c).Φ 0 from rfl]
    have h := hin2 (Vr7 m ρ) c
    unfold Pipeline.ΦA at h
    iintro ⟨Hp, -, Hr⟩
    iapply h
    isplitl [Hr]; · iexact Hr
    iexact Hp
  hout c := by
    rw [Pipeline.ownSems0_none, show (pdats m ρ 2 c).Φ (Fin.last _) = (dat2 (Vr7 m ρ) c).Φ (Fin.last cfg2.N) from rfl]
    have h := hout2 (Vr7 m ρ) c
    unfold Pipeline.ΦA at h
    iintro Hall
    ihave Hb := h $$ Hall
    icases Hb with ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (Vr7 m ρ c) (Vr8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) padm (pdats m ρ) () defs₀ 𝒱₀ L lv) :=
  [ .host (hseg hostOps0 hostOps0_sub hostOps0_fresh (Wd0 m ρ)),
    .host (hseg hostOps0_1 hostOps0_1_sub hostOps0_1_fresh (Wd1 m ρ)),
    .host (hseg hostOps0_2 hostOps0_2_sub hostOps0_2_fresh (Wd2 m ρ)),
    .region (reg0 m ρ),
    .host (hseg hostOps1 hostOps1_sub hostOps1_fresh (Wd4 m ρ)),
    .region (reg1 m ρ),
    .host (hseg hostOps2 hostOps2_sub hostOps2_fresh (Wd6 m ρ)),
    .region (reg2 m ρ),
    .host (hseg hostOps3 hostOps3_sub hostOps3_fresh (Wd8 m ρ)) ]

-- the launch theorem's implicit arguments are found by unifying its conclusion with this one, which takes unfolding
-- plain definitions in a metavariable's type
set_option backward.isDefEq.respectTransparency.types false in
/-- THE RUN. From any memory with zero counters every weakly fair execution of @main terminates, nothing faulting,
    and every final memory holds every unscoped buffer of every core at the last boundary's contents `Wd9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd9 m ρ c b) :=
  Pipeline.θ_run_regions_kit (pcfgs (F := F)) padm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wd0 m ρ c) ∗ Rst c)) (Tₙ := Tlast m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (Wd9 m ρ c) ∗ Rst c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Wd0 m ρ c)
        from Pipeline.unscopedBufs_held c (Wd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd9 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd9 m ρ c) s')
      isplitl [Hh] <;> iassumption)
    (hQ := fun s h => h)

/-- THE FRAME: every weakly fair execution of @main terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (Wd9_main_arg0 m ρ c),
     (h c _ (mem_uc main_arg1 (by decide))).trans (Wd9_main_arg1 m ρ c),
     (h c _ (mem_uc main_arg2 (by decide))).trans (Wd9_main_arg2 m ρ c),
     (h c _ (mem_uc main_arg3 (by decide))).trans (Wd9_main_arg3 m ρ c),
     (h c _ (mem_uc main_arg4 (by decide))).trans (Wd9_main_arg4 m ρ c),
     (h c _ (mem_uc main_arg5 (by decide))).trans (Wd9_main_arg5 m ρ c),
     (h c _ (mem_uc main_arg6 (by decide))).trans (Wd9_main_arg6 m ρ c),
     (h c _ (mem_uc main_arg7 (by decide))).trans (Wd9_main_arg7 m ρ c),
     (h c _ (mem_uc main_arg8 (by decide))).trans (Wd9_main_arg8 m ρ c),
     (h c _ (mem_uc main_arg9 (by decide))).trans (Wd9_main_arg9 m ρ c)⟩) (run_all m ρ)

/-- The result buffer ends at the last boundary's contents. -/
theorem result_at (r : PUnit × MemSt nD τ sig (Elt F)) (h : ∀ c : Dev nD, ∀ b ∈ Pipeline.ucRefs τ sig, r.2.mem (((c : Thread nD τ)).1, b) = Wd9 m ρ c b)
    (c : Dev nD) : r.2.mem ((c.tc : Thread nD τ).loc main_v75) = Wd9 m ρ c (Proc.devRef .tc main_v75) :=
  h c _ (mem_uc main_v75 (by decide))

end Cert.Kernel.Hand

end
-- ==== Proof.KI.Reg0.lean ====
/- Region 0 of the program: the first graph-convolution aggregation, out = relu(A · X + bias), one
   block of 200 rows of the normalised adjacency per grid point. Stated at a parameter V, the contents of
   the buffers when the region is entered: each window's block at a point, what the body leaves in the
   output window's buffer (its one store, over the payload of its three loads), the body's triple, the
   pipeline's proof data and the body obligation. -/
import proofs.«137311_j86784109183564_2_alg».proof.Proof.Gen.KernelIdeal.Launch
import proofs.«137311_j86784109183564_2_alg».proof.Proof.Gen.KernelIdeal.Skeleton
import proofs.«137311_j86784109183564_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. Window 0 is the block of
    200 adjacency rows the point works on; windows 1 and 2 (the features and the bias) are whole arrays,
    the same at every point; window 3 is the block of 200 output rows. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 is fetched at the first point only; its block index never moves, so its buffer
    holds the (whole-array) block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2, likewise fetched at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S200x5000 := Rect.unit (s := S200x5000) ![0, 0] S200x5000.size inb_S200x5000_S200x5000_0_0
abbrev r0_1 : Rect S5000x512 := Rect.unit (s := S5000x512) ![0, 0] S5000x512.size inb_S5000x512_S5000x512_0_0
abbrev r0_2 : Rect S512 := Rect.unit (s := S512) ![0] S512.size inb_S512_S512_0
abbrev r0_3 : Rect S200x512 := Rect.unit (s := S200x512) ![0, 0] S200x512.size inb_S200x512_S200x512_0_0

/-! ## What the body leaves in the output window's buffer -/

/-- Window 3's staging buffer after the body, from the input windows' blocks: the one store, of the
    payload relu(x0 · x1 + x2) of the three loads. -/
def out0_3 (x0 : Vec F S200x5000 .bf16) (x1 : Vec F S5000x512 .bf16) (x2 : Vec F S512 .f32) : Vec F S200x512 .f32 :=
  View.canon [⟨r0_3, k0_pay1 (View.ld x0 r0_0) (View.ld x1 r0_1) (View.ld x2 r0_2)⟩]

/-- The store is of the whole buffer, so it covers it. -/
theorem cover0_3 (p0 : Vec F S200x512 .f32) (y : S200x512.Idx) :
    ∃ pc ∈ ([⟨r0_3, p0⟩] : List (View.Piece (Elt F) S200x512 .f32)), y ∈ pc.1.set :=
  View.cover_of_tiled [⟨r0_3, p0⟩] S200x512.size (by rfl) y

/-! ## The body's triple -/

set_option maxHeartbeats 1000000 in
/-- The body on whole staging memrefs, the inputs' at read contents x0, x1, x2 and the output's at
    anything, runs to the continuation holding the inputs' as they were and the output's at out0_3 of the
    inputs'. The output buffer is loaded once before the store; the loaded value is not used. -/
theorem sound_kernel0 (c : Dev nD) (E : Set ℕ) (i : grid0.Coords) (arg1 : Memref sig .tc .vmem S200x5000 .bf16) (harg1 : arg1.IsWhole) (arg2 : Memref sig .tc .vmem S5000x512 .bf16) (harg2 : arg2.IsWhole) (arg3 : Memref sig .tc .vmem S512 .f32) (harg3 : arg3.IsWhole) (arg4 : Memref sig .tc .vmem S200x512 .f32) (harg4 : arg4.IsWhole)
    (x0 : Vec F S200x5000 .bf16) (x1 : Vec F S5000x512 .bf16) (x2 : Vec F S512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gcn_agg_kernel i arg1 harg1 arg2 harg2 arg3 harg3 arg4 harg4) K := by
  simp only [cc0__gcn_agg_kernel_eq_skeleton]; unfold cc0__gcn_agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as the region finds them; after the body at
    point t each input's buffer at its block and the output's at out0_3 of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Region 1 of the program: the second graph-convolution aggregation, out = relu(A · X + bias), one
   block of 200 rows of the normalised adjacency per grid point. Stated at a parameter V, the contents of
   the buffers when the region is entered: each window's block at a point, what the body leaves in the
   output window's buffer (its one store, over the payload of its three loads), the body's triple, the
   pipeline's proof data and the body obligation. -/
import proofs.«137311_j86784109183564_2_alg».proof.Proof.Gen.KernelIdeal.Launch
import proofs.«137311_j86784109183564_2_alg».proof.Proof.Gen.KernelIdeal.Skeleton
import proofs.«137311_j86784109183564_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. Window 0 is the block of
    200 adjacency rows the point works on; windows 1 and 2 (the features and the bias) are whole arrays,
    the same at every point; window 3 is the block of 200 output rows. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose
    array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 is fetched at the first point only; its block index never moves, so its buffer
    holds the (whole-array) block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2, likewise fetched at the first point only. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S200x5000 := Rect.unit (s := S200x5000) ![0, 0] S200x5000.size inb_S200x5000_S200x5000_0_0
abbrev r1_1 : Rect S5000x512 := Rect.unit (s := S5000x512) ![0, 0] S5000x512.size inb_S5000x512_S5000x512_0_0
abbrev r1_2 : Rect S512 := Rect.unit (s := S512) ![0] S512.size inb_S512_S512_0
abbrev r1_3 : Rect S200x512 := Rect.unit (s := S200x512) ![0, 0] S200x512.size inb_S200x512_S200x512_0_0

/-! ## What the body leaves in the output window's buffer -/

/-- Window 3's staging buffer after the body, from the input windows' blocks: the one store, of the
    payload relu(x0 · x1 + x2) of the three loads. -/
def out1_3 (x0 : Vec F S200x5000 .bf16) (x1 : Vec F S5000x512 .bf16) (x2 : Vec F S512 .f32) : Vec F S200x512 .f32 :=
  View.canon [⟨r1_3, k1_pay1 (View.ld x0 r1_0) (View.ld x1 r1_1) (View.ld x2 r1_2)⟩]

/-- The store is of the whole buffer, so it covers it. -/
theorem cover1_3 (p0 : Vec F S200x512 .f32) (y : S200x512.Idx) :
    ∃ pc ∈ ([⟨r1_3, p0⟩] : List (View.Piece (Elt F) S200x512 .f32)), y ∈ pc.1.set :=
  View.cover_of_tiled [⟨r1_3, p0⟩] S200x512.size (by rfl) y

/-! ## The body's triple -/

set_option maxHeartbeats 1000000 in
/-- The body on whole staging memrefs, the inputs' at read contents x0, x1, x2 and the output's at
    anything, runs to the continuation holding the inputs' as they were and the output's at out1_3 of the
    inputs'. The output buffer is loaded once before the store; the loaded value is not used. -/
theorem sound_kernel1 (c : Dev nD) (E : Set ℕ) (i : grid1.Coords) (arg1 : Memref sig .tc .vmem S200x5000 .bf16) (harg1 : arg1.IsWhole) (arg2 : Memref sig .tc .vmem S5000x512 .bf16) (harg2 : arg2.IsWhole) (arg3 : Memref sig .tc .vmem S512 .f32) (harg3 : arg3.IsWhole) (arg4 : Memref sig .tc .vmem S200x512 .f32) (harg4 : arg4.IsWhole)
    (x0 : Vec F S200x5000 .bf16) (x1 : Vec F S5000x512 .bf16) (x2 : Vec F S512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gcn_agg_kernel i arg1 harg1 arg2 harg2 arg3 harg3 arg4 harg4) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core c: the arrays as the region finds them; after the body at
    point t each input's buffer at its block and the output's at out1_3 of the input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Runs.lean ====
import proofs.«137311_j86784109183564_2_alg».proof.Proof.Gen.KernelIdeal.Launch
import proofs.«137311_j86784109183564_2_alg».proof.Proof.Gen.KernelIdeal.Skeleton
import proofs.«137311_j86784109183564_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The third pipeline's windows, read off the arrays as the region finds them

The multilayer head runs on the grid (2, 50): point `t = j * 50 + k` multiplies columns `3200 k … 3200 k + 3199` of the
flattened features by rows `3200 k … 3200 k + 3199`, columns `256 j … 256 j + 255` of the weights, and adds the
product to an accumulator that lives in a scoped buffer of its own from point to point. -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window whose
    block index did not move still holds the block of the point before, which is this point's): for ANY proof data
    whose array is `V`'s and whose body leaves the block in place. The features' window: -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- the weights' window: -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- the bias's window (its block index moves only when `j` does, so it is fetched at `k = 0` alone): -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions on the grid coordinate `k` -/

/-- The first condition, `k = 0`, as the body computes it from the grid coordinates. -/
abbrev cond2_0 (i : grid2.Coords) : Prop := (Scalar.cmpi .ne (Scalar.extui (Scalar.cmpi .eq (BitVec.ofNat 32 (i 1).val) 0#32)) 0#32) = 1#1
/-- It holds at the points `t = 50 j` — decided over the grid. -/
theorem hcond2_0 : ∀ t : Fin cfg2.N, cond2_0 (grid2.coords t) ↔ t.val % 50 = 0 :=
  (by decide +kernel : ∀ t : Fin grid2.N, cond2_0 (grid2.coords t) ↔ t.val % 50 = 0)

/-- The second condition, `k = 49`. -/
abbrev cond2_1 (i : grid2.Coords) : Prop := k2_cond2 i = 1#1
/-- It holds at the points `t = 50 j + 49` — decided over the grid. -/
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle

The three cases the grid meets: A (`k = 0`: the accumulator is reset, then added to), B (`0 < k < 49`: added to),
C (`k = 49`: added to, then the output block is stored). -/

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the points of case A the output is idle: the case stores nothing into it, -/
theorem idleAt2_3_A : ∀ t : Fin cfg2.N, cond2_0 (grid2.coords t) → ¬cond2_1 (grid2.coords t) → cfg2.idle 3 (grid2.coords t) = true := by decide +kernel
/-- and the pipeline does not write its block back there. -/
theorem noFlush2_3_A : ∀ t : Fin cfg2.N, cond2_0 (grid2.coords t) → ¬cond2_1 (grid2.coords t) → (cfg2.win 3).flush t = false := by decide +kernel
/-- The same at the points of case B. -/
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the points of case C the output is live: the case stores into it. -/
theorem liveAt2_3_C : ∀ t : Fin cfg2.N, ¬cond2_0 (grid2.coords t) → cond2_1 (grid2.coords t) → cfg2.idle 3 (grid2.coords t) = false := by decide +kernel

/-! ## The staging memrefs and the accumulator -/

/-- One staging buffer of the output window, through which its contents are stated (the choice does not matter). -/
abbrev VO2_3 : View sig .tc .vmem S16x256 .f32 := (Memref.whole cc2_stg3_0 : Memref sig .tc .vmem S16x256 .f32).view
/-- Each window's current staging memref at point `t`, spelled as the pipeline passes it, and its wholeness. -/
abbrev ms2_0 (t : Fin cfg2.N) : Memref sig .tc .vmem S16x3200 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S3200x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16x256 .f32 := win2_3.stage (cfg2.slots t 3)
abbrev hs2_3 (t : Fin cfg2.N) : (ms2_3 t).IsWhole := hstage2_3 ((cfg2.slots t 3).cast nbuf2_3)
/-- The accumulator: a whole scoped buffer of the body's own, passed beside the windows. -/
abbrev scM2_0 : Memref sig .tc .vmem S16x256 .f32 := Memref.whole cc2_scratch0
/-- The accumulator as a view: what it holds is stated through it. -/
abbrev VS2_0 : View sig .tc .vmem S16x256 .f32 := scM2_0.view

/-- The scoped buffers of the two pipelines before this one (their staging buffers), each at some contents: this
    region never touches them. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's invariant, buffer by buffer: the other pipelines' staging buffers and the accumulator, each owned
    at some contents, and the generator register at some state. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d)) ∗ (∃ r, prngReg c r)) := by
  unfold Pipeline.ΦA; rw [scopedRest2_eq]; simp only [scM2_0, owns_whole]; try rfl

/-- The invariant with the untouched buffers set apart from the accumulator, -/
theorem PhiA2_split (c : Dev nD) :
    (Pipeline.ΦA spec2 c : sProp 𝕄) ⊢ iprop(iprop(rest2 (F := F) c ∗ (∃ d, owns (c : Thread nD τ) scM2_0 fullShare d)) ∗ (∃ r, prngReg c r)) := by
  rw [PhiA2_eq]; unfold rest2
  iintro ⟨⟨R0, R1, R2, R3, R4, R5, R6, R7, R8, R9, R10, R11, HS⟩, Hg⟩
  isplitr [Hg]
  · isplitr [HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      iexact R11
    · iexact HS
  · iexact Hg

/-- and put back. -/
theorem PhiA2_join (c : Dev nD) :
    iprop(iprop(rest2 (F := F) c ∗ (∃ d, owns (c : Thread nD τ) scM2_0 fullShare d)) ∗ (∃ r, prngReg c r)) ⊢ (Pipeline.ΦA spec2 c : sProp 𝕄) := by
  rw [PhiA2_eq]; unfold rest2
  iintro ⟨⟨⟨R0, R1, R2, R3, R4, R5, R6, R7, R8, R9, R10, R11⟩, HS⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  · iexact Hg

end Cert.KernelIdeal.Hand

end
-- ==== Proof.KI.Reg2RunA.lean ====
import proofs.«137311_j86784109183564_2_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE A (`k = 0`). What the body's stores leave in the accumulator, as pieces (last first) — the zeros, then the
    zeros plus this point's product —, WITH the proof that on whole staging memrefs, the inputs' at their blocks, the
    output's at contents `xi3` handed back untouched (the case stores nothing into it) and the accumulator at
    ANYTHING (the case overwrites it before reading it), the body runs to the continuation holding the inputs' as they
    were and the accumulator with its pieces written. -/
noncomputable def kernelRun2_A (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : cond2_0 i) (hc1 : ¬cond2_1 i)
    (x0 : Vec F S16x3200 .f32) (x1 : Vec F S3200x256 .f32) (x2 : Vec F S256 .f32) :
    Σ' (L3 : List (View.Piece (Elt F) S16x256 .f32)), { LS0 : List (View.Piece (Elt F) S16x256 .f32) //
      ∀ (xi3 : Vec F S16x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__mlp_kernel i arg2 harg2 arg3 harg3 arg4 harg4 arg5 harg5 arg6 harg6) K } := by
  refine ⟨[], ?_, fun xi3 E K => ?run⟩
  case run =>
    simp only [cc2__mlp_kernel_eq_skeleton]; unfold cc2__mlp_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Reg2RunB.lean ====
import proofs.«137311_j86784109183564_2_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE B (`0 < k < 49`). What the body's stores leave in the accumulator — what the point before left (`xs0`) plus
    this point's product —, WITH the proof that on whole staging memrefs, the inputs' at their blocks, the output's
    at contents `xi3` handed back untouched and the accumulator at `xs0`, the body runs to the continuation holding
    the inputs' as they were and the accumulator with its pieces written. -/
noncomputable def kernelRun2_B (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : ¬cond2_1 i)
    (x0 : Vec F S16x3200 .f32) (x1 : Vec F S3200x256 .f32) (x2 : Vec F S256 .f32) (xs0 : Vec F S16x256 .f32) :
    Σ' (L3 : List (View.Piece (Elt F) S16x256 .f32)), { LS0 : List (View.Piece (Elt F) S16x256 .f32) //
      ∀ (xi3 : Vec F S16x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__mlp_kernel i arg2 harg2 arg3 harg3 arg4 harg4 arg5 harg5 arg6 harg6) K } := by
  refine ⟨[], ?_, fun xi3 E K => ?run⟩
  case run =>
    simp only [cc2__mlp_kernel_eq_skeleton]; unfold cc2__mlp_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Reg2RunC.lean ====
import proofs.«137311_j86784109183564_2_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE C (`k = 49`). What the body's stores leave in the accumulator — what the point before left (`xs0`) plus
    this point's product — and in the output's staging memref — the accumulator plus the bias, clamped below at
    zero —, WITH the proof that on whole staging memrefs, the inputs' at their blocks, the output's at anything and
    the accumulator at `xs0`, the body runs to the continuation holding the inputs' as they were and the output and
    the accumulator each with its pieces written. -/
noncomputable def kernelRun2_C (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : cond2_1 i)
    (x0 : Vec F S16x3200 .f32) (x1 : Vec F S3200x256 .f32) (x2 : Vec F S256 .f32) (xs0 : Vec F S16x256 .f32) :
    Σ' (L3 : List (View.Piece (Elt F) S16x256 .f32)), { LS0 : List (View.Piece (Elt F) S16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__mlp_kernel i arg2 harg2 arg3 harg3 arg4 harg4 arg5 harg5 arg6 harg6) K } := by
  refine ⟨?_, ?_, fun E K => ?run⟩
  case run =>
    simp only [cc2__mlp_kernel_eq_skeleton]; unfold cc2__mlp_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Reg2.lean ====
import proofs.«137311_j86784109183564_2_alg».proof.Proof.KI.Reg2RunA
import proofs.«137311_j86784109183564_2_alg».proof.Proof.KI.Reg2RunB
import proofs.«137311_j86784109183564_2_alg».proof.Proof.KI.Reg2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the output (the window is idle at its points and not written back there): no pieces — a placeholder that nothing consults. -/
def out2_A_3 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : cond2_0 i) (hc1 : ¬cond2_1 i)
    (x0 : Vec F S16x3200 .f32) (x1 : Vec F S3200x256 .f32) (x2 : Vec F S256 .f32) : Vec F S16x256 .f32 :=
  VO2_3.read (Elt F) (VO2_3.writes (Elt F) VO2_3.junk (kernelRun2_A c i arg2 harg2 arg3 harg3 arg4 harg4 arg5 harg5 arg6 harg6 hc0 hc1 x0 x1 x2).1)

/-- Case A's stores into the accumulator cover it: each is a piece of the accumulator's own shape. -/
theorem scover2_A_0 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : cond2_0 i) (hc1 : ¬cond2_1 i)
    (x0 : Vec F S16x3200 .f32) (x1 : Vec F S3200x256 .f32) (x2 : Vec F S256 .f32) (y : S16x256.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S16x256.size (by sl_kernel_rfl) y

/-- What case A leaves in the accumulator: its stores read back. -/
def sout2_A_0 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : cond2_0 i) (hc1 : ¬cond2_1 i)
    (x0 : Vec F S16x3200 .f32) (x1 : Vec F S3200x256 .f32) (x2 : Vec F S256 .f32) : Vec F S16x256 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into the output either: a placeholder that nothing consults. -/
def out2_B_3 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : ¬cond2_1 i)
    (x0 : Vec F S16x3200 .f32) (x1 : Vec F S3200x256 .f32) (x2 : Vec F S256 .f32) (xs0 : Vec F S16x256 .f32) : Vec F S16x256 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's stores into the accumulator cover it: each is a piece of the accumulator's own shape. -/
theorem scover2_B_0 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : ¬cond2_1 i)
    (x0 : Vec F S16x3200 .f32) (x1 : Vec F S3200x256 .f32) (x2 : Vec F S256 .f32) (xs0 : Vec F S16x256 .f32) (y : S16x256.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S16x256.size (by sl_kernel_rfl) y

/-- What case B leaves in the accumulator: its stores read back. -/
def sout2_B_0 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : ¬cond2_1 i)
    (x0 : Vec F S16x3200 .f32) (x1 : Vec F S3200x256 .f32) (x2 : Vec F S256 .f32) (xs0 : Vec F S16x256 .f32) : Vec F S16x256 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's store into the output covers its block: one piece of the block's own shape. -/
theorem cover2_C_3 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : cond2_1 i)
    (x0 : Vec F S16x3200 .f32) (x1 : Vec F S3200x256 .f32) (x2 : Vec F S256 .f32) (xs0 : Vec F S16x256 .f32) (y : S16x256.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S16x256.size (by sl_kernel_rfl) y

/-- What case C leaves in the output's staging buffer: its one store read back. -/
def out2_C_3 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : cond2_1 i)
    (x0 : Vec F S16x3200 .f32) (x1 : Vec F S3200x256 .f32) (x2 : Vec F S256 .f32) (xs0 : Vec F S16x256 .f32) : Vec F S16x256 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's stores into the accumulator cover it: each is a piece of the accumulator's own shape. -/
theorem scover2_C_0 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : cond2_1 i)
    (x0 : Vec F S16x3200 .f32) (x1 : Vec F S3200x256 .f32) (x2 : Vec F S256 .f32) (xs0 : Vec F S16x256 .f32) (y : S16x256.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S16x256.size (by sl_kernel_rfl) y

/-- What case C leaves in the accumulator: its stores read back. -/
def sout2_C_0 (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : cond2_1 i)
    (x0 : Vec F S16x3200 .f32) (x1 : Vec F S3200x256 .f32) (x2 : Vec F S256 .f32) (xs0 : Vec F S16x256 .f32) : Vec F S16x256 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's buffer and the accumulator hold after each point -/

/-- THE ACCUMULATION. What the output's staging buffer and the accumulator hold after the body at position `n`
    (a pair: the output, then the accumulator): the case the closed forms select at `n`, run at the point's memrefs
    and input blocks, cases B and C over what the point before left in the accumulator. Both conditions at once is no
    case (`k` is not 0 and 49 together). -/
def outsAt2 (c : Dev nD) : (n : ℕ) → n < cfg2.N → Vec F S16x256 .f32 × Vec F S16x256 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 50 = 0 then
      if h1 : (n + 1) % 50 = 49 then
        False.elim (by have hN : n + 1 < 100 := lt_of_lt_of_eq hn (show cfg2.N = 100 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 50 = 49 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 50 = 0) (h1 : ¬t.val % 50 = 49) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 50 = 0) (h1 : ¬t.val % 50 = 49) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 50 = 0) (h1 : t.val % 50 = 49) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the other pipelines' buffers and the
    accumulator at anything; afterwards the accumulator at what the point before left in it (`outsAt2`'s second
    component); the generator register at some state throughout. -/
def PhiS (c : Dev nD) : (n : ℕ) → n ≤ cfg2.N → sProp 𝕄
  | 0, _ => iprop(iprop(rest2 (F := F) c ∗ (∃ d, owns (c : Thread nD τ) scM2_0 fullShare d)) ∗ (∃ r, prngReg c r))
  | n + 1, hn => iprop(iprop(rest2 (F := F) c ∗ owns (c : Thread nD τ) scM2_0 fullShare ((outsAt2 V c n hn).2)) ∗ (∃ r, prngReg c r))

theorem PhiS_zero (c : Dev nD) (n : ℕ) (h : n ≤ cfg2.N) (hz : n = 0) :
    PhiS V c n h = iprop(iprop(rest2 (F := F) c ∗ (∃ d, owns (c : Thread nD τ) scM2_0 fullShare d)) ∗ (∃ r, prngReg c r)) := by
  subst hz; rfl

/-- After point `n` (before point `n + 1`): the accumulator at that point's contents. -/
theorem PhiS_succ (c : Dev nD) (n : ℕ) (hn : n < cfg2.N) :
    PhiS V c (n + 1) hn = iprop(iprop(rest2 (F := F) c ∗ owns (c : Thread nD τ) scM2_0 fullShare ((outsAt2 V c n hn).2)) ∗ (∃ r, prngReg c r)) := rfl

/-- Before a point that is not the first: the accumulator at what the point before left. -/
theorem PhiS_pos (c : Dev nD) (n : ℕ) (h : n ≤ cfg2.N) (hz : n ≠ 0) :
    PhiS V c n h = iprop(iprop(rest2 (F := F) c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the third pipeline on core `c`: the arrays as the region finds them (`V`); after the body at
    point `t` each input's buffer at its block and the output's at `outsAt2`'s first component; the invariant
    `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS_castSucc (c : Dev nD) (t : Fin cfg2.N) :
    (dat2 V c).Φ t.castSucc = PhiS V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in;
    the invariant hands the body the accumulator at what the point before left (at anything before the first point;
    case A takes it at anything at every point, so that at `t = 50` what point 49 left is simply forgotten) and takes
    it back at this point's contents; the other pipelines' buffers and the generator register pass through untouched;
    the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  have hN : t.val < 100 := lt_of_lt_of_eq t.isLt (show cfg2.N = 100 from N_2)
  by_cases h0 : t.val % 50 = 0
  · by_cases h1 : t.val % 50 = 49
    · exfalso; omega
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS_castSucc V c t, PhiS_zero V c _ _ hz]
        iintro ⟨⟨⟨HR, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3

      · rw [PhiS_castSucc V c t, PhiS_pos V c _ _ hz]
        iintro ⟨⟨⟨HR, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3

  · by_cases h1 : t.val % 50 = 49
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3_C t (fun h => h0 ((hcond2_0 t).mp h)) ((hcond2_1 t).mpr h1)], after2_3]
      rw [outsAt2_C V c t h0 h1]
      unfold out2_C_3 sout2_C_0; (try dsimp only)
      have hz : t.val ≠ 0 := by omega
      rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)

    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      have hz : t.val ≠ 0 := by omega
      rw [PhiS_castSucc V c t, PhiS_pos V c _ _ hz]
      iintro ⟨⟨⟨HR, HS0⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  exact PhiA2_split c

/-- After any point but the first the invariant gives the launch's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht]
  refine BIBase.Entails.trans ?_ (PhiA2_join c)
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 100 := N_2; omega)

end Cert.KernelIdeal.Hand

end
-- ==== Proof.KI.Run.lean ====
/- The run of @main as nine segments — three stretches of host operations, region 0, a stretch, region 1, a stretch,
   region 2, a stretch — with the contents of every buffer named at each boundary: a stretch applies its operations,
   a region leaves its input arrays as it found them and its output array at the blocks its grid points wrote back.
   From it: every argument array ends as launched, and the result buffer ends at the last boundary's contents. -/
import proofs.«137311_j86784109183564_2_alg».proof.Proof.KI.Reg0
import proofs.«137311_j86784109183564_2_alg».proof.Proof.KI.Reg1
import proofs.«137311_j86784109183564_2_alg».proof.Proof.KI.Reg2
import proofs.«137311_j86784109183564_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at each boundary -/

/-- At launch. -/
abbrev Wd0 : Dev nD → Valuation τ sig (Elt F) := fun c b => (s₀ m ρ).mem ((c : Dev nD), b)
/-- After the first stretch. -/
abbrev Wd1 : Dev nD → Valuation τ sig (Elt F) := fun c => StableHlo.after hostOps0 (Wd0 m ρ c)
/-- After the second stretch. -/
abbrev Wd2 : Dev nD → Valuation τ sig (Elt F) := fun c => StableHlo.after hostOps0_1 (Wd1 m ρ c)
/-- After the third stretch: region 0's entry. -/
abbrev Wd3 : Dev nD → Valuation τ sig (Elt F) := fun c => StableHlo.after hostOps0_2 (Wd2 m ρ c)
abbrev Vr3 : (c : Dev nD) → (b : Ref sig .tc) → Buf (Elt F) ((c : Thread nD τ).loc b) := fun c b => Wd3 m ρ c b

/-- At region 0's exit: its arrays at what the write-backs leave (an input as entered, the output its blocks folded),
    every other buffer as entered. -/
def Wd4 (c : Dev nD) : Valuation τ sig (Elt F) :=
  Pipeline.withArrays spec0 c (Wd3 m ρ c) fun w => (dat0 (Vr3 m ρ) c).arrAt w cfg0.N
theorem Wd4_arr (c : Dev nD) (w : Fin cfg0.W) :
    Wd4 m ρ c (Proc.devRef .tc (Pipeline.arrRef spec0 w)) = (dat0 (Vr3 m ρ) c).arrAt w cfg0.N := by
  unfold Wd4; exact Pipeline.withArrays_arr spec0 launch0.win.arr_inj c _ _ w
theorem Wd4_of_ne (c : Dev nD) (b : Ref sig .tc) (hb : ∀ w, Pipeline.arrRef spec0 w ≠ b) :
    Wd4 m ρ c (Proc.devRef .tc b) = Wd3 m ρ c (Proc.devRef .tc b) := by
  unfold Wd4; exact Pipeline.withArrays_of_ne spec0 c _ _ b hb
/-- The same read at the core's references. -/
abbrev Vr4 : (c : Dev nD) → (b : Ref sig .tc) → Buf (Elt F) ((c : Thread nD τ).loc b) := fun c b => Wd4 m ρ c b
theorem hF0 (c : Dev nD) (w : Fin cfg0.W) : (dat0 (Vr3 m ρ) c).arrAt w cfg0.N = Vr4 m ρ c (Pipeline.arrRef spec0 w) :=
  (Wd4_arr m ρ c w).symm
theorem hrest0 (c : Dev nD) : ∀ b, b ∉ Finset.univ.image (Pipeline.arrRef spec0) → Vr4 m ρ c b = Vr3 m ρ c b :=
  fun b hb => Wd4_of_ne m ρ c b fun w e => hb (Finset.mem_image.mpr ⟨w, Finset.mem_univ _, e⟩)

/-- After the stretch between regions 0 and 1: region 1's entry. -/
abbrev Wd5 : Dev nD → Valuation τ sig (Elt F) := fun c => StableHlo.after hostOps1 (Wd4 m ρ c)
abbrev Vr5 : (c : Dev nD) → (b : Ref sig .tc) → Buf (Elt F) ((c : Thread nD τ).loc b) := fun c b => Wd5 m ρ c b

/-- At region 1's exit: its arrays at what the write-backs leave (an input as entered, the output its blocks folded),
    every other buffer as entered. -/
def Wd6 (c : Dev nD) : Valuation τ sig (Elt F) :=
  Pipeline.withArrays spec1 c (Wd5 m ρ c) fun w => (dat1 (Vr5 m ρ) c).arrAt w cfg1.N
theorem Wd6_arr (c : Dev nD) (w : Fin cfg1.W) :
    Wd6 m ρ c (Proc.devRef .tc (Pipeline.arrRef spec1 w)) = (dat1 (Vr5 m ρ) c).arrAt w cfg1.N := by
  unfold Wd6; exact Pipeline.withArrays_arr spec1 launch1.win.arr_inj c _ _ w
theorem Wd6_of_ne (c : Dev nD) (b : Ref sig .tc) (hb : ∀ w, Pipeline.arrRef spec1 w ≠ b) :
    Wd6 m ρ c (Proc.devRef .tc b) = Wd5 m ρ c (Proc.devRef .tc b) := by
  unfold Wd6; exact Pipeline.withArrays_of_ne spec1 c _ _ b hb
/-- The same read at the core's references. -/
abbrev Vr6 : (c : Dev nD) → (b : Ref sig .tc) → Buf (Elt F) ((c : Thread nD τ).loc b) := fun c b => Wd6 m ρ c b
theorem hF1 (c : Dev nD) (w : Fin cfg1.W) : (dat1 (Vr5 m ρ) c).arrAt w cfg1.N = Vr6 m ρ c (Pipeline.arrRef spec1 w) :=
  (Wd6_arr m ρ c w).symm
theorem hrest1 (c : Dev nD) : ∀ b, b ∉ Finset.univ.image (Pipeline.arrRef spec1) → Vr6 m ρ c b = Vr5 m ρ c b :=
  fun b hb => Wd6_of_ne m ρ c b fun w e => hb (Finset.mem_image.mpr ⟨w, Finset.mem_univ _, e⟩)

/-- After the stretch between regions 1 and 2: region 2's entry. -/
abbrev Wd7 : Dev nD → Valuation τ sig (Elt F) := fun c => StableHlo.after hostOps2 (Wd6 m ρ c)
abbrev Vr7 : (c : Dev nD) → (b : Ref sig .tc) → Buf (Elt F) ((c : Thread nD τ).loc b) := fun c b => Wd7 m ρ c b

/-- At region 2's exit: its arrays at what the write-backs leave (an input as entered, the output its blocks folded),
    every other buffer as entered. -/
def Wd8 (c : Dev nD) : Valuation τ sig (Elt F) :=
  Pipeline.withArrays spec2 c (Wd7 m ρ c) fun w => (dat2 (Vr7 m ρ) c).arrAt w cfg2.N
theorem Wd8_arr (c : Dev nD) (w : Fin cfg2.W) :
    Wd8 m ρ c (Proc.devRef .tc (Pipeline.arrRef spec2 w)) = (dat2 (Vr7 m ρ) c).arrAt w cfg2.N := by
  unfold Wd8; exact Pipeline.withArrays_arr spec2 launch2.win.arr_inj c _ _ w
theorem Wd8_of_ne (c : Dev nD) (b : Ref sig .tc) (hb : ∀ w, Pipeline.arrRef spec2 w ≠ b) :
    Wd8 m ρ c (Proc.devRef .tc b) = Wd7 m ρ c (Proc.devRef .tc b) := by
  unfold Wd8; exact Pipeline.withArrays_of_ne spec2 c _ _ b hb
/-- The same read at the core's references. -/
abbrev Vr8 : (c : Dev nD) → (b : Ref sig .tc) → Buf (Elt F) ((c : Thread nD τ).loc b) := fun c b => Wd8 m ρ c b
theorem hF2 (c : Dev nD) (w : Fin cfg2.W) : (dat2 (Vr7 m ρ) c).arrAt w cfg2.N = Vr8 m ρ c (Pipeline.arrRef spec2 w) :=
  (Wd8_arr m ρ c w).symm
theorem hrest2 (c : Dev nD) : ∀ b, b ∉ Finset.univ.image (Pipeline.arrRef spec2) → Vr8 m ρ c b = Vr7 m ρ c b :=
  fun b hb => Wd8_of_ne m ρ c b fun w e => hb (Finset.mem_image.mpr ⟨w, Finset.mem_univ _, e⟩)

/-- After the last stretch: the return. -/
abbrev Wd9 : Dev nD → Valuation τ sig (Elt F) := fun c => StableHlo.after hostOps3 (Wd8 m ρ c)

/-! ## The arguments end as launched: no stretch writes one, a region reads one through an input window or not at all -/

theorem Wd9_main_arg0 (c : Dev nD) : Wd9 m ρ c (Proc.devRef .tc main_arg0) = m ((c : Thread nD τ).loc main_arg0) :=
  calc Wd9 m ρ c (Proc.devRef .tc main_arg0)
    _ = Wd8 m ρ c (Proc.devRef .tc main_arg0) := StableHlo.after_of_writes_sub hostOps3 _ hostOps3_writes (by decide)
    _ = Wd7 m ρ c (Proc.devRef .tc main_arg0) := Wd8_of_ne m ρ c main_arg0 (by decide)
    _ = Wd6 m ρ c (Proc.devRef .tc main_arg0) := StableHlo.after_of_writes_sub hostOps2 _ hostOps2_writes (by decide)
    _ = Wd5 m ρ c (Proc.devRef .tc main_arg0) := Wd6_of_ne m ρ c main_arg0 (by decide)
    _ = Wd4 m ρ c (Proc.devRef .tc main_arg0) := StableHlo.after_of_writes_sub hostOps1 _ hostOps1_writes (by decide)
    _ = Wd3 m ρ c (Proc.devRef .tc main_arg0) := Wd4_of_ne m ρ c main_arg0 (by decide)
    _ = Wd2 m ρ c (Proc.devRef .tc main_arg0) := StableHlo.after_of_writes_sub hostOps0_2 _ hostOps0_2_writes (by decide)
    _ = Wd1 m ρ c (Proc.devRef .tc main_arg0) := StableHlo.after_of_writes_sub hostOps0_1 _ hostOps0_1_writes (by decide)
    _ = Wd0 m ρ c (Proc.devRef .tc main_arg0) := StableHlo.after_of_writes_sub hostOps0 _ hostOps0_writes (by decide)
    _ = m ((c : Thread nD τ).loc main_arg0) := rfl

theorem Wd9_main_arg1 (c : Dev nD) : Wd9 m ρ c (Proc.devRef .tc main_arg1) = m ((c : Thread nD τ).loc main_arg1) :=
  calc Wd9 m ρ c (Proc.devRef .tc main_arg1)
    _ = Wd8 m ρ c (Proc.devRef .tc main_arg1) := StableHlo.after_of_writes_sub hostOps3 _ hostOps3_writes (by decide)
    _ = Wd7 m ρ c (Proc.devRef .tc main_arg1) := Wd8_of_ne m ρ c main_arg1 (by decide)
    _ = Wd6 m ρ c (Proc.devRef .tc main_arg1) := StableHlo.after_of_writes_sub hostOps2 _ hostOps2_writes (by decide)
    _ = Wd5 m ρ c (Proc.devRef .tc main_arg1) := Wd6_of_ne m ρ c main_arg1 (by decide)
    _ = Wd4 m ρ c (Proc.devRef .tc main_arg1) := StableHlo.after_of_writes_sub hostOps1 _ hostOps1_writes (by decide)
    _ = Wd3 m ρ c (Proc.devRef .tc main_arg1) := Wd4_of_ne m ρ c main_arg1 (by decide)
    _ = Wd2 m ρ c (Proc.devRef .tc main_arg1) := StableHlo.after_of_writes_sub hostOps0_2 _ hostOps0_2_writes (by decide)
    _ = Wd1 m ρ c (Proc.devRef .tc main_arg1) := StableHlo.after_of_writes_sub hostOps0_1 _ hostOps0_1_writes (by decide)
    _ = Wd0 m ρ c (Proc.devRef .tc main_arg1) := StableHlo.after_of_writes_sub hostOps0 _ hostOps0_writes (by decide)
    _ = m ((c : Thread nD τ).loc main_arg1) := rfl

theorem Wd9_main_arg2 (c : Dev nD) : Wd9 m ρ c (Proc.devRef .tc main_arg2) = m ((c : Thread nD τ).loc main_arg2) :=
  calc Wd9 m ρ c (Proc.devRef .tc main_arg2)
    _ = Wd8 m ρ c (Proc.devRef .tc main_arg2) := StableHlo.after_of_writes_sub hostOps3 _ hostOps3_writes (by decide)
    _ = Wd7 m ρ c (Proc.devRef .tc main_arg2) := Wd8_of_ne m ρ c main_arg2 (by decide)
    _ = Wd6 m ρ c (Proc.devRef .tc main_arg2) := StableHlo.after_of_writes_sub hostOps2 _ hostOps2_writes (by decide)
    _ = Wd5 m ρ c (Proc.devRef .tc main_arg2) := Wd6_of_ne m ρ c main_arg2 (by decide)
    _ = Wd4 m ρ c (Proc.devRef .tc main_arg2) := StableHlo.after_of_writes_sub hostOps1 _ hostOps1_writes (by decide)
    _ = Wd3 m ρ c (Proc.devRef .tc main_arg2) := Wd4_of_ne m ρ c main_arg2 (by decide)
    _ = Wd2 m ρ c (Proc.devRef .tc main_arg2) := StableHlo.after_of_writes_sub hostOps0_2 _ hostOps0_2_writes (by decide)
    _ = Wd1 m ρ c (Proc.devRef .tc main_arg2) := StableHlo.after_of_writes_sub hostOps0_1 _ hostOps0_1_writes (by decide)
    _ = Wd0 m ρ c (Proc.devRef .tc main_arg2) := StableHlo.after_of_writes_sub hostOps0 _ hostOps0_writes (by decide)
    _ = m ((c : Thread nD τ).loc main_arg2) := rfl

theorem Wd9_main_arg3 (c : Dev nD) : Wd9 m ρ c (Proc.devRef .tc main_arg3) = m ((c : Thread nD τ).loc main_arg3) :=
  calc Wd9 m ρ c (Proc.devRef .tc main_arg3)
    _ = Wd8 m ρ c (Proc.devRef .tc main_arg3) := StableHlo.after_of_writes_sub hostOps3 _ hostOps3_writes (by decide)
    _ = Wd7 m ρ c (Proc.devRef .tc main_arg3) := Wd8_of_ne m ρ c main_arg3 (by decide)
    _ = Wd6 m ρ c (Proc.devRef .tc main_arg3) := StableHlo.after_of_writes_sub hostOps2 _ hostOps2_writes (by decide)
    _ = Wd5 m ρ c (Proc.devRef .tc main_arg3) := Wd6_of_ne m ρ c main_arg3 (by decide)
    _ = Wd4 m ρ c (Proc.devRef .tc main_arg3) := StableHlo.after_of_writes_sub hostOps1 _ hostOps1_writes (by decide)
    _ = Wd3 m ρ c (Proc.devRef .tc main_arg3) := Wd4_of_ne m ρ c main_arg3 (by decide)
    _ = Wd2 m ρ c (Proc.devRef .tc main_arg3) := StableHlo.after_of_writes_sub hostOps0_2 _ hostOps0_2_writes (by decide)
    _ = Wd1 m ρ c (Proc.devRef .tc main_arg3) := StableHlo.after_of_writes_sub hostOps0_1 _ hostOps0_1_writes (by decide)
    _ = Wd0 m ρ c (Proc.devRef .tc main_arg3) := StableHlo.after_of_writes_sub hostOps0 _ hostOps0_writes (by decide)
    _ = m ((c : Thread nD τ).loc main_arg3) := rfl

theorem Wd9_main_arg4 (c : Dev nD) : Wd9 m ρ c (Proc.devRef .tc main_arg4) = m ((c : Thread nD τ).loc main_arg4) :=
  calc Wd9 m ρ c (Proc.devRef .tc main_arg4)
    _ = Wd8 m ρ c (Proc.devRef .tc main_arg4) := StableHlo.after_of_writes_sub hostOps3 _ hostOps3_writes (by decide)
    _ = Wd7 m ρ c (Proc.devRef .tc main_arg4) := Wd8_of_ne m ρ c main_arg4 (by decide)
    _ = Wd6 m ρ c (Proc.devRef .tc main_arg4) := StableHlo.after_of_writes_sub hostOps2 _ hostOps2_writes (by decide)
    _ = Wd5 m ρ c (Proc.devRef .tc main_arg4) := Wd6_of_ne m ρ c main_arg4 (by decide)
    _ = Wd4 m ρ c (Proc.devRef .tc main_arg4) := StableHlo.after_of_writes_sub hostOps1 _ hostOps1_writes (by decide)
    _ = Wd3 m ρ c (Proc.devRef .tc main_arg4) := Wd4_of_ne m ρ c main_arg4 (by decide)
    _ = Wd2 m ρ c (Proc.devRef .tc main_arg4) := StableHlo.after_of_writes_sub hostOps0_2 _ hostOps0_2_writes (by decide)
    _ = Wd1 m ρ c (Proc.devRef .tc main_arg4) := StableHlo.after_of_writes_sub hostOps0_1 _ hostOps0_1_writes (by decide)
    _ = Wd0 m ρ c (Proc.devRef .tc main_arg4) := StableHlo.after_of_writes_sub hostOps0 _ hostOps0_writes (by decide)
    _ = m ((c : Thread nD τ).loc main_arg4) := rfl

theorem Wd9_main_arg5 (c : Dev nD) : Wd9 m ρ c (Proc.devRef .tc main_arg5) = m ((c : Thread nD τ).loc main_arg5) :=
  calc Wd9 m ρ c (Proc.devRef .tc main_arg5)
    _ = Wd8 m ρ c (Proc.devRef .tc main_arg5) := StableHlo.after_of_writes_sub hostOps3 _ hostOps3_writes (by decide)
    _ = Wd7 m ρ c (Proc.devRef .tc main_arg5) := Wd8_of_ne m ρ c main_arg5 (by decide)
    _ = Wd6 m ρ c (Proc.devRef .tc main_arg5) := StableHlo.after_of_writes_sub hostOps2 _ hostOps2_writes (by decide)
    _ = Wd5 m ρ c (Proc.devRef .tc main_arg5) := Wd6_of_ne m ρ c main_arg5 (by decide)
    _ = Wd4 m ρ c (Proc.devRef .tc main_arg5) := StableHlo.after_of_writes_sub hostOps1 _ hostOps1_writes (by decide)
    _ = Wd3 m ρ c (Proc.devRef .tc main_arg5) := Wd4_of_ne m ρ c main_arg5 (by decide)
    _ = Wd2 m ρ c (Proc.devRef .tc main_arg5) := StableHlo.after_of_writes_sub hostOps0_2 _ hostOps0_2_writes (by decide)
    _ = Wd1 m ρ c (Proc.devRef .tc main_arg5) := StableHlo.after_of_writes_sub hostOps0_1 _ hostOps0_1_writes (by decide)
    _ = Wd0 m ρ c (Proc.devRef .tc main_arg5) := StableHlo.after_of_writes_sub hostOps0 _ hostOps0_writes (by decide)
    _ = m ((c : Thread nD τ).loc main_arg5) := rfl

theorem Wd9_main_arg6 (c : Dev nD) : Wd9 m ρ c (Proc.devRef .tc main_arg6) = m ((c : Thread nD τ).loc main_arg6) :=
  calc Wd9 m ρ c (Proc.devRef .tc main_arg6)
    _ = Wd8 m ρ c (Proc.devRef .tc main_arg6) := StableHlo.after_of_writes_sub hostOps3 _ hostOps3_writes (by decide)
    _ = Wd7 m ρ c (Proc.devRef .tc main_arg6) := (Wd8_arr m ρ c 1).trans (((dat2 (Vr7 m ρ) c).arrAt_in 1 rfl _).trans (A_eq2 (Vr7 m ρ) c 1))
    _ = Wd6 m ρ c (Proc.devRef .tc main_arg6) := StableHlo.after_of_writes_sub hostOps2 _ hostOps2_writes (by decide)
    _ = Wd5 m ρ c (Proc.devRef .tc main_arg6) := Wd6_of_ne m ρ c main_arg6 (by decide)
    _ = Wd4 m ρ c (Proc.devRef .tc main_arg6) := StableHlo.after_of_writes_sub hostOps1 _ hostOps1_writes (by decide)
    _ = Wd3 m ρ c (Proc.devRef .tc main_arg6) := Wd4_of_ne m ρ c main_arg6 (by decide)
    _ = Wd2 m ρ c (Proc.devRef .tc main_arg6) := StableHlo.after_of_writes_sub hostOps0_2 _ hostOps0_2_writes (by decide)
    _ = Wd1 m ρ c (Proc.devRef .tc main_arg6) := StableHlo.after_of_writes_sub hostOps0_1 _ hostOps0_1_writes (by decide)
    _ = Wd0 m ρ c (Proc.devRef .tc main_arg6) := StableHlo.after_of_writes_sub hostOps0 _ hostOps0_writes (by decide)
    _ = m ((c : Thread nD τ).loc main_arg6) := rfl

theorem Wd9_main_arg7 (c : Dev nD) : Wd9 m ρ c (Proc.devRef .tc main_arg7) = m ((c : Thread nD τ).loc main_arg7) :=
  calc Wd9 m ρ c (Proc.devRef .tc main_arg7)
    _ = Wd8 m ρ c (Proc.devRef .tc main_arg7) := StableHlo.after_of_writes_sub hostOps3 _ hostOps3_writes (by decide)
    _ = Wd7 m ρ c (Proc.devRef .tc main_arg7) := (Wd8_arr m ρ c 2).trans (((dat2 (Vr7 m ρ) c).arrAt_in 2 rfl _).trans (A_eq2 (Vr7 m ρ) c 2))
    _ = Wd6 m ρ c (Proc.devRef .tc main_arg7) := StableHlo.after_of_writes_sub hostOps2 _ hostOps2_writes (by decide)
    _ = Wd5 m ρ c (Proc.devRef .tc main_arg7) := Wd6_of_ne m ρ c main_arg7 (by decide)
    _ = Wd4 m ρ c (Proc.devRef .tc main_arg7) := StableHlo.after_of_writes_sub hostOps1 _ hostOps1_writes (by decide)
    _ = Wd3 m ρ c (Proc.devRef .tc main_arg7) := Wd4_of_ne m ρ c main_arg7 (by decide)
    _ = Wd2 m ρ c (Proc.devRef .tc main_arg7) := StableHlo.after_of_writes_sub hostOps0_2 _ hostOps0_2_writes (by decide)
    _ = Wd1 m ρ c (Proc.devRef .tc main_arg7) := StableHlo.after_of_writes_sub hostOps0_1 _ hostOps0_1_writes (by decide)
    _ = Wd0 m ρ c (Proc.devRef .tc main_arg7) := StableHlo.after_of_writes_sub hostOps0 _ hostOps0_writes (by decide)
    _ = m ((c : Thread nD τ).loc main_arg7) := rfl

theorem Wd9_main_arg8 (c : Dev nD) : Wd9 m ρ c (Proc.devRef .tc main_arg8) = m ((c : Thread nD τ).loc main_arg8) :=
  calc Wd9 m ρ c (Proc.devRef .tc main_arg8)
    _ = Wd8 m ρ c (Proc.devRef .tc main_arg8) := StableHlo.after_of_writes_sub hostOps3 _ hostOps3_writes (by decide)
    _ = Wd7 m ρ c (Proc.devRef .tc main_arg8) := Wd8_of_ne m ρ c main_arg8 (by decide)
    _ = Wd6 m ρ c (Proc.devRef .tc main_arg8) := StableHlo.after_of_writes_sub hostOps2 _ hostOps2_writes (by decide)
    _ = Wd5 m ρ c (Proc.devRef .tc main_arg8) := Wd6_of_ne m ρ c main_arg8 (by decide)
    _ = Wd4 m ρ c (Proc.devRef .tc main_arg8) := StableHlo.after_of_writes_sub hostOps1 _ hostOps1_writes (by decide)
    _ = Wd3 m ρ c (Proc.devRef .tc main_arg8) := Wd4_of_ne m ρ c main_arg8 (by decide)
    _ = Wd2 m ρ c (Proc.devRef .tc main_arg8) := StableHlo.after_of_writes_sub hostOps0_2 _ hostOps0_2_writes (by decide)
    _ = Wd1 m ρ c (Proc.devRef .tc main_arg8) := StableHlo.after_of_writes_sub hostOps0_1 _ hostOps0_1_writes (by decide)
    _ = Wd0 m ρ c (Proc.devRef .tc main_arg8) := StableHlo.after_of_writes_sub hostOps0 _ hostOps0_writes (by decide)
    _ = m ((c : Thread nD τ).loc main_arg8) := rfl

theorem Wd9_main_arg9 (c : Dev nD) : Wd9 m ρ c (Proc.devRef .tc main_arg9) = m ((c : Thread nD τ).loc main_arg9) :=
  calc Wd9 m ρ c (Proc.devRef .tc main_arg9)
    _ = Wd8 m ρ c (Proc.devRef .tc main_arg9) := StableHlo.after_of_writes_sub hostOps3 _ hostOps3_writes (by decide)
    _ = Wd7 m ρ c (Proc.devRef .tc main_arg9) := Wd8_of_ne m ρ c main_arg9 (by decide)
    _ = Wd6 m ρ c (Proc.devRef .tc main_arg9) := StableHlo.after_of_writes_sub hostOps2 _ hostOps2_writes (by decide)
    _ = Wd5 m ρ c (Proc.devRef .tc main_arg9) := Wd6_of_ne m ρ c main_arg9 (by decide)
    _ = Wd4 m ρ c (Proc.devRef .tc main_arg9) := StableHlo.after_of_writes_sub hostOps1 _ hostOps1_writes (by decide)
    _ = Wd3 m ρ c (Proc.devRef .tc main_arg9) := Wd4_of_ne m ρ c main_arg9 (by decide)
    _ = Wd2 m ρ c (Proc.devRef .tc main_arg9) := StableHlo.after_of_writes_sub hostOps0_2 _ hostOps0_2_writes (by decide)
    _ = Wd1 m ρ c (Proc.devRef .tc main_arg9) := StableHlo.after_of_writes_sub hostOps0_1 _ hostOps0_1_writes (by decide)
    _ = Wd0 m ρ c (Proc.devRef .tc main_arg9) := StableHlo.after_of_writes_sub hostOps0 _ hostOps0_writes (by decide)
    _ = m ((c : Thread nD τ).loc main_arg9) := rfl

/-! ## The proof data family and the thread state -/

/-- No region has a prefetched table. -/
abbrev padm : (p : Fin 3) → (pcfgs (F := F) p).Adm := fun p => (cfgs p).toPCfg_adm
/-- Every region's proof data, each at its entry contents: a literal match on the region's number. -/
def pdats : (p : Fin 3) → (c : Dev nD) → Dat τ (Elt F) Unit ℕ (UR sig nD τ) ℕ (Pipeline.pin (pcfgs (F := F)) padm p) c
  | ⟨0, _⟩ => fun c => dat0 (Vr3 m ρ) c
  | ⟨1, _⟩ => fun c => dat1 (Vr5 m ρ) c
  | ⟨2, _⟩ => fun c => dat2 (Vr7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A stretch of host operations as a segment over the unscoped buffers, `Rst` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tlast (c : Dev nD) : sProp 𝕄 := iprop(StableHlo.held (c : Thread nD τ) (Pipeline.ucRefs τ sig) (Wd9 m ρ c) ∗ ∃ r, prngReg c r)

/-! ## The regions as segments -/

-- a library lemma stated over `pin pcs a p` unifies with the pinned configuration only when unification may unfold
-- plain definitions in a metavariable's type
set_option backward.isDefEq.respectTransparency.types false in
/-- Region 0 over the thread state: entered with every unscoped buffer at `Wd3`, left with them at `Wd4`. Its
    arrays are split out of the unscoped buffers and put back at what the write-backs leave; the generator register
    goes into the region's invariant and comes back; nothing is owed; the region has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr3 m ρ) c).loose
  hwaits := Pipeline.hwaits_of_owed_zero _ _ _ _ L lv 0 fun _ _ => rfl
  pre c := iprop(StableHlo.held (c : Thread nD τ) (Pipeline.ucRefs τ sig) (Wd3 m ρ c) ∗ Rst c)
  post c := iprop(StableHlo.held (c : Thread nD τ) (Pipeline.ucRefs τ sig) (Wd4 m ρ c) ∗ Rst c)
  X c := iprop(∃ r, prngReg c r)
  Y c := iprop(∃ r, prngReg c r)
  Z c := Pipeline.unscopedRest (Ix := Unit) (Name := ℕ) (U := UR sig nD τ) (Lvl := ℕ) spec0 c (Vr3 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (Vr3 m ρ c) (Vr4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 1 over the thread state: entered with every unscoped buffer at `Wd5`, left with them at `Wd6`. Its
    arrays are split out of the unscoped buffers and put back at what the write-backs leave; the generator register
    goes into the region's invariant and comes back; nothing is owed; the region has no semaphore of its own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr5 m ρ) c).loose
  hwaits := Pipeline.hwaits_of_owed_zero _ _ _ _ L lv 1 fun _ _ => rfl
  pre c := iprop(StableHlo.held (c : Thread nD τ) (Pipeline.ucRefs τ sig) (Wd5 m ρ c) ∗ Rst c)
  post c := iprop(StableHlo.held (c : Thread nD τ) (Pipeline.ucRefs τ sig) (Wd6 m ρ c) ∗ Rst c)
  X c := iprop(∃ r, prngReg c r)
  Y c := iprop(∃ r, prngReg c r)
  Z c := Pipeline.unscopedRest (Ix := Unit) (Name := ℕ) (U := UR sig nD τ) (Lvl := ℕ) spec1 c (Vr5 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (Vr5 m ρ c) (Vr6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 2 over the thread state: entered with every unscoped buffer at `Wd7`, left with them at `Wd8`. Its
    arrays are split out of the unscoped buffers and put back at what the write-backs leave; the generator register
    goes into the region's invariant and comes back; nothing is owed; the region has no semaphore of its own. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr7 m ρ) c).loose
  hwaits := Pipeline.hwaits_of_owed_zero _ _ _ _ L lv 2 fun _ _ => rfl
  pre c := iprop(StableHlo.held (c : Thread nD τ) (Pipeline.ucRefs τ sig) (Wd7 m ρ c) ∗ Rst c)
  post c := iprop(StableHlo.held (c : Thread nD τ) (Pipeline.ucRefs τ sig) (Wd8 m ρ c) ∗ Rst c)
  X c := iprop(∃ r, prngReg c r)
  Y c := iprop(∃ r, prngReg c r)
  Z c := Pipeline.unscopedRest (Ix := Unit) (Name := ℕ) (U := UR sig nD τ) (Lvl := ℕ) spec2 c (Vr7 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (Vr7 m ρ) c).Φ 0 from rfl]
    have h := hin2 (Vr7 m ρ) c
    unfold Pipeline.ΦA at h
    iintro ⟨Hp, -, Hr⟩
    iapply h
    isplitl [Hr]; · iexact Hr
    iexact Hp
  hout c := by
    rw [Pipeline.ownSems0_none, show (pdats m ρ 2 c).Φ (Fin.last _) = (dat2 (Vr7 m ρ) c).Φ (Fin.last cfg2.N) from rfl]
    have h := hout2 (Vr7 m ρ) c
    unfold Pipeline.ΦA at h
    iintro Hall
    ihave Hb := h $$ Hall
    icases Hb with ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (Vr7 m ρ c) (Vr8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) padm (pdats m ρ) () defs₀ 𝒱₀ L lv) :=
  [ .host (hseg hostOps0 hostOps0_sub hostOps0_fresh (Wd0 m ρ)),
    .host (hseg hostOps0_1 hostOps0_1_sub hostOps0_1_fresh (Wd1 m ρ)),
    .host (hseg hostOps0_2 hostOps0_2_sub hostOps0_2_fresh (Wd2 m ρ)),
    .region (reg0 m ρ),
    .host (hseg hostOps1 hostOps1_sub hostOps1_fresh (Wd4 m ρ)),
    .region (reg1 m ρ),
    .host (hseg hostOps2 hostOps2_sub hostOps2_fresh (Wd6 m ρ)),
    .region (reg2 m ρ),
    .host (hseg hostOps3 hostOps3_sub hostOps3_fresh (Wd8 m ρ)) ]

-- the launch theorem's implicit arguments are found by unifying its conclusion with this one, which takes unfolding
-- plain definitions in a metavariable's type
set_option backward.isDefEq.respectTransparency.types false in
/-- THE RUN. From any memory with zero counters every weakly fair execution of @main terminates, nothing faulting,
    and every final memory holds every unscoped buffer of every core at the last boundary's contents `Wd9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wd9 m ρ c b) :=
  Pipeline.θ_run_regions_kit (pcfgs (F := F)) padm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wd0 m ρ c) ∗ Rst c)) (Tₙ := Tlast m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (Wd9 m ρ c) ∗ Rst c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Wd0 m ρ c)
        from Pipeline.unscopedBufs_held c (Wd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd9 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wd9 m ρ c) s')
      isplitl [Hh] <;> iassumption)
    (hQ := fun s h => h)

/-- THE FRAME: every weakly fair execution of @main terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (Wd9_main_arg0 m ρ c),
     (h c _ (mem_uc main_arg1 (by decide))).trans (Wd9_main_arg1 m ρ c),
     (h c _ (mem_uc main_arg2 (by decide))).trans (Wd9_main_arg2 m ρ c),
     (h c _ (mem_uc main_arg3 (by decide))).trans (Wd9_main_arg3 m ρ c),
     (h c _ (mem_uc main_arg4 (by decide))).trans (Wd9_main_arg4 m ρ c),
     (h c _ (mem_uc main_arg5 (by decide))).trans (Wd9_main_arg5 m ρ c),
     (h c _ (mem_uc main_arg6 (by decide))).trans (Wd9_main_arg6 m ρ c),
     (h c _ (mem_uc main_arg7 (by decide))).trans (Wd9_main_arg7 m ρ c),
     (h c _ (mem_uc main_arg8 (by decide))).trans (Wd9_main_arg8 m ρ c),
     (h c _ (mem_uc main_arg9 (by decide))).trans (Wd9_main_arg9 m ρ c)⟩) (run_all m ρ)

/-- The result buffer ends at the last boundary's contents. -/
theorem result_at (r : PUnit × MemSt nD τ sig (Elt F)) (h : ∀ c : Dev nD, ∀ b ∈ Pipeline.ucRefs τ sig, r.2.mem (((c : Thread nD τ)).1, b) = Wd9 m ρ c b)
    (c : Dev nD) : r.2.mem ((c.tc : Thread nD τ).loc main_v75) = Wd9 m ρ c (Proc.devRef .tc main_v75) :=
  h c _ (mem_uc main_v75 (by decide))

end Cert.KernelIdeal.Hand

end
-- ==== Proof.Val01Pay.lean ====
/- The arithmetic of one aggregation block, read at an index, at the ideal values: the block's
   entry (r, q) is relu of the dot product of row r of the adjacency block with column q of the features,
   plus the bias at q. The contraction has one axis of extent 5000; the bias is a row broadcast over
   the block's 200 rows; relu is the maximum with zero. -/
import proofs.«137311_j86784109183564_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Idealize.ShloMosaic Idealize.ShloMosaic.ValueIdx
open Cert.KernelIdeal Cert.KernelIdeal.Gen
open scoped BigOperators

/-- The contraction of a [200, 5000] block with a [5000, 512] array: one contracted axis. -/
abbrev dotAX : DotDims S200x5000 S5000x512 S200x512 := dot_S200x5000_S5000x512_S200x512_1_0_0_1_n_n

/-! ## Where the contraction reads its operands -/

theorem lhs_row (i : S200x512.Idx) (k : dotAX.contr.Idx) : (dotAX.lhsIdx i k 0).val = (i 0).val := by
  unfold DotDims.lhsIdx
  rw [dif_neg (show ¬(0 : Fin S200x5000.rank) ∈ dotAX.lhsBatch by decide), dif_pos (show (0 : Fin S200x5000.rank) ∈ dotAX.lhsNonContracting by decide)]
  rfl
theorem lhs_col (i : S200x512.Idx) (k : dotAX.contr.Idx) : (dotAX.lhsIdx i k 1).val = (k ⟨0, by decide⟩).val :=
  dotAX.lhsIdx_val_of_single rfl i k
theorem rhs_row (i : S200x512.Idx) (k : dotAX.contr.Idx) : (dotAX.rhsIdx i k 0).val = (k ⟨0, by decide⟩).val :=
  dotAX.rhsIdx_val_of_single rfl i k
theorem rhs_col (i : S200x512.Idx) (k : dotAX.contr.Idx) : (dotAX.rhsIdx i k 1).val = (i 1).val := by
  unfold DotDims.rhsIdx
  rw [dif_neg (show ¬(1 : Fin S5000x512.rank) ∈ dotAX.rhsBatch by decide), dif_pos (show (1 : Fin S5000x512.rank) ∈ dotAX.rhsNonContracting by decide)]
  rfl

/-- The matrix product into a zero accumulator, at entry (r, q): the sum over the contracted index. -/
theorem mm_apply (x0 : FVec Ideal S200x5000 .bf16) (x1 : FVec Ideal S5000x512 .bf16) (r : Fin 200) (q : Fin 512) :
    matmul dotAX none x0 x1 (constant (F := Ideal) S200x512 .f32 0x00000000#32) (ix2 r q)
      = ∑ k : Fin 5000, x0 (ix2 r k) * x1 (ix2 k q) := by
  show FloatOps.matmul dotAX none x0 x1 (constant (F := Ideal) S200x512 .f32 0x00000000#32) (ix2 r q) = _
  rw [Ideal.matmul_constant_zero_apply, ← Equiv.sum_comp (contrEquiv1 dotAX 5000 rfl rfl).symm]
  refine Finset.sum_congr rfl fun k _ => ?_
  have hk := contrEquiv1_symm_val dotAX 5000 rfl rfl k
  have el : dotAX.lhsIdx (ix2 r q) ((contrEquiv1 dotAX 5000 rfl rfl).symm k) = ix2 r k := funext fun a => Fin.ext (by
    match a with
    | ⟨0, _⟩ => exact lhs_row _ _
    | ⟨1, _⟩ => exact (lhs_col _ _).trans hk)
  have er : dotAX.rhsIdx (ix2 r q) ((contrEquiv1 dotAX 5000 rfl rfl).symm k) = ix2 k q := funext fun a => Fin.ext (by
    match a with
    | ⟨0, _⟩ => exact (rhs_row _ _).trans hk
    | ⟨1, _⟩ => exact rhs_col _ _)
  rw [el, er]

/-- The bias, a vector of 512, laid as one row and broadcast over the rows: at (r, q) it is the bias at q. -/
theorem bias_apply (x2 : FVec Ideal S512 .f32) (h1 : S512.ShapeCasts S1x512) (h2 : S1x512.Broadcasts S200x512)
    (r : Fin 200) (q : Fin 512) :
    broadcastTo S200x512 (shapeCast S1x512 x2 h1) h2 (ix2 r q) = x2 (ix1 q) := by
  rw [broadcastTo_1b_ab_apply, shapeCast_a_1a_apply]

/-- Region 0's payload at entry (r, q). -/
theorem pay0_apply (x0 : FVec Ideal S200x5000 .bf16) (x1 : FVec Ideal S5000x512 .bf16) (x2 : FVec Ideal S512 .f32)
    (r : Fin 200) (q : Fin 512) :
    k0_pay1 (F := Ideal) x0 x1 x2 (ix2 r q) = max ((∑ k : Fin 5000, x0 (ix2 r k) * x1 (ix2 k q)) + x2 (ix1 q)) 0 := by
  unfold k0_pay1
  show max (matmul dotAX none (shapeCast S200x5000 x0 _) (shapeCast S5000x512 x1 _) (constant (F := Ideal) S200x512 .f32 0x00000000#32) (ix2 r q)
      + broadcastTo S200x512 (shapeCast S1x512 x2 _) _ (ix2 r q)) (Ideal.ofBits .f32 0x00000000#32) = _
  rw [shapeCast_self, shapeCast_self, mm_apply, bias_apply, Ideal.ofBits_zero_f32]

/-- Region 1's payload at entry (r, q): the same arithmetic. -/
theorem pay1_apply (x0 : FVec Ideal S200x5000 .bf16) (x1 : FVec Ideal S5000x512 .bf16) (x2 : FVec Ideal S512 .f32)
    (r : Fin 200) (q : Fin 512) :
    k1_pay1 (F := Ideal) x0 x1 x2 (ix2 r q) = max ((∑ k : Fin 5000, x0 (ix2 r k) * x1 (ix2 k q)) + x2 (ix1 q)) 0 := by
  unfold k1_pay1
  show max (matmul dotAX none (shapeCast S200x5000 x0 _) (shapeCast S5000x512 x1 _) (constant (F := Ideal) S200x512 .f32 0x00000000#32) (ix2 r q)
      + broadcastTo S200x512 (shapeCast S1x512 x2 _) _ (ix2 r q)) (Ideal.ofBits .f32 0x00000000#32) = _
  rw [shapeCast_self, shapeCast_self, mm_apply, bias_apply, Ideal.ofBits_zero_f32]

end Cert.KernelIdeal.HandValue

end
-- ==== Proof.Val01.lean ====
/- The value of each aggregation region's output array after the region, at the ideal values, as one
   function of the three arrays the region reads: entry (p, q) of the output is
   relu(∑ k, A (p, k) · X (k, q) + b q). Point t of the grid computes rows 200 t … 200 t + 199 from the
   same rows of A and the whole of X and b, and the 25 row blocks tile the 5000 rows: the point that
   covers row p is p / 200. -/
import proofs.«137311_j86784109183564_2_alg».proof.Proof.KI.Reg0
import proofs.«137311_j86784109183564_2_alg».proof.Proof.KI.Reg1
import proofs.«137311_j86784109183564_2_alg».proof.Proof.Val01Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open scoped BigOperators

variable (V : (c : Dev nD) → (b : Ref sig .tc) → Buf (Elt Ideal) ((c : Thread nD τ).loc b))

/-! ## The aggregation as one function of its three arrays -/

/-- relu(A · X + b), entry by entry: A the normalised adjacency, X the features, b the bias. -/
def agg (A : FVec Ideal S5000x5000 .bf16) (X : FVec Ideal S5000x512 .bf16) (b : FVec Ideal S512 .f32) : FVec Ideal S5000x512 .f32 :=
  fun i => max ((∑ k : Fin 5000, A (ix2 (⟨(i 0).val, (i 0).isLt⟩ : Fin 5000) k) * X (ix2 k (⟨(i 1).val, (i 1).isLt⟩ : Fin 512)))
    + b (ix1 (⟨(i 1).val, (i 1).isLt⟩ : Fin 512))) 0

theorem agg_apply (A : FVec Ideal S5000x5000 .bf16) (X : FVec Ideal S5000x512 .bf16) (b : FVec Ideal S512 .f32) (p : Fin 5000) (q : Fin 512) :
    agg A X b (ix2 p q) = max ((∑ k : Fin 5000, A (ix2 p k) * X (ix2 k q)) + b (ix1 q)) 0 := rfl

theorem agg_hz2 : (![0, 0] : Fin 2 → Nat) = fun _ => 0 := funext fun a => by fin_cases a <;> rfl
theorem agg_hz1 : (![0] : Fin 1 → Nat) = fun _ => 0 := funext fun a => by fin_cases a <;> rfl

/-- A block of 200 rows of the aggregation from the blocks a point holds: if x0 is rows T·200 … of A,
    x1 is X and x2 is b, the payload at (r, q) is the aggregation at (T·200 + r, q). -/
theorem blk0_eq (A : FVec Ideal S5000x5000 .bf16) (X : FVec Ideal S5000x512 .bf16) (b : FVec Ideal S512 .f32)
    (x0 : FVec Ideal S200x5000 .bf16) (x1 : FVec Ideal S5000x512 .bf16) (x2 : FVec Ideal S512 .f32) (T : Nat)
    (h0 : ∀ (r : Fin 200) (k : Fin 5000) (p : Fin 5000), p.val = T * 200 + r.val → x0 (ix2 r k) = A (ix2 p k))
    (h1 : ∀ (k : Fin 5000) (q : Fin 512), x1 (ix2 k q) = X (ix2 k q))
    (h2 : ∀ q : Fin 512, x2 (ix1 q) = b (ix1 q))
    (r : Fin 200) (q : Fin 512) (p : Fin 5000) (hp : p.val = T * 200 + r.val) :
    k0_pay1 (F := Ideal) x0 x1 x2 (ix2 r q) = agg A X b (ix2 p q) := by
  rw [pay0_apply, agg_apply, h2 q]
  refine congrArg (fun s => max (s + b (ix1 q)) 0) (Finset.sum_congr rfl fun k _ => ?_)
  rw [h0 r k p hp, h1 k q]

theorem blk1_eq (A : FVec Ideal S5000x5000 .bf16) (X : FVec Ideal S5000x512 .bf16) (b : FVec Ideal S512 .f32)
    (x0 : FVec Ideal S200x5000 .bf16) (x1 : FVec Ideal S5000x512 .bf16) (x2 : FVec Ideal S512 .f32) (T : Nat)
    (h0 : ∀ (r : Fin 200) (k : Fin 5000) (p : Fin 5000), p.val = T * 200 + r.val → x0 (ix2 r k) = A (ix2 p k))
    (h1 : ∀ (k : Fin 5000) (q : Fin 512), x1 (ix2 k q) = X (ix2 k q))
    (h2 : ∀ q : Fin 512, x2 (ix1 q) = b (ix1 q))
    (r : Fin 200) (q : Fin 512) (p : Fin 5000) (hp : p.val = T * 200 + r.val) :
    k1_pay1 (F := Ideal) x0 x1 x2 (ix2 r q) = agg A X b (ix2 p q) := by
  rw [pay1_apply, agg_apply, h2 q]
  refine congrArg (fun s => max (s + b (ix1 q)) 0) (Finset.sum_congr rfl fun k _ => ?_)
  rw [h0 r k p hp, h1 k q]

/-! ## Region 0 -/

/-- The block indices over the grid: the adjacency's and the output's row block is the point, every
    other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- What point t writes back is block t of the aggregation of the arrays as the region finds them. -/
theorem flushed0_eq (c : Dev nD) (t : Fin cfg0.N) :
    (dat0 (F := Ideal) V c).flushed 3 t
      = ((cfg0.win 3).blk t).view.read (Elt Ideal) (agg (V c main_v50) (V c main_v55) (V c main_v58)) := by
  show (cfg0.win 3).cut (grid0.coords t) ((dat0 V c).after 3 t) = _
  rw [after0_3]
  unfold out0_3
  rw [View.canon_unit_zero agg_hz2]
  simp only [View.ld_unit_zero (S := S200x5000) agg_hz2, View.ld_unit_zero (S := S5000x512) agg_hz2, View.ld_unit_zero (S := S512) agg_hz1]
  obtain ⟨e00, e01, e10, e11, e2, e30, e31⟩ := idx_facts0 t
  have hN : t.val < 25 := lt_of_lt_of_eq t.isLt N_0
  refine funext fun (j : S200x512.Idx) => ?_
  obtain ⟨r, q, rfl⟩ : ∃ (r : Fin 200) (q : Fin 512), j = ix2 r q := ⟨j 0, j 1, eq_ix2 j⟩
  show k0_pay1 (F := Ideal) (iblk0 V c 0 t) (iblk0 V c 1 t) (iblk0 V c 2 t) (ix2 r q)
    = agg (V c main_v50) (V c main_v55) (V c main_v58) (((cfg0.win 3).blk t).view.emb (ix2 r q))
  have hemb : ((cfg0.win 3).blk t).view.emb (ix2 r q) = ix2 (⟨t.val * 200 + r.val, by omega⟩ : Fin 5000) q := by
    funext a; apply Fin.ext
    match a with
    | ⟨0, _⟩ => show win0_3.index t (0 : Fin 2) * 200 + 1 * r.val = t.val * 200 + r.val; omega
    | ⟨1, _⟩ => show win0_3.index t (1 : Fin 2) * 512 + 1 * q.val = q.val; omega
  rw [hemb]
  refine blk0_eq _ _ _ _ _ _ t.val ?_ ?_ ?_ r q _ rfl
  · intro r k p hp
    show V c main_v50 (((cfg0.win 0).blk t).view.emb (ix2 r k)) = V c main_v50 (ix2 p k)
    have h : ((cfg0.win 0).blk t).view.emb (ix2 r k) = ix2 p k := by
      funext a; apply Fin.ext
      match a with
      | ⟨0, _⟩ => show win0_0.index t (0 : Fin 2) * 200 + 1 * r.val = p.val; omega
      | ⟨1, _⟩ => show win0_0.index t (1 : Fin 2) * 5000 + 1 * k.val = k.val; omega
    rw [h]
  · intro k q
    show V c main_v55 (((cfg0.win 1).blk t).view.emb (ix2 k q)) = V c main_v55 (ix2 k q)
    have h : ((cfg0.win 1).blk t).view.emb (ix2 k q) = ix2 k q := by
      funext a; apply Fin.ext
      match a with
      | ⟨0, _⟩ => show win0_1.index t (0 : Fin 2) * 5000 + 1 * k.val = k.val; omega
      | ⟨1, _⟩ => show win0_1.index t (1 : Fin 2) * 512 + 1 * q.val = q.val; omega
    rw [h]
  · intro q
    show V c main_v58 (((cfg0.win 2).blk t).view.emb (ix1 q)) = V c main_v58 (ix1 q)
    have h : ((cfg0.win 2).blk t).view.emb (ix1 q) = ix1 q := by
      funext a; apply Fin.ext
      match a with
      | ⟨0, _⟩ => show win0_2.index t (0 : Fin 1) * 512 + 1 * q.val = q.val; omega
    rw [h]

/-- An index of the output array is in point t's block iff each coordinate is in the block's range. -/
theorem mem_blk0 (t : Fin cfg0.N) (i : S5000x512.Idx) :
    i ∈ ((cfg0.win 3).blk t).view.set ↔ ∀ a : Fin 2, win0_3.index t a * S200x512.size a ≤ (i a).val ∧ (i a).val < win0_3.index t a * S200x512.size a + S200x512.size a := by
  show i ∈ ((View.whole main_v59).slice (win0_3.rect t)).set ↔ _
  rw [View.set_slice_whole, Rect.mem_set_unit]
  exact Iff.rfl

/-- The 25 row blocks cover the output array: row p lies in the block of point p / 200. -/
theorem cover0 (i : S5000x512.Idx) : ∃ t : Fin cfg0.N, (cfg0.win 3).flush t = true ∧ i ∈ ((cfg0.win 3).blk t).view.set := by
  have hi0 : (i 0).val < 5000 := (i 0).isLt
  have hi1 : (i 1).val < 512 := (i 1).isLt
  obtain ⟨t, ht⟩ : ∃ t : Fin cfg0.N, t.val = (i 0).val / 200 :=
    ⟨⟨(i 0).val / 200, lt_of_lt_of_eq (show (i 0).val / 200 < 25 by omega) N_0.symm⟩, rfl⟩
  obtain ⟨-, -, -, -, -, e30, e31⟩ := idx_facts0 t
  refine ⟨t, flush0_3 t, ?_⟩
  rw [mem_blk0]
  intro a
  match a with
  | ⟨0, _⟩ => show win0_3.index t (0 : Fin 2) * 200 ≤ (i 0).val ∧ (i 0).val < win0_3.index t (0 : Fin 2) * 200 + 200; omega
  | ⟨1, _⟩ => show win0_3.index t (1 : Fin 2) * 512 ≤ (i 1).val ∧ (i 1).val < win0_3.index t (1 : Fin 2) * 512 + 512; omega

/-- The output array after region 0: the aggregation of the three arrays the region reads. -/
theorem arr0_out (c : Dev nD) :
    (dat0 (F := Ideal) V c).arrAt 3 cfg0.N = agg (V c main_v50) (V c main_v55) (V c main_v58) :=
  (dat0 V c).arrAt_eq_of_cover 3 (agg (V c main_v50) (V c main_v55) (V c main_v58)) (fun t _ => flushed0_eq V c t) cover0

/-! ## Region 1 -/

/-- The block indices over the grid: the adjacency's and the output's row block is the point, every
    other block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- What point t writes back is block t of the aggregation of the arrays as the region finds them. -/
theorem flushed1_eq (c : Dev nD) (t : Fin cfg1.N) :
    (dat1 (F := Ideal) V c).flushed 3 t
      = ((cfg1.win 3).blk t).view.read (Elt Ideal) (agg (V c main_v50) (V c main_v63) (V c main_v66)) := by
  show (cfg1.win 3).cut (grid1.coords t) ((dat1 V c).after 3 t) = _
  rw [after1_3]
  unfold out1_3
  rw [View.canon_unit_zero agg_hz2]
  simp only [View.ld_unit_zero (S := S200x5000) agg_hz2, View.ld_unit_zero (S := S5000x512) agg_hz2, View.ld_unit_zero (S := S512) agg_hz1]
  obtain ⟨e00, e01, e10, e11, e2, e30, e31⟩ := idx_facts1 t
  have hN : t.val < 25 := lt_of_lt_of_eq t.isLt N_1
  refine funext fun (j : S200x512.Idx) => ?_
  obtain ⟨r, q, rfl⟩ : ∃ (r : Fin 200) (q : Fin 512), j = ix2 r q := ⟨j 0, j 1, eq_ix2 j⟩
  show k1_pay1 (F := Ideal) (iblk1 V c 0 t) (iblk1 V c 1 t) (iblk1 V c 2 t) (ix2 r q)
    = agg (V c main_v50) (V c main_v63) (V c main_v66) (((cfg1.win 3).blk t).view.emb (ix2 r q))
  have hemb : ((cfg1.win 3).blk t).view.emb (ix2 r q) = ix2 (⟨t.val * 200 + r.val, by omega⟩ : Fin 5000) q := by
    funext a; apply Fin.ext
    match a with
    | ⟨0, _⟩ => show win1_3.index t (0 : Fin 2) * 200 + 1 * r.val = t.val * 200 + r.val; omega
    | ⟨1, _⟩ => show win1_3.index t (1 : Fin 2) * 512 + 1 * q.val = q.val; omega
  rw [hemb]
  refine blk1_eq _ _ _ _ _ _ t.val ?_ ?_ ?_ r q _ rfl
  · intro r k p hp
    show V c main_v50 (((cfg1.win 0).blk t).view.emb (ix2 r k)) = V c main_v50 (ix2 p k)
    have h : ((cfg1.win 0).blk t).view.emb (ix2 r k) = ix2 p k := by
      funext a; apply Fin.ext
      match a with
      | ⟨0, _⟩ => show win1_0.index t (0 : Fin 2) * 200 + 1 * r.val = p.val; omega
      | ⟨1, _⟩ => show win1_0.index t (1 : Fin 2) * 5000 + 1 * k.val = k.val; omega
    rw [h]
  · intro k q
    show V c main_v63 (((cfg1.win 1).blk t).view.emb (ix2 k q)) = V c main_v63 (ix2 k q)
    have h : ((cfg1.win 1).blk t).view.emb (ix2 k q) = ix2 k q := by
      funext a; apply Fin.ext
      match a with
      | ⟨0, _⟩ => show win1_1.index t (0 : Fin 2) * 5000 + 1 * k.val = k.val; omega
      | ⟨1, _⟩ => show win1_1.index t (1 : Fin 2) * 512 + 1 * q.val = q.val; omega
    rw [h]
  · intro q
    show V c main_v66 (((cfg1.win 2).blk t).view.emb (ix1 q)) = V c main_v66 (ix1 q)
    have h : ((cfg1.win 2).blk t).view.emb (ix1 q) = ix1 q := by
      funext a; apply Fin.ext
      match a with
      | ⟨0, _⟩ => show win1_2.index t (0 : Fin 1) * 512 + 1 * q.val = q.val; omega
    rw [h]

/-- An index of the output array is in point t's block iff each coordinate is in the block's range. -/
theorem mem_blk1 (t : Fin cfg1.N) (i : S5000x512.Idx) :
    i ∈ ((cfg1.win 3).blk t).view.set ↔ ∀ a : Fin 2, win1_3.index t a * S200x512.size a ≤ (i a).val ∧ (i a).val < win1_3.index t a * S200x512.size a + S200x512.size a := by
  show i ∈ ((View.whole main_v67).slice (win1_3.rect t)).set ↔ _
  rw [View.set_slice_whole, Rect.mem_set_unit]
  exact Iff.rfl

/-- The 25 row blocks cover the output array: row p lies in the block of point p / 200. -/
theorem cover1 (i : S5000x512.Idx) : ∃ t : Fin cfg1.N, (cfg1.win 3).flush t = true ∧ i ∈ ((cfg1.win 3).blk t).view.set := by
  have hi0 : (i 0).val < 5000 := (i 0).isLt
  have hi1 : (i 1).val < 512 := (i 1).isLt
  obtain ⟨t, ht⟩ : ∃ t : Fin cfg1.N, t.val = (i 0).val / 200 :=
    ⟨⟨(i 0).val / 200, lt_of_lt_of_eq (show (i 0).val / 200 < 25 by omega) N_1.symm⟩, rfl⟩
  obtain ⟨-, -, -, -, -, e30, e31⟩ := idx_facts1 t
  refine ⟨t, flush1_3 t, ?_⟩
  rw [mem_blk1]
  intro a
  match a with
  | ⟨0, _⟩ => show win1_3.index t (0 : Fin 2) * 200 ≤ (i 0).val ∧ (i 0).val < win1_3.index t (0 : Fin 2) * 200 + 200; omega
  | ⟨1, _⟩ => show win1_3.index t (1 : Fin 2) * 512 ≤ (i 1).val ∧ (i 1).val < win1_3.index t (1 : Fin 2) * 512 + 512; omega

/-- The output array after region 1: the aggregation of the three arrays the region reads. -/
theorem arr1_out (c : Dev nD) :
    (dat1 (F := Ideal) V c).arrAt 3 cfg1.N = agg (V c main_v50) (V c main_v63) (V c main_v66) :=
  (dat1 V c).arrAt_eq_of_cover 3 (agg (V c main_v50) (V c main_v63) (V c main_v66)) (fun t _ => flushed1_eq V c t) cover1

end Cert.KernelIdeal.HandValue

end
-- ==== Proof.Val2Pay.lean ====
import proofs.«137311_j86784109183564_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandValue

open Cert.KernelIdeal Cert.KernelIdeal.Gen
open Idealize.ShloMosaic Idealize.ShloMosaic.ValueIdx

/-! ## The body's three payloads read at an index, over the extended reals

At the ideal values a change of float format is the identity and a matrix product into a zero accumulator is the
plain sum of products over the contraction index, so the three payloads are: zero; the accumulator plus the sum over
the 3200 columns of this point's feature block times the 3200 rows of its weight block; and the accumulator plus the
bias, clamped below at zero. -/

/-- The reset stores zero everywhere. -/
theorem k2_pay1_apply (r : Fin 16) (q : Fin 256) : k2_pay1 (F := Ideal) (ix2 r q) = 0 := by
  unfold k2_pay1
  refine (congrFun (shapeCast_self _ _) _).trans ?_
  exact Ideal.ofBits_zero_f32

/-- The product's left operand index at output `(r, q)` and contraction coordinate `k` is `(r, k)`: -/
theorem lhs_k2_pay2_0 (i : S16x256.Idx) (p : dot_S16x3200_S3200x256_S16x256_1_0_0_1_n_n.contr.Idx) : (dot_S16x3200_S3200x256_S16x256_1_0_0_1_n_n.lhsIdx i p 0).val = (i 0).val := by
  unfold DotDims.lhsIdx
  rw [dif_neg (show ¬(0 : Fin S16x3200.rank) ∈ dot_S16x3200_S3200x256_S16x256_1_0_0_1_n_n.lhsBatch by decide), dif_pos (show (0 : Fin S16x3200.rank) ∈ dot_S16x3200_S3200x256_S16x256_1_0_0_1_n_n.lhsNonContracting by decide)]
  rfl
theorem lhs_k2_pay2_1 (i : S16x256.Idx) (p : dot_S16x3200_S3200x256_S16x256_1_0_0_1_n_n.contr.Idx) : (dot_S16x3200_S3200x256_S16x256_1_0_0_1_n_n.lhsIdx i p 1).val = (p ⟨0, by decide⟩).val :=
  dot_S16x3200_S3200x256_S16x256_1_0_0_1_n_n.lhsIdx_val_of_single rfl i p
/-- and the right operand's is `(k, q)`. -/
theorem rhs_k2_pay2_0 (i : S16x256.Idx) (p : dot_S16x3200_S3200x256_S16x256_1_0_0_1_n_n.contr.Idx) : (dot_S16x3200_S3200x256_S16x256_1_0_0_1_n_n.rhsIdx i p 0).val = (p ⟨0, by decide⟩).val :=
  dot_S16x3200_S3200x256_S16x256_1_0_0_1_n_n.rhsIdx_val_of_single rfl i p
theorem rhs_k2_pay2_1 (i : S16x256.Idx) (p : dot_S16x3200_S3200x256_S16x256_1_0_0_1_n_n.contr.Idx) : (dot_S16x3200_S3200x256_S16x256_1_0_0_1_n_n.rhsIdx i p 1).val = (i 1).val := by
  unfold DotDims.rhsIdx
  rw [dif_neg (show ¬(1 : Fin S3200x256.rank) ∈ dot_S16x3200_S3200x256_S16x256_1_0_0_1_n_n.rhsBatch by decide), dif_pos (show (1 : Fin S3200x256.rank) ∈ dot_S16x3200_S3200x256_S16x256_1_0_0_1_n_n.rhsNonContracting by decide)]
  rfl

/-- The accumulation: what the accumulator held plus this point's 3200 products. -/
theorem k2_pay2_apply (v3 : FVec Ideal S16x3200 .f32) (v6 : FVec Ideal S3200x256 .f32) (v8 : FVec Ideal S16x256 .f32)
    (r : Fin 16) (q : Fin 256) :
    k2_pay2 (F := Ideal) v3 v6 v8 (ix2 r q) = v8 (ix2 r q) + ∑ k : Fin 3200, v3 (ix2 r k) * v6 (ix2 k q) := by
  unfold k2_pay2
  refine (congrFun (shapeCast_self _ _) _).trans ?_
  refine congrArg (v8 (ix2 r q) + ·) ?_
  refine (Ideal.matmul_constant_zero_apply dot_S16x3200_S3200x256_S16x256_1_0_0_1_n_n none _ _ (ix2 r q)).trans ?_
  rw [← Equiv.sum_comp (contrEquiv1 dot_S16x3200_S3200x256_S16x256_1_0_0_1_n_n 3200 rfl rfl).symm]
  refine Finset.sum_congr rfl fun k _ => ?_
  have hk := contrEquiv1_symm_val dot_S16x3200_S3200x256_S16x256_1_0_0_1_n_n 3200 rfl rfl k
  have el : dot_S16x3200_S3200x256_S16x256_1_0_0_1_n_n.lhsIdx (ix2 r q) ((contrEquiv1 dot_S16x3200_S3200x256_S16x256_1_0_0_1_n_n 3200 rfl rfl).symm k) = ix2 r k := funext fun a => Fin.ext (by
    match a with
    | ⟨0, _⟩ => exact lhs_k2_pay2_0 _ _
    | ⟨1, _⟩ => exact (lhs_k2_pay2_1 _ _).trans hk)
  have er : dot_S16x3200_S3200x256_S16x256_1_0_0_1_n_n.rhsIdx (ix2 r q) ((contrEquiv1 dot_S16x3200_S3200x256_S16x256_1_0_0_1_n_n 3200 rfl rfl).symm k) = ix2 k q := funext fun a => Fin.ext (by
    match a with
    | ⟨0, _⟩ => exact (rhs_k2_pay2_0 _ _).trans hk
    | ⟨1, _⟩ => exact rhs_k2_pay2_1 _ _)
  show shapeCast S16x3200 v3 shapeCasts_S16x3200_S16x3200 (dot_S16x3200_S3200x256_S16x256_1_0_0_1_n_n.lhsIdx (ix2 r q) ((contrEquiv1 dot_S16x3200_S3200x256_S16x256_1_0_0_1_n_n 3200 rfl rfl).symm k))
      * v6 (dot_S16x3200_S3200x256_S16x256_1_0_0_1_n_n.rhsIdx (ix2 r q) ((contrEquiv1 dot_S16x3200_S3200x256_S16x256_1_0_0_1_n_n 3200 rfl rfl).symm k)) = _
  rw [el, er, shapeCast_self]

/-- The output: the accumulator plus the bias of its column, clamped below at zero. -/
theorem k2_pay3_apply (v17 : FVec Ideal S16x256 .f32) (v18 : FVec Ideal S256 .f32) (r : Fin 16) (q : Fin 256) :
    k2_pay3 (F := Ideal) v17 v18 (ix2 r q) = max (v17 (ix2 r q) + v18 (ix1 q)) 0 := by
  unfold k2_pay3
  show max (v17 (ix2 r q) + broadcastTo S16x256 (shapeCast S1x256 v18 shapeCasts_S256_S1x256) broadcasts_S1x256_S16x256 (ix2 r q))
      (Ideal.ofBits .f32 0x00000000#32) = _
  rw [Ideal.ofBits_zero_f32]
  refine congrArg (fun z => max (v17 (ix2 r q) + z) 0) ?_
  exact (broadcastTo_1b_ab_apply _ _ r q).trans (shapeCast_a_1a_apply _ _ 0 q)

end Cert.KernelIdeal.HandValue

end
-- ==== Proof.Val2Pieces.lean ====
import proofs.«137311_j86784109183564_2_alg».proof.Proof.KI.Reg2
import Idealize.ShloMosaic.Lib.Pipeline.Value
import Idealize.ShloMosaic.Lib.ValueIdx
import Idealize.ShloMosaic.Lib.Tactic

noncomputable section

open scoped BigOperators

namespace Cert.KernelIdeal.HandValue

open Cert.KernelIdeal Cert.KernelIdeal.Gen
open Cert.KernelIdeal.Hand
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]

/-! ## What each case's stores leave, as the payloads of the point's blocks

Every load and store of the body goes through the whole of its buffer, so what a case leaves in a buffer is the
payload of its last store there, read at the loaded blocks themselves. -/

theorem r2_hz2 : (![0, 0] : Fin 2 → Nat) = fun _ => 0 := funext fun a => by fin_cases a <;> rfl
theorem r2_hz1 : (![0] : Fin 1 → Nat) = fun _ => 0 := funext fun a => by fin_cases a; rfl

/-- Case A leaves in the accumulator the zeros plus this point's product (the zeros it has just stored, read back). -/
theorem sout2_A_eq (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : cond2_0 i) (hc1 : ¬cond2_1 i)
    (x0 : Vec F S16x3200 .f32) (x1 : Vec F S3200x256 .f32) (x2 : Vec F S256 .f32) :
    sout2_A_0 c i arg2 harg2 arg3 harg3 arg4 harg4 arg5 harg5 arg6 harg6 hc0 hc1 x0 x1 x2 = k2_pay2 x0 x1 (k2_pay1 (F := F)) := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  try sl_unfold_words
  rw [View.canon_cons_unit_zero (S := S16x256) r2_hz2, View.readCov_unit_zero (S := S16x256) _ r2_hz2]
  simp only [View.readAt_eq_ld, harg2.read_unread, harg3.read_unread, View.ld_unit_zero (S := S16x3200) r2_hz2, View.ld_unit_zero (S := S3200x256) r2_hz2]

/-- Case B leaves in the accumulator what it held plus this point's product. -/
theorem sout2_B_eq (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : ¬cond2_1 i)
    (x0 : Vec F S16x3200 .f32) (x1 : Vec F S3200x256 .f32) (x2 : Vec F S256 .f32) (xs0 : Vec F S16x256 .f32) :
    sout2_B_0 c i arg2 harg2 arg3 harg3 arg4 harg4 arg5 harg5 arg6 harg6 hc0 hc1 x0 x1 x2 xs0 = k2_pay2 x0 x1 xs0 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  try sl_unfold_words
  rw [View.canon_unit_zero (S := S16x256) r2_hz2]
  simp only [View.readAt_eq_ld, harg2.read_unread, harg3.read_unread, harg6.read_unread, View.ld_unit_zero (S := S16x3200) r2_hz2, View.ld_unit_zero (S := S3200x256) r2_hz2, View.ld_unit_zero (S := S16x256) r2_hz2]

/-- Case C leaves the same in the accumulator, -/
theorem sout2_C_eq (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : cond2_1 i)
    (x0 : Vec F S16x3200 .f32) (x1 : Vec F S3200x256 .f32) (x2 : Vec F S256 .f32) (xs0 : Vec F S16x256 .f32) :
    sout2_C_0 c i arg2 harg2 arg3 harg3 arg4 harg4 arg5 harg5 arg6 harg6 hc0 hc1 x0 x1 x2 xs0 = k2_pay2 x0 x1 xs0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  try sl_unfold_words
  rw [View.canon_unit_zero (S := S16x256) r2_hz2]
  simp only [View.readAt_eq_ld, harg2.read_unread, harg3.read_unread, harg6.read_unread, View.ld_unit_zero (S := S16x3200) r2_hz2, View.ld_unit_zero (S := S3200x256) r2_hz2, View.ld_unit_zero (S := S16x256) r2_hz2]

/-- and in the output that sum plus the bias, clamped below at zero. -/
theorem out2_C_eq (c : Dev nD) (i : grid2.Coords) (arg2 : Memref sig .tc .vmem S16x3200 .f32) (harg2 : arg2.IsWhole) (arg3 : Memref sig .tc .vmem S3200x256 .f32) (harg3 : arg3.IsWhole) (arg4 : Memref sig .tc .vmem S256 .f32) (harg4 : arg4.IsWhole) (arg5 : Memref sig .tc .vmem S16x256 .f32) (harg5 : arg5.IsWhole) (arg6 : Memref sig .tc .vmem S16x256 .f32) (harg6 : arg6.IsWhole) (hc0 : ¬cond2_0 i) (hc1 : cond2_1 i)
    (x0 : Vec F S16x3200 .f32) (x1 : Vec F S3200x256 .f32) (x2 : Vec F S256 .f32) (xs0 : Vec F S16x256 .f32) :
    out2_C_3 c i arg2 harg2 arg3 harg3 arg4 harg4 arg5 harg5 arg6 harg6 hc0 hc1 x0 x1 x2 xs0 = k2_pay3 (k2_pay2 x0 x1 xs0) x2 := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  try sl_unfold_words
  rw [View.canon_unit_zero (S := S16x256) r2_hz2, View.readCov_unit_zero (S := S16x256) _ r2_hz2]
  simp only [View.readAt_eq_ld, harg2.read_unread, harg3.read_unread, harg4.read_unread, harg6.read_unread, View.ld_unit_zero (S := S16x3200) r2_hz2, View.ld_unit_zero (S := S3200x256) r2_hz2, View.ld_unit_zero (S := S16x256) r2_hz2, View.ld_unit_zero (S := S256) r2_hz1]

end Cert.KernelIdeal.HandValue

end
-- ==== Proof.Val2Blk.lean ====
import proofs.«137311_j86784109183564_2_alg».proof.Proof.KI.Reg2Runs
import Idealize.ShloMosaic.Lib.Pipeline.Value
import Idealize.ShloMosaic.Lib.ValueIdx

noncomputable section

open scoped BigOperators

namespace Cert.KernelIdeal.HandValue

open Cert.KernelIdeal Cert.KernelIdeal.Gen
open Cert.KernelIdeal.Hand
open Idealize.ShloMosaic Idealize.ShloMosaic.TcCoe Idealize.ShloMosaic.Tactic Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## Where the blocks sit in their arrays

At point `t = 50 j + k` the features' block is columns `3200 k …`, the weights' block rows `3200 k …` and columns
`256 j …`, the bias's and the output's blocks columns `256 j …`. -/

/-- The printed index maps in closed form, decided over the grid. -/
theorem r2_idx_facts : ∀ t : Fin cfg2.N, win2_0.index t (0 : Fin 2) = 0 ∧ win2_0.index t (1 : Fin 2) = t.val % 50
    ∧ win2_1.index t (0 : Fin 2) = t.val % 50 ∧ win2_1.index t (1 : Fin 2) = t.val / 50
    ∧ win2_2.index t (0 : Fin 1) = t.val / 50
    ∧ win2_3.index t (0 : Fin 2) = 0 ∧ win2_3.index t (1 : Fin 2) = t.val / 50 :=
  (by decide +kernel : ∀ t : Fin grid2.N, _)

/-- The features' block at point `t`, entry `(r, i)`, is the array's entry `(r, 3200 k + i)`. -/
theorem iblk2_0_apply (c : Dev nD) (t : Fin cfg2.N) (r : Fin 16) (i : Fin 3200) (n : Fin 160000)
    (hn : n.val = (t.val % 50) * 3200 + i.val) :
    (iblk2 V c 0 t : Vec F S16x3200 .f32) (ix2 r i) = (V c main_v70 : S16x160000.Idx → Elt F .f32) (ix2 r n) := by
  obtain ⟨e0, e1, -⟩ := r2_idx_facts t
  unfold iblk2
  rw [View.read_apply]
  show V c main_v70 _ = V c main_v70 _
  congr 1
  funext a
  apply Fin.ext
  match a with
  | ⟨0, _⟩ => show win2_0.index t 0 * 16 + 1 * r.val = r.val; rw [e0]; omega
  | ⟨1, _⟩ => show win2_0.index t 1 * 3200 + 1 * i.val = n.val; rw [e1, hn]; omega

/-- The weights' block at point `t`, entry `(i, q)`, is the array's entry `(3200 k + i, 256 j + q)`. -/
theorem iblk2_1_apply (c : Dev nD) (t : Fin cfg2.N) (i : Fin 3200) (q : Fin 256) (n : Fin 160000) (col : Fin 512)
    (hn : n.val = (t.val % 50) * 3200 + i.val) (hcol : col.val = (t.val / 50) * 256 + q.val) :
    (iblk2 V c 1 t : Vec F S3200x256 .f32) (ix2 i q) = (V c main_arg6 : S160000x512.Idx → Elt F .f32) (ix2 n col) := by
  obtain ⟨-, -, e2, e3, -⟩ := r2_idx_facts t
  unfold iblk2
  rw [View.read_apply]
  show V c main_arg6 _ = V c main_arg6 _
  congr 1
  funext a
  apply Fin.ext
  match a with
  | ⟨0, _⟩ => show win2_1.index t 0 * 3200 + 1 * i.val = n.val; rw [e2, hn]; omega
  | ⟨1, _⟩ => show win2_1.index t 1 * 256 + 1 * q.val = col.val; rw [e3, hcol]; omega

/-- The bias's block at point `t`, entry `q`, is the array's entry `256 j + q`. -/
theorem iblk2_2_apply (c : Dev nD) (t : Fin cfg2.N) (q : Fin 256) (col : Fin 512)
    (hcol : col.val = (t.val / 50) * 256 + q.val) :
    (iblk2 V c 2 t : Vec F S256 .f32) (ix1 q) = (V c main_arg7 : S512.Idx → Elt F .f32) (ix1 col) := by
  obtain ⟨-, -, -, -, e4, -⟩ := r2_idx_facts t
  unfold iblk2
  rw [View.read_apply]
  show V c main_arg7 _ = V c main_arg7 _
  congr 1
  funext a
  apply Fin.ext
  match a with
  | ⟨0, _⟩ => show win2_2.index t 0 * 256 + 1 * q.val = col.val; rw [e4, hcol]; omega

/-- An array of the output's shape read through the output window's block at point `t`: entry `(r, q)` of the block
    is entry `(r, 256 j + q)` of the array. -/
theorem blk2_3_apply (c : Dev nD) (t : Fin cfg2.N) (G : Buf (Elt F) ((c : Thread nD τ).loc main_v71)) (r : Fin 16) (q : Fin 256)
    (col : Fin 512) (hcol : col.val = (t.val / 50) * 256 + q.val) :
    (((cfg2.win 3).blk t).view.read (Elt F) G : Vec F S16x256 .f32) (ix2 r q) = (G : S16x512.Idx → Elt F .f32) (ix2 r col) := by
  obtain ⟨-, -, -, -, -, e5, e6⟩ := r2_idx_facts t
  rw [View.read_apply]
  show G _ = G _
  congr 1
  funext a
  apply Fin.ext
  match a with
  | ⟨0, _⟩ => show win2_3.index t 0 * 16 + 1 * r.val = r.val; rw [e5]; omega
  | ⟨1, _⟩ => show win2_3.index t 1 * 256 + 1 * q.val = col.val; rw [e6, hcol]; omega

/-- An index of the output array is in point `t`'s block iff each coordinate is in the block's range on its axis. -/
theorem mem_blk2_3 (t : Fin cfg2.N) (i : S16x512.Idx) :
    i ∈ ((cfg2.win 3).blk t).view.set ↔ ∀ a : Fin 2, win2_3.index t a * S16x256.size a ≤ (i a).val ∧ (i a).val < win2_3.index t a * S16x256.size a + S16x256.size a := by
  show i ∈ ((View.whole main_v71).slice (win2_3.rect t)).set ↔ _
  rw [View.set_slice_whole, Rect.mem_set_unit]
  exact Iff.rfl

end Cert.KernelIdeal.HandValue

end
-- ==== Proof.LibBlockSum.lean ====
/-
  Sums over a range cut into equal blocks, in any commutative monoid (the extended reals among them): the sum over
  `Fin (nb * B)` is the sum over the blocks of the sums inside each block, and the same for a double sum over pairs
  — what a tiled reduction (a grid of blocks, each summed, the block sums added up) computes of a sum over the whole range.
-/
import Mathlib.Algebra.BigOperators.Fin
import Mathlib.Logic.Equiv.Fin.Basic

namespace LibBlockSum

open Finset

/-- The element of the whole range at position `p` of block `i`. -/
def blk (nb B : ℕ) (i : Fin nb) (p : Fin B) : Fin (nb * B) := finProdFinEquiv (i, p)

theorem blk_val (nb B : ℕ) (i : Fin nb) (p : Fin B) : (blk nb B i p).val = p.val + B * i.val := rfl

/-- A sum over the whole range is the sum over the blocks of the sums inside each. -/
theorem sum_blocks {M : Type*} [AddCommMonoid M] (nb B : ℕ) (f : Fin (nb * B) → M) :
    ∑ P : Fin (nb * B), f P = ∑ i : Fin nb, ∑ p : Fin B, f (blk nb B i p) := by
  rw [← (finProdFinEquiv (m := nb) (n := B)).sum_comp f, Fintype.sum_prod_type]
  rfl

/-- A double sum over pairs of the whole range is the sum over pairs of blocks of the double sums inside each pair. -/
theorem sum_blocks₂ {M : Type*} [AddCommMonoid M] (nb B : ℕ) (f : Fin (nb * B) → Fin (nb * B) → M) :
    ∑ P : Fin (nb * B), ∑ Q : Fin (nb * B), f P Q
      = ∑ i : Fin nb, ∑ j : Fin nb, ∑ p : Fin B, ∑ q : Fin B, f (blk nb B i p) (blk nb B j q) := by
  rw [sum_blocks nb B]
  refine Finset.sum_congr rfl fun i _ => ?_
  exact (Finset.sum_congr rfl fun p _ => sum_blocks nb B (f (blk nb B i p))).trans Finset.sum_comm

/-- Eight summands added in order onto zero are their sum. -/
theorem fold8 {M : Type*} [AddCommMonoid M] (b : Fin 8 → M) :
    (((((((0 + b 0) + b 1) + b 2) + b 3) + b 4) + b 5) + b 6) + b 7 = ∑ j : Fin 8, b j := by
  simp [Fin.sum_univ_eight]

end LibBlockSum
-- ==== Proof.Val2.lean ====
import proofs.«137311_j86784109183564_2_alg».proof.Proof.KI.Reg2
import proofs.«137311_j86784109183564_2_alg».proof.Proof.Val2Pay
import proofs.«137311_j86784109183564_2_alg».proof.Proof.Val2Pieces
import proofs.«137311_j86784109183564_2_alg».proof.Proof.Val2Blk
import proofs.«137311_j86784109183564_2_alg».proof.Proof.LibBlockSum
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandValue

open Cert.KernelIdeal Cert.KernelIdeal.Gen
open Cert.KernelIdeal.Hand
open Idealize.ShloMosaic Idealize.ShloMosaic.TcCoe Idealize.ShloMosaic.Tactic Idealize.ShloMosaic.ValueIdx Idealize.SL.Sem
open Idealize.ShloMosaic.Pipeline (Dat)

/-! ## The value of the third region: the dense head

The region computes, for the flattened features `flat` (16 × 160000), the weights `W` (160000 × 512) and the bias
`b` (512), the array `max (flat · W + b) 0` (16 × 512): on the grid (2, 50) the point `t = 50 j + k` adds to an
accumulator the product of columns `3200 k … 3200 k + 3199` of `flat` with the matching rows and columns
`256 j … 256 j + 255` of `W`; after `k = 49` the accumulator holds the whole sum over the 160000 terms (sums of
extended reals are associative and commutative, so no finiteness is needed), and the point stores it plus the bias,
clamped below at zero, as column block `j` of the result. -/

/-- THE VALUE: entry `(r, q)` is `max (∑ₙ flat (r, n) · W (n, q) + b q) 0`. -/
def mlp (flat : FVec Ideal S16x160000 .f32) (W : FVec Ideal S160000x512 .f32) (b : FVec Ideal S512 .f32) : FVec Ideal S16x512 .f32 :=
  fun idx => max ((∑ n : Fin 160000, flat (ix2 (⟨(idx 0).val, idx2_lt0 idx⟩ : Fin 16) n) * W (ix2 n (⟨(idx 1).val, idx2_lt1 idx⟩ : Fin 512)))
    + b (ix1 (⟨(idx 1).val, idx2_lt1 idx⟩ : Fin 512))) 0

theorem mlp_apply (flat : FVec Ideal S16x160000 .f32) (W : FVec Ideal S160000x512 .f32) (b : FVec Ideal S512 .f32)
    (r : Fin 16) (q : Fin 512) :
    mlp flat W b (ix2 r q) = max ((∑ n : Fin 160000, flat (ix2 r n) * W (ix2 n q)) + b (ix1 q)) 0 := rfl

/-! ### Partial sums over the first blocks of the contraction -/

/-- The features' entry `(r, n)`, zero past the array's end (so that a sum over blocks needs no bound in its statement). -/
def r2_fl (flat : FVec Ideal S16x160000 .f32) (r : Fin 16) (n : ℕ) : EReal := if h : n < 160000 then flat (ix2 r ⟨n, h⟩) else 0
/-- The weights' entry `(n, col)`, zero outside the array. -/
def r2_wt (W : FVec Ideal S160000x512 .f32) (n col : ℕ) : EReal := if h : n < 160000 ∧ col < 512 then W (ix2 ⟨n, h.1⟩ ⟨col, h.2⟩) else 0

/-- The sum over the first `K` blocks of 3200 terms. -/
def r2_psum (flat : FVec Ideal S16x160000 .f32) (W : FVec Ideal S160000x512 .f32) (r : Fin 16) (col K : ℕ) : EReal :=
  ∑ k' ∈ Finset.range K, ∑ i : Fin 3200, r2_fl flat r (k' * 3200 + i.val) * r2_wt W (k' * 3200 + i.val) col

theorem r2_psum_zero (flat : FVec Ideal S16x160000 .f32) (W : FVec Ideal S160000x512 .f32) (r : Fin 16) (col : ℕ) :
    r2_psum flat W r col 0 = 0 := Finset.sum_range_zero _

theorem r2_psum_succ (flat : FVec Ideal S16x160000 .f32) (W : FVec Ideal S160000x512 .f32) (r : Fin 16) (col K : ℕ) :
    r2_psum flat W r col (K + 1) = r2_psum flat W r col K + ∑ i : Fin 3200, r2_fl flat r (K * 3200 + i.val) * r2_wt W (K * 3200 + i.val) col :=
  Finset.sum_range_succ _ _

/-- All fifty blocks are the whole sum over the 160000 terms. -/
theorem r2_psum_full (flat : FVec Ideal S16x160000 .f32) (W : FVec Ideal S160000x512 .f32) (r : Fin 16) (col : Fin 512) :
    r2_psum flat W r col.val 50 = ∑ n : Fin 160000, flat (ix2 r n) * W (ix2 n col) := by
  unfold r2_psum
  rw [Finset.sum_range (fun k' => ∑ i : Fin 3200, r2_fl flat r (k' * 3200 + i.val) * r2_wt W (k' * 3200 + i.val) col.val)]
  refine Eq.trans ?_ (LibBlockSum.sum_blocks 50 3200 (fun n : Fin 160000 => flat (ix2 r n) * W (ix2 n col))).symm
  refine Finset.sum_congr rfl fun k' _ => Finset.sum_congr rfl fun i _ => ?_
  have hv : (LibBlockSum.blk 50 3200 k' i).val = i.val + 3200 * k'.val := LibBlockSum.blk_val 50 3200 k' i
  have hn : k'.val * 3200 + i.val < 160000 := by have := k'.isLt; have := i.isLt; omega
  have e : (⟨k'.val * 3200 + i.val, hn⟩ : Fin 160000) = LibBlockSum.blk 50 3200 k' i := Fin.ext (by rw [hv]; show k'.val * 3200 + i.val = _; omega)
  unfold r2_fl r2_wt
  rw [dif_pos hn, dif_pos ⟨hn, col.isLt⟩, e]

/-! ### The accumulator point by point -/

variable (V : (c : Dev nD) → (b : Ref sig .tc) → Buf (Elt Ideal) ((c : Thread nD τ).loc b))

/-- This point's 3200 products, read off the arrays. -/
theorem r2_term_eq (c : Dev nD) (t : Fin cfg2.N) (r : Fin 16) (q : Fin 256)
    (x0 : FVec Ideal S16x3200 .f32) (x1 : FVec Ideal S3200x256 .f32) (hx0 : x0 = iblk2 V c 0 t) (hx1 : x1 = iblk2 V c 1 t) :
    ∑ i : Fin 3200, x0 (ix2 r i) * x1 (ix2 i q)
      = ∑ i : Fin 3200, r2_fl (V c main_v70) r ((t.val % 50) * 3200 + i.val) * r2_wt (V c main_arg6) ((t.val % 50) * 3200 + i.val) ((t.val / 50) * 256 + q.val) := by
  have hN : t.val < 100 := lt_of_lt_of_eq t.isLt (show cfg2.N = 100 from N_2)
  refine Finset.sum_congr rfl fun i _ => ?_
  have hn : (t.val % 50) * 3200 + i.val < 160000 := by have := i.isLt; omega
  have hcol : (t.val / 50) * 256 + q.val < 512 := by have := q.isLt; omega
  have e0 : x0 (ix2 r i) = (V c main_v70 : S16x160000.Idx → Ideal .f32) (ix2 r ⟨_, hn⟩) := by
    rw [hx0]; exact iblk2_0_apply V c t r i ⟨_, hn⟩ rfl
  have e1 : x1 (ix2 i q) = (V c main_arg6 : S160000x512.Idx → Ideal .f32) (ix2 ⟨_, hn⟩ ⟨_, hcol⟩) := by
    rw [hx1]; exact iblk2_1_apply V c t i q ⟨_, hn⟩ ⟨_, hcol⟩ rfl rfl
  have f0 : r2_fl (V c main_v70) r ((t.val % 50) * 3200 + i.val) = (V c main_v70 : S16x160000.Idx → Ideal .f32) (ix2 r ⟨_, hn⟩) := dif_pos hn
  have f1 : r2_wt (V c main_arg6) ((t.val % 50) * 3200 + i.val) ((t.val / 50) * 256 + q.val) = (V c main_arg6 : S160000x512.Idx → Ideal .f32) (ix2 ⟨_, hn⟩ ⟨_, hcol⟩) := dif_pos ⟨hn, hcol⟩
  rw [f0, f1, e0, e1]

/-- At a point with `k = 0` the accumulator ends at the first block's sum. -/
theorem r2_acc_A (c : Dev nD) (t : Fin cfg2.N) (h0 : t.val % 50 = 0) (r : Fin 16) (q : Fin 256) :
    ((outsAt2 V c t.val t.isLt).2 : FVec Ideal S16x256 .f32) (ix2 r q)
      = r2_psum (V c main_v70) (V c main_arg6) r ((t.val / 50) * 256 + q.val) (t.val % 50 + 1) := by
  have h1 : ¬t.val % 50 = 49 := by omega
  rw [outsAt2_A V c t h0 h1]
  dsimp only
  refine (congrFun (sout2_A_eq (F := Ideal) c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) (ix2 r q)).trans ?_
  refine (k2_pay2_apply _ _ _ r q).trans ?_
  rw [k2_pay1_apply, zero_add, r2_term_eq V c t r q (iblk2 V c 0 t) (iblk2 V c 1 t) rfl rfl, r2_psum_succ, h0, r2_psum_zero, zero_add]

/-- At a point with `0 < k` the accumulator ends at what the point before left plus this point's products. -/
theorem r2_acc_step (c : Dev nD) (t : Fin cfg2.N) (h0 : ¬t.val % 50 = 0) (r : Fin 16) (q : Fin 256) :
    ((outsAt2 V c t.val t.isLt).2 : FVec Ideal S16x256 .f32) (ix2 r q)
      = ((outsAt2 V c (t.val - 1) (Nat.lt_of_le_of_lt (Nat.sub_le _ _) t.isLt)).2 : FVec Ideal S16x256 .f32) (ix2 r q)
        + ∑ i : Fin 3200, r2_fl (V c main_v70) r ((t.val % 50) * 3200 + i.val) * r2_wt (V c main_arg6) ((t.val % 50) * 3200 + i.val) ((t.val / 50) * 256 + q.val) := by
  by_cases h1 : t.val % 50 = 49
  · rw [outsAt2_C V c t h0 h1]
    dsimp only
    refine (congrFun (sout2_C_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) (ix2 r q)).trans ?_
    refine (k2_pay2_apply _ _ _ r q).trans ?_
    rw [r2_term_eq V c t r q (iblk2 V c 0 t) (iblk2 V c 1 t) rfl rfl]
  · rw [outsAt2_B V c t h0 h1]
    dsimp only
    refine (congrFun (sout2_B_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) (ix2 r q)).trans ?_
    refine (k2_pay2_apply _ _ _ r q).trans ?_
    rw [r2_term_eq V c t r q (iblk2 V c 0 t) (iblk2 V c 1 t) rfl rfl]

/-- THE INVARIANT: after point `t = 50 j + k` the accumulator's entry `(r, q)` is the sum over the first `k + 1` blocks
    for column `256 j + q` — by induction on the point. -/
theorem r2_acc_eq (c : Dev nD) (n : ℕ) : ∀ (t : Fin cfg2.N), t.val = n → ∀ (r : Fin 16) (q : Fin 256),
    ((outsAt2 V c t.val t.isLt).2 : FVec Ideal S16x256 .f32) (ix2 r q)
      = r2_psum (V c main_v70) (V c main_arg6) r ((t.val / 50) * 256 + q.val) (t.val % 50 + 1) := by
  induction n with
  | zero => intro t ht r q; exact r2_acc_A V c t (by omega) r q
  | succ n ih =>
    intro t ht r q
    by_cases h0 : t.val % 50 = 0
    · exact r2_acc_A V c t h0 r q
    · have e1 : (t.val - 1) / 50 = t.val / 50 := by omega
      have e2 : (t.val - 1) % 50 + 1 = t.val % 50 := by omega
      have ih' : ((outsAt2 V c (t.val - 1) (Nat.lt_of_le_of_lt (Nat.sub_le _ _) t.isLt)).2 : FVec Ideal S16x256 .f32) (ix2 r q)
          = r2_psum (V c main_v70) (V c main_arg6) r ((t.val / 50) * 256 + q.val) (t.val % 50) :=
        (ih ⟨t.val - 1, Nat.lt_of_le_of_lt (Nat.sub_le _ _) t.isLt⟩ (by show t.val - 1 = n; omega) r q).trans (by
          show r2_psum _ _ r ((t.val - 1) / 50 * 256 + q.val) ((t.val - 1) % 50 + 1) = _
          rw [e1, e2])
      rw [r2_acc_step V c t h0 r q, ih', ← r2_psum_succ]

/-- At a point with `k = 49` the output's block is the whole sum plus the bias, clamped below at zero. -/
theorem r2_out_eq (c : Dev nD) (t : Fin cfg2.N) (h1 : t.val % 50 = 49) (r : Fin 16) (q : Fin 256) (col : Fin 512)
    (hcol : col.val = (t.val / 50) * 256 + q.val) :
    ((outsAt2 V c t.val t.isLt).1 : FVec Ideal S16x256 .f32) (ix2 r q)
      = mlp (V c main_v70) (V c main_arg6) (V c main_arg7) (ix2 r col) := by
  have h0 : ¬t.val % 50 = 0 := by omega
  have hacc := r2_acc_eq V c t.val t rfl r q
  rw [r2_acc_step V c t h0 r q] at hacc
  rw [outsAt2_C V c t h0 h1]
  dsimp only
  refine (congrFun (out2_C_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) (ix2 r q)).trans ?_
  refine (k2_pay3_apply _ _ r q).trans ?_
  rw [k2_pay2_apply, r2_term_eq V c t r q (iblk2 V c 0 t) (iblk2 V c 1 t) rfl rfl, hacc, h1, ← hcol, r2_psum_full, iblk2_2_apply V c t q col hcol, mlp_apply]

/-! ### From the blocks to the array -/

/-- What a point with `k = 49` writes back is its block of `mlp` of the arrays as the region finds them. -/
theorem flushed2_eq (c : Dev nD) (t : Fin cfg2.N) (hf : (cfg2.win 3).flush t = true) :
    (dat2 V c).flushed 3 t = ((cfg2.win 3).blk t).view.read (Elt Ideal) (mlp (V c main_v70) (V c main_arg6) (V c main_arg7)) := by
  have h1 : t.val % 50 = 49 := (flush2_3 t).mp hf
  have hN : t.val < 100 := lt_of_lt_of_eq t.isLt (show cfg2.N = 100 from N_2)
  show (cfg2.win 3).cut (grid2.coords t) ((dat2 V c).after 3 t) = _
  rw [after2_3]
  show ((outsAt2 V c t.val t.isLt).1 : FVec Ideal S16x256 .f32)
    = (((cfg2.win 3).blk t).view.read (Elt Ideal) (mlp (V c main_v70) (V c main_arg6) (V c main_arg7)) : FVec Ideal S16x256 .f32)
  funext j
  obtain ⟨r, q, rfl⟩ : ∃ (r : Fin 16) (q : Fin 256), j = ix2 r q := ⟨j 0, j 1, eq_ix2 j⟩
  have hcol : (t.val / 50) * 256 + q.val < 512 := by have := q.isLt; omega
  have hb := blk2_3_apply (F := Ideal) c t (mlp (V c main_v70) (V c main_arg6) (V c main_arg7)) r q ⟨_, hcol⟩ rfl
  exact (r2_out_eq V c t h1 r q ⟨_, hcol⟩ rfl).trans hb.symm

/-- THE RESULT ARRAY after the region: the point `50 j + 49` writes column block `j`, and the two blocks cover it. -/
theorem arr2_out (c : Dev nD) :
    (dat2 (F := Ideal) V c).arrAt 3 cfg2.N = mlp (V c main_v70) (V c main_arg6) (V c main_arg7) :=
  (dat2 V c).arrAt_eq_of_cover 3 (mlp (V c main_v70) (V c main_arg6) (V c main_arg7)) (flushed2_eq V c) fun i => by
    have hi0 : (i 0 : Nat) < 16 := (i 0).isLt
    have hi1 : (i 1 : Nat) < 512 := (i 1).isLt
    have ht : (i 1 : Nat) / 256 * 50 + 49 < cfg2.N := lt_of_lt_of_eq (by omega : (i 1 : Nat) / 256 * 50 + 49 < 100) N_2.symm
    refine ⟨⟨(i 1 : Nat) / 256 * 50 + 49, ht⟩, (flush2_3 _).mpr (by show ((i 1 : Nat) / 256 * 50 + 49) % 50 = 49; omega), ?_⟩
    obtain ⟨-, -, -, -, -, e5, e6⟩ := r2_idx_facts ⟨(i 1 : Nat) / 256 * 50 + 49, ht⟩
    rw [mem_blk2_3]
    intro a
    match a with
    | ⟨0, _⟩ =>
      show win2_3.index ⟨(i 1 : Nat) / 256 * 50 + 49, ht⟩ 0 * 16 ≤ (i 0 : Nat) ∧ (i 0 : Nat) < win2_3.index ⟨(i 1 : Nat) / 256 * 50 + 49, ht⟩ 0 * 16 + 16
      rw [e5]; omega
    | ⟨1, _⟩ =>
      show win2_3.index ⟨(i 1 : Nat) / 256 * 50 + 49, ht⟩ 1 * 256 ≤ (i 1 : Nat) ∧ (i 1 : Nat) < win2_3.index ⟨(i 1 : Nat) / 256 * 50 + 49, ht⟩ 1 * 256 + 256
      rw [e6]
      show ((i 1 : Nat) / 256 * 50 + 49) / 50 * 256 ≤ (i 1 : Nat) ∧ (i 1 : Nat) < ((i 1 : Nat) / 256 * 50 + 49) / 50 * 256 + 256
      omega

end Cert.KernelIdeal.HandValue

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«137311_j86784109183564_2_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.HostTail.lean ====
/- The stretches of host operations after region 0, read at an index on the extended reals: the second layer's
   feature transform of region 0's output (rows regrouped as node-major [80000, 32], multiplied by the weight,
   regrouped back), the tiled bias, the relayout of region 1's output to batch-major rows of 160000, and the last
   linear layer with its bias. Each statement takes the buffers a stretch reads as typed arrays. -/
import proofs.«137311_j86784109183564_2_alg».proof.Proof.Gen.KernelIdeal.Launch
import proofs.«137311_j86784109183564_2_alg».proof.Proof.LibDot
import proofs.«137311_j86784109183564_2_alg».proof.Proof.LibRows
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HostValue

open Idealize.ShloMosaic Idealize.ShloMosaic.TcCoe Idealize.SL.Sem Idealize.ShloMosaic.StableHlo Idealize.ShloMosaic.ValueIdx
open Cert.KernelIdeal Cert.KernelIdeal.Gen

variable (W : Valuation τ sig (Elt Ideal))

/-- The last stretch: the hidden layer times the output weight, plus the output bias. -/
theorem out_apply (r a : Fin 16) (x71 : FVec Ideal S16x512 .f32) (x8 : FVec Ideal S512x16 .f32) (x9 : FVec Ideal S16 .f32)
    (y : FVec Ideal S16x16 .f32)
    (h71 : W (Proc.devRef .tc main_v71) = x71) (h8 : W (Proc.devRef .tc main_arg8) = x8) (h9 : W (Proc.devRef .tc main_arg9) = x9)
    (hy : StableHlo.after (hostOps3 (F := Ideal)) W (Proc.devRef .tc main_v75) = y) :
    y (ix2 r a) = (∑ q : Fin 512, x71 (ix2 r q) * x8 (ix2 q a)) + x9 (ix1 a) := by
  have e : y = addf (Host.dotGeneral dot_S16x512_S512x16_S16x16_1_0_0_1_n_n none x71 x8)
      (broadcastInDim S16x16 ![0, 1] bcast_S1x16_S16x16_0_1 (broadcastInDim S1x16 ![1] bcast_S16_S1x16_1 x9)) := by
    subst h71 h8 h9 hy
    after_results <;> rfl
  rw [e, addf_apply]
  congr 1
  · exact Cert.LibRows.dotGeneral_plain_apply dot_S16x512_S512x16_S16x16_1_0_0_1_n_n rfl none _ _ r a
  · exact Cert.LibRows.rowBiasInDim_apply _ _ _ r a

/-- The stretch before region 2: entry `(r, k)` of the flattened rows is region 1's output at node `k / 32`, column
    `r * 32 + k % 32`. -/
theorem flat_apply (r : Fin 16) (k : Fin 160000) (x67 : FVec Ideal S5000x512 .f32) (y : FVec Ideal S16x160000 .f32)
    (h67 : W (Proc.devRef .tc main_v67) = x67)
    (hy : StableHlo.after (hostOps2 (F := Ideal)) W (Proc.devRef .tc main_v70) = y) :
    y (ix2 r k) = x67 (ix2 (⟨k.val / 32, by omega⟩ : Fin 5000) (⟨r.val * 32 + k.val % 32, by omega⟩ : Fin 512)) := by
  have e : y = shapeCast S16x160000 (transpose S16x5000x32 [1, 0, 2]
          (shapeCast S5000x16x32 x67 shapeCasts_S5000x512_S5000x16x32)
          transposes_S5000x16x32_S16x5000x32_1_0_2) shapeCasts_S16x5000x32_S16x160000 := by
    subst h67 hy
    after_results <;> rfl
  rw [e]
  have hk := k.isLt; have hr := r.isLt
  rw [shapeCast_apply _ shapeCasts_S16x5000x32_S16x160000 (ix2 r k)
    (ix3 r (⟨k.val / 32, by omega⟩ : Fin 5000) (⟨k.val % 32, by omega⟩ : Fin 32))
    (by rewrite [Shape.rowMajor_val_three, Shape.rowMajor_val_two]
        show (r.val * 5000 + k.val / 32) * 32 + k.val % 32 = r.val * 160000 + k.val
        omega)]
  rw [transpose_apply [1, 0, 2] _ transposes_S5000x16x32_S16x5000x32_1_0_2 _
    (ix3 (⟨k.val / 32, by omega⟩ : Fin 5000) r (⟨k.val % 32, by omega⟩ : Fin 32))
    (fun b => by match b with | ⟨0, _⟩ => rfl | ⟨1, _⟩ => rfl | ⟨2, _⟩ => rfl)]
  exact shapeCast_apply x67 shapeCasts_S5000x512_S5000x16x32 _ _
    (by rewrite [Shape.rowMajor_val_two, Shape.rowMajor_val_three]
        show (k.val / 32) * 512 + (r.val * 32 + k.val % 32) = ((k.val / 32) * 16 + r.val) * 32 + k.val % 32
        omega)

/-- The stretch before region 1: entry `(n, q)` of the transformed features is the row of region 0's output that
    belongs to node `n` and batch `q / 32`, times column `q % 32` of the weight. -/
theorem xw2_apply (n : Fin 5000) (q : Fin 512) (x59 : FVec Ideal S5000x512 .f32) (x4 : FVec Ideal S32x32 .f32) (y : FVec Ideal S5000x512 .bf16)
    (h59 : W (Proc.devRef .tc main_v59) = x59) (h4 : W (Proc.devRef .tc main_arg4) = x4)
    (hy : StableHlo.after (hostOps1 (F := Ideal)) W (Proc.devRef .tc main_v63) = y) :
    y (ix2 n q) = ∑ f : Fin 32, x59 (ix2 n (⟨q.val / 32 * 32 + f.val, by omega⟩ : Fin 512)) * x4 (ix2 f (⟨q.val % 32, by omega⟩ : Fin 32)) := by
  have e : y = truncf .bf16 (shapeCast S5000x512 (Host.dotGeneral dot_S80000x32_S32x32_S80000x32_1_0_0_1_n_n none
          (shapeCast S80000x32 x59 shapeCasts_S5000x512_S80000x32) x4) shapeCasts_S80000x32_S5000x512) bitsLt_bf16_f32 := by
    subst h59 h4 hy
    after_results <;> rfl
  rw [e, truncf_apply]
  have hn := n.isLt; have hq := q.isLt
  rw [shapeCast_apply _ shapeCasts_S80000x32_S5000x512 (ix2 n q)
    (ix2 (⟨n.val * 16 + q.val / 32, by omega⟩ : Fin 80000) (⟨q.val % 32, by omega⟩ : Fin 32))
    (by rewrite [Shape.rowMajor_val_two, Shape.rowMajor_val_two]
        show (n.val * 16 + q.val / 32) * 32 + q.val % 32 = n.val * 512 + q.val
        omega)]
  rw [Cert.LibRows.dotGeneral_plain_apply dot_S80000x32_S32x32_S80000x32_1_0_0_1_n_n rfl none]
  refine Finset.sum_congr rfl fun f _ => ?_
  congr 1
  have hf := f.isLt
  exact shapeCast_apply x59 shapeCasts_S5000x512_S80000x32 _ _
    (by rewrite [Shape.rowMajor_val_two, Shape.rowMajor_val_two]
        show n.val * 512 + (q.val / 32 * 32 + f.val) = (n.val * 16 + q.val / 32) * 32 + f.val
        omega)

/-- The second layer's bias tiled over the 16 batches: entry `q` is the bias at `q % 32`. -/
theorem bias2_apply (q : Fin 512) (x5 : FVec Ideal S32 .f32) (y : FVec Ideal S512 .f32)
    (h5 : W (Proc.devRef .tc main_arg5) = x5)
    (hy : StableHlo.after (hostOps1 (F := Ideal)) W (Proc.devRef .tc main_v66) = y) :
    y (ix1 q) = x5 (ix1 (⟨q.val % 32, by omega⟩ : Fin 32)) := by
  have e : y = shapeCast S512 (broadcastInDim S16x32 ![0, 1] bcast_S1x32_S16x32_0_1
          (shapeCast S1x32 x5 shapeCasts_S32_S1x32)) shapeCasts_S16x32_S512 := by
    subst h5 hy
    after_results <;> rfl
  rw [e]
  have hq := q.isLt
  rw [shapeCast_apply _ shapeCasts_S16x32_S512 (ix1 q)
    (ix2 (⟨q.val / 32, by omega⟩ : Fin 16) (⟨q.val % 32, by omega⟩ : Fin 32))
    (by rewrite [Shape.rowMajor_val_two, Shape.rowMajor_val_one]
        show (q.val / 32) * 32 + q.val % 32 = q.val
        omega)]
  rw [broadcastInDim_apply ![0, 1] bcast_S1x32_S16x32_0_1 _ _ (ix2 (0 : Fin 1) (⟨q.val % 32, by omega⟩ : Fin 32))
    (fun ax => by match ax with | ⟨0, _⟩ => rfl | ⟨1, _⟩ => rfl)]
  exact shapeCast_apply x5 shapeCasts_S32_S1x32 _ (ix1 (⟨q.val % 32, by omega⟩ : Fin 32))
    (by rewrite [Shape.rowMajor_val_one, Shape.rowMajor_val_two]
        show q.val % 32 = 0 * 32 + q.val % 32
        omega)

end Cert.KernelIdeal.HostValue

end
-- ==== Proof.LibScatter2.lean ====
/-
  An accumulating scatter of scalars into a matrix, read at an entry, on the extended reals.

  Update `e` carries a two-component index `(idx (e, 0), idx (e, 1))`, read as signed integers, and is added into
  the operand's entry at that row and column; an index outside the operand drops the update. So entry `(n, k)`
  of the result is the operand's entry plus the sum of the updates whose index is `(n, k)`.
-/
import Idealize.ShloMosaic.PureOps.Ideal
import Idealize.ShloMosaic.PureOps.Ideal.Laws
import Idealize.ShloMosaic.Lib.ValueIdx

noncomputable section

namespace Cert.LibScatter2

open Idealize.ShloMosaic Idealize.ShloMosaic.ValueIdx

/-- The dimension numbers of a scatter of `E` scalars into an `[N, M]` operand, a row and a column index per update. -/
abbrev ptDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)

theorem ptDims_start0 (idx : IVec ⟨2, ![E, 2]⟩ w) (e : Fin E) :
    (ptDims N M E wf).start (ix1 e) idx 0 = (idx (ix2 e (0 : Fin 2))).toInt := by
  unfold ScatterDims.start
  rw [dif_pos (show (0 : Fin 2) ∈ ([0, 1] : List (Fin 2)) from by decide)]
  congr 2
  funext b; refine Fin.ext ?_
  match b with
  | ⟨0, _⟩ => rfl
  | ⟨1, _⟩ => rfl

theorem ptDims_start1 (idx : IVec ⟨2, ![E, 2]⟩ w) (e : Fin E) :
    (ptDims N M E wf).start (ix1 e) idx 1 = (idx (ix2 e (1 : Fin 2))).toInt := by
  unfold ScatterDims.start
  rw [dif_pos (show (1 : Fin 2) ∈ ([0, 1] : List (Fin 2)) from by decide)]
  congr 2
  funext b; refine Fin.ext ?_
  match b with
  | ⟨0, _⟩ => rfl
  | ⟨1, _⟩ => rfl

theorem ptDims_window (j : (⟨1, ![E]⟩ : Shape).Idx) (a : Fin 2) : (ptDims N M E wf).window j a = 0 := by
  unfold ScatterDims.window
  have h : a ∉ (ptDims N M E wf).sKept := by
    show a ∉ (List.finRange 2).filter (· ∉ ([0, 1] : List (Fin 2)))
    revert a; decide
  rw [dif_neg h]

/-- Update `e` lands on `(n, k)` exactly when its index is `(n, k)`. -/
theorem ptDims_resultIdx_iff (idx : IVec ⟨2, ![E, 2]⟩ w) (e : Fin E) (n : Fin N) (k : Fin M) :
    (ptDims N M E wf).resultIdx? (ix1 e) idx = some (ix2 n k)
      ↔ (idx (ix2 e (0 : Fin 2))).toInt = (n.val : Int) ∧ (idx (ix2 e (1 : Fin 2))).toInt = (k.val : Int) := by
  unfold ScatterDims.resultIdx?
  split
  · next h =>
    rw [Option.some.injEq]
    constructor
    · intro hEq
      have h0 := congrArg (fun i : (⟨2, ![N, M]⟩ : Shape).Idx => (i 0).val) hEq
      have h1 := congrArg (fun i : (⟨2, ![N, M]⟩ : Shape).Idx => (i 1).val) hEq
      simp only [ptDims_start0, ptDims_start1, ptDims_window] at h0 h1
      have g0 := (h 0).1
      have g1 := (h 1).1
      rw [ptDims_start0, ptDims_window] at g0
      rw [ptDims_start1, ptDims_window] at g1
      change ((idx (ix2 e (0 : Fin 2))).toInt + ((0 : Nat) : Int)).toNat = n.val at h0
      change ((idx (ix2 e (1 : Fin 2))).toInt + ((0 : Nat) : Int)).toNat = k.val at h1
      constructor <;> omega
    · rintro ⟨hi, hk⟩
      funext a; refine Fin.ext ?_
      match a with
      | ⟨0, _⟩ =>
        show ((ptDims N M E wf).start (ix1 e) idx 0 + ((ptDims N M E wf).window (ix1 e) 0 : Nat)).toNat = n.val
        rw [ptDims_start0, ptDims_window, hi]; omega
      | ⟨1, _⟩ =>
        show ((ptDims N M E wf).start (ix1 e) idx 1 + ((ptDims N M E wf).window (ix1 e) 1 : Nat)).toNat = k.val
        rw [ptDims_start1, ptDims_window, hk]; omega
  · next h =>
    constructor
    · intro hh; exact absurd hh (by simp)
    · rintro ⟨hi, hk⟩
      exfalso; apply h
      intro a
      match a with
      | ⟨0, _⟩ =>
        show 0 ≤ (ptDims N M E wf).start (ix1 e) idx 0 + ((ptDims N M E wf).window (ix1 e) 0 : Nat) ∧ (ptDims N M E wf).start (ix1 e) idx 0 + ((ptDims N M E wf).window (ix1 e) 0 : Nat) < (N : Int)
        rw [ptDims_start0, ptDims_window, hi]; have := n.isLt; omega
      | ⟨1, _⟩ =>
        show 0 ≤ (ptDims N M E wf).start (ix1 e) idx 1 + ((ptDims N M E wf).window (ix1 e) 1 : Nat) ∧ (ptDims N M E wf).start (ix1 e) idx 1 + ((ptDims N M E wf).window (ix1 e) 1 : Nat) < (M : Int)
        rw [ptDims_start1, ptDims_window, hk]; have := k.isLt; omega

/-- THE POINT SCATTER READ AT `(n, k)`: the operand's entry plus the sum of the updates whose index is `(n, k)`. -/
theorem scatterAdd_pt_apply {φ : FTy} (x : FVec Ideal ⟨2, ![N, M]⟩ φ) (idx : IVec ⟨2, ![E, 2]⟩ w)
    (upd : FVec Ideal ⟨1, ![E]⟩ φ) (n : Fin N) (k : Fin M) :
    Host.scatterAdd (F := Ideal) (ptDims N M E wf) x idx upd (ix2 n k)
      = x (ix2 n k) + ∑ e : Fin E, if (idx (ix2 e (0 : Fin 2))).toInt = (n.val : Int) ∧ (idx (ix2 e (1 : Fin 2))).toInt = (k.val : Int)
          then upd (ix1 e) else 0 := by
  show x (ix2 n k) + ∑ j ∈ Finset.univ.filter (fun j => (ptDims N M E wf).resultIdx? j idx = some (ix2 n k)), upd j = _
  congr 1
  rw [Finset.sum_filter]
  refine Fintype.sum_equiv ⟨fun j => j 0, fun e => ix1 e, fun j => (eq_ix1 j).symm, fun _ => rfl⟩ _ _ fun j => ?_
  obtain ⟨e, rfl⟩ : ∃ e : Fin E, j = ix1 e := ⟨j 0, eq_ix1 j⟩
  show (if (ptDims N M E wf).resultIdx? (ix1 e) idx = some (ix2 n k) then upd (ix1 e) else 0)
    = if (idx (ix2 e (0 : Fin 2))).toInt = (n.val : Int) ∧ (idx (ix2 e (1 : Fin 2))).toInt = (k.val : Int) then upd (ix1 e) else 0
  simp only [ptDims_resultIdx_iff]

end Cert.LibScatter2

end
-- ==== Proof.HostHead.lean ====
/- The stretch of host operations before region 0, read at an index on the extended reals: the first layer's feature
   transform (the features made node-major [80000, 64], multiplied by the weight, regrouped to [5000, 512]), the
   tiled bias, and the dense normalised adjacency (a scatter-add of the edge weights at (target, source)). -/
import proofs.«137311_j86784109183564_2_alg».proof.Proof.Gen.KernelIdeal.Launch
import proofs.«137311_j86784109183564_2_alg».proof.Proof.LibDot
import proofs.«137311_j86784109183564_2_alg».proof.Proof.LibRows
import proofs.«137311_j86784109183564_2_alg».proof.Proof.LibScatter2
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HostValue

open Idealize.ShloMosaic Idealize.ShloMosaic.TcCoe Idealize.SL.Sem Idealize.ShloMosaic.StableHlo Idealize.ShloMosaic.ValueIdx
open Cert.KernelIdeal Cert.KernelIdeal.Gen

variable (W : Valuation τ sig (Elt Ideal))

set_option maxHeartbeats 4000000 in
/-- Entry `(n, q)` of the first layer's transformed features: the features of batch `q / 32` at node `n` times
    column `q % 32` of the weight. -/
theorem xw1_apply (n : Fin 5000) (q : Fin 512) (x0 : FVec Ideal S16x5000x64 .f32) (x2 : FVec Ideal S64x32 .f32) (y : FVec Ideal S5000x512 .bf16)
    (h0 : W (Proc.devRef .tc main_arg0) = x0) (h2 : W (Proc.devRef .tc main_arg2) = x2)
    (hy : StableHlo.after (hostOps0_2 (F := Ideal)) W (Proc.devRef .tc main_v55) = y) :
    y (ix2 n q) = ∑ f : Fin 64, x0 (ix3 (⟨q.val / 32, by omega⟩ : Fin 16) n f) * x2 (ix2 f (⟨q.val % 32, by omega⟩ : Fin 32)) := by
  have e : y = truncf .bf16 (shapeCast S5000x512 (Host.dotGeneral dot_S80000x64_S64x32_S80000x32_1_0_0_1_n_n none
          (shapeCast S80000x64 (transpose S5000x16x64 [1, 0, 2] x0 transposes_S16x5000x64_S5000x16x64_1_0_2) shapeCasts_S5000x16x64_S80000x64)
          x2) shapeCasts_S80000x32_S5000x512) bitsLt_bf16_f32 := by
    subst h0 h2 hy
    after_results_simp <;> rfl
  rw [e, truncf_apply]
  have hn := n.isLt; have hq := q.isLt
  rw [shapeCast_apply _ shapeCasts_S80000x32_S5000x512 (ix2 n q)
    (ix2 (⟨n.val * 16 + q.val / 32, by omega⟩ : Fin 80000) (⟨q.val % 32, by omega⟩ : Fin 32))
    (by rewrite [Shape.rowMajor_val_two, Shape.rowMajor_val_two]
        show (n.val * 16 + q.val / 32) * 32 + q.val % 32 = n.val * 512 + q.val
        omega)]
  rw [Cert.LibRows.dotGeneral_plain_apply dot_S80000x64_S64x32_S80000x32_1_0_0_1_n_n rfl none]
  refine Finset.sum_congr rfl fun f _ => ?_
  congr 1
  have hf := f.isLt
  rw [shapeCast_apply _ shapeCasts_S5000x16x64_S80000x64 _
    (ix3 n (⟨q.val / 32, by omega⟩ : Fin 16) f)
    (by rewrite [Shape.rowMajor_val_three, Shape.rowMajor_val_two]
        show (n.val * 16 + q.val / 32) * 64 + f.val = (n.val * 16 + q.val / 32) * 64 + f.val
        rfl)]
  exact transpose_apply [1, 0, 2] x0 transposes_S16x5000x64_S5000x16x64_1_0_2 _
    (ix3 (⟨q.val / 32, by omega⟩ : Fin 16) n f)
    (fun b => by match b with | ⟨0, _⟩ => rfl | ⟨1, _⟩ => rfl | ⟨2, _⟩ => rfl)

set_option maxHeartbeats 4000000 in
/-- The first layer's bias tiled over the 16 batches: entry `q` is the bias at `q % 32`. -/
theorem bias1_apply (q : Fin 512) (x3 : FVec Ideal S32 .f32) (y : FVec Ideal S512 .f32)
    (h3 : W (Proc.devRef .tc main_arg3) = x3)
    (hy : StableHlo.after (hostOps0_2 (F := Ideal)) W (Proc.devRef .tc main_v58) = y) :
    y (ix1 q) = x3 (ix1 (⟨q.val % 32, by omega⟩ : Fin 32)) := by
  have e : y = shapeCast S512 (broadcastInDim S16x32 ![0, 1] bcast_S1x32_S16x32_0_1
          (shapeCast S1x32 x3 shapeCasts_S32_S1x32)) shapeCasts_S16x32_S512 := by
    subst h3 hy
    after_results_simp <;> rfl
  rw [e]
  have hq := q.isLt
  rw [shapeCast_apply _ shapeCasts_S16x32_S512 (ix1 q)
    (ix2 (⟨q.val / 32, by omega⟩ : Fin 16) (⟨q.val % 32, by omega⟩ : Fin 32))
    (by rewrite [Shape.rowMajor_val_two, Shape.rowMajor_val_one]
        show (q.val / 32) * 32 + q.val % 32 = q.val
        omega)]
  rw [broadcastInDim_apply ![0, 1] bcast_S1x32_S16x32_0_1 _ _ (ix2 (0 : Fin 1) (⟨q.val % 32, by omega⟩ : Fin 32))
    (fun ax => by match ax with | ⟨0, _⟩ => rfl | ⟨1, _⟩ => rfl)]
  exact shapeCast_apply x3 shapeCasts_S32_S1x32 _ (ix1 (⟨q.val % 32, by omega⟩ : Fin 32))
    (by rewrite [Shape.rowMajor_val_one, Shape.rowMajor_val_two]
        show q.val % 32 = 0 * 32 + q.val % 32
        omega)

end Cert.KernelIdeal.HostValue

end
-- ==== Proof.Spec.lean ====
import Idealize.ShloMosaic.PureOps.Ideal
import Mathlib

/-!
# The specification: two graph-convolution layers and a two-layer head

A graph on a finite node type `N` is given by a finite edge type `E` with a source and a
destination map and a weight on every edge.  One graph-convolution layer aggregates, at the
node `n`, the features of the sources of the edges that END at `n`, each scaled by its edge
weight, adds a bias and applies `max · 0`.  The same layer can be written with the dense
weighted adjacency matrix `adj n m` = the sum of the weights of the edges from `m` to `n`.
Everything is stated on the extended reals, index by index.
-/

noncomputable section

namespace Cert.Spec

open scoped BigOperators

/-- An extended real that is a real number. -/
def IsReal (x : EReal) : Prop := ∃ r : ℝ, x = (r : EReal)

section Graph

variable {E N : Type} [Fintype E] [Fintype N] [DecidableEq N] (src dst : E → N) (w : E → EReal)

/-- The dense weighted adjacency matrix: entry `(n, m)` sums the weights of the edges
from `m` to `n`. -/
def adj (n m : N) : EReal := ∑ e, if dst e = n ∧ src e = m then w e else 0

/-- A layer in edge form: the sum over the edges ending at `n` of the source's feature
times the edge weight, plus the bias, cut below at `0`. -/
def layerEdge {B H : Type} (Y : B → N → H → EReal) (b : H → EReal) : B → N → H → EReal :=
  fun bb n h => max ((∑ e, if dst e = n then Y bb (src e) h * w e else 0) + b h) 0

/-- A layer in dense form: a matrix product with an adjacency matrix `A`, plus the bias,
cut below at `0`. -/
def layerDense {B H : Type} (A : N → N → EReal) (Y : B → N → H → EReal) (b : H → EReal) :
    B → N → H → EReal :=
  fun bb n h => max ((∑ m, A n m * Y bb m h) + b h) 0

/-- The feature transform `X · W` on the last axis. -/
def xw {B K H : Type} [Fintype K] (X : B → N → K → EReal) (W : K → H → EReal) :
    B → N → H → EReal :=
  fun bb n h => ∑ f, X bb n f * W f h

end Graph

/-- The row-major flattening of `[16, 5000, 32]` into `[16, 160000]`: `k = n * 32 + h`. -/
def flat32 (h2 : Fin 16 → Fin 5000 → Fin 32 → EReal) : Fin 16 → Fin 160000 → EReal :=
  fun r k => h2 r ⟨k.val / 32, by omega⟩ ⟨k.val % 32, by omega⟩

/-- The head: a linear layer into 512 features, `max · 0`, and a linear layer into 16. -/
def head (fl : Fin 16 → Fin 160000 → EReal) (Wp1 : Fin 160000 → Fin 512 → EReal)
    (bp1 : Fin 512 → EReal) (Wp2 : Fin 512 → Fin 16 → EReal) (bp2 : Fin 16 → EReal) :
    Fin 16 → Fin 16 → EReal :=
  fun r a => (∑ q, max ((∑ k, fl r k * Wp1 k q) + bp1 q) 0 * Wp2 q a) + bp2 a

/-- The whole network with both layers in edge form. -/
def outEdge (src dst : Fin 165000 → Fin 5000) (w : Fin 165000 → EReal)
    (X0 : Fin 16 → Fin 5000 → Fin 64 → EReal) (W1 : Fin 64 → Fin 32 → EReal)
    (b1 : Fin 32 → EReal) (W2 : Fin 32 → Fin 32 → EReal) (b2 : Fin 32 → EReal)
    (Wp1 : Fin 160000 → Fin 512 → EReal) (bp1 : Fin 512 → EReal)
    (Wp2 : Fin 512 → Fin 16 → EReal) (bp2 : Fin 16 → EReal) : Fin 16 → Fin 16 → EReal :=
  head (flat32 (layerEdge src dst w (xw (layerEdge src dst w (xw X0 W1) b1) W2) b2))
    Wp1 bp1 Wp2 bp2

/-- The whole network with both layers in dense form over the adjacency matrix of the graph. -/
def outDense (src dst : Fin 165000 → Fin 5000) (w : Fin 165000 → EReal)
    (X0 : Fin 16 → Fin 5000 → Fin 64 → EReal) (W1 : Fin 64 → Fin 32 → EReal)
    (b1 : Fin 32 → EReal) (W2 : Fin 32 → Fin 32 → EReal) (b2 : Fin 32 → EReal)
    (Wp1 : Fin 160000 → Fin 512 → EReal) (bp1 : Fin 512 → EReal)
    (Wp2 : Fin 512 → Fin 16 → EReal) (bp2 : Fin 16 → EReal) : Fin 16 → Fin 16 → EReal :=
  head (flat32 (layerDense (adj src dst w)
      (xw (layerDense (adj src dst w) (xw X0 W1) b1) W2) b2))
    Wp1 bp1 Wp2 bp2

end Cert.Spec

end
-- ==== Proof.KernelValue.lean ====
/- The idealized kernel's result as one function of its argument arrays, in the dense form: each layer is
   relu(A · (X W) + b) with A the array the first stretch builds, rows regrouped between node-major and
   batch-major layouts, then the two linear layers of the head. Read off the run's boundary contents, boundary by
   boundary. -/
import proofs.«137311_j86784109183564_2_alg».proof.Proof.KI.Run
import proofs.«137311_j86784109183564_2_alg».proof.Proof.Val01
import proofs.«137311_j86784109183564_2_alg».proof.Proof.Val2
import proofs.«137311_j86784109183564_2_alg».proof.Proof.HostTail
import proofs.«137311_j86784109183564_2_alg».proof.Proof.HostHead
import proofs.«137311_j86784109183564_2_alg».proof.Proof.Spec

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.HostValue
open scoped BigOperators

variable (m : (ℓ : Loc nD τ sig) → Buf (Elt Ideal) ℓ) (ρ : Dev nD → PrngReg) (c : Dev nD)

/-! ## Buffers a segment does not write keep their contents -/

theorem Wd1_of (r : Ref sig .tc) (h : r ∉ hostOps0_W) : Wd1 m ρ c (Proc.devRef .tc r) = Wd0 m ρ c (Proc.devRef .tc r) :=
  StableHlo.after_of_writes_sub hostOps0 _ hostOps0_writes h
theorem Wd2_of (r : Ref sig .tc) (h : r ∉ hostOps0_1_W) : Wd2 m ρ c (Proc.devRef .tc r) = Wd1 m ρ c (Proc.devRef .tc r) :=
  StableHlo.after_of_writes_sub hostOps0_1 _ hostOps0_1_writes h
theorem Wd3_of (r : Ref sig .tc) (h : r ∉ hostOps0_2_W) : Wd3 m ρ c (Proc.devRef .tc r) = Wd2 m ρ c (Proc.devRef .tc r) :=
  StableHlo.after_of_writes_sub hostOps0_2 _ hostOps0_2_writes h
theorem Wd5_of (r : Ref sig .tc) (h : r ∉ hostOps1_W) : Wd5 m ρ c (Proc.devRef .tc r) = Wd4 m ρ c (Proc.devRef .tc r) :=
  StableHlo.after_of_writes_sub hostOps1 _ hostOps1_writes h
theorem Wd7_of (r : Ref sig .tc) (h : r ∉ hostOps2_W) : Wd7 m ρ c (Proc.devRef .tc r) = Wd6 m ρ c (Proc.devRef .tc r) :=
  StableHlo.after_of_writes_sub hostOps2 _ hostOps2_writes h

/-- An argument array no stretch writes and no region's window stages, at the boundary before region 0's stretch. -/
theorem arg_at2 (r : Ref sig .tc) (h0 : r ∉ hostOps0_W) (h1 : r ∉ hostOps0_1_W) :
    Wd2 m ρ c (Proc.devRef .tc r) = m ((c : Thread nD τ).loc r) :=
  (Wd2_of m ρ c r h1).trans ((Wd1_of m ρ c r h0).trans rfl)
theorem arg_at4 (r : Ref sig .tc) (h0 : r ∉ hostOps0_W) (h1 : r ∉ hostOps0_1_W) (h2 : r ∉ hostOps0_2_W)
    (h3 : ∀ w, Pipeline.arrRef spec0 w ≠ r) : Wd4 m ρ c (Proc.devRef .tc r) = m ((c : Thread nD τ).loc r) :=
  (Wd4_of_ne m ρ c r h3).trans ((Wd3_of m ρ c r h2).trans (arg_at2 m ρ c r h0 h1))
theorem arg_at6 (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) :
    Wd6 m ρ c (Proc.devRef .tc r) = m ((c : Thread nD τ).loc r) :=
  (Wd6_of_ne m ρ c r h5).trans ((Wd5_of m ρ c r h4).trans (arg_at4 m ρ c r h0 h1 h2 h3))
theorem arg_at7 (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) (h6 : r ∉ hostOps2_W) :
    Wd7 m ρ c (Proc.devRef .tc r) = m ((c : Thread nD τ).loc r) :=
  (Wd7_of m ρ c r h6).trans (arg_at6 m ρ c r h0 h1 h2 h3 h4 h5)
theorem arg_at8 (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) (h6 : r ∉ hostOps2_W)
    (h7 : ∀ w, Pipeline.arrRef spec2 w ≠ r) : Wd8 m ρ c (Proc.devRef .tc r) = m ((c : Thread nD τ).loc r) :=
  (Wd8_of_ne m ρ c r h7).trans (arg_at7 m ρ c r h0 h1 h2 h3 h4 h5 h6)

/-- The adjacency array is an input of regions 0 and 1 and no later stretch writes it. -/
theorem adj_at4 : Wd4 m ρ c (Proc.devRef .tc main_v50) = Wd3 m ρ c (Proc.devRef .tc main_v50) :=
  (Wd4_arr m ρ c 0).trans (((dat0 (Vr3 m ρ) c).arrAt_in 0 rfl _).trans (A_eq0 (Vr3 m ρ) c 0))
theorem adj_at5 : Wd5 m ρ c (Proc.devRef .tc main_v50) = Wd3 m ρ c (Proc.devRef .tc main_v50) :=
  (Wd5_of m ρ c main_v50 (by decide)).trans (adj_at4 m ρ c)

/-! ## The run, with the result named -/

/-- Every weakly fair execution of the idealized kernel's @main terminates with the result buffer at the last
    boundary's contents and the argument arrays as launched. -/
theorem run_value : θ_run defs (onTc (τ := τ) (main (F := Ideal))) ⟨m, fun _ => 0, ρ⟩ (fun r => ∀ c : Dev nD,
      r.2.mem ((c.tc : Thread nD τ).loc main_v75) = Wd9 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v75 (by decide)),
     (h c _ (mem_uc main_arg0 (by decide))).trans (Wd9_main_arg0 m ρ c),
     (h c _ (mem_uc main_arg1 (by decide))).trans (Wd9_main_arg1 m ρ c),
     (h c _ (mem_uc main_arg2 (by decide))).trans (Wd9_main_arg2 m ρ c),
     (h c _ (mem_uc main_arg3 (by decide))).trans (Wd9_main_arg3 m ρ c),
     (h c _ (mem_uc main_arg4 (by decide))).trans (Wd9_main_arg4 m ρ c),
     (h c _ (mem_uc main_arg5 (by decide))).trans (Wd9_main_arg5 m ρ c),
     (h c _ (mem_uc main_arg6 (by decide))).trans (Wd9_main_arg6 m ρ c),
     (h c _ (mem_uc main_arg7 (by decide))).trans (Wd9_main_arg7 m ρ c),
     (h c _ (mem_uc main_arg8 (by decide))).trans (Wd9_main_arg8 m ρ c),
     (h c _ (mem_uc main_arg9 (by decide))).trans (Wd9_main_arg9 m ρ c)⟩) (run_all m ρ)

/-! ## The arrays, boundary by boundary -/

section Values

variable (a0 : FVec Ideal S16x5000x64 .f32) (a2 : FVec Ideal S64x32 .f32) (a3 : FVec Ideal S32 .f32)
  (a4 : FVec Ideal S32x32 .f32) (a5 : FVec Ideal S32 .f32) (a6 : FVec Ideal S160000x512 .f32) (a7 : FVec Ideal S512 .f32)
  (a8 : FVec Ideal S512x16 .f32) (a9 : FVec Ideal S16 .f32) (Adj : FVec Ideal S5000x5000 .bf16)
  (h0 : m ((c : Thread nD τ).loc main_arg0) = a0) (h2 : m ((c : Thread nD τ).loc main_arg2) = a2)
  (h3 : m ((c : Thread nD τ).loc main_arg3) = a3) (h4 : m ((c : Thread nD τ).loc main_arg4) = a4)
  (h5 : m ((c : Thread nD τ).loc main_arg5) = a5) (h6 : m ((c : Thread nD τ).loc main_arg6) = a6)
  (h7 : m ((c : Thread nD τ).loc main_arg7) = a7) (h8 : m ((c : Thread nD τ).loc main_arg8) = a8)
  (h9 : m ((c : Thread nD τ).loc main_arg9) = a9) (hAdj : Wd3 m ρ c (Proc.devRef .tc main_v50) = Adj)

/-- The adjacency as a function of (target, source). -/
abbrev adjF : Fin 5000 → Fin 5000 → EReal := fun n k => Adj (ix2 n k)
/-- The first layer's output, batch-major. -/
abbrev lay1 : Fin 16 → Fin 5000 → Fin 32 → EReal :=
  Cert.Spec.layerDense (adjF Adj) (Cert.Spec.xw (fun bb n f => a0 (ix3 bb n f)) (fun f h => a2 (ix2 f h))) (fun h => a3 (ix1 h))
/-- The second layer's output, batch-major. -/
abbrev lay2 : Fin 16 → Fin 5000 → Fin 32 → EReal :=
  Cert.Spec.layerDense (adjF Adj) (Cert.Spec.xw (lay1 a0 a2 a3 Adj) (fun f h => a4 (ix2 f h))) (fun h => a5 (ix1 h))

include h0 h2 h3 hAdj in
/-- Region 0's output: entry `(n, q)` is the first layer at batch `q / 32`, node `n`, channel `q % 32`. -/
theorem out1_apply (x59 : FVec Ideal S5000x512 .f32) (h59 : Wd4 m ρ c (Proc.devRef .tc main_v59) = x59) (n : Fin 5000) (q : Fin 512) :
    x59 (ix2 n q) = lay1 a0 a2 a3 Adj (⟨q.val / 32, by omega⟩ : Fin 16) n (⟨q.val % 32, by omega⟩ : Fin 32) := by
  have e : x59 = agg (Vr3 m ρ c main_v50) (Vr3 m ρ c main_v55) (Vr3 m ρ c main_v58) :=
    h59.symm.trans ((Wd4_arr m ρ c 3).trans (arr0_out (Vr3 m ρ) c))
  rw [e, agg_apply]
  simp only [lay1, adjF, Cert.Spec.layerDense, Cert.Spec.xw]
  refine congrArg (fun z => max z 0) ?_
  refine congrArg₂ (· + ·) (Finset.sum_congr rfl fun k _ => congrArg₂ (· * ·) ?_ ?_) ?_
  · exact congrFun hAdj (ix2 n k)
  · exact xw1_apply (Wd2 m ρ c) k q a0 a2 _ ((arg_at2 m ρ c main_arg0 (by decide) (by decide)).trans h0)
      ((arg_at2 m ρ c main_arg2 (by decide) (by decide)).trans h2) rfl
  · exact bias1_apply (Wd2 m ρ c) q a3 _ ((arg_at2 m ρ c main_arg3 (by decide) (by decide)).trans h3) rfl

include h0 h2 h3 h4 h5 hAdj in
/-- Region 1's output: entry `(n, q)` is the second layer at batch `q / 32`, node `n`, channel `q % 32`. -/
theorem out2_apply (x67 : FVec Ideal S5000x512 .f32) (h67 : Wd6 m ρ c (Proc.devRef .tc main_v67) = x67) (n : Fin 5000) (q : Fin 512) :
    x67 (ix2 n q) = lay2 a0 a2 a3 a4 a5 Adj (⟨q.val / 32, by omega⟩ : Fin 16) n (⟨q.val % 32, by omega⟩ : Fin 32) := by
  have e : x67 = agg (Vr5 m ρ c main_v50) (Vr5 m ρ c main_v63) (Vr5 m ρ c main_v66) :=
    h67.symm.trans ((Wd6_arr m ρ c 3).trans (arr1_out (Vr5 m ρ) c))
  rw [e, agg_apply]
  simp only [lay2, adjF, Cert.Spec.layerDense, Cert.Spec.xw]
  refine congrArg (fun z => max z 0) ?_
  refine congrArg₂ (· + ·) (Finset.sum_congr rfl fun k _ => congrArg₂ (· * ·) ?_ ?_) ?_
  · exact congrFun ((adj_at5 m ρ c).trans hAdj) (ix2 n k)
  · refine (xw2_apply (Wd4 m ρ c) k q _ a4 _ rfl
      ((arg_at4 m ρ c main_arg4 (by decide) (by decide) (by decide) (by decide)).trans h4) rfl).trans ?_
    refine Finset.sum_congr rfl fun f _ => congrArg₂ (· * ·) ?_ rfl
    have hq := q.isLt; have hf := f.isLt
    refine (out1_apply m ρ c a0 a2 a3 Adj h0 h2 h3 hAdj _ rfl k _).trans ?_
    have e1 : (⟨(⟨q.val / 32 * 32 + f.val, by omega⟩ : Fin 512).val / 32, by omega⟩ : Fin 16) = ⟨q.val / 32, by omega⟩ :=
      Fin.ext (by show (q.val / 32 * 32 + f.val) / 32 = q.val / 32; omega)
    have e2 : (⟨(⟨q.val / 32 * 32 + f.val, by omega⟩ : Fin 512).val % 32, by omega⟩ : Fin 32) = f :=
      Fin.ext (by show (q.val / 32 * 32 + f.val) % 32 = f.val; omega)
    rw [e1, e2]
    simp only [lay1, adjF, Cert.Spec.layerDense, Cert.Spec.xw]
  · exact bias2_apply (Wd4 m ρ c) q a5 _ ((arg_at4 m ρ c main_arg5 (by decide) (by decide) (by decide) (by decide)).trans h5) rfl

include h0 h2 h3 h4 h5 hAdj in
/-- The rows region 2 reads: entry `(r, k)` is the second layer at batch `r`, node `k / 32`, channel `k % 32`. -/
theorem flat_value (x70 : FVec Ideal S16x160000 .f32) (h70 : Wd7 m ρ c (Proc.devRef .tc main_v70) = x70) (r : Fin 16) (k : Fin 160000) :
    x70 (ix2 r k) = Cert.Spec.flat32 (lay2 a0 a2 a3 a4 a5 Adj) r k := by
  have hk := k.isLt; have hr := r.isLt
  refine (flat_apply (Wd6 m ρ c) r k _ x70 rfl h70).trans ?_
  refine (out2_apply m ρ c a0 a2 a3 a4 a5 Adj h0 h2 h3 h4 h5 hAdj _ rfl _ _).trans ?_
  have e1 : (⟨(⟨r.val * 32 + k.val % 32, by omega⟩ : Fin 512).val / 32, by omega⟩ : Fin 16) = r :=
    Fin.ext (by show (r.val * 32 + k.val % 32) / 32 = r.val; omega)
  have e2 : (⟨(⟨r.val * 32 + k.val % 32, by omega⟩ : Fin 512).val % 32, by omega⟩ : Fin 32) = ⟨k.val % 32, by omega⟩ :=
    Fin.ext (by show (r.val * 32 + k.val % 32) % 32 = k.val % 32; omega)
  rw [e1, e2]
  rfl

include h0 h2 h3 h4 h5 h6 h7 h8 h9 hAdj in
/-- THE KERNEL'S RESULT, in the dense form. -/
theorem kernel_value (y : FVec Ideal S16x16 .f32) (hy : Wd9 m ρ c (Proc.devRef .tc main_v75) = y) (r a : Fin 16) :
    y (ix2 r a) = Cert.Spec.head (Cert.Spec.flat32 (lay2 a0 a2 a3 a4 a5 Adj)) (fun k q => a6 (ix2 k q)) (fun q => a7 (ix1 q))
      (fun q a => a8 (ix2 q a)) (fun a => a9 (ix1 a)) r a := by
  refine (out_apply (Wd8 m ρ c) r a _ a8 a9 y rfl
    ((arg_at8 m ρ c main_arg8 (by decide) (by decide) (by decide) (by decide) (by decide) (by decide) (by decide) (by decide)).trans h8)
    ((arg_at8 m ρ c main_arg9 (by decide) (by decide) (by decide) (by decide) (by decide) (by decide) (by decide) (by decide)).trans h9) hy).trans ?_
  simp only [Cert.Spec.head]
  refine congrArg₂ (· + ·) (Finset.sum_congr rfl fun q _ => congrArg₂ (· * ·) ?_ rfl) rfl
  have e : Wd8 m ρ c (Proc.devRef .tc main_v71) = mlp (Vr7 m ρ c main_v70) (Vr7 m ρ c main_arg6) (Vr7 m ρ c main_arg7) :=
    (Wd8_arr m ρ c 3).trans (arr2_out (Vr7 m ρ) c)
  rw [e, mlp_apply]
  refine congrArg (fun z => max z 0) ?_
  refine congrArg₂ (· + ·) (Finset.sum_congr rfl fun k _ => congrArg₂ (· * ·) ?_ ?_) ?_
  · exact flat_value m ρ c a0 a2 a3 a4 a5 Adj h0 h2 h3 h4 h5 hAdj _ rfl r k
  · exact congrFun ((arg_at7 m ρ c main_arg6 (by decide) (by decide) (by decide) (by decide) (by decide) (by decide) (by decide)).trans h6) (ix2 k q)
  · exact congrFun ((arg_at7 m ρ c main_arg7 (by decide) (by decide) (by decide) (by decide) (by decide) (by decide) (by decide)).trans h7) (ix1 q)

end Values

end Cert.KernelIdeal.HandValue

end
-- ==== Proof.HostAdj.lean ====
/- The dense normalised adjacency the host builds before region 0, read at an entry on the extended
   reals. The edge list (with one self-loop per node appended) gives a target and a source per edge, each
   wrapped into [0, 5000) by the convention that a negative index counts from the end; the weight of an
   edge is the product of the inverse square-root degrees of its two endpoints; the matrix is the
   accumulation of the weights at (target, source) into a zero matrix, converted to the narrow format
   (the identity here). So entry (n, k) is the sum of the weights of the edges from k to n. -/
import proofs.«137311_j86784109183564_2_alg».proof.Proof.Gen.KernelIdeal.Launch
import proofs.«137311_j86784109183564_2_alg».proof.Proof.LibScatter2
import Idealize.ShloMosaic.Lib.StableHlo.Run
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HostValue

open Idealize.ShloMosaic Idealize.ShloMosaic.TcCoe Idealize.SL.Sem Idealize.ShloMosaic.StableHlo Idealize.ShloMosaic.ValueIdx
open Cert.KernelIdeal Cert.KernelIdeal.Gen

/-- An endpoint vector with its negative entries wrapped by the node count: n < 0 ↦ n + 5000. -/
abbrev wrapIdx (x : IVec S165000 32) : IVec S165000 32 :=
  select (cmpi .slt x (broadcastInDim S165000 ![] bcast_S_S165000 (constantI S_ 32 0#32)))
    (addi x (broadcastInDim S165000 ![] bcast_S_S165000 (constantI S_ 32 5000#32))) x

/-- The weight of each edge: the entries of x19 at its (wrapped) source and target, multiplied. -/
abbrev edgeNorm (x3 x6 : IVec S165000 32) (x19 : FVec Ideal S5000 .f32) : FVec Ideal S165000 .f32 :=
  mulf (Host.gather gather_S5000_S165000x1_S165000_n_0_n_n_0_1_1 x19 (broadcastInDim S165000x1 ![0] bcast_S165000_S165000x1_0 (wrapIdx x3)))
    (Host.gather gather_S5000_S165000x1_S165000_n_0_n_n_0_1_1 x19 (broadcastInDim S165000x1 ![0] bcast_S165000_S165000x1_0 (wrapIdx x6)))

/-- Operations run one list after another are the concatenated list run. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

variable (W : Valuation τ sig (Elt Ideal))

set_option maxHeartbeats 8000000 in
/-- The adjacency array as one term of the three arrays the stretch reads: the scatter-add, into zeros, of the edge
    weights at the index pairs (target, source). -/
theorem adj_term (x3 x6 : IVec S165000 32) (x19 : FVec Ideal S5000 .f32) (y : FVec Ideal S5000x5000 .bf16)
    (h3 : W (Proc.devRef .tc main_v3) = x3) (h6 : W (Proc.devRef .tc main_v6) = x6) (h19 : W (Proc.devRef .tc main_v19) = x19)
    (hy : StableHlo.after (hostOps0_2 (F := Ideal)) W (Proc.devRef .tc main_v50) = y) :
    y = truncf .bf16 (Host.scatterAdd scatter_S5000x5000_S165000x2_S165000_n_01_01_1
        (broadcastInDim S5000x5000 ![] bcast_S_S5000x5000 (constant (F := Ideal) S_ .f32 0x00000000#32))
        (concatenate S165000x2 1 [⟨S165000x1, broadcastInDim S165000x1 ![0] bcast_S165000_S165000x1_0 (wrapIdx x6)⟩,
          ⟨S165000x1, broadcastInDim S165000x1 ![0] bcast_S165000_S165000x1_0 (wrapIdx x3)⟩] concatenates_S165000x1_S165000x1_S165000x2_d1)
        (edgeNorm x3 x6 x19)) bitsLt_bf16_f32 := by
  subst h3 h6 h19 hy
  rw [← List.take_append_drop 37 (hostOps0_2 (F := Ideal)), after_append]
  have a46 : StableHlo.after (List.take 37 (hostOps0_2 (F := Ideal))) W (Proc.devRef .tc main_v46)
      = broadcastInDim S165000x1 ![0] bcast_S165000_S165000x1_0 (wrapIdx (W (Proc.devRef .tc main_v6))) := by
    simp only [hostOps0_2, List.take_succ_cons, List.take_zero]
    after_results_simp <;> rfl
  have a47 : StableHlo.after (List.take 37 (hostOps0_2 (F := Ideal))) W (Proc.devRef .tc main_v47)
      = broadcastInDim S165000x1 ![0] bcast_S165000_S165000x1_0 (wrapIdx (W (Proc.devRef .tc main_v3))) := by
    simp only [hostOps0_2, List.take_succ_cons, List.take_zero]
    after_results_simp <;> rfl
  have a34 : StableHlo.after (List.take 37 (hostOps0_2 (F := Ideal))) W (Proc.devRef .tc main_v34)
      = edgeNorm (W (Proc.devRef .tc main_v3)) (W (Proc.devRef .tc main_v6)) (W (Proc.devRef .tc main_v19)) := by
    simp only [hostOps0_2, List.take_succ_cons, List.take_zero]
    after_results_simp <;> rfl
  have a35 : StableHlo.after (List.take 37 (hostOps0_2 (F := Ideal))) W (Proc.devRef .tc main_v35)
      = broadcastInDim S5000x5000 ![] bcast_S_S5000x5000 (constant (F := Ideal) S_ .f32 0x00000000#32) := by
    simp only [hostOps0_2, List.take_succ_cons, List.take_zero]
    after_results_simp <;> rfl
  generalize StableHlo.after (List.take 37 (hostOps0_2 (F := Ideal))) W = W1 at a46 a47 a34 a35 ⊢
  simp only [hostOps0_2, List.drop_succ_cons, List.drop_zero]
  after_results_simp
  rw [a46, a47, a34, a35]

/-- The stretch's scatter is the scatter of scalars at (row, column) pairs. -/
theorem scatter_eq_pt : scatter_S5000x5000_S165000x2_S165000_n_01_01_1
    = Cert.LibScatter2.ptDims 5000 5000 165000 scatter_S5000x5000_S165000x2_S165000_n_01_01_1_wf := rfl

/-- The zero matrix at an entry. -/
theorem zeros_apply (i : S5000x5000.Idx) :
    broadcastInDim S5000x5000 ![] bcast_S_S5000x5000 (constant (F := Ideal) S_ .f32 0x00000000#32) i = 0 := by
  unfold broadcastInDim constant
  exact Ideal.ofBits_zero_f32

/-- A vector laid as a column: entry (e, 0) is the vector's entry e. -/
theorem col_apply (d : IVec S165000 32) (e : Fin 165000) :
    broadcastInDim S165000x1 ![0] bcast_S165000_S165000x1_0 d (ix2 e (0 : Fin 1)) = d (ix1 e) :=
  broadcastInDim_apply ![0] bcast_S165000_S165000x1_0 d (ix2 e (0 : Fin 1)) (ix1 e) (fun a => by
    match a with
    | ⟨0, _⟩ =>
      show e.val = if (165000 : Nat) = 1 then 0 else e.val
      rw [if_neg (by decide)])

/-- The index pairs: column 0 is the target vector, column 1 the source vector. -/
theorem pair_col0 (d s : IVec S165000 32) (e : Fin 165000) :
    concatenate S165000x2 1 [⟨S165000x1, broadcastInDim S165000x1 ![0] bcast_S165000_S165000x1_0 d⟩,
      ⟨S165000x1, broadcastInDim S165000x1 ![0] bcast_S165000_S165000x1_0 s⟩] concatenates_S165000x1_S165000x1_S165000x2_d1
      (ix2 e (0 : Fin 2)) = d (ix1 e) := by
  rw [concatenate_pair_apply_left (t := S165000x2) (s₁ := S165000x1) (s₂ := S165000x1) (1 : Fin 2) _ _ _ (ix2 e (0 : Fin 2)) rfl (ix2 e (0 : Fin 1))
    (fun b => by match b with | ⟨0, _⟩ => rfl | ⟨1, _⟩ => rfl)]
  exact col_apply _ e

theorem pair_col1 (d s : IVec S165000 32) (e : Fin 165000) :
    concatenate S165000x2 1 [⟨S165000x1, broadcastInDim S165000x1 ![0] bcast_S165000_S165000x1_0 d⟩,
      ⟨S165000x1, broadcastInDim S165000x1 ![0] bcast_S165000_S165000x1_0 s⟩] concatenates_S165000x1_S165000x1_S165000x2_d1
      (ix2 e (1 : Fin 2)) = s (ix1 e) := by
  rw [concatenate_pair_apply_right (t := S165000x2) (s₁ := S165000x1) (s₂ := S165000x1) (1 : Fin 2) _ _ _ (ix2 e (1 : Fin 2)) rfl rfl (ix2 e (0 : Fin 1))
    (fun b hb => by match b with | ⟨0, _⟩ => rfl | ⟨1, _⟩ => exact absurd rfl hb) rfl]
  exact col_apply _ e

/-- Entry (n, k) of the adjacency: the sum of the weights of the edges whose (wrapped) target is n and source is k. -/
theorem adj_apply (n k : Fin 5000) (x3 x6 : IVec S165000 32) (x19 : FVec Ideal S5000 .f32) (y : FVec Ideal S5000x5000 .bf16)
    (h3 : W (Proc.devRef .tc main_v3) = x3) (h6 : W (Proc.devRef .tc main_v6) = x6) (h19 : W (Proc.devRef .tc main_v19) = x19)
    (hy : StableHlo.after (hostOps0_2 (F := Ideal)) W (Proc.devRef .tc main_v50) = y) :
    y (ix2 n k) = ∑ e : Fin 165000, if (wrapIdx x6 (ix1 e)).toInt = (n.val : Int) ∧ (wrapIdx x3 (ix1 e)).toInt = (k.val : Int)
      then edgeNorm x3 x6 x19 (ix1 e) else 0 := by
  rw [adj_term W x3 x6 x19 y h3 h6 h19 hy, truncf_apply, scatter_eq_pt, Cert.LibScatter2.scatterAdd_pt_apply, zeros_apply, zero_add]
  refine Finset.sum_congr rfl fun e _ => ?_
  rw [pair_col0, pair_col1]

/-- The same entry with the wrapped endpoint vectors and the edge weights named: whatever arrays sV, dV, nV
    the wrapped source vector, the wrapped target vector and the product of the two gathers are known to be. -/
theorem adj_value (n k : Fin 5000) (x3 x6 : IVec S165000 32) (x19 : FVec Ideal S5000 .f32) (y : FVec Ideal S5000x5000 .bf16)
    (h3 : W (Proc.devRef .tc main_v3) = x3) (h6 : W (Proc.devRef .tc main_v6) = x6) (h19 : W (Proc.devRef .tc main_v19) = x19)
    (hy : StableHlo.after (hostOps0_2 (F := Ideal)) W (Proc.devRef .tc main_v50) = y)
    (sV dV : IVec S165000 32) (nV : FVec Ideal S165000 .f32)
    (hs : wrapIdx x3 = sV) (hd : wrapIdx x6 = dV)
    (hn : mulf (Host.gather gather_S5000_S165000x1_S165000_n_0_n_n_0_1_1 x19 (broadcastInDim S165000x1 ![0] bcast_S165000_S165000x1_0 sV))
      (Host.gather gather_S5000_S165000x1_S165000_n_0_n_n_0_1_1 x19 (broadcastInDim S165000x1 ![0] bcast_S165000_S165000x1_0 dV)) = nV) :
    y (ix2 n k) = ∑ e : Fin 165000, if (dV (ix1 e)).toInt = (n.val : Int) ∧ (sV (ix1 e)).toInt = (k.val : Int)
      then nV (ix1 e) else 0 := by
  subst hs hd hn
  exact adj_apply W n k x3 x6 x19 y h3 h6 h19 hy

end Cert.KernelIdeal.HostValue

end
-- ==== Proof.GraphArrays.lean ====
/-
  The reference's edge list as three arrays computed from the edge-index argument: the source and destination vectors
  of the 165000 edges (the 160000 given edges followed by one self loop per node, a negative entry moved up by 5000)
  and the edge weights (the product, over an edge's two ends, of the reciprocal square root of the in-degree where it
  is positive, of 0 elsewhere); and the reading of an entry of an index vector as a node.
-/
import proofs.«137311_j86784109183564_2_alg».proof.Proof.Gen.ReferenceIdeal
import Idealize.ShloMosaic.PureOps.Ideal
import Idealize.ShloMosaic.Lib.ValueIdx

noncomputable section

namespace Cert.RefValue

open Cert.ReferenceIdeal Cert.ReferenceIdeal.Gen Idealize.ShloMosaic Idealize.ShloMosaic.ValueIdx

/-- The source vector of the edges: row 0 of the edge-index argument followed by 0 … 4999, negative entries moved up
    by 5000. -/
def srcV (a1 : IVec S2x160000 32) : IVec S165000 32 :=
  (select (cmpi .slt (concatenate S165000 0 [⟨S160000, (shapeCast _ (extractStridedSlice S1x160000 ![0, 0] a1 slices_S2x160000_S1x160000_0_0) shapeCasts_S1x160000_S160000)⟩, ⟨S5000, (iotaInDim S5000 32 0)⟩] concatenates_S160000_S5000_S165000_d0) (broadcastInDim S165000 ![] bcast_S_S165000 (constantI S_ 32 0#32))) (addi (concatenate S165000 0 [⟨S160000, (shapeCast _ (extractStridedSlice S1x160000 ![0, 0] a1 slices_S2x160000_S1x160000_0_0) shapeCasts_S1x160000_S160000)⟩, ⟨S5000, (iotaInDim S5000 32 0)⟩] concatenates_S160000_S5000_S165000_d0) (broadcastInDim S165000 ![] bcast_S_S165000 (constantI S_ 32 5000#32))) (concatenate S165000 0 [⟨S160000, (shapeCast _ (extractStridedSlice S1x160000 ![0, 0] a1 slices_S2x160000_S1x160000_0_0) shapeCasts_S1x160000_S160000)⟩, ⟨S5000, (iotaInDim S5000 32 0)⟩] concatenates_S160000_S5000_S165000_d0))

/-- The destination vector of the edges: row 1 of the edge-index argument followed by 0 … 4999, negative entries moved
    up by 5000. -/
def dstV (a1 : IVec S2x160000 32) : IVec S165000 32 :=
  (select (cmpi .slt (concatenate S165000 0 [⟨S160000, (shapeCast _ (extractStridedSlice S1x160000 ![1, 0] a1 slices_S2x160000_S1x160000_1_0) shapeCasts_S1x160000_S160000)⟩, ⟨S5000, (iotaInDim S5000 32 0)⟩] concatenates_S160000_S5000_S165000_d0) (broadcastInDim S165000 ![] bcast_S_S165000 (constantI S_ 32 0#32))) (addi (concatenate S165000 0 [⟨S160000, (shapeCast _ (extractStridedSlice S1x160000 ![1, 0] a1 slices_S2x160000_S1x160000_1_0) shapeCasts_S1x160000_S160000)⟩, ⟨S5000, (iotaInDim S5000 32 0)⟩] concatenates_S160000_S5000_S165000_d0) (broadcastInDim S165000 ![] bcast_S_S165000 (constantI S_ 32 5000#32))) (concatenate S165000 0 [⟨S160000, (shapeCast _ (extractStridedSlice S1x160000 ![1, 0] a1 slices_S2x160000_S1x160000_1_0) shapeCasts_S1x160000_S160000)⟩, ⟨S5000, (iotaInDim S5000 32 0)⟩] concatenates_S160000_S5000_S165000_d0))

/-- The edge weights: the product, over an edge's two ends, of the reciprocal square root of the in-degree (0 where the
    degree is not positive). -/
def nrmV (a1 : IVec S2x160000 32) : FVec Ideal S165000 .f32 :=
  (mulf (Host.gather gather_S5000_S165000x1_S165000_n_0_n_n_0_1_1 (select (cmpf (F := Ideal) .ogt (Host.scatterAdd scatter_S5000_S165000x1_S165000_n_0_0_1 (broadcastInDim S5000 ![] bcast_S_S5000 (constant S_ .f32 0x00000000#32)) (broadcastInDim S165000x1 ![0] bcast_S165000_S165000x1_0 (dstV a1)) (broadcastInDim S165000 ![] bcast_S_S165000 (constant S_ .f32 0x3F800000#32))) (broadcastInDim S5000 ![] bcast_S_S5000 (constant S_ .f32 0x00000000#32))) (Host.rsqrt (Host.scatterAdd scatter_S5000_S165000x1_S165000_n_0_0_1 (broadcastInDim S5000 ![] bcast_S_S5000 (constant S_ .f32 0x00000000#32)) (broadcastInDim S165000x1 ![0] bcast_S165000_S165000x1_0 (dstV a1)) (broadcastInDim S165000 ![] bcast_S_S165000 (constant S_ .f32 0x3F800000#32)))) (broadcastInDim S5000 ![] bcast_S_S5000 (id (constant S_ .f32 0x00000000#32)))) (broadcastInDim S165000x1 ![0] bcast_S165000_S165000x1_0 (srcV a1))) (Host.gather gather_S5000_S165000x1_S165000_n_0_n_n_0_1_1 (select (cmpf (F := Ideal) .ogt (Host.scatterAdd scatter_S5000_S165000x1_S165000_n_0_0_1 (broadcastInDim S5000 ![] bcast_S_S5000 (constant S_ .f32 0x00000000#32)) (broadcastInDim S165000x1 ![0] bcast_S165000_S165000x1_0 (dstV a1)) (broadcastInDim S165000 ![] bcast_S_S165000 (constant S_ .f32 0x3F800000#32))) (broadcastInDim S5000 ![] bcast_S_S5000 (constant S_ .f32 0x00000000#32))) (Host.rsqrt (Host.scatterAdd scatter_S5000_S165000x1_S165000_n_0_0_1 (broadcastInDim S5000 ![] bcast_S_S5000 (constant S_ .f32 0x00000000#32)) (broadcastInDim S165000x1 ![0] bcast_S165000_S165000x1_0 (dstV a1)) (broadcastInDim S165000 ![] bcast_S_S165000 (constant S_ .f32 0x3F800000#32)))) (broadcastInDim S5000 ![] bcast_S_S5000 (id (constant S_ .f32 0x00000000#32)))) (broadcastInDim S165000x1 ![0] bcast_S165000_S165000x1_0 (dstV a1))))

/-- An entry of an index vector as a node: read signed and clamped into [0, 4999]. -/
def toFin (v : IVec S165000 32) (e : Fin 165000) : Fin 5000 := ⟨min (v (ix1 e)).toInt.toNat 4999, by omega⟩

end Cert.RefValue

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.LibBatchNorm.lean ====
/-
  Batch normalisation on the extended reals.

  A column y of real numbers, indexed by a finite set s of m = |s| rows, has the mean μ = (Σ y) / m. Its variance can
  be written as the mean of the squares minus the square of the mean, (Σ y²) / m − μ², or as the mean of the squared
  deviations, (Σ (y − μ)²) / m. On the real numbers the two agree (expand the square: Σ (y − μ)² = Σ y² − 2 μ Σ y + m μ²
  and Σ y = m μ). On the extended reals subtraction and multiplication do not obey the ring laws at the infinities, so
  the identity is stated for columns whose entries are images of real numbers and is proved by moving to the reals.

  The second half carries finiteness through one normalisation layer: sums, differences, products and quotients by a
  nonzero real of reals are real; the variance is a real number that is not negative, so the variance plus a positive
  real is positive and its reciprocal square root is real; hence the normalised, scaled, shifted and rectified entry
  is real. A finite sum of reals divided by the larger of a real count and one is real as well.

  The last part is about a sum accumulated step by step: an accumulator that starts from zero plus the first term and
  adds one term at each further step holds the sum of the terms so far.
-/
import Idealize.ShloMosaic.PureOps.Ideal
import Idealize.ShloMosaic.PureOps.Ideal.Laws
import Idealize.ShloMosaic.Lib.ValueIdx
import proofs.«137311_j86784109183564_2_alg».proof.Proof.LibRealSums

open scoped BigOperators
open Idealize.ShloMosaic Cert.RealSums

namespace Cert.BatchNorm

/-! ### Reals are closed under the operations of a normalisation layer -/

/-- The negative of a real is real. -/
theorem isReal_neg {x : EReal} (hx : IsReal x) : IsReal (-x) := by
  obtain ⟨a, rfl⟩ := hx
  exact ⟨-a, (EReal.coe_neg a).symm⟩

/-- The difference of two reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem isReal_max {x y : EReal} (hx : IsReal x) (hy : IsReal y) : IsReal (max x y) := by
  rcases max_choice x y with h | h <;> rw [h] <;> assumption

/-- The quotient of a real a by a nonzero real m is the image of the real quotient a / m. -/
theorem div_coe_coe (a : ℝ) {m : ℝ} (hm : m ≠ 0) : Ideal.div (a : EReal) (m : EReal) = ((a / m : ℝ) : EReal) := by
  rw [Ideal.div_coe hm, ← EReal.coe_mul, mul_one_div]

/-- The quotient of a real by a nonzero real number is real. -/
theorem isReal_div_coe {x : EReal} (hx : IsReal x) {m : ℝ} (hm : m ≠ 0) : IsReal (Ideal.div x (m : EReal)) := by
  obtain ⟨a, rfl⟩ := hx
  exact ⟨a / m, div_coe_coe a hm⟩

/-- The quotient of a real by a real that is not zero is real. -/
theorem isReal_div {x d : EReal} (hx : IsReal x) (hd : IsReal d) (hd0 : d ≠ 0) : IsReal (Ideal.div x d) := by
  obtain ⟨m, rfl⟩ := hd
  exact isReal_div_coe hx (by intro h; exact hd0 (by rw [h, EReal.coe_zero]))

/-- A finite sum of reals is the image of the sum of their real parts. -/
theorem sum_eq_coe {ι : Type*} (s : Finset ι) (y : ι → EReal) (hy : ∀ r ∈ s, IsReal (y r)) :
    ∑ r ∈ s, y r = ((∑ r ∈ s, (y r).toReal : ℝ) : EReal) := by
  rw [← coe_sum]
  exact Finset.sum_congr rfl fun r hr => (hy r hr).eq_coe_toReal

/-- The mean of a finite family of reals over a nonzero real count is the image of the real mean. -/
theorem mean_eq_coe {ι : Type*} (s : Finset ι) (y : ι → EReal) (hy : ∀ r ∈ s, IsReal (y r)) {m : ℝ} (hm0 : m ≠ 0) :
    Ideal.div (∑ r ∈ s, y r) (m : EReal) = (((∑ r ∈ s, (y r).toReal) / m : ℝ) : EReal) := by
  rw [sum_eq_coe s y hy, div_coe_coe _ hm0]

/-! ### The two forms of the variance -/

/-- The mean of the squared deviations from the mean, of a finite family of reals, is the image of the same expression
    over the real numbers. -/
theorem varDev_eq_coe {ι : Type*} (s : Finset ι) (y : ι → EReal) (hy : ∀ r ∈ s, IsReal (y r)) {m : ℝ} (hm0 : m ≠ 0) :
    Ideal.div (∑ r ∈ s, (y r - Ideal.div (∑ r ∈ s, y r) (m : EReal)) * (y r - Ideal.div (∑ r ∈ s, y r) (m : EReal)))
        (m : EReal)
      = (((∑ r ∈ s, ((y r).toReal - (∑ r ∈ s, (y r).toReal) / m) * ((y r).toReal - (∑ r ∈ s, (y r).toReal) / m)) / m : ℝ)
          : EReal) := by
  rw [mean_eq_coe s y hy hm0]
  have h : ∑ r ∈ s, (y r - (((∑ r ∈ s, (y r).toReal) / m : ℝ) : EReal)) * (y r - (((∑ r ∈ s, (y r).toReal) / m : ℝ) : EReal))
      = ((∑ r ∈ s, ((y r).toReal - (∑ r ∈ s, (y r).toReal) / m) * ((y r).toReal - (∑ r ∈ s, (y r).toReal) / m) : ℝ)
          : EReal) := by
    rw [← coe_sum]
    refine Finset.sum_congr rfl fun r hr => ?_
    rw [EReal.coe_mul, EReal.coe_sub, ← (hy r hr).eq_coe_toReal]
  rw [h, div_coe_coe _ hm0]

/-- The mean of the squares minus the square of the mean, of a finite family of reals, is the image of the same
    expression over the real numbers. -/
theorem varSq_eq_coe {ι : Type*} (s : Finset ι) (y : ι → EReal) (hy : ∀ r ∈ s, IsReal (y r)) {m : ℝ} (hm0 : m ≠ 0) :
    Ideal.div (∑ r ∈ s, y r * y r) (m : EReal)
        - Ideal.div (∑ r ∈ s, y r) (m : EReal) * Ideal.div (∑ r ∈ s, y r) (m : EReal)
      = (((∑ r ∈ s, (y r).toReal * (y r).toReal) / m
            - (∑ r ∈ s, (y r).toReal) / m * ((∑ r ∈ s, (y r).toReal) / m) : ℝ) : EReal) := by
  rw [mean_eq_coe s y hy hm0]
  have h : ∑ r ∈ s, y r * y r = ((∑ r ∈ s, (y r).toReal * (y r).toReal : ℝ) : EReal) := by
    rw [← coe_sum]
    refine Finset.sum_congr rfl fun r hr => ?_
    rw [EReal.coe_mul, ← (hy r hr).eq_coe_toReal]
  rw [h, div_coe_coe _ hm0, EReal.coe_sub, EReal.coe_mul]

/-- Over the real numbers: the mean of the squares minus the square of the mean is the mean of the squared deviations,
    for a family indexed by a finite set of m ≠ 0 elements. -/
theorem real_var_eq {ι : Type*} (s : Finset ι) (x : ι → ℝ) {m : ℝ} (hm : m = (s.card : ℝ)) (hm0 : m ≠ 0) :
    (∑ r ∈ s, x r * x r) / m - (∑ r ∈ s, x r) / m * ((∑ r ∈ s, x r) / m)
      = (∑ r ∈ s, (x r - (∑ r ∈ s, x r) / m) * (x r - (∑ r ∈ s, x r) / m)) / m := by
  have hsum : ∀ c : ℝ, ∑ r ∈ s, (x r - c) * (x r - c)
      = (∑ r ∈ s, x r * x r) - 2 * c * (∑ r ∈ s, x r) + (s.card : ℝ) * (c * c) := by
    intro c
    have : ∀ r, (x r - c) * (x r - c) = x r * x r - 2 * c * x r + c * c := fun r => by ring
    simp only [this, Finset.sum_add_distrib, Finset.sum_sub_distrib, ← Finset.mul_sum, Finset.sum_const, nsmul_eq_mul]
    ring
  rw [hsum, ← hm]
  field_simp
  ring

/-- THE TWO VARIANCES AGREE. For a family of reals over a finite set s of m = |s| ≠ 0 rows, the mean of the squares
    minus the square of the mean equals the mean of the squared deviations from the mean, all operations being those of
    the extended reals. -/
theorem var_eq_finset {ι : Type*} (s : Finset ι) (y : ι → EReal) (hy : ∀ r ∈ s, IsReal (y r)) {m : ℝ}
    (hm : m = (s.card : ℝ)) (hm0 : m ≠ 0) :
    Ideal.div (∑ r ∈ s, y r * y r) (m : EReal)
        - Ideal.div (∑ r ∈ s, y r) (m : EReal) * Ideal.div (∑ r ∈ s, y r) (m : EReal)
      = Ideal.div (∑ r ∈ s, (y r - Ideal.div (∑ r ∈ s, y r) (m : EReal)) * (y r - Ideal.div (∑ r ∈ s, y r) (m : EReal)))
          (m : EReal) := by
  rw [varSq_eq_coe s y hy hm0, varDev_eq_coe s y hy hm0, real_var_eq s (fun r => (y r).toReal) hm hm0]

/-- The two variances agree, for a family indexed by a whole finite type of m ≠ 0 elements. -/
theorem var_eq {ι : Type*} [Fintype ι] (y : ι → EReal) (hy : ∀ r, IsReal (y r)) {m : ℝ}
    (hm : m = (Fintype.card ι : ℝ)) (hm0 : m ≠ 0) :
    Ideal.div (∑ r, y r * y r) (m : EReal) - Ideal.div (∑ r, y r) (m : EReal) * Ideal.div (∑ r, y r) (m : EReal)
      = Ideal.div (∑ r, (y r - Ideal.div (∑ r, y r) (m : EReal)) * (y r - Ideal.div (∑ r, y r) (m : EReal))) (m : EReal) :=
  var_eq_finset Finset.univ y (fun r _ => hy r) (by rw [hm, Finset.card_univ]) hm0

/-- The mean of the squared deviations of a family of reals over a positive real count is a real number that is not
    negative. -/
theorem varDev_nonneg {ι : Type*} (s : Finset ι) (y : ι → EReal) (hy : ∀ r ∈ s, IsReal (y r)) {m : ℝ} (hm0 : 0 < m) :
    ∃ v : ℝ, 0 ≤ v ∧
      Ideal.div (∑ r ∈ s, (y r - Ideal.div (∑ r ∈ s, y r) (m : EReal)) * (y r - Ideal.div (∑ r ∈ s, y r) (m : EReal)))
        (m : EReal) = (v : EReal) :=
  ⟨_, div_nonneg (Finset.sum_nonneg fun r _ => mul_self_nonneg _) hm0.le, varDev_eq_coe s y hy hm0.ne'⟩

/-- The mean of the squares minus the square of the mean, of a family of reals over a finite set of m = |s| > 0 rows, is
    a real number that is not negative. -/
theorem varSq_nonneg {ι : Type*} (s : Finset ι) (y : ι → EReal) (hy : ∀ r ∈ s, IsReal (y r)) {m : ℝ}
    (hm : m = (s.card : ℝ)) (hm0 : 0 < m) :
    ∃ v : ℝ, 0 ≤ v ∧
      Ideal.div (∑ r ∈ s, y r * y r) (m : EReal)
        - Ideal.div (∑ r ∈ s, y r) (m : EReal) * Ideal.div (∑ r ∈ s, y r) (m : EReal) = (v : EReal) := by
  rw [var_eq_finset s y hy hm hm0.ne']
  exact varDev_nonneg s y hy hm0

/-! ### The reciprocal square root of the variance plus a positive real -/

/-- The reciprocal square root of a positive real is the image of the real reciprocal square root. -/
theorem rsqrt_coe_of_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_of_pos {v : ℝ} (hv : 0 < v) : IsReal (Ideal.rsqrt (v : EReal)) :=
  ⟨_, rsqrt_coe_of_pos hv⟩

/-- The reciprocal square root of a real that is not negative plus a positive real is real. -/
theorem isReal_rsqrt_add {v e : ℝ} (hv : 0 ≤ v) (he : 0 < e) : IsReal (Ideal.rsqrt ((v : EReal) + (e : EReal))) := by
  rw [← EReal.coe_add]
  exact isReal_rsqrt_of_pos (add_pos_of_nonneg_of_pos hv he)

/-- The reciprocal square root of (mean of squares − square of the mean) + ε is real, for a family of reals over a
    finite set of m = |s| > 0 rows and a positive real ε. -/
theorem isReal_rsqrt_varSq_add {ι : Type*} (s : Finset ι) (y : ι → EReal) (hy : ∀ r ∈ s, IsReal (y r)) {m : ℝ}
    (hm : m = (s.card : ℝ)) (hm0 : 0 < m) {e : ℝ} (he : 0 < e) :
    IsReal (Ideal.rsqrt (Ideal.div (∑ r ∈ s, y r * y r) (m : EReal)
        - Ideal.div (∑ r ∈ s, y r) (m : EReal) * Ideal.div (∑ r ∈ s, y r) (m : EReal) + (e : EReal))) := by
  obtain ⟨v, hv, h⟩ := varSq_nonneg s y hy hm hm0
  rw [h]
  exact isReal_rsqrt_add hv he

/-- The reciprocal square root of (mean of the squared deviations) + ε is real, for a family of reals over a positive
    real count and a positive real ε. -/
theorem isReal_rsqrt_varDev_add {ι : Type*} (s : Finset ι) (y : ι → EReal) (hy : ∀ r ∈ s, IsReal (y r)) {m : ℝ}
    (hm0 : 0 < m) {e : ℝ} (he : 0 < e) :
    IsReal (Ideal.rsqrt (Ideal.div (∑ r ∈ s, (y r - Ideal.div (∑ r ∈ s, y r) (m : EReal))
        * (y r - Ideal.div (∑ r ∈ s, y r) (m : EReal))) (m : EReal) + (e : EReal))) := by
  obtain ⟨v, hv, h⟩ := varDev_nonneg s y hy hm0
  rw [h]
  exact isReal_rsqrt_add hv he

/-! ### The rectified output -/

/-- A selection on the comparison z ≥ 0 is a case distinction on 0 ≤ z. -/
theorem select_cmp_oge_zero {α : Type} (z : EReal) (a b : α) :
    Scalar.select (Ideal.cmp .oge z 0) a b = if 0 ≤ z then a else b := by
  by_cases h : (0 : EReal) ≤ z
  · rw [if_pos h]
    have : Ideal.cmp .oge z 0 = 1#1 := by simp [Ideal.cmp, h]
    rw [this]; exact if_pos rfl
  · rw [if_neg h]
    have : Ideal.cmp .oge z 0 = 0#1 := by simp [Ideal.cmp, h]
    rw [this]; exact if_neg (by decide)

/-- A selection between two reals is real, whatever the condition. -/
theorem isReal_select (c : BitVec 1) {a b : EReal} (ha : IsReal a) (hb : IsReal b) : IsReal (Scalar.select c a b) := by
  unfold Scalar.select
  split <;> assumption

/-- The leaky rectifier of a real with a real slope is real: z where z ≥ 0, slope · z elsewhere. -/
theorem isReal_prelu {z a : EReal} (hz : IsReal z) (ha : IsReal a) :
    IsReal (Scalar.select (Ideal.cmp .oge z 0) z (a * z)) :=
  isReal_select _ hz (ha.mul hz)

/-- The normalised, scaled and shifted entry (y − μ) · ρ · γ + β is real when its five constituents are. -/
theorem isReal_affine {y μ ρ γ β : EReal} (hy : IsReal y) (hμ : IsReal μ) (hρ : IsReal ρ) (hγ : IsReal γ)
    (hβ : IsReal β) : IsReal ((y - μ) * ρ * γ + β) :=
  (((isReal_sub hy hμ).mul hρ).mul hγ).add hβ

/-- The output of a normalisation layer with a leaky rectifier, prelu ((y − μ) · ρ · γ + β), is real when its
    constituents and the slope are. -/
theorem isReal_bn_prelu {y μ ρ γ β a : EReal} (hy : IsReal y) (hμ : IsReal μ) (hρ : IsReal ρ) (hγ : IsReal γ)
    (hβ : IsReal β) (ha : IsReal a) :
    IsReal (Scalar.select (Ideal.cmp .oge ((y - μ) * ρ * γ + β) 0) ((y - μ) * ρ * γ + β) (a * ((y - μ) * ρ * γ + β))) :=
  isReal_prelu (isReal_affine hy hμ hρ hγ hβ) ha

/-! ### A sum of reals divided by a count that is at least one -/

/-- A finite sum of reals divided by the larger of a real count and one is real. -/
theorem isReal_sum_div_max_one {ι : Type*} (s : Finset ι) (a : ι → EReal) (ha : ∀ i ∈ s, IsReal (a i)) {c : EReal}
    (hc : IsReal c) : IsReal (Ideal.div (∑ i ∈ s, a i) (max c 1)) := by
  refine isReal_div (isReal_sum s a ha) (isReal_max hc isReal_one) ?_
  exact (lt_of_lt_of_le zero_lt_one (le_max_right c 1)).ne'

/-- A real divided by the larger of a real count and one is real. -/
theorem isReal_div_max_one {x c : EReal} (hx : IsReal x) (hc : IsReal c) : IsReal (Ideal.div x (max c 1)) :=
  isReal_div hx (isReal_max hc isReal_one) (lt_of_lt_of_le zero_lt_one (le_max_right c 1)).ne'

/-! ### A sum accumulated step by step -/

/-- An accumulator that holds zero plus the first term after step 0 and adds the next term at every further step below
    N holds, after step n < N, the sum of the terms 0 … n. -/
theorem acc_eq_sum_range {β : Type*} [AddCommMonoid β] (acc g : ℕ → β) (N : ℕ) (h0 : acc 0 = 0 + g 0)
    (hs : ∀ n, n + 1 < N → acc (n + 1) = acc n + g (n + 1)) :
    ∀ n, n < N → acc n = ∑ t ∈ Finset.range (n + 1), g t := by
  intro n
  induction n with
  | zero => intro _; rw [h0, zero_add, Finset.sum_range_one]
  | succ k ih =>
    intro hk
    rw [hs k hk, ih (Nat.lt_of_succ_lt hk), Finset.sum_range_succ _ (k + 1)]

/-- After the last of N > 0 steps the accumulator holds the sum of all N terms. -/
theorem acc_last_eq_sum {β : Type*} [AddCommMonoid β] (acc g : ℕ → β) (N : ℕ) (hN : 0 < N) (h0 : acc 0 = 0 + g 0)
    (hs : ∀ n, n + 1 < N → acc (n + 1) = acc n + g (n + 1)) :
    acc (N - 1) = ∑ t ∈ Finset.range N, g t := by
  rw [acc_eq_sum_range acc g N h0 hs (N - 1) (Nat.sub_lt hN Nat.one_pos), Nat.sub_add_cancel hN]

/-- The same for an accumulator of extended reals whose first step adds the first term to the single-precision zero
    pattern, which denotes zero. -/
theorem acc_eq_sum_range_f32 (acc g : ℕ → EReal) (N : ℕ) (h0 : acc 0 = Ideal.ofBits .f32 0x00000000#32 + g 0)
    (hs : ∀ n, n + 1 < N → acc (n + 1) = acc n + g (n + 1)) :
    ∀ n, n < N → acc n = ∑ t ∈ Finset.range (n + 1), g t :=
  acc_eq_sum_range acc g N (by rw [h0, Ideal.ofBits_zero_f32]) hs

end Cert.BatchNorm
-- ==== Proof.LibFinite.lean ====
/-
  Real entries stay real: the operations of the two programs, read at the extended reals, keep every entry the image
  of a real number when their operands' entries are.

  An extended real is called real when it is the image of a real number. Sums, differences and products of reals are
  real, and so are finite sums and finite products. The operations that only move entries (a splat, a broadcast, a
  change of shape, a slice, a transposition, a concatenation, a gather of rows) give arrays each entry of which is an
  entry of an operand (a gather clamps its start indices, so it always reads inside its operand). A contraction is, at
  each entry, a finite sum of products of entries; a sum along axes is a finite sum of entries, plus the initial
  value for the host's; an accumulating scatter is, at each entry, the operand's entry plus a finite sum of update
  entries. A selection is one of its two branches, and a change of float format is the identity here.
-/
import Idealize.ShloMosaic.PureOps.Ideal
import Idealize.ShloMosaic.PureOps.Ideal.Laws
import proofs.«137311_j86784109183564_2_alg».proof.Proof.LibRealSums
import proofs.«137311_j86784109183564_2_alg».proof.Proof.LibBatchNorm

open scoped BigOperators
open Idealize.ShloMosaic Cert.RealSums Cert.BatchNorm

namespace Cert.Finite

/-! ### Scalars -/

/-- The single-precision zero pattern denotes a real (zero). -/
theorem isReal_ofBits_zero : IsReal (Ideal.ofBits .f32 0x00000000#32) := by
  rw [Ideal.ofBits_zero_f32]; exact isReal_zero

/-- A finite product of reals is real. -/
theorem isReal_prod {ι : Type*} (s : Finset ι) (a : ι → EReal) (ha : ∀ i ∈ s, IsReal (a i)) : IsReal (∏ i ∈ s, a i) := by
  classical
  induction s using Finset.induction_on with
  | empty => rw [Finset.prod_empty]; exact isReal_one
  | insert b s hb ih =>
    rw [Finset.prod_insert hb]
    exact (ha b (Finset.mem_insert_self b s)).mul (ih fun i hi => ha i (Finset.mem_insert_of_mem hi))

/-- A finite sum over a whole finite type of reals is real. -/
theorem isReal_sum_univ {ι : Type*} [Fintype ι] (a : ι → EReal) (ha : ∀ i, IsReal (a i)) : IsReal (∑ i, a i) :=
  isReal_sum Finset.univ a fun i _ => ha i

/-- A signed integer converted to a float is real. -/
theorem isReal_sitofp {φ : FTy} {w : Nat} (b : BitVec w) : IsReal (FloatOps.sitofp (F := Ideal) φ b) :=
  ⟨(b.toInt : ℝ), rfl⟩

/-! ### Lane by lane -/

section Lanes
variable {s : Shape} {φ : FTy}

theorem isReal_addf (x y : FVec Ideal s φ) (hx : ∀ i, IsReal (x i)) (hy : ∀ i, IsReal (y i)) (i : s.Idx) :
    IsReal (addf x y i) := (hx i).add (hy i)

theorem isReal_subf (x y : FVec Ideal s φ) (hx : ∀ i, IsReal (x i)) (hy : ∀ i, IsReal (y i)) (i : s.Idx) :
    IsReal (subf x y i) := isReal_sub (hx i) (hy i)

theorem isReal_mulf (x y : FVec Ideal s φ) (hx : ∀ i, IsReal (x i)) (hy : ∀ i, IsReal (y i)) (i : s.Idx) :
    IsReal (mulf x y i) := (hx i).mul (hy i)

/-- The constant splat of the single-precision zero pattern. -/
theorem isReal_constant_zero (s : Shape) (i : s.Idx) : IsReal (constant (F := Ideal) s .f32 0x00000000#32 i) :=
  isReal_ofBits_zero

/-- A constant splat of any pattern that denotes a real. -/
theorem isReal_constant (s : Shape) (b : BitVec φ.bits) (hb : IsReal (Ideal.ofBits φ b)) (i : s.Idx) :
    IsReal (constant (F := Ideal) s φ b i) := hb

/-- A lane-by-lane selection between two arrays of reals. -/
theorem isReal_select_vec (c : IVec s 1) (a b : s.Idx → EReal) (ha : ∀ i, IsReal (a i)) (hb : ∀ i, IsReal (b i))
    (i : s.Idx) : IsReal (select c a b i) := isReal_select (c i) (ha i) (hb i)

/-- A change of float format is the identity on the extended reals. -/
theorem isReal_truncf (ψ : FTy) (x : FVec Ideal s φ) (h : ψ.bits < φ.bits) (hx : ∀ i, IsReal (x i)) (i : s.Idx) :
    IsReal (truncf ψ x h i) := hx i

theorem isReal_extf (ψ : FTy) (x : FVec Ideal s φ) (h : φ.bits < ψ.bits) (hx : ∀ i, IsReal (x i)) (i : s.Idx) :
    IsReal (extf ψ x h i) := hx i

/-- The conversion of an integer array to floats. -/
theorem isReal_sitofp_vec {w : Nat} (n : IVec s w) (i : s.Idx) : IsReal (sitofp (F := Ideal) φ n i) := isReal_sitofp (n i)

/-- The host's quotient by an array whose entries are nonzero reals. -/
theorem isReal_hostDivf (x y : FVec Ideal s φ) (hx : ∀ i, IsReal (x i)) (hy : ∀ i, IsReal (y i)) (hy0 : ∀ i, y i ≠ 0)
    (i : s.Idx) : IsReal (Host.divf x y i) := isReal_div (hx i) (hy i) (hy0 i)

end Lanes

/-! ### Operations that move entries -/

section Moves
variable {s t : Shape}

/-- Any re-indexing of an array of reals. -/
theorem isReal_comp {ι κ : Type*} (x : ι → EReal) (g : κ → ι) (hx : ∀ i, IsReal (x i)) (j : κ) : IsReal (x (g j)) := hx (g j)

theorem isReal_broadcast (t : Shape) (x : EReal) (hx : IsReal x) (j : t.Idx) : IsReal (broadcast t x j) := hx

theorem isReal_broadcastTo (t : Shape) (x : s.Idx → EReal) (h : s.Broadcasts t) (hx : ∀ i, IsReal (x i)) (j : t.Idx) :
    IsReal (broadcastTo t x h j) := hx _

theorem isReal_broadcastInDim (t : Shape) (dims : Fin s.rank → Fin t.rank) (h : s.BroadcastsInDim t dims)
    (x : s.Idx → EReal) (hx : ∀ i, IsReal (x i)) (j : t.Idx) : IsReal (broadcastInDim t dims h x j) := hx _

/-- A change of shape (the host's reshape is one). -/
theorem isReal_shapeCast (t : Shape) (x : s.Idx → EReal) (h : s.ShapeCasts t) (hx : ∀ i, IsReal (x i)) (j : t.Idx) :
    IsReal (shapeCast t x h j) := hx _

/-- A slice at unit strides. -/
theorem isReal_extractStridedSlice (t : Shape) (off : Fin s.rank → Nat) (x : s.Idx → EReal) (h : s.Slices off t)
    (hx : ∀ i, IsReal (x i)) (j : t.Idx) : IsReal (extractStridedSlice t off x h j) := hx _

/-- A slice at any strides. -/
theorem isReal_hostSlice (t : Shape) (start strides : Fin s.rank → Nat) (x : s.Idx → EReal)
    (h : s.SlicesBy start strides t) (hx : ∀ i, IsReal (x i)) (j : t.Idx) : IsReal (Host.slice t start strides x h j) :=
  hx _

theorem isReal_transpose (t : Shape) (perm : List (Fin s.rank)) (x : s.Idx → EReal) (h : s.Transposes perm t)
    (hx : ∀ i, IsReal (x i)) (j : t.Idx) : IsReal (transpose t perm x h j) := hx _

/-- A concatenation of any number of arrays along an axis: each entry is an entry of one of them. -/
theorem isReal_concatenate (t : Shape) (a : Fin t.rank) (xs : List ((s : Shape) × (s.Idx → EReal)))
    (h : Shape.Concatenates (xs.map (·.1)) t a) (hx : ∀ p ∈ xs, ∀ i, IsReal (p.2 i)) (j : t.Idx) :
    IsReal (concatenate t a xs h j) := by
  unfold concatenate
  exact hx _ (List.getElem_mem _) _

/-- A concatenation of two arrays. -/
theorem isReal_concatenate₂ (t : Shape) (a : Fin t.rank) {s₁ s₂ : Shape} (x₁ : s₁.Idx → EReal) (x₂ : s₂.Idx → EReal)
    (h : Shape.Concatenates [s₁, s₂] t a) (h₁ : ∀ i, IsReal (x₁ i)) (h₂ : ∀ i, IsReal (x₂ i)) (j : t.Idx) :
    IsReal (concatenate t a [⟨s₁, x₁⟩, ⟨s₂, x₂⟩] h j) := by
  refine isReal_concatenate t a [⟨s₁, x₁⟩, ⟨s₂, x₂⟩] h (fun p hp => ?_) j
  rcases List.mem_cons.mp hp with rfl | hp
  · exact h₁
  · rcases List.mem_cons.mp hp with rfl | hp
    · exact h₂
    · exact absurd hp (List.not_mem_nil)

/-- A concatenation of four arrays. -/
theorem isReal_concatenate₄ (t : Shape) (a : Fin t.rank) {s₁ s₂ s₃ s₄ : Shape} (x₁ : s₁.Idx → EReal)
    (x₂ : s₂.Idx → EReal) (x₃ : s₃.Idx → EReal) (x₄ : s₄.Idx → EReal) (h : Shape.Concatenates [s₁, s₂, s₃, s₄] t a)
    (h₁ : ∀ i, IsReal (x₁ i)) (h₂ : ∀ i, IsReal (x₂ i)) (h₃ : ∀ i, IsReal (x₃ i)) (h₄ : ∀ i, IsReal (x₄ i)) (j : t.Idx) :
    IsReal (concatenate t a [⟨s₁, x₁⟩, ⟨s₂, x₂⟩, ⟨s₃, x₃⟩, ⟨s₄, x₄⟩] h j) := by
  refine isReal_concatenate t a [⟨s₁, x₁⟩, ⟨s₂, x₂⟩, ⟨s₃, x₃⟩, ⟨s₄, x₄⟩] h (fun p hp => ?_) j
  simp only [List.mem_cons, List.not_mem_nil, or_false] at hp
  rcases hp with rfl | rfl | rfl | rfl
  · exact h₁
  · exact h₂
  · exact h₃
  · exact h₄

/-- A gather, whatever its dimension numbers and start indices: each entry is the operand's entry at the (clamped)
    operand index. -/
theorem isReal_gather {si : Shape} {w : Nat} (d : GatherDims s si t) (x : s.Idx → EReal) (idx : IVec si w)
    (hx : ∀ i, IsReal (x i)) (j : t.Idx) : IsReal (Host.gather d x idx j) := hx _

end Moves

/-! ### Sums of entries -/

section Sums

/-- The host's contraction, whatever its dimension numbers: at each entry a finite sum of products of entries. -/
theorem isReal_dotGeneral {sl sr so : Shape} {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral d prec lhs rhs j) := by
  have h : Host.dotGeneral d prec lhs rhs j = ∑ k : d.contr.Idx, lhs (d.lhsIdx j k) * rhs (d.rhsIdx j k) :=
    Ideal.dotGeneral_apply d prec .single lhs rhs j
  rw [h]
  exact isReal_sum _ _ fun k _ => (hl _).mul (hr _)

/-- The kernel's contraction onto an accumulator of reals. -/
theorem isReal_matmul {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i))
    (hr : ∀ i, IsReal (rhs i)) (ha : ∀ i, IsReal (acc i)) (j : so.Idx) : IsReal (matmul d prec lhs rhs acc j) := by
  have h : matmul d prec lhs rhs acc j = acc j + ∑ k : d.contr.Idx, lhs (d.lhsIdx j k) * rhs (d.rhsIdx j k) :=
    Ideal.matmul_apply d prec lhs rhs acc j
  rw [h]
  exact (ha j).add (isReal_sum _ _ fun k _ => (hl _).mul (hr _))

/-- The host's accumulating scatter, whatever its dimension numbers and indices: at each entry the operand's entry
    plus a finite sum of update entries. -/
theorem isReal_scatterAdd {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact (hx i).add (isReal_sum _ _ fun j _ => hu j)

/-- The host's sum along axes from a real initial value: at each entry the initial value plus a finite sum of
    entries. -/
theorem isReal_hostReduceAdd {s t u : Shape} {φ : FTy} {axes : List (Fin s.rank)} (x : FVec Ideal s φ)
    (init : u.Idx → Ideal φ) (h : s.ReducesTo axes t) (hu : 0 < u.numel) (hx : ∀ i, IsReal (x i))
    (hinit : ∀ i, IsReal (init i)) (j : t.Idx) : IsReal (Host.reduceAdd x init h hu j) := by
  unfold Host.reduceAdd
  rw [Ideal.hostReduceAdd_def]
  unfold Ideal.hostReduceAdd
  exact (hinit _).add (isReal_sum _ _ fun i _ => hx i)

/-- The kernel's sum along axes: at each entry a finite sum of entries. -/
theorem isReal_multiReduction_add {s t : Shape} {φ : FTy} (axes : List (Fin s.rank)) (src : FVec Ideal s φ)
    (acc : BitVec φ.bits) (h : s.Reduces axes t) (hφ : FKind.Formats φ) (hacc : acc = FKind.add.neutral φ hφ)
    (hx : ∀ i, IsReal (src i)) (j : t.Idx) : IsReal (multiReduction .add axes t src acc h hφ hacc j) := by
  show IsReal (FloatOps.reduceAdd axes h src j)
  rw [Ideal.reduceAdd_def]
  unfold Ideal.reduceAdd
  exact isReal_sum _ _ fun i _ => hx i

end Sums

/-! ### The reciprocal square root of a positive real, lane by lane -/

/-- The host's reciprocal square root of an array whose entries are positive reals. -/
theorem isReal_hostRsqrt {s : Shape} {φ : FTy} (x : FVec Ideal s φ) (hx : ∀ i, ∃ r : ℝ, 0 < r ∧ x i = (r : EReal))
    (i : s.Idx) : IsReal (Host.rsqrt x i) := by
  obtain ⟨r, hr, h⟩ := hx i
  show IsReal (Ideal.rsqrt (x i))
  rw [h]
  exact isReal_rsqrt_of_pos hr

/-- The kernel's reciprocal square root of an array whose entries are positive reals. -/
theorem isReal_rsqrt {s : Shape} {φ : FTy} (x : FVec Ideal s φ) (hx : ∀ i, ∃ r : ℝ, 0 < r ∧ x i = (r : EReal))
    (i : s.Idx) : IsReal (rsqrt x i) := by
  obtain ⟨r, hr, h⟩ := hx i
  show IsReal (Ideal.rsqrt (x i))
  rw [h]
  exact isReal_rsqrt_of_pos hr

end Cert.Finite
-- ==== Proof.RefEdges.lean ====
/-
  The reference's edge list: the source and destination vectors of the 165000 edges (the 160000 given edges followed
  by one self loop per node) and the edge weights, as the reference computes them from the edge-index argument.

  The source (destination) vector is row 0 (row 1) of the argument followed by 0, 1, …, 4999, with a negative entry
  moved up by 5000. When every given index lies in [0, 5000) nothing is moved and every entry of the two vectors lies
  in [0, 5000). The in-degree of a node is 0 plus a finite sum of ones, a real number; the weight of an edge is the
  product of the reciprocal square roots of the degrees of its two ends where the degree is positive, and of 0
  elsewhere: a real number.
-/
import proofs.«137311_j86784109183564_2_alg».proof.Proof.RefReadP
import proofs.«137311_j86784109183564_2_alg».proof.Proof.GraphArrays
import proofs.«137311_j86784109183564_2_alg».proof.Proof.Spec
import proofs.«137311_j86784109183564_2_alg».proof.Proof.LibFinite

noncomputable section

namespace Cert.RefValue

open Cert.ReferenceIdeal Cert.ReferenceIdeal.Gen Cert.ReferenceIdeal.ReadP Idealize.ShloMosaic Idealize.ShloMosaic.ValueIdx
open Cert.RealSums Cert.BatchNorm Cert.Finite

theorem srcV_eq (a1 : IVec S2x160000 32) : srcV a1 = val_main_v24 (F := Ideal) a1 := rfl
theorem dstV_eq (a1 : IVec S2x160000 32) : dstV a1 = val_main_v12 (F := Ideal) a1 := rfl
theorem nrmV_eq (a1 : IVec S2x160000 32) : nrmV a1 = val_main_v34 (F := Ideal) a1 := rfl

/-! ## The index vectors stay in range -/

/-- A small natural number as a 32-bit word reads signed as itself. -/
theorem toInt_ofNat_small (n : Nat) (h : n < 5000) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- A non-negative index is left where it is by the negative-index normalisation. -/
theorem normIdx_of_nonneg (x : BitVec 32) (h : 0 ≤ x.toInt) :
    Scalar.select (IntOp.cmpi .slt x 0#32) (IntOp.addi x 5000#32) x = x := by
  have hs : x.slt 0#32 = false := by
    simp only [BitVec.slt, BitVec.toInt_zero]
    exact decide_eq_false (by omega)
  have hc : IntOp.cmpi .slt x 0#32 = 0#1 := by
    show BitVec.ofBool (x.slt 0#32) = 0#1
    rw [hs]; rfl
  rw [hc, select_zero]

/-- Row 0 of the argument followed by 0 … 4999: every entry in [0, 5000). -/
theorem cat0_range (a1 : IVec S2x160000 32) (h1 : ∀ i, 0 ≤ (a1 i).toInt ∧ (a1 i).toInt < 5000) (e : Fin 165000) :
    0 ≤ (val_main_v3 (F := Ideal) a1 (ix1 e)).toInt ∧ (val_main_v3 (F := Ideal) a1 (ix1 e)).toInt < 5000 := by
  unfold val_main_v3
  by_cases he : e.val < 160000
  · rw [concatenate_pair_apply_left (0 : Fin S165000.rank) (val_main_v2 (F := Ideal) a1) (val_main_v0 (F := Ideal))
      concatenates_S160000_S5000_S165000_d0 (ix1 e) rfl (ix1 ⟨e.val, he⟩)
      (fun b => by match b with | ⟨0, _⟩ => rfl)]
    rw [val_main_v2_apply, val_main_v1_apply]
    exact h1 _
  · have he' : e.val - 160000 < 5000 := by have := e.isLt; omega
    rw [concatenate_pair_apply_right (0 : Fin S165000.rank) (val_main_v2 (F := Ideal) a1) (val_main_v0 (F := Ideal))
      concatenates_S160000_S5000_S165000_d0 (ix1 e) rfl rfl (ix1 ⟨e.val - 160000, he'⟩)
      (fun b hb => absurd (Fin.ext (by have hlt : b.val < 1 := b.isLt; show b.val = 0; omega)) hb)
      (by show (e.val - 160000) + 160000 = e.val; omega)]
    rw [val_main_v0_apply]
    show 0 ≤ (BitVec.ofNat 32 (e.val - 160000)).toInt ∧ (BitVec.ofNat 32 (e.val - 160000)).toInt < 5000
    rw [toInt_ofNat_small _ he']
    omega

/-- Row 1 of the argument followed by 0 … 4999: every entry in [0, 5000). -/
theorem cat1_range (a1 : IVec S2x160000 32) (h1 : ∀ i, 0 ≤ (a1 i).toInt ∧ (a1 i).toInt < 5000) (e : Fin 165000) :
    0 ≤ (val_main_v6 (F := Ideal) a1 (ix1 e)).toInt ∧ (val_main_v6 (F := Ideal) a1 (ix1 e)).toInt < 5000 := by
  unfold val_main_v6
  by_cases he : e.val < 160000
  · rw [concatenate_pair_apply_left (0 : Fin S165000.rank) (val_main_v5 (F := Ideal) a1) (val_main_v0 (F := Ideal))
      concatenates_S160000_S5000_S165000_d0 (ix1 e) rfl (ix1 ⟨e.val, he⟩)
      (fun b => by match b with | ⟨0, _⟩ => rfl)]
    rw [val_main_v5_apply, val_main_v4_apply]
    exact h1 _
  · have he' : e.val - 160000 < 5000 := by have := e.isLt; omega
    rw [concatenate_pair_apply_right (0 : Fin S165000.rank) (val_main_v5 (F := Ideal) a1) (val_main_v0 (F := Ideal))
      concatenates_S160000_S5000_S165000_d0 (ix1 e) rfl rfl (ix1 ⟨e.val - 160000, he'⟩)
      (fun b hb => absurd (Fin.ext (by have hlt : b.val < 1 := b.isLt; show b.val = 0; omega)) hb)
      (by show (e.val - 160000) + 160000 = e.val; omega)]
    rw [val_main_v0_apply]
    show 0 ≤ (BitVec.ofNat 32 (e.val - 160000)).toInt ∧ (BitVec.ofNat 32 (e.val - 160000)).toInt < 5000
    rw [toInt_ofNat_small _ he']
    omega

/-- With the given indices in range, the source vector is row 0 followed by 0 … 4999. -/
theorem srcV_apply (a1 : IVec S2x160000 32) (h1 : ∀ i, 0 ≤ (a1 i).toInt ∧ (a1 i).toInt < 5000) (e : Fin 165000) :
    srcV a1 (ix1 e) = val_main_v3 (F := Ideal) a1 (ix1 e) := by
  rw [srcV_eq, val_main_v24_apply, val_main_v21_apply, val_main_v20_apply, val_main_c_4_apply, val_main_v23_apply,
    val_main_v22_apply, val_main_c_5_apply]
  exact normIdx_of_nonneg _ (cat0_range a1 h1 e).1

/-- With the given indices in range, the destination vector is row 1 followed by 0 … 4999. -/
theorem dstV_apply (a1 : IVec S2x160000 32) (h1 : ∀ i, 0 ≤ (a1 i).toInt ∧ (a1 i).toInt < 5000) (e : Fin 165000) :
    dstV a1 (ix1 e) = val_main_v6 (F := Ideal) a1 (ix1 e) := by
  rw [dstV_eq, val_main_v12_apply, val_main_v9_apply, val_main_v8_apply, val_main_c_apply, val_main_v11_apply,
    val_main_v10_apply, val_main_c_0_apply]
  exact normIdx_of_nonneg _ (cat1_range a1 h1 e).1

/-- Every entry of the source vector is a node. -/
theorem srcV_range (a1 : IVec S2x160000 32) (h1 : ∀ i, 0 ≤ (a1 i).toInt ∧ (a1 i).toInt < 5000) (e : Fin 165000) :
    0 ≤ (srcV a1 (ix1 e)).toInt ∧ (srcV a1 (ix1 e)).toInt < 5000 := by
  rw [srcV_apply a1 h1 e]; exact cat0_range a1 h1 e

/-- Every entry of the destination vector is a node. -/
theorem dstV_range (a1 : IVec S2x160000 32) (h1 : ∀ i, 0 ≤ (a1 i).toInt ∧ (a1 i).toInt < 5000) (e : Fin 165000) :
    0 ≤ (dstV a1 (ix1 e)).toInt ∧ (dstV a1 (ix1 e)).toInt < 5000 := by
  rw [dstV_apply a1 h1 e]; exact cat1_range a1 h1 e

/-! ## The edge weights are real numbers -/

/-- The single-precision pattern of one denotes one. -/
theorem ofBits_one_f32 : Ideal.ofBits .f32 0x3F800000#32 = 1 := by
  simp [Ideal.ofBits, Ideal.ieee, -EReal.coe_mul]; norm_num

/-- The reciprocal square root of a real degree where it is positive, zero elsewhere, is a real number. -/
theorem isReal_dinv (d z z' : EReal) (hd : IsReal d) (hz : z = 0) (hz' : z' = 0) :
    IsReal (Scalar.select (Ideal.cmp .ogt d z) (Ideal.rsqrt d) z') := by
  subst hz; subst hz'
  obtain ⟨r, rfl⟩ := hd
  by_cases h : (0 : EReal) < (r : EReal)
  · have hc : Ideal.cmp .ogt (r : EReal) 0 = 1#1 := by simp [Ideal.cmp, h]
    rw [hc, select_one]
    exact isReal_rsqrt_of_pos (by exact_mod_cast h)
  · have hc : Ideal.cmp .ogt (r : EReal) 0 = 0#1 := by simp [Ideal.cmp, h]
    rw [hc, select_zero]; exact isReal_zero

/-- The in-degrees are real numbers: 0 plus a finite sum of ones. -/
theorem isReal_deg (a1 : IVec S2x160000 32) (n : S5000.Idx) : IsReal (val_main_v15 (F := Ideal) a1 n) := by
  unfold val_main_v15
  refine isReal_scatterAdd _ _ _ _ (fun i => ?_) (fun j => ?_) n
  · rw [val_main_v7_apply, val_main_cst_apply]; exact isReal_ofBits_zero
  · rw [val_main_v14_apply, val_main_cst_1_apply]
    show IsReal (Ideal.ofBits .f32 0x3F800000#32)
    rw [ofBits_one_f32]; exact isReal_one

/-- The normalisation factors of the nodes are real numbers. -/
theorem isReal_dinvV (a1 : IVec S2x160000 32) (n : S5000.Idx) : IsReal (val_main_v19 (F := Ideal) a1 n) := by
  rw [val_main_v19_apply, val_main_v17_apply, val_main_v18_apply, val_main_v16_apply, val_main_cst_2_apply,
    val_main_call0_v1_apply, val_main_call0_v0_apply, val_main_cst_3_apply]
  have hd := isReal_deg a1 n
  generalize val_main_v15 (F := Ideal) a1 n = d at hd ⊢
  show IsReal (Scalar.select (Ideal.cmp .ogt d (Ideal.ofBits .f32 0x00000000#32)) (Ideal.rsqrt d)
    (Ideal.ofBits .f32 0x00000000#32))
  rw [Ideal.ofBits_zero_f32]
  exact isReal_dinv d 0 0 hd rfl rfl

/-- **Every edge weight is a real number.** -/
theorem nrmV_real (a1 : IVec S2x160000 32) (e : Fin 165000) : Cert.Spec.IsReal (nrmV a1 (ix1 e)) := by
  rw [nrmV_eq, val_main_v34_apply]
  refine (IsReal.mul ?_ ?_ : IsReal _)
  · unfold val_main_v26
    exact isReal_gather _ _ _ (isReal_dinvV a1) _
  · unfold val_main_v33
    exact isReal_gather _ _ _ (isReal_dinvV a1) _

end Cert.RefValue

end
-- ==== Proof.LibRowGather.lean ====
/-
  A gather of whole rows, and of scalars, by one start index per result row, read at an entry.

  Row gather: the operand is an [N, C] array, the start indices an [E, 1] column of words; result entry (e, f) is the
  operand's entry (r, f), where r is the start index of row e read as a signed integer and clamped into [0, N - 1].
  Scalar gather: the same out of an [N] vector: result entry e is the operand's entry r.
-/
import Idealize.ShloMosaic.PureOps
import Idealize.ShloMosaic.Lib.ValueIdx

noncomputable section

namespace Cert.LibRowGather

open Idealize.ShloMosaic Idealize.ShloMosaic.ValueIdx

variable {α : Type}

/-- A start index read as a signed integer and clamped into an axis of extent N. -/
def clampIdx {w : Nat} (v : BitVec w) (N : Nat) : Nat := min v.toInt.toNat (N - 1)

theorem clampIdx_lt {w : Nat} (v : BitVec w) {N : Nat} (hN : 0 < N) : clampIdx v N < N := by
  unfold clampIdx; omega

/-- A start index that, read signed, is the natural number n below N clamps to n. -/
theorem clampIdx_of_toInt {w : Nat} (v : BitVec w) {N n : Nat} (hn : n < N) (h : v.toInt = (n : Int)) : clampIdx v N = n := by
  unfold clampIdx; rw [h, Int.toNat_natCast]; omega

/-- The dimension numbers of a gather of rows of an [N, C] operand by an [E, 1] column of start indices. -/
abbrev rowsDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem siIdx_rows {N E C : Nat} (wf : GatherDims.WF ⟨2, ![N, C]⟩ ⟨2, ![E, 1]⟩ ⟨2, ![E, C]⟩ [1] [0] [] [0] [] 1 ![1, C])
    (e : Fin E) (f : Fin C) (hk : (0 : Nat) < (rowsDims N E C wf).startIndexMap.length) :
    (rowsDims N E C wf).siIdx (ix2 e f) ⟨0, hk⟩ = ix2 e (0 : Fin 1) := by
  funext j; refine Fin.ext ?_
  match j with
  | ⟨0, _⟩ => rfl
  | ⟨1, _⟩ => rfl

/-- THE ROW GATHER READ AT (e, f): the operand at (the clamped start index of row e, f). -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N E C wf) x idx (ix2 e f)
      = x (ix2 ⟨clampIdx (idx (ix2 e (0 : Fin 1))) N, clampIdx_lt _ hN⟩ f) := by
  unfold Host.gather
  congr 1
  funext ax
  refine Fin.ext ?_
  show (rowsDims N E C wf).start (ix2 e f) idx ax + (rowsDims N E C wf).batchCoord (ix2 e f) ax
    + (rowsDims N E C wf).offCoord (ix2 e f) ax = _
  rw [GatherDims.batchCoord_eq_zero _ _ _ List.not_mem_nil]
  simp only [Nat.add_zero]
  match ax with
  | ⟨0, h0⟩ =>
    have hmem : (⟨0, h0⟩ : Fin 2) ∈ ([0] : List (Fin 2)) := by simp
    rw [GatherDims.offCoord_eq_zero _ _ _ (fun h => ((GatherDims.mem_sKept _ _).mp h).1 hmem)]
    unfold GatherDims.start
    rw [dif_pos (show (⟨0, h0⟩ : Fin 2) ∈ (rowsDims N E C wf).startIndexMap from hmem)]
    show min (idx ((rowsDims N E C wf).siIdx (ix2 e f) ⟨0, (by show (0 : Nat) < 1; decide)⟩)).toInt.toNat _ + 0 = _
    rw [siIdx_rows wf e f]; rfl
  | ⟨1, h1⟩ =>
    have hnot : (⟨1, h1⟩ : Fin 2) ∉ (rowsDims N E C wf).startIndexMap := by simp
    unfold GatherDims.start
    rw [dif_neg hnot]
    show 0 + (rowsDims N E C wf).offCoord (ix2 e f) ⟨1, h1⟩ = f.val
    rw [Nat.zero_add]
    rfl

/-- The dimension numbers of a gather of scalars of an [N] operand by an [E, 1] column of start indices. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem siIdx_vec {N E : Nat} (wf : GatherDims.WF ⟨1, ![N]⟩ ⟨2, ![E, 1]⟩ ⟨1, ![E]⟩ [] [0] [] [0] [] 1 ![1])
    (e : Fin E) (hk : (0 : Nat) < (vecDims N E wf).startIndexMap.length) :
    (vecDims N E wf).siIdx (ix1 e) ⟨0, hk⟩ = ix2 e (0 : Fin 1) := by
  funext j; refine Fin.ext ?_
  match j with
  | ⟨0, _⟩ => rfl
  | ⟨1, _⟩ => rfl

/-- THE SCALAR GATHER READ AT e: the operand at the clamped start index of e. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 ⟨clampIdx (idx (ix2 e (0 : Fin 1))) N, clampIdx_lt _ hN⟩) := by
  unfold Host.gather
  congr 1
  funext ax
  obtain rfl : ax = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  show min (idx ((vecDims N E wf).siIdx (ix1 e) ⟨0, (by show (0 : Nat) < 1; decide)⟩)).toInt.toNat _ = _
  rw [siIdx_vec wf e]; rfl

end Cert.LibRowGather

end
-- ==== Proof.LibGraphOps.lean ====
/-
  A gather and an accumulating scatter along the MIDDLE axis of a rank-3 array, read at an entry.

  The gather takes, for each of `E` start indices, the whole `[B, ·, C]` slab of an `[B, N, C]` operand at that
  (clamped) index of the middle axis: entry `(b, e, c)` of the result is the operand's entry `(b, clamp (idx e), c)`.
  The scatter adds slab `e` of the `[B, E, C]` updates into slab `idx e` of the operand (the index read as a signed
  integer; an index outside the operand drops the update): entry `(b, n, c)` of the result is the operand's entry
  plus the sum, over the update slabs `e` whose index is `n`, of the updates' entry `(b, e, c)`. Every update element
  keeps its first and last coordinates, so the sum over the update elements that land on `(b, n, c)` collapses to a
  sum over the update slabs.
-/
import Idealize.ShloMosaic.PureOps.Ideal
import Idealize.ShloMosaic.PureOps.Ideal.Laws
import Idealize.ShloMosaic.Lib.ValueIdx
import proofs.«137311_j86784109183564_2_alg».proof.Proof.LibRowGather

noncomputable section

namespace Cert.LibGraphOps

open Idealize.ShloMosaic Idealize.ShloMosaic.ValueIdx Cert.LibRowGather

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The gather along the middle axis -/

section Gather
variable {α : Type}

/-- The dimension numbers of a gather of `[B, ·, C]` slabs of a `[B, N, C]` operand by an `[E, 1]` column of start
    indices into the middle axis. -/
abbrev midGather (B N E C : Nat)
    (wf : GatherDims.WF ⟨3, ![B, N, C]⟩ ⟨2, ![E, 1]⟩ ⟨3, ![B, E, C]⟩ [0, 2] [1] [] [1] [] 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := []
  startIndexMap := [1]
  indexVectorDim := 1
  sliceSizes := ![B, 1, C]
  wf := wf

theorem siIdx_mid {B N E C : Nat}
    (wf : GatherDims.WF ⟨3, ![B, N, C]⟩ ⟨2, ![E, 1]⟩ ⟨3, ![B, E, C]⟩ [0, 2] [1] [] [1] [] 1 ![B, 1, C])
    (b : Fin B) (e : Fin E) (c : Fin C) (hk : (0 : Nat) < (midGather B N E C wf).startIndexMap.length) :
    (midGather B N E C wf).siIdx (ix3 b e c) ⟨0, hk⟩ = ix2 e (0 : Fin 1) := by
  funext j; refine Fin.ext ?_
  match j with
  | ⟨0, _⟩ => rfl
  | ⟨1, _⟩ => rfl

/-- THE MIDDLE-AXIS GATHER READ AT `(b, e, c)`: the operand at `(b, the clamped start index of slab e, c)`. -/
theorem gather_mid_apply {B N E C w : Nat} (hN : 0 < N)
    (wf : GatherDims.WF ⟨3, ![B, N, C]⟩ ⟨2, ![E, 1]⟩ ⟨3, ![B, E, C]⟩ [0, 2] [1] [] [1] [] 1 ![B, 1, C])
    (x : (⟨3, ![B, N, C]⟩ : Shape).Idx → α) (idx : IVec ⟨2, ![E, 1]⟩ w) (b : Fin B) (e : Fin E) (c : Fin C) :
    Host.gather (midGather B N E C wf) x idx (ix3 b e c)
      = x (ix3 b ⟨clampIdx (idx (ix2 e (0 : Fin 1))) N, clampIdx_lt _ hN⟩ c) := by
  unfold Host.gather
  congr 1
  funext ax
  refine Fin.ext ?_
  show (midGather B N E C wf).start (ix3 b e c) idx ax + (midGather B N E C wf).batchCoord (ix3 b e c) ax
    + (midGather B N E C wf).offCoord (ix3 b e c) ax = _
  rw [GatherDims.batchCoord_eq_zero _ _ _ List.not_mem_nil]
  simp only [Nat.add_zero]
  match ax with
  | ⟨0, h0⟩ =>
    have hnot : (⟨0, h0⟩ : Fin 3) ∉ (midGather B N E C wf).startIndexMap := fun h => absurd (congrArg Fin.val (List.mem_singleton.mp h)) (by show ¬((0 : Nat) = 1); decide)
    unfold GatherDims.start
    rw [dif_neg hnot]
    show 0 + (midGather B N E C wf).offCoord (ix3 b e c) ⟨0, h0⟩ = b.val
    rw [Nat.zero_add]
    rfl
  | ⟨1, h1⟩ =>
    have hmem : (⟨1, h1⟩ : Fin 3) ∈ ([1] : List (Fin 3)) := List.mem_singleton.mpr rfl
    rw [GatherDims.offCoord_eq_zero _ _ _ (fun h => ((GatherDims.mem_sKept _ _).mp h).1 hmem)]
    unfold GatherDims.start
    rw [dif_pos (show (⟨1, h1⟩ : Fin 3) ∈ (midGather B N E C wf).startIndexMap from hmem)]
    show min (idx ((midGather B N E C wf).siIdx (ix3 b e c) ⟨0, (by show (0 : Nat) < 1; decide)⟩)).toInt.toNat _ + 0 = _
    rw [siIdx_mid wf b e c]; rfl
  | ⟨2, h2⟩ =>
    have hnot : (⟨2, h2⟩ : Fin 3) ∉ (midGather B N E C wf).startIndexMap := fun h => absurd (congrArg Fin.val (List.mem_singleton.mp h)) (by show ¬((2 : Nat) = 1); decide)
    unfold GatherDims.start
    rw [dif_neg hnot]
    show 0 + (midGather B N E C wf).offCoord (ix3 b e c) ⟨2, h2⟩ = c.val
    rw [Nat.zero_add]
    rfl

end Gather

/-! ## The accumulating scatter along the middle axis -/

/-- The dimension numbers of a scatter of `E` slabs `[B, ·, C]` into an `[B, N, C]` operand, one middle-axis index per
    update slab. -/
abbrev midScatter (B N E C : Nat)
    (wf : ScatterDims.WF ⟨3, ![B, N, C]⟩ ⟨2, ![E, 1]⟩ ⟨3, ![B, E, C]⟩ [0, 2] [1] [1] 1) :
    ScatterDims ⟨3, ![B, N, C]⟩ ⟨2, ![E, 1]⟩ ⟨3, ![B, E, C]⟩ where
  updateWindowDims := [0, 2]
  insertedWindowDims := [1]
  scatterDimsToOperandDims := [1]
  indexVectorDim := 1
  wf := wf

section Scatter

variable {B N E C w : Nat} (wf : ScatterDims.WF ⟨3, ![B, N, C]⟩ ⟨2, ![E, 1]⟩ ⟨3, ![B, E, C]⟩ [0, 2] [1] [1] 1)

theorem midScatter_start1 (idx : IVec ⟨2, ![E, 1]⟩ w) (b : Fin B) (e : Fin E) (c : Fin C) :
    (midScatter B N E C wf).start (ix3 b e c) idx 1 = (idx (ix2 e (0 : Fin 1))).toInt := by
  unfold ScatterDims.start
  rw [dif_pos (show (1 : Fin 3) ∈ (midScatter B N E C wf).scatterDimsToOperandDims from List.mem_singleton.mpr rfl)]
  congr 2
  funext a; refine Fin.ext ?_
  match a with
  | ⟨0, _⟩ => rfl
  | ⟨1, _⟩ => rfl

theorem midScatter_start0 (idx : IVec ⟨2, ![E, 1]⟩ w) (j : (⟨3, ![B, E, C]⟩ : Shape).Idx) :
    (midScatter B N E C wf).start j idx 0 = 0 := by
  unfold ScatterDims.start
  rw [dif_neg (show (0 : Fin 3) ∉ ([1] : List (Fin 3)) by decide)]

theorem midScatter_start2 (idx : IVec ⟨2, ![E, 1]⟩ w) (j : (⟨3, ![B, E, C]⟩ : Shape).Idx) :
    (midScatter B N E C wf).start j idx 2 = 0 := by
  unfold ScatterDims.start
  rw [dif_neg (show (2 : Fin 3) ∉ ([1] : List (Fin 3)) by decide)]

theorem midScatter_window0 (j : (⟨3, ![B, E, C]⟩ : Shape).Idx) : (midScatter B N E C wf).window j 0 = (j 0).val := by
  unfold ScatterDims.window
  have h : (0 : Fin 3) ∈ (midScatter B N E C wf).sKept := by
    show (0 : Fin 3) ∈ (List.finRange 3).filter (· ∉ ([1] : List (Fin 3)))
    decide
  rw [dif_pos h]
  rfl

theorem midScatter_window1 (j : (⟨3, ![B, E, C]⟩ : Shape).Idx) : (midScatter B N E C wf).window j 1 = 0 := by
  unfold ScatterDims.window
  have h : (1 : Fin 3) ∉ (midScatter B N E C wf).sKept := by
    show (1 : Fin 3) ∉ (List.finRange 3).filter (· ∉ ([1] : List (Fin 3)))
    decide
  rw [dif_neg h]

theorem midScatter_window2 (j : (⟨3, ![B, E, C]⟩ : Shape).Idx) : (midScatter B N E C wf).window j 2 = (j 2).val := by
  unfold ScatterDims.window
  have h : (2 : Fin 3) ∈ (midScatter B N E C wf).sKept := by
    show (2 : Fin 3) ∈ (List.finRange 3).filter (· ∉ ([1] : List (Fin 3)))
    decide
  rw [dif_pos h]
  rfl

/-- Update element `(b, e, c)` lands on `(b', n, c')` exactly when slab `e`'s index is `n` and the outer coordinates
    agree. -/
theorem midScatter_resultIdx_iff (idx : IVec ⟨2, ![E, 1]⟩ w) (b b' : Fin B) (e : Fin E) (c c' : Fin C) (n : Fin N) :
    (midScatter B N E C wf).resultIdx? (ix3 b e c) idx = some (ix3 b' n c')
      ↔ (idx (ix2 e (0 : Fin 1))).toInt = (n.val : Int) ∧ b = b' ∧ c = c' := by
  unfold ScatterDims.resultIdx?
  split
  · next h =>
    rw [Option.some.injEq]
    constructor
    · intro hEq
      have h0 := congrArg (fun i : (⟨3, ![B, N, C]⟩ : Shape).Idx => (i 0).val) hEq
      have h1 := congrArg (fun i : (⟨3, ![B, N, C]⟩ : Shape).Idx => (i 1).val) hEq
      have h2 := congrArg (fun i : (⟨3, ![B, N, C]⟩ : Shape).Idx => (i 2).val) hEq
      simp only [midScatter_start0, midScatter_start1, midScatter_start2, midScatter_window0, midScatter_window1,
        midScatter_window2] at h0 h1 h2
      refine ⟨?_, Fin.ext ?_, Fin.ext ?_⟩
      · change ((idx (ix2 e (0 : Fin 1))).toInt + ((0 : Nat) : Int)).toNat = n.val at h1
        have g1 := (h 1).1
        rw [midScatter_start1, midScatter_window1] at g1
        omega
      · change (((0 : Int)) + (((b.val : Nat)) : Int)).toNat = b'.val at h0
        omega
      · change (((0 : Int)) + (((c.val : Nat)) : Int)).toNat = c'.val at h2
        omega
    · rintro ⟨hi, rfl, rfl⟩
      funext a; refine Fin.ext ?_
      match a with
      | ⟨0, _⟩ =>
        show ((midScatter B N E C wf).start (ix3 b e c) idx 0 + ((midScatter B N E C wf).window (ix3 b e c) 0 : Nat)).toNat = b.val
        rw [midScatter_start0, midScatter_window0]; show ((0 : Int) + (b.val : Int)).toNat = b.val; omega
      | ⟨1, _⟩ =>
        show ((midScatter B N E C wf).start (ix3 b e c) idx 1 + ((midScatter B N E C wf).window (ix3 b e c) 1 : Nat)).toNat = n.val
        rw [midScatter_start1, midScatter_window1, hi]; omega
      | ⟨2, _⟩ =>
        show ((midScatter B N E C wf).start (ix3 b e c) idx 2 + ((midScatter B N E C wf).window (ix3 b e c) 2 : Nat)).toNat = c.val
        rw [midScatter_start2, midScatter_window2]; show ((0 : Int) + (c.val : Int)).toNat = c.val; omega
  · next h =>
    constructor
    · intro hh; exact absurd hh (by simp)
    · rintro ⟨hi, rfl, rfl⟩
      exfalso; apply h
      intro a
      match a with
      | ⟨0, _⟩ =>
        show 0 ≤ (midScatter B N E C wf).start (ix3 b e c) idx 0 + ((midScatter B N E C wf).window (ix3 b e c) 0 : Nat) ∧ (midScatter B N E C wf).start (ix3 b e c) idx 0 + ((midScatter B N E C wf).window (ix3 b e c) 0 : Nat) < (B : Int)
        rw [midScatter_start0, midScatter_window0]; have := b.isLt; show 0 ≤ (0 : Int) + (b.val : Int) ∧ (0 : Int) + (b.val : Int) < B; omega
      | ⟨1, _⟩ =>
        show 0 ≤ (midScatter B N E C wf).start (ix3 b e c) idx 1 + ((midScatter B N E C wf).window (ix3 b e c) 1 : Nat) ∧ (midScatter B N E C wf).start (ix3 b e c) idx 1 + ((midScatter B N E C wf).window (ix3 b e c) 1 : Nat) < (N : Int)
        rw [midScatter_start1, midScatter_window1, hi]; have := n.isLt; omega
      | ⟨2, _⟩ =>
        show 0 ≤ (midScatter B N E C wf).start (ix3 b e c) idx 2 + ((midScatter B N E C wf).window (ix3 b e c) 2 : Nat) ∧ (midScatter B N E C wf).start (ix3 b e c) idx 2 + ((midScatter B N E C wf).window (ix3 b e c) 2 : Nat) < (C : Int)
        rw [midScatter_start2, midScatter_window2]; have := c.isLt; show 0 ≤ (0 : Int) + (c.val : Int) ∧ (0 : Int) + (c.val : Int) < C; omega

/-- THE MIDDLE-AXIS SCATTER READ AT `(b, n, c)`: the operand's entry plus the sum over the update slabs whose index is
    `n` of their entry `(b, ·, c)`. -/
theorem scatterAdd_mid_apply {φ : FTy} (x : FVec Ideal ⟨3, ![B, N, C]⟩ φ) (idx : IVec ⟨2, ![E, 1]⟩ w)
    (upd : FVec Ideal ⟨3, ![B, E, C]⟩ φ) (b : Fin B) (n : Fin N) (c : Fin C) :
    Host.scatterAdd (F := Ideal) (midScatter B N E C wf) x idx upd (ix3 b n c)
      = x (ix3 b n c) + ∑ e : Fin E, if (idx (ix2 e (0 : Fin 1))).toInt = (n.val : Int) then upd (ix3 b e c) else 0 := by
  show x (ix3 b n c) + ∑ j ∈ Finset.univ.filter (fun j => (midScatter B N E C wf).resultIdx? j idx = some (ix3 b n c)), upd j = _
  congr 1
  rw [Finset.sum_filter, sum_idx3]
  simp only [midScatter_resultIdx_iff]
  rw [Finset.sum_eq_single b
    (fun b' _ hne => Finset.sum_eq_zero fun e _ => Finset.sum_eq_zero fun c' _ => if_neg fun h => hne h.2.1)
    (fun hb => absurd (Finset.mem_univ b) hb)]
  refine Finset.sum_congr rfl fun e _ => ?_
  rw [Finset.sum_eq_single c
    (fun c' _ hne => if_neg fun h => hne h.2.2)
    (fun hc => absurd (Finset.mem_univ c) hc)]
  by_cases hA : (idx (ix2 e (0 : Fin 1))).toInt = (n.val : Int)
  · simp [hA]
  · simp [hA]

end Scatter

end Cert.LibGraphOps

end
-- ==== Proof.RefLayer.lean ====
/-
  One graph-convolution layer of the reference, read at an entry.

  The reference gathers, for each of the 165000 edges, the source node's row of the transformed features, scales it by
  the edge weight, adds it into the destination node's row of a zero array (an accumulating scatter), adds the bias
  and cuts below at 0. With every destination index a node, no update is dropped, and entry (b, n, h) of the result
  is the cut at 0 of the bias plus the sum, over the edges ending at n, of the source's entry (b, ·, h) times the edge
  weight: the layer in edge form. (A gather clamps its start indices, which is how an index vector is read as nodes.)
-/
import proofs.«137311_j86784109183564_2_alg».proof.Proof.Gen.ReferenceIdeal
import Idealize.ShloMosaic.Lib.Pipeline.Value
import Idealize.ShloMosaic.Lib.ValueIdx
import Idealize.ShloMosaic.PureOps.Ideal.Laws
import proofs.«137311_j86784109183564_2_alg».proof.Proof.Spec
import proofs.«137311_j86784109183564_2_alg».proof.Proof.GraphArrays
import proofs.«137311_j86784109183564_2_alg».proof.Proof.LibGraphOps

noncomputable section

namespace Cert.RefValue

open Cert.ReferenceIdeal Cert.ReferenceIdeal.Gen Idealize.ShloMosaic Idealize.ShloMosaic.ValueIdx
open Cert.LibGraphOps Cert.LibRowGather

/-- One layer of the reference as an array operation: the transformed features `Y`, the edges' source and destination
    vectors and weights, and the bias. -/
def gcnLayer (Y : FVec Ideal S16x5000x32 .f32) (src dst : IVec S165000 32) (nrm : FVec Ideal S165000 .f32)
    (b : FVec Ideal S32 .f32) : FVec Ideal S16x5000x32 .f32 :=
  (maximumf (addf (Host.scatterAdd scatter_S16x5000x32_S165000x1_S16x165000x32_02_1_1_1 (broadcastInDim S16x5000x32 ![] bcast_S_S16x5000x32 (constant (F := Ideal) S_ .f32 0x00000000#32)) (broadcastInDim S165000x1 ![0] bcast_S165000_S165000x1_0 dst) (mulf (Host.gather gather_S16x5000x32_S165000x1_S16x165000x32_02_1_n_n_1_1_16132 Y (broadcastInDim S165000x1 ![0] bcast_S165000_S165000x1_0 src)) (broadcastInDim S16x165000x32 ![0, 1, 2] bcast_S1x165000x1_S16x165000x32_0_1_2 (broadcastInDim S1x165000x1 ![1] bcast_S165000_S1x165000x1_1 nrm)))) (broadcastInDim S16x5000x32 ![0, 1, 2] bcast_S1x1x32_S16x5000x32_0_1_2 (broadcastInDim S1x1x32 ![2] bcast_S32_S1x1x32_2 b))) (broadcastInDim S16x5000x32 ![] bcast_S_S16x5000x32 (constant (F := Ideal) S_ .f32 0x00000000#32)))

/-! ## The pieces read at an entry -/

/-- An in-range entry, as a node, has the entry's value. -/
theorem toFin_val (v : IVec S165000 32) (e : Fin 165000) (h : 0 ≤ (v (ix1 e)).toInt ∧ (v (ix1 e)).toInt < 5000) :
    ((toFin v e).val : Int) = (v (ix1 e)).toInt := by
  show ((min (v (ix1 e)).toInt.toNat 4999 : Nat) : Int) = _
  omega

/-- An index vector laid out as a column reads back the vector. -/
theorem col_apply (v : IVec S165000 32) (e : Fin 165000) :
    broadcastInDim S165000x1 ![0] bcast_S165000_S165000x1_0 v (ix2 e (0 : Fin 1)) = v (ix1 e) :=
  broadcastInDim_apply _ bcast_S165000_S165000x1_0 v (ix2 e (0 : Fin 1)) (ix1 e) (fun a => match a with
    | ⟨0, _⟩ => by show e.val = if (165000 : Nat) = 1 then 0 else e.val; rw [if_neg (by decide)])

/-- The zero array. -/
theorem zeros_apply (i : S16x5000x32.Idx) :
    broadcastInDim S16x5000x32 ![] bcast_S_S16x5000x32 (constant (F := Ideal) S_ .f32 0x00000000#32) i = 0 := by
  rw [broadcastInDim_apply _ bcast_S_S16x5000x32 (constant (F := Ideal) S_ .f32 0x00000000#32) i (fun a => a.elim0)
    (fun a => a.elim0)]
  exact Ideal.ofBits_zero_f32

/-- The edge weights spread over the batch and the features. -/
theorem weights_apply (nrm : FVec Ideal S165000 .f32) (bb : Fin 16) (e : Fin 165000) (h : Fin 32) :
    broadcastInDim S16x165000x32 ![0, 1, 2] bcast_S1x165000x1_S16x165000x32_0_1_2
      (broadcastInDim S1x165000x1 ![1] bcast_S165000_S1x165000x1_1 nrm) (ix3 bb e h) = nrm (ix1 e) := by
  rw [broadcastInDim_apply _ bcast_S1x165000x1_S16x165000x32_0_1_2
    (broadcastInDim S1x165000x1 ![1] bcast_S165000_S1x165000x1_1 nrm) (ix3 bb e h)
    (ix3 (0 : Fin 1) e (0 : Fin 1)) (fun a => match a with
      | ⟨0, _⟩ => by show 0 = if (1 : Nat) = 1 then 0 else bb.val; rw [if_pos rfl]
      | ⟨1, _⟩ => by show e.val = if (165000 : Nat) = 1 then 0 else e.val; rw [if_neg (by decide)]
      | ⟨2, _⟩ => by show 0 = if (1 : Nat) = 1 then 0 else h.val; rw [if_pos rfl])]
  exact broadcastInDim_apply _ bcast_S165000_S1x165000x1_1 nrm (ix3 (0 : Fin 1) e (0 : Fin 1)) (ix1 e)
    (fun a => match a with
      | ⟨0, _⟩ => by show e.val = if (165000 : Nat) = 1 then 0 else e.val; rw [if_neg (by decide)])

/-- The bias spread over the batch and the nodes. -/
theorem bias_apply (b : FVec Ideal S32 .f32) (bb : Fin 16) (n : Fin 5000) (h : Fin 32) :
    broadcastInDim S16x5000x32 ![0, 1, 2] bcast_S1x1x32_S16x5000x32_0_1_2
      (broadcastInDim S1x1x32 ![2] bcast_S32_S1x1x32_2 b) (ix3 bb n h) = b (ix1 h) := by
  rw [broadcastInDim_apply _ bcast_S1x1x32_S16x5000x32_0_1_2
    (broadcastInDim S1x1x32 ![2] bcast_S32_S1x1x32_2 b) (ix3 bb n h)
    (ix3 (0 : Fin 1) (0 : Fin 1) h) (fun a => match a with
      | ⟨0, _⟩ => by show 0 = if (1 : Nat) = 1 then 0 else bb.val; rw [if_pos rfl]
      | ⟨1, _⟩ => by show 0 = if (1 : Nat) = 1 then 0 else n.val; rw [if_pos rfl]
      | ⟨2, _⟩ => by show h.val = if (32 : Nat) = 1 then 0 else h.val; rw [if_neg (by decide)])]
  exact broadcastInDim_apply _ bcast_S32_S1x1x32_2 b (ix3 (0 : Fin 1) (0 : Fin 1) h) (ix1 h)
    (fun a => match a with
      | ⟨0, _⟩ => by show h.val = if (32 : Nat) = 1 then 0 else h.val; rw [if_neg (by decide)])

/-- The reference's gather of source rows, read at an entry. -/
theorem gatherRows_apply (Y : FVec Ideal S16x5000x32 .f32) (idx : IVec S165000x1 32) (bb : Fin 16) (e : Fin 165000)
    (h : Fin 32) :
    Host.gather gather_S16x5000x32_S165000x1_S16x165000x32_02_1_n_n_1_1_16132 Y idx (ix3 bb e h)
      = Y (ix3 bb ⟨clampIdx (idx (ix2 e (0 : Fin 1))) 5000, clampIdx_lt _ (by decide)⟩ h) :=
  gather_mid_apply (by decide) gather_S16x5000x32_S165000x1_S16x165000x32_02_1_n_n_1_1_16132_wf Y idx bb e h

/-- The reference's accumulating scatter into destination rows, read at an entry. -/
theorem scatterRows_apply (X : FVec Ideal S16x5000x32 .f32) (idx : IVec S165000x1 32)
    (U : FVec Ideal S16x165000x32 .f32) (bb : Fin 16) (n : Fin 5000) (h : Fin 32) :
    Host.scatterAdd (F := Ideal) scatter_S16x5000x32_S165000x1_S16x165000x32_02_1_1_1 X idx U (ix3 bb n h)
      = X (ix3 bb n h)
        + ∑ e : Fin 165000, if (idx (ix2 e (0 : Fin 1))).toInt = (n.val : Int) then U (ix3 bb e h) else 0 :=
  scatterAdd_mid_apply scatter_S16x5000x32_S165000x1_S16x165000x32_02_1_1_1_wf X idx U bb n h

/-! ## The layer -/

/-- **The reference's layer is the layer in edge form**, when every destination index is a node. -/
theorem gcnLayer_apply (Y : FVec Ideal S16x5000x32 .f32) (src dst : IVec S165000 32) (nrm : FVec Ideal S165000 .f32)
    (b : FVec Ideal S32 .f32)
    (hd : ∀ e : Fin 165000, 0 ≤ (dst (ix1 e)).toInt ∧ (dst (ix1 e)).toInt < 5000)
    (bb : Fin 16) (n : Fin 5000) (h : Fin 32) :
    gcnLayer Y src dst nrm b (ix3 bb n h)
      = Cert.Spec.layerEdge (toFin src) (toFin dst) (fun e => nrm (ix1 e)) (fun bb n h => Y (ix3 bb n h))
          (fun h => b (ix1 h)) bb n h := by
  unfold gcnLayer
  rw [maximumf_apply, addf_apply, zeros_apply, bias_apply, scatterRows_apply, zeros_apply, zero_add]
  show max ((∑ e : Fin 165000, _) + b (ix1 h)) 0
    = max ((∑ e : Fin 165000, if toFin dst e = n then Y (ix3 bb (toFin src e) h) * nrm (ix1 e) else 0) + b (ix1 h)) 0
  refine congrArg (fun s : EReal => max (s + b (ix1 h)) 0) ?_
  refine Finset.sum_congr rfl fun e _ => ?_
  rw [col_apply, mulf_apply, gatherRows_apply, weights_apply, col_apply]
  have hv := toFin_val dst e (hd e)
  refine if_congr ⟨fun hh => Fin.ext (by omega), fun hh => by rw [← hh]; omega⟩ rfl rfl

end Cert.RefValue

end
-- ==== Proof.RefValue.lean ====
/-
  The reference's result, read at an entry: the two graph-convolution layers in edge form followed by the head.

  The result is a function of the ten argument arrays. Stage by stage: the feature transform is a contraction over
  the feature axis; each layer is the layer in edge form over the reference's own edge list (its source and
  destination vectors read as nodes, its edge weights), which needs every given edge index to be a node; the
  flattening is row-major, k = n * 32 + h; the head is two contractions with a cut at 0 between them.
-/
import proofs.«137311_j86784109183564_2_alg».proof.Proof.RefReadP
import proofs.«137311_j86784109183564_2_alg».proof.Proof.RefEdges
import proofs.«137311_j86784109183564_2_alg».proof.Proof.RefLayer
import proofs.«137311_j86784109183564_2_alg».proof.Proof.Spec

noncomputable section

namespace Cert.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The reference's result as a function of the ten argument arrays. -/
def refTerm (a0 : FVec Ideal S16x5000x64 .f32) (a1 : IVec S2x160000 32) (a2 : FVec Ideal S64x32 .f32)
    (a3 : FVec Ideal S32 .f32) (a4 : FVec Ideal S32x32 .f32) (a5 : FVec Ideal S32 .f32)
    (a6 : FVec Ideal S160000x512 .f32) (a7 : FVec Ideal S512 .f32) (a8 : FVec Ideal S512x16 .f32)
    (a9 : FVec Ideal S16 .f32) : FVec Ideal S16x16 .f32 :=
  val_main_v118 (F := Ideal) a0 a1 a2 a3 a4 a5 a6 a7 a8 a9

/-- The run's result term is that function of the arguments' launch contents. -/
theorem res_eq_refTerm (m : (ℓ : Loc nD τ sig) → Buf (Elt Ideal) ℓ) (c : Dev nD) :
    Cert.ReferenceIdeal.ValueP.res_main_v118 (F := Ideal) m c
      = refTerm (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9)) :=
  val_main_v118_eq m c

/-! ## The stages -/

/-- The first feature transform is a contraction over the 64 input features. -/
theorem xw1_apply (a0 : FVec Ideal S16x5000x64 .f32) (a2 : FVec Ideal S64x32 .f32) (bb : Fin 16) (n : Fin 5000)
    (h : Fin 32) :
    val_main_v35 (F := Ideal) a0 a2 (ix3 bb n h)
      = Cert.Spec.xw (fun bb n f => a0 (ix3 bb n f)) (fun f h => a2 (ix2 f h)) bb n h := by
  rw [val_main_v35_apply]
  show _ = ∑ f : Fin 64, a0 (ix3 bb n f) * a2 (ix2 f h)
  refine Finset.sum_congr rfl fun k _ => ?_
  have el : lidx_main_v35 (ix3 bb n h) k = ix3 bb n k :=
    funext fun a => Fin.ext (by match a with | ⟨0, _⟩ => rfl | ⟨1, _⟩ => rfl | ⟨2, _⟩ => rfl)
  have er : ridx_main_v35 (ix3 bb n h) k = ix2 k h :=
    funext fun a => Fin.ext (by match a with | ⟨0, _⟩ => rfl | ⟨1, _⟩ => rfl)
  rw [el, er]

/-- The first layer's composed term is the layer operation on the first feature transform. -/
theorem layer1_eq (a0 : FVec Ideal S16x5000x64 .f32) (a1 : IVec S2x160000 32) (a2 : FVec Ideal S64x32 .f32)
    (a3 : FVec Ideal S32 .f32) :
    val_main_v57 (F := Ideal) a0 a1 a2 a3
      = gcnLayer (val_main_v35 (F := Ideal) a0 a2) (srcV a1) (dstV a1) (nrmV a1) a3 := rfl

/-- The first layer, read at an entry. -/
theorem layer1_apply (a0 : FVec Ideal S16x5000x64 .f32) (a1 : IVec S2x160000 32) (a2 : FVec Ideal S64x32 .f32)
    (a3 : FVec Ideal S32 .f32)
    (h1 : ∀ i, 0 ≤ (a1 i).toInt ∧ (a1 i).toInt < 5000) (bb : Fin 16) (n : Fin 5000) (h : Fin 32) :
    val_main_v57 (F := Ideal) a0 a1 a2 a3 (ix3 bb n h) = (Cert.Spec.layerEdge (toFin (srcV a1)) (toFin (dstV a1)) (fun e => nrmV a1 (ix1 e)) (Cert.Spec.xw (fun bb n f => a0 (ix3 bb n f)) (fun f h => a2 (ix2 f h))) (fun h => a3 (ix1 h))) bb n h := by
  rw [layer1_eq, gcnLayer_apply _ _ _ _ _ (dstV_range a1 h1)]
  have e : (fun bb n h => val_main_v35 (F := Ideal) a0 a2 (ix3 bb n h))
      = Cert.Spec.xw (fun bb n f => a0 (ix3 bb n f)) (fun f h => a2 (ix2 f h)) := by
    funext bb n h; exact xw1_apply a0 a2 bb n h
  rw [e]

/-- The second feature transform is a contraction over the 32 hidden features. -/
theorem xw2_apply (a0 : FVec Ideal S16x5000x64 .f32) (a1 : IVec S2x160000 32) (a2 : FVec Ideal S64x32 .f32)
    (a3 : FVec Ideal S32 .f32) (a4 : FVec Ideal S32x32 .f32) (bb : Fin 16) (n : Fin 5000) (h : Fin 32) :
    val_main_v86 (F := Ideal) a0 a1 a2 a3 a4 (ix3 bb n h)
      = Cert.Spec.xw (fun bb n f => val_main_v57 (F := Ideal) a0 a1 a2 a3 (ix3 bb n f)) (fun f h => a4 (ix2 f h)) bb n h := by
  rw [val_main_v86_apply]
  show _ = ∑ f : Fin 32, val_main_v57 (F := Ideal) a0 a1 a2 a3 (ix3 bb n f) * a4 (ix2 f h)
  refine Finset.sum_congr rfl fun k _ => ?_
  have el : lidx_main_v86 (ix3 bb n h) k = ix3 bb n k :=
    funext fun a => Fin.ext (by match a with | ⟨0, _⟩ => rfl | ⟨1, _⟩ => rfl | ⟨2, _⟩ => rfl)
  have er : ridx_main_v86 (ix3 bb n h) k = ix2 k h :=
    funext fun a => Fin.ext (by match a with | ⟨0, _⟩ => rfl | ⟨1, _⟩ => rfl)
  rw [el, er]

/-- The second layer's composed term is the layer operation on the second feature transform. -/
theorem layer2_eq (a0 : FVec Ideal S16x5000x64 .f32) (a1 : IVec S2x160000 32) (a2 : FVec Ideal S64x32 .f32)
    (a3 : FVec Ideal S32 .f32) (a4 : FVec Ideal S32x32 .f32) (a5 : FVec Ideal S32 .f32) :
    val_main_v108 (F := Ideal) a0 a1 a2 a3 a4 a5
      = gcnLayer (val_main_v86 (F := Ideal) a0 a1 a2 a3 a4) (srcV a1) (dstV a1) (nrmV a1) a5 := rfl

/-- The second layer, read at an entry. -/
theorem layer2_apply (a0 : FVec Ideal S16x5000x64 .f32) (a1 : IVec S2x160000 32) (a2 : FVec Ideal S64x32 .f32)
    (a3 : FVec Ideal S32 .f32) (a4 : FVec Ideal S32x32 .f32) (a5 : FVec Ideal S32 .f32)
    (h1 : ∀ i, 0 ≤ (a1 i).toInt ∧ (a1 i).toInt < 5000) (bb : Fin 16) (n : Fin 5000) (h : Fin 32) :
    val_main_v108 (F := Ideal) a0 a1 a2 a3 a4 a5 (ix3 bb n h) = (Cert.Spec.layerEdge (toFin (srcV a1)) (toFin (dstV a1)) (fun e => nrmV a1 (ix1 e)) (Cert.Spec.xw (Cert.Spec.layerEdge (toFin (srcV a1)) (toFin (dstV a1)) (fun e => nrmV a1 (ix1 e)) (Cert.Spec.xw (fun bb n f => a0 (ix3 bb n f)) (fun f h => a2 (ix2 f h))) (fun h => a3 (ix1 h))) (fun f h => a4 (ix2 f h))) (fun h => a5 (ix1 h))) bb n h := by
  rw [layer2_eq, gcnLayer_apply _ _ _ _ _ (dstV_range a1 h1)]
  have e1 : (fun bb n h => val_main_v57 (F := Ideal) a0 a1 a2 a3 (ix3 bb n h)) = (Cert.Spec.layerEdge (toFin (srcV a1)) (toFin (dstV a1)) (fun e => nrmV a1 (ix1 e)) (Cert.Spec.xw (fun bb n f => a0 (ix3 bb n f)) (fun f h => a2 (ix2 f h))) (fun h => a3 (ix1 h))) := by
    funext bb n h; exact layer1_apply a0 a1 a2 a3 h1 bb n h
  have e2 : (fun bb n h => val_main_v86 (F := Ideal) a0 a1 a2 a3 a4 (ix3 bb n h)) = (Cert.Spec.xw (Cert.Spec.layerEdge (toFin (srcV a1)) (toFin (dstV a1)) (fun e => nrmV a1 (ix1 e)) (Cert.Spec.xw (fun bb n f => a0 (ix3 bb n f)) (fun f h => a2 (ix2 f h))) (fun h => a3 (ix1 h))) (fun f h => a4 (ix2 f h))) := by
    funext bb n h; rw [xw2_apply, e1]
  rw [e2]

/-- The flattening is row-major: column k of row r is entry (r, k / 32, k % 32). -/
theorem flat_apply (a0 : FVec Ideal S16x5000x64 .f32) (a1 : IVec S2x160000 32) (a2 : FVec Ideal S64x32 .f32)
    (a3 : FVec Ideal S32 .f32) (a4 : FVec Ideal S32x32 .f32) (a5 : FVec Ideal S32 .f32) (r : Fin 16) (k : Fin 160000) :
    val_main_v109 (F := Ideal) a0 a1 a2 a3 a4 a5 (ix2 r k)
      = Cert.Spec.flat32 (fun r n h => val_main_v108 (F := Ideal) a0 a1 a2 a3 a4 a5 (ix3 r n h)) r k := by
  rw [val_main_v109_apply]
  show _ = val_main_v108 (F := Ideal) a0 a1 a2 a3 a4 a5 (ix3 r ⟨k.val / 32, by omega⟩ ⟨k.val % 32, by omega⟩)
  refine congrArg (val_main_v108 (F := Ideal) a0 a1 a2 a3 a4 a5) (funext fun a => Fin.ext ?_)
  have hr := r.isLt
  have hk := k.isLt
  match a with
  | ⟨0, _⟩ => show (r.val * 160000 + k.val) / 160000 = r.val; omega
  | ⟨1, _⟩ => show (r.val * 160000 + k.val) / 32 % 5000 = k.val / 32; omega
  | ⟨2, _⟩ => show (r.val * 160000 + k.val) % 32 = k.val % 32; omega

/-- The head: two contractions with a cut at 0 between them. -/
theorem head_apply (a0 : FVec Ideal S16x5000x64 .f32) (a1 : IVec S2x160000 32) (a2 : FVec Ideal S64x32 .f32)
    (a3 : FVec Ideal S32 .f32) (a4 : FVec Ideal S32x32 .f32) (a5 : FVec Ideal S32 .f32)
    (a6 : FVec Ideal S160000x512 .f32) (a7 : FVec Ideal S512 .f32) (a8 : FVec Ideal S512x16 .f32)
    (a9 : FVec Ideal S16 .f32) (r a : Fin 16) :
    val_main_v118 (F := Ideal) a0 a1 a2 a3 a4 a5 a6 a7 a8 a9 (ix2 r a)
      = Cert.Spec.head (fun r k => val_main_v109 (F := Ideal) a0 a1 a2 a3 a4 a5 (ix2 r k)) (fun k q => a6 (ix2 k q))
          (fun q => a7 (ix1 q)) (fun q a => a8 (ix2 q a)) (fun a => a9 (ix1 a)) r a := by
  rw [val_main_v118_apply, val_main_v115_apply, val_main_v117_apply, val_main_v116_apply]
  have h9 : idx_main_v116 (idx_main_v117 (ix2 r a)) = ix1 a :=
    funext fun b => Fin.ext (by match b with | ⟨0, _⟩ => rfl)
  rw [h9]
  have hs : (∑ q : Fin 512, val_main_v114 (F := Ideal) a0 a1 a2 a3 a4 a5 a6 a7 (lidx_main_v115 (ix2 r a) q) * a8 (ridx_main_v115 (ix2 r a) q))
      = ∑ q : Fin 512, max ((∑ k : Fin 160000, val_main_v109 (F := Ideal) a0 a1 a2 a3 a4 a5 (ix2 r k) * a6 (ix2 k q)) + a7 (ix1 q)) 0
          * a8 (ix2 q a) := by
    refine Finset.sum_congr rfl fun q _ => ?_
    have el : lidx_main_v115 (ix2 r a) q = ix2 r q :=
      funext fun b => Fin.ext (by match b with | ⟨0, _⟩ => rfl | ⟨1, _⟩ => rfl)
    have er : ridx_main_v115 (ix2 r a) q = ix2 q a :=
      funext fun b => Fin.ext (by match b with | ⟨0, _⟩ => rfl | ⟨1, _⟩ => rfl)
    rw [el, er, val_main_v114_apply, val_main_v113_apply, val_main_v110_apply, val_main_v112_apply, val_main_v111_apply,
      val_main_call4_v0_apply, val_main_call4_cst_apply]
    have h7 : idx_main_v111 (idx_main_v112 (ix2 r q)) = ix1 q :=
      funext fun b => Fin.ext (by match b with | ⟨0, _⟩ => rfl)
    have hk : (∑ k : Fin 160000, val_main_v109 (F := Ideal) a0 a1 a2 a3 a4 a5 (lidx_main_v110 (ix2 r q) k) * a6 (ridx_main_v110 (ix2 r q) k))
        = ∑ k : Fin 160000, val_main_v109 (F := Ideal) a0 a1 a2 a3 a4 a5 (ix2 r k) * a6 (ix2 k q) := by
      refine Finset.sum_congr rfl fun k _ => ?_
      have el' : lidx_main_v110 (ix2 r q) k = ix2 r k :=
        funext fun b => Fin.ext (by match b with | ⟨0, _⟩ => rfl | ⟨1, _⟩ => rfl)
      have er' : ridx_main_v110 (ix2 r q) k = ix2 k q :=
        funext fun b => Fin.ext (by match b with | ⟨0, _⟩ => rfl | ⟨1, _⟩ => rfl)
      rw [el', er']
    rw [h7, hk]
    show max (_ + a7 (ix1 q)) (Ideal.ofBits .f32 0x00000000#32) * a8 (ix2 q a) = _
    rw [Ideal.ofBits_zero_f32]
  rw [hs]
  rfl

/-! ## The whole reference -/

/-- **The reference's result at an entry is the network in edge form** over the reference's own edge list, when
    every given edge index is a node. -/
theorem refTerm_apply (a0 : FVec Ideal S16x5000x64 .f32) (a1 : IVec S2x160000 32) (a2 : FVec Ideal S64x32 .f32)
    (a3 : FVec Ideal S32 .f32) (a4 : FVec Ideal S32x32 .f32) (a5 : FVec Ideal S32 .f32)
    (a6 : FVec Ideal S160000x512 .f32) (a7 : FVec Ideal S512 .f32) (a8 : FVec Ideal S512x16 .f32)
    (a9 : FVec Ideal S16 .f32)
    (h1 : ∀ i, 0 ≤ (a1 i).toInt ∧ (a1 i).toInt < 5000) (r a : Fin 16) :
    refTerm a0 a1 a2 a3 a4 a5 a6 a7 a8 a9 (ix2 r a)
      = Cert.Spec.outEdge (toFin (srcV a1)) (toFin (dstV a1)) (fun e => nrmV a1 (ix1 e))
          (fun bb n f => a0 (ix3 bb n f)) (fun f h => a2 (ix2 f h)) (fun h => a3 (ix1 h)) (fun f h => a4 (ix2 f h))
          (fun h => a5 (ix1 h)) (fun k q => a6 (ix2 k q)) (fun q => a7 (ix1 q)) (fun q a => a8 (ix2 q a))
          (fun a => a9 (ix1 a)) r a := by
  unfold refTerm Cert.Spec.outEdge
  rw [head_apply]
  have e1 : (fun r n h => val_main_v108 (F := Ideal) a0 a1 a2 a3 a4 a5 (ix3 r n h)) = (Cert.Spec.layerEdge (toFin (srcV a1)) (toFin (dstV a1)) (fun e => nrmV a1 (ix1 e)) (Cert.Spec.xw (Cert.Spec.layerEdge (toFin (srcV a1)) (toFin (dstV a1)) (fun e => nrmV a1 (ix1 e)) (Cert.Spec.xw (fun bb n f => a0 (ix3 bb n f)) (fun f h => a2 (ix2 f h))) (fun h => a3 (ix1 h))) (fun f h => a4 (ix2 f h))) (fun h => a5 (ix1 h))) := by
    funext bb n h; exact layer2_apply a0 a1 a2 a3 a4 a5 h1 bb n h
  have e2 : (fun r k => val_main_v109 (F := Ideal) a0 a1 a2 a3 a4 a5 (ix2 r k)) = Cert.Spec.flat32 (Cert.Spec.layerEdge (toFin (srcV a1)) (toFin (dstV a1)) (fun e => nrmV a1 (ix1 e)) (Cert.Spec.xw (Cert.Spec.layerEdge (toFin (srcV a1)) (toFin (dstV a1)) (fun e => nrmV a1 (ix1 e)) (Cert.Spec.xw (fun bb n f => a0 (ix3 bb n f)) (fun f h => a2 (ix2 f h))) (fun h => a3 (ix1 h))) (fun f h => a4 (ix2 f h))) (fun h => a5 (ix1 h))) := by
    funext r k; rw [flat_apply, e1]
  rw [e2]

end Cert.RefValue

end
-- ==== Proof.LibGcn.lean ====
import proofs.«137311_j86784109183564_2_alg».proof.Proof.Spec

/-!
# The graph-convolution law: the dense adjacency form equals the edge form

For real edge weights and real features, multiplying by the dense weighted adjacency matrix
`adj n m = ∑ e, [dst e = n ∧ src e = m] w e` is the same as summing, over the edges that end at
`n`, the source's feature times the edge weight:

  `∑ m, (∑ e, [dst e = n ∧ src e = m] w e) * y m = ∑ e, [dst e = n] y (src e) * w e`.

On the reals this is distributivity, an exchange of the two sums and the evaluation of a sum
against an indicator of one point.  On the extended reals multiplication does not distribute
over sums in general, so the law is stated for entries that are real numbers, and proved by
moving the coercion out of the products and the sums.
-/

namespace Cert.Spec

open scoped BigOperators

/-! ## Extended reals that are real numbers -/

theorem isReal_coe (r : ℝ) : IsReal (r : EReal) := ⟨r, rfl⟩

theorem isReal_zero : IsReal (0 : EReal) := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max_zero {x : EReal} (hx : IsReal x) : IsReal (max x 0) := by
  obtain ⟨a, rfl⟩ := hx
  rcases le_total (a : EReal) 0 with h | h
  · rw [max_eq_right h]; exact isReal_zero
  · rw [max_eq_left h]; exact isReal_coe a

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion goes inside an indicator. -/
theorem coe_ite (c : Prop) [Decidable c] (a : ℝ) :
    ((if c then a else 0 : ℝ) : EReal) = if c then (a : EReal) else 0 := by
  split_ifs <;> rfl

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

theorem isReal_ite (c : Prop) [Decidable c] {x : EReal} (hx : IsReal x) :
    IsReal (if c then x else 0) := by
  split_ifs
  · exact hx
  · exact isReal_zero

/-! ## The law on the reals -/

/-- The dense form equals the edge form, on the reals. -/
theorem dense_eq_edge_real {E N : Type} [Fintype E] [Fintype N] [DecidableEq N]
    (src dst : E → N) (w : E → ℝ) (y : N → ℝ) (n : N) :
    ∑ m, (∑ e, if dst e = n ∧ src e = m then w e else 0) * y m
      = ∑ e, if dst e = n then y (src e) * w e else 0 := by
  simp_rw [Finset.sum_mul]
  rw [Finset.sum_comm]
  refine Finset.sum_congr rfl fun e _ => ?_
  by_cases hd : dst e = n
  · simp only [hd, true_and, if_true, ite_mul, zero_mul, Finset.sum_ite_eq, Finset.mem_univ]
    exact mul_comm _ _
  · simp [hd]

/-! ## The law on the extended reals, and the realness of the layers -/

section Graph

variable {E N : Type} [Fintype E] [Fintype N] [DecidableEq N] (src dst : E → N) (w : E → EReal)

/-- **The graph-convolution law.**  With real edge weights and real features, the layer
written with the dense weighted adjacency matrix of the graph is the layer written as a sum
over the edges.  (The bias plays no part: it is added to both sums alike.) -/
theorem layerDense_adj {B H : Type} (Y : B → N → H → EReal) (b : H → EReal)
    (hw : ∀ e, IsReal (w e)) (hY : ∀ bb n h, IsReal (Y bb n h)) :
    layerDense (adj src dst w) Y b = layerEdge src dst w Y b := by
  funext bb n h
  have hw' : ∀ e, ∃ r : ℝ, w e = (r : EReal) := hw
  have hY' : ∀ bb n h, ∃ r : ℝ, Y bb n h = (r : EReal) := hY
  choose wr hwr using hw'
  choose Yr hYr using hY'
  have e1 : (∑ m, adj src dst w n m * Y bb m h)
      = ((∑ m, (∑ e, if dst e = n ∧ src e = m then wr e else 0) * Yr bb m h : ℝ) : EReal) := by
    rw [coe_sum]
    refine Finset.sum_congr rfl fun m _ => ?_
    rw [EReal.coe_mul, coe_sum, hYr]
    unfold adj
    congr 1
    refine Finset.sum_congr rfl fun e _ => ?_
    rw [coe_ite, hwr]
  have e2 : (∑ e, if dst e = n then Y bb (src e) h * w e else 0)
      = ((∑ e, if dst e = n then Yr bb (src e) h * wr e else 0 : ℝ) : EReal) := by
    rw [coe_sum]
    refine Finset.sum_congr rfl fun e _ => ?_
    rw [coe_ite, EReal.coe_mul, hYr, hwr]
  show max ((∑ m, adj src dst w n m * Y bb m h) + b h) 0
    = max ((∑ e, if dst e = n then Y bb (src e) h * w e else 0) + b h) 0
  rw [e1, e2, dense_eq_edge_real]

/-- A layer in edge form has real entries when its weights, features and bias are real. -/
theorem isReal_layerEdge {B H : Type} (Y : B → N → H → EReal) (b : H → EReal)
    (hw : ∀ e, IsReal (w e)) (hY : ∀ bb n h, IsReal (Y bb n h)) (hb : ∀ h, IsReal (b h)) :
    ∀ bb n h, IsReal (layerEdge src dst w Y b bb n h) := by
  intro bb n h
  refine IsReal.max_zero (IsReal.add (isReal_sum _ _ fun e _ => ?_) (hb h))
  exact isReal_ite _ ((hY bb (src e) h).mul (hw e))

/-- The adjacency matrix of a graph with real weights has real entries. -/
theorem isReal_adj (hw : ∀ e, IsReal (w e)) : ∀ n m, IsReal (adj src dst w n m) := by
  intro n m
  exact isReal_sum _ _ fun e _ => isReal_ite _ (hw e)

/-- A layer in dense form has real entries when the matrix, features and bias are real. -/
theorem isReal_layerDense {B H : Type} (A : N → N → EReal) (Y : B → N → H → EReal)
    (b : H → EReal) (hA : ∀ n m, IsReal (A n m)) (hY : ∀ bb n h, IsReal (Y bb n h))
    (hb : ∀ h, IsReal (b h)) : ∀ bb n h, IsReal (layerDense A Y b bb n h) := by
  intro bb n h
  exact IsReal.max_zero (IsReal.add (isReal_sum _ _ fun m _ => (hA n m).mul (hY bb m h)) (hb h))

/-- The feature transform of real features by a real matrix has real entries. -/
theorem isReal_xw {B K H : Type} [Fintype K] (X : B → N → K → EReal) (W : K → H → EReal)
    (hX : ∀ bb n f, IsReal (X bb n f)) (hW : ∀ f h, IsReal (W f h)) :
    ∀ bb n h, IsReal (xw X W bb n h) := by
  intro bb n h
  exact isReal_sum _ _ fun f _ => (hX bb n f).mul (hW f h)

end Graph

/-- **The two forms of the whole network agree** when the edge weights, the input features
and the two layers' parameters are real numbers; the head's parameters are arbitrary. -/
theorem outDense_eq_outEdge (src dst : Fin 165000 → Fin 5000) (w : Fin 165000 → EReal)
    (X0 : Fin 16 → Fin 5000 → Fin 64 → EReal) (W1 : Fin 64 → Fin 32 → EReal)
    (b1 : Fin 32 → EReal) (W2 : Fin 32 → Fin 32 → EReal) (b2 : Fin 32 → EReal)
    (Wp1 : Fin 160000 → Fin 512 → EReal) (bp1 : Fin 512 → EReal)
    (Wp2 : Fin 512 → Fin 16 → EReal) (bp2 : Fin 16 → EReal)
    (hw : ∀ e, IsReal (w e)) (hX0 : ∀ bb n f, IsReal (X0 bb n f))
    (hW1 : ∀ f h, IsReal (W1 f h)) (hb1 : ∀ h, IsReal (b1 h))
    (hW2 : ∀ f h, IsReal (W2 f h)) (_hb2 : ∀ h, IsReal (b2 h)) :
    outDense src dst w X0 W1 b1 W2 b2 Wp1 bp1 Wp2 bp2
      = outEdge src dst w X0 W1 b1 W2 b2 Wp1 bp1 Wp2 bp2 := by
  unfold outDense outEdge
  rw [layerDense_adj src dst w (xw X0 W1) b1 hw (isReal_xw X0 W1 hX0 hW1)]
  rw [layerDense_adj src dst w (xw (layerEdge src dst w (xw X0 W1) b1) W2) b2 hw
    (isReal_xw _ W2 (isReal_layerEdge src dst w _ b1 hw (isReal_xw X0 W1 hX0 hW1) hb1) hW2)]

end Cert.Spec
-- ==== Proof.PreFacts.lean ====
/- The precondition, read back: every float argument's entries are real numbers, and every edge index
   is a node. The precondition is a conjunction of ten tests, each "all entries pass": nine of the form
   |x| < +∞ on a float array, and one 0 ≤ n < 5000 on the integer edge-index array. An extended real
   whose absolute value is below +∞ is neither infinity, so it is a real number. -/
import proofs.«137311_j86784109183564_2_alg».proof.Pre_finite_inputs
import proofs.«137311_j86784109183564_2_alg».proof.Proof.Spec
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs Cert.Spec

variable [Cert.Pre_finite_inputs.Facts]

/-- The rank-0 shape has one index. -/
instance subsingleton_scalar_idx : Subsingleton S_.Idx := ⟨fun a b => funext fun d => d.elim0⟩

theorem ofBool_one {b : Bool} (h : BitVec.ofBool b = 1#1) : b = true := by
  cases b
  · exact absurd h (by decide)
  · rfl

/-- The single-precision pattern 0x7F800000 denotes +∞. -/
theorem ofBits_inf : Ideal.ofBits .f32 0x7F800000#32 = (⊤ : EReal) := by simp [Ideal.ofBits, Ideal.ieee]

/-- An extended real whose absolute value is below +∞ is a real number. -/
theorem isReal_of_abs_lt (x : EReal) (h : Ideal.cmp .olt (max x (-x)) (Ideal.ofBits .f32 0x7F800000#32) = 1#1) : IsReal x := by
  rw [ofBits_inf] at h
  have h' : max x (-x) < ⊤ := of_decide_eq_true (ofBool_one h)
  induction x using EReal.rec with
  | bot => exact absurd h' (by simp)
  | coe r => exact ⟨r, rfl⟩
  | top => exact absurd h' (by simp)

/-- One test "all |a| < +∞" that passed: every entry of a is real. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .olt (Host.absf a) (broadcastInDim s ![] hb (constant (F := Ideal) S_ .f32 0x7F800000#32))) init hr hu j = 1#1)
    (i : s.Idx) : IsReal (a i) :=
  isReal_of_abs_lt (a i) (Host.reduce_andi_all _ init hr hu j e i)

/-- A conjunction of two one-bit arrays that is 1 at an index: both are 1 there. -/
theorem both_one {s : Shape} (x y : IVec s 1) (i : s.Idx) (h : andi x y i = 1#1) : x i = 1#1 ∧ y i = 1#1 :=
  IntOp.andi_eq_one.1 h

/-- The test "all 0 ≤ n < 5000" that passed: every entry of n, read signed, is in [0, 5000). -/
theorem all_node {s : Shape} {axes : List (Fin s.rank)} (n : IVec s 32)
    (hb : S_.BroadcastsInDim s (![] : Fin 0 → Fin s.rank)) (hr : s.ReducesTo axes S_) (hu : 0 < S_.numel)
    (init : IVec S_ 1) (j : S_.Idx)
    (e : Host.reduce IntOp.andi (andi (cmpi .sge n (broadcastInDim s ![] hb (constantI S_ 32 0#32)))
        (cmpi .slt n (broadcastInDim s ![] hb (constantI S_ 32 5000#32)))) init hr hu j = 1#1)
    (i : s.Idx) : 0 ≤ (n i).toInt ∧ (n i).toInt < 5000 := by
  obtain ⟨h0, h1⟩ := both_one _ _ i (Host.reduce_andi_all _ init hr hu j e i)
  have g0 : (0#32 : BitVec 32).toInt ≤ (n i).toInt := IntOp.cmpi_sge.1 h0
  have g1 : (n i).toInt < (5000#32 : BitVec 32).toInt := IntOp.cmpi_slt.1 h1
  have z0 : (0#32 : BitVec 32).toInt = 0 := by decide
  have z1 : (5000#32 : BitVec 32).toInt = 5000 := by decide
  rw [z0] at g0; rw [z1] at g1
  exact ⟨g0, g1⟩

/-- The precondition decoded: the nine float arguments have real entries and the edge indices are nodes. -/
theorem of_pre (a0 : FVec Ideal S16x5000x64 .f32) (a1 : IVec S2x160000 32) (a2 : FVec Ideal S64x32 .f32) (a3 : FVec Ideal S32 .f32)
    (a4 : FVec Ideal S32x32 .f32) (a5 : FVec Ideal S32 .f32) (a6 : FVec Ideal S160000x512 .f32) (a7 : FVec Ideal S512 .f32)
    (a8 : FVec Ideal S512x16 .f32) (a9 : FVec Ideal S16 .f32)
    (h : Cert.Pre_finite_inputs.fn (F := Ideal) a0 a1 a2 a3 a4 a5 a6 a7 a8 a9 = (fun _ => 1#1)) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i))
      ∧ (∀ i, 0 ≤ (a1 i).toInt ∧ (a1 i).toInt < 5000) := by
  have e := congrFun h ValueIdx.ix0
  dsimp only [fn, fn_part1, fn_part2] at e
  obtain ⟨e, h1⟩ := both_one _ _ _ e
  obtain ⟨e, h9⟩ := both_one _ _ _ e
  obtain ⟨e, h8⟩ := both_one _ _ _ e
  obtain ⟨e, h7⟩ := both_one _ _ _ e
  obtain ⟨e, h6⟩ := both_one _ _ _ e
  obtain ⟨e, h5⟩ := both_one _ _ _ e
  obtain ⟨e, h4⟩ := both_one _ _ _ e
  obtain ⟨e, h3⟩ := both_one _ _ _ e
  obtain ⟨h0, h2⟩ := both_one _ _ _ e
  exact ⟨all_real a0 _ _ _ _ _ h0, all_real a2 _ _ _ _ _ h2, all_real a3 _ _ _ _ _ h3, all_real a4 _ _ _ _ _ h4,
    all_real a5 _ _ _ _ _ h5, all_real a6 _ _ _ _ _ h6, all_real a7 _ _ _ _ _ h7, all_real a8 _ _ _ _ _ h8,
    all_real a9 _ _ _ _ _ h9, all_node a1 _ _ _ _ _ h1⟩

end Cert.PreFacts

end
-- ==== Proof.HostGraph.lean ====
/- The first two stretches of host operations of the kernel's program compute, from the edge-index argument, the
   same arrays as the reference: the edges' source and destination rows each followed by 0 … 4999, the in-degrees
   (an accumulating scatter of ones at the normalised destinations) and their reciprocal square roots where positive.
   Read off the run, they are the same pure operations as the reference's source vector, destination vector and edge
   weights. -/
import proofs.«137311_j86784109183564_2_alg».proof.Proof.Gen.KernelIdeal.Launch
import proofs.«137311_j86784109183564_2_alg».proof.Proof.GraphArrays
import Idealize.ShloMosaic.Lib.StableHlo.Run
import Idealize.ShloMosaic.PureOps.Ideal

noncomputable section

namespace Cert.KernelIdeal.HostValue

open Idealize.ShloMosaic Idealize.ShloMosaic.TcCoe Idealize.SL.Sem Idealize.ShloMosaic.StableHlo Idealize.ShloMosaic.ValueIdx
open Cert.KernelIdeal Cert.KernelIdeal.Gen

variable (W₀ : Valuation τ sig (Elt Ideal))

set_option maxHeartbeats 4000000 in
/-- The edges' source row followed by 0 … 4999, with negative entries moved up by 5000, is the reference's source
    vector. -/
theorem src_eq (a1 : IVec S2x160000 32) (hA1 : W₀ (Proc.devRef .tc main_arg1) = a1) (x3 : IVec S165000 32)
    (h3 : StableHlo.after (hostOps0_1 (F := Ideal)) (StableHlo.after (hostOps0 (F := Ideal)) W₀)
      (Proc.devRef .tc main_v3) = x3) :
    select (cmpi .slt x3 (broadcastInDim S165000 ![] bcast_S_S165000 (constantI S_ 32 0#32))) (addi x3 (broadcastInDim S165000 ![] bcast_S_S165000 (constantI S_ 32 5000#32))) x3 = Cert.RefValue.srcV a1 := by
  have e : x3 = (concatenate S165000 0 [⟨S160000, (shapeCast _ (extractStridedSlice S1x160000 ![0, 0] a1 slices_S2x160000_S1x160000_0_0) shapeCasts_S1x160000_S160000)⟩, ⟨S5000, (iotaInDim S5000 32 0)⟩] concatenates_S160000_S5000_S165000_d0) := by
    subst hA1 h3
    after_results_simp <;> rfl
  rw [e]
  rfl

set_option maxHeartbeats 4000000 in
/-- The edges' destination row followed by 0 … 4999, with negative entries moved up by 5000, is the reference's
    destination vector. -/
theorem dst_eq (a1 : IVec S2x160000 32) (hA1 : W₀ (Proc.devRef .tc main_arg1) = a1) (x6 : IVec S165000 32)
    (h6 : StableHlo.after (hostOps0_1 (F := Ideal)) (StableHlo.after (hostOps0 (F := Ideal)) W₀)
      (Proc.devRef .tc main_v6) = x6) :
    select (cmpi .slt x6 (broadcastInDim S165000 ![] bcast_S_S165000 (constantI S_ 32 0#32))) (addi x6 (broadcastInDim S165000 ![] bcast_S_S165000 (constantI S_ 32 5000#32))) x6 = Cert.RefValue.dstV a1 := by
  have e : x6 = (concatenate S165000 0 [⟨S160000, (shapeCast _ (extractStridedSlice S1x160000 ![1, 0] a1 slices_S2x160000_S1x160000_1_0) shapeCasts_S1x160000_S160000)⟩, ⟨S5000, (iotaInDim S5000 32 0)⟩] concatenates_S160000_S5000_S165000_d0) := by
    subst hA1 h6
    after_results_simp <;> rfl
  rw [e]
  rfl

set_option maxHeartbeats 4000000 in
/-- The products of the two ends' normalisation factors, gathered along the reference's source and destination
    vectors, are the reference's edge weights. -/
theorem nrm_eq (a1 : IVec S2x160000 32) (hA1 : W₀ (Proc.devRef .tc main_arg1) = a1) (x19 : FVec Ideal S5000 .f32)
    (h19 : StableHlo.after (hostOps0_1 (F := Ideal)) (StableHlo.after (hostOps0 (F := Ideal)) W₀)
      (Proc.devRef .tc main_v19) = x19) :
    mulf (Host.gather gather_S5000_S165000x1_S165000_n_0_n_n_0_1_1 x19
        (broadcastInDim S165000x1 ![0] bcast_S165000_S165000x1_0 (Cert.RefValue.srcV a1)))
      (Host.gather gather_S5000_S165000x1_S165000_n_0_n_n_0_1_1 x19
        (broadcastInDim S165000x1 ![0] bcast_S165000_S165000x1_0 (Cert.RefValue.dstV a1)))
      = Cert.RefValue.nrmV a1 := by
  have e : x19 = (select (cmpf (F := Ideal) .ogt (Host.scatterAdd scatter_S5000_S165000x1_S165000_n_0_0_1 (broadcastInDim S5000 ![] bcast_S_S5000 (constant S_ .f32 0x00000000#32)) (broadcastInDim S165000x1 ![0] bcast_S165000_S165000x1_0 (select (cmpi .slt (concatenate S165000 0 [⟨S160000, (shapeCast _ (extractStridedSlice S1x160000 ![1, 0] a1 slices_S2x160000_S1x160000_1_0) shapeCasts_S1x160000_S160000)⟩, ⟨S5000, (iotaInDim S5000 32 0)⟩] concatenates_S160000_S5000_S165000_d0) (broadcastInDim S165000 ![] bcast_S_S165000 (constantI S_ 32 0#32))) (addi (concatenate S165000 0 [⟨S160000, (shapeCast _ (extractStridedSlice S1x160000 ![1, 0] a1 slices_S2x160000_S1x160000_1_0) shapeCasts_S1x160000_S160000)⟩, ⟨S5000, (iotaInDim S5000 32 0)⟩] concatenates_S160000_S5000_S165000_d0) (broadcastInDim S165000 ![] bcast_S_S165000 (constantI S_ 32 5000#32))) (concatenate S165000 0 [⟨S160000, (shapeCast _ (extractStridedSlice S1x160000 ![1, 0] a1 slices_S2x160000_S1x160000_1_0) shapeCasts_S1x160000_S160000)⟩, ⟨S5000, (iotaInDim S5000 32 0)⟩] concatenates_S160000_S5000_S165000_d0))) (broadcastInDim S165000 ![] bcast_S_S165000 (constant S_ .f32 0x3F800000#32))) (broadcastInDim S5000 ![] bcast_S_S5000 (constant S_ .f32 0x00000000#32))) (Host.rsqrt (Host.scatterAdd scatter_S5000_S165000x1_S165000_n_0_0_1 (broadcastInDim S5000 ![] bcast_S_S5000 (constant S_ .f32 0x00000000#32)) (broadcastInDim S165000x1 ![0] bcast_S165000_S165000x1_0 (select (cmpi .slt (concatenate S165000 0 [⟨S160000, (shapeCast _ (extractStridedSlice S1x160000 ![1, 0] a1 slices_S2x160000_S1x160000_1_0) shapeCasts_S1x160000_S160000)⟩, ⟨S5000, (iotaInDim S5000 32 0)⟩] concatenates_S160000_S5000_S165000_d0) (broadcastInDim S165000 ![] bcast_S_S165000 (constantI S_ 32 0#32))) (addi (concatenate S165000 0 [⟨S160000, (shapeCast _ (extractStridedSlice S1x160000 ![1, 0] a1 slices_S2x160000_S1x160000_1_0) shapeCasts_S1x160000_S160000)⟩, ⟨S5000, (iotaInDim S5000 32 0)⟩] concatenates_S160000_S5000_S165000_d0) (broadcastInDim S165000 ![] bcast_S_S165000 (constantI S_ 32 5000#32))) (concatenate S165000 0 [⟨S160000, (shapeCast _ (extractStridedSlice S1x160000 ![1, 0] a1 slices_S2x160000_S1x160000_1_0) shapeCasts_S1x160000_S160000)⟩, ⟨S5000, (iotaInDim S5000 32 0)⟩] concatenates_S160000_S5000_S165000_d0))) (broadcastInDim S165000 ![] bcast_S_S165000 (constant S_ .f32 0x3F800000#32)))) (broadcastInDim S5000 ![] bcast_S_S5000 (id (constant S_ .f32 0x00000000#32)))) := by
    subst hA1 h19
    after_results_simp <;> (try simp only [TRef.ofBuf, TRef.toBuf, cast_eq]) <;> rfl
  rw [e]
  rfl

end Cert.KernelIdeal.HostValue

end
-- ==== Proof.Algebraic.lean ====
/- The algebraic claim. On finite inputs with the edge indices in range the idealized kernel and the idealized
   reference end with equal results.
   The kernel's result is the head (two linear layers, the first with a relu) of two dense layers
   relu(A · (X W) + b); the array A it builds by a scatter-add holds at (n, k) the sum of the weights of the edges
   from k to n. The reference's result is the same head of two layers in edge form, relu(sum over the edges e into n
   of (X W)[src e] · w e + b). With every weight and every feature a real number,
   sum_k A[n,k] · y k = sum_k (sum_{e : k → n} w e) · y k = sum_{e → n} w e · y (src e),
   so the two forms are one function. -/
import proofs.«137311_j86784109183564_2_alg».proof.Defs
import proofs.«137311_j86784109183564_2_alg».proof.Proof.KernelValue
import proofs.«137311_j86784109183564_2_alg».proof.Proof.HostAdj
import proofs.«137311_j86784109183564_2_alg».proof.Proof.RefValue
import proofs.«137311_j86784109183564_2_alg».proof.Proof.RefEdges
import proofs.«137311_j86784109183564_2_alg».proof.Proof.LibGcn
import proofs.«137311_j86784109183564_2_alg».proof.Proof.PreFacts
import proofs.«137311_j86784109183564_2_alg».proof.Proof.RefRun
import proofs.«137311_j86784109183564_2_alg».proof.Proof.HostGraph
import proofs.«137311_j86784109183564_2_alg».proof.Proof.Gen.Pre_finite_inputs

noncomputable section

namespace Cert.Proof

open Idealize.ShloMosaic Idealize.SL.Sem Idealize.ShloMosaic.ValueIdx Idealize.ShloMosaic.TcCoe
open Cert.RefValue

/-- The array the kernel scatters the edge weights into is the adjacency of the specification: an index word in
    range names the node it denotes. -/
theorem adj_eq (a1 : IVec Cert.ReferenceIdeal.S2x160000 32) (h1 : ∀ i, 0 ≤ (a1 i).toInt ∧ (a1 i).toInt < 5000)
    (Adj : FVec Ideal Cert.KernelIdeal.S5000x5000 .bf16)
    (hA : ∀ n k : Fin 5000, Adj (ix2 n k) = ∑ e : Fin 165000,
      if (dstV a1 (ix1 e)).toInt = (n.val : Int) ∧ (srcV a1 (ix1 e)).toInt = (k.val : Int) then nrmV a1 (ix1 e) else 0) :
    (fun n k => Adj (ix2 n k)) = Cert.Spec.adj (toFin (srcV a1)) (toFin (dstV a1)) (fun e => nrmV a1 (ix1 e)) := by
  funext n k
  rw [hA]
  unfold Cert.Spec.adj
  refine Finset.sum_congr rfl fun e _ => ?_
  have hd := dstV_range a1 h1 e
  have hs := srcV_range a1 h1 e
  have hn := n.isLt; have hk := k.isLt
  have hiff : ((dstV a1 (ix1 e)).toInt = (n.val : Int) ∧ (srcV a1 (ix1 e)).toInt = (k.val : Int))
      ↔ (toFin (dstV a1) e = n ∧ toFin (srcV a1) e = k) := by
    constructor
    · rintro ⟨h, h'⟩
      exact ⟨Fin.ext (by show min (dstV a1 (ix1 e)).toInt.toNat 4999 = n.val; omega),
        Fin.ext (by show min (srcV a1 (ix1 e)).toInt.toNat 4999 = k.val; omega)⟩
    · rintro ⟨h, h'⟩
      have g := congrArg Fin.val h
      have g' := congrArg Fin.val h'
      change min (dstV a1 (ix1 e)).toInt.toNat 4999 = n.val at g
      change min (srcV a1 (ix1 e)).toInt.toNat 4999 = k.val at g'
      constructor <;> omega
  by_cases hc : (dstV a1 (ix1 e)).toInt = (n.val : Int) ∧ (srcV a1 (ix1 e)).toInt = (k.val : Int)
  · rw [if_pos hc, if_pos (hiff.mp hc)]
  · rw [if_neg hc, if_neg (fun h => hc (hiff.mpr h))]

set_option maxHeartbeats 1000000 in
/-- On one core: the reference's result term of arguments that agree with the kernel's is what the kernel's run leaves
    in its result buffer. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v118 (F := Ideal) m' c = Cert.KernelIdeal.Hand.Wd9 m ρ c (Proc.devRef .tc Cert.KernelIdeal.main_v75) := by
  rw [Cert.RefValue.res_eq_refTerm m' c, g0, g1, g2, g3, g4, g5, g6, g7, g8, g9]
  obtain ⟨hr0, hr2, hr3, hr4, hr5, hr6, hr7, hr8, hr9, hidx⟩ := Cert.PreFacts.of_pre _ _ _ _ _ _ _ _ _ _ (hpre c)
  funext i
  obtain ⟨r, a, rfl⟩ : ∃ (r : Fin 16) (a : Fin 16), i = ix2 r a := ⟨i 0, i 1, eq_ix2 i⟩
  rw [Cert.RefValue.refTerm_apply _ _ _ _ _ _ _ _ _ _ hidx r a]
  symm
  refine (Cert.KernelIdeal.HandValue.kernel_value m ρ c _ _ _ _ _ _ _ _ _ _ rfl rfl rfl rfl rfl rfl rfl rfl rfl rfl _ rfl r a).trans ?_
  have hAdj := adj_eq _ hidx (Cert.KernelIdeal.Hand.Wd3 m ρ c (Proc.devRef .tc Cert.KernelIdeal.main_v50))
    (fun n k => Cert.KernelIdeal.HostValue.adj_value (Cert.KernelIdeal.Hand.Wd2 m ρ c) n k _ _ _ _ rfl rfl rfl rfl _ _ _
      (Cert.KernelIdeal.HostValue.src_eq (Cert.KernelIdeal.Hand.Wd0 m ρ c) _ rfl _ rfl)
      (Cert.KernelIdeal.HostValue.dst_eq (Cert.KernelIdeal.Hand.Wd0 m ρ c) _ rfl _ rfl)
      (Cert.KernelIdeal.HostValue.nrm_eq (Cert.KernelIdeal.Hand.Wd0 m ρ c) _ rfl _ rfl))
  rw [← Cert.Spec.outDense_eq_outEdge _ _ _ _ _ _ _ _ _ _ _ _ (fun e => nrmV_real _ e)
    (fun bb n f => hr0 _) (fun f h => hr2 _) (fun h => hr3 _) (fun f h => hr4 _) (fun h => hr5 _)]
  unfold Cert.Spec.outDense
  rw [← hAdj]

theorem algebraic : Cert.algebraic_KernelIdeal_ReferenceIdeal := by
  intro m ρ m' ρ' hpre hagree
  refine ⟨fun c => Cert.KernelIdeal.Hand.Wd9 m ρ c (Proc.devRef .tc Cert.KernelIdeal.main_v75),
    Cert.KernelIdeal.HandValue.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨g0, g1, g2, g3, g4, g5, g6, g7, g8, g9⟩ := hagree c
  exact result_eq m ρ m' hpre c g0 g1 g2 g3 g4 g5 g6 g7 g8 g9

end Cert.Proof

end
-- ==== Proof.lean ====
/- The five claims of the certificate.
   The two kernel programs' frames are the run of @main over its nine segments (three pallas_call regions among
   stretches of host operations): it terminates, nothing faults, and no segment changes an argument array. The
   reference's frame is its run with the result dropped. The idealization rewrote nothing, so `preserves` is trivial.
   `algebraic`: the idealized kernel computes each graph-convolution layer as a dense matrix product with the
   normalised adjacency A[n, k] = sum of norm(e) over the edges e from k to n, the reference as a sum over the edges
   into n of the gathered, weighted messages; on finite inputs with the edge indices in range the two are one
   function, because sum_k (sum_{e : k -> n} norm e) * y k = sum_{e -> n} norm e * y (src e). -/
import proofs.«137311_j86784109183564_2_alg».proof.Defs
import proofs.«137311_j86784109183564_2_alg».proof.Proof.Gen.Kernel
import proofs.«137311_j86784109183564_2_alg».proof.Proof.Gen.KernelIdeal
import proofs.«137311_j86784109183564_2_alg».proof.Proof.Gen.ReferenceIdeal
import proofs.«137311_j86784109183564_2_alg».proof.Proof.Gen.Pre_finite_inputs
import proofs.«137311_j86784109183564_2_alg».proof.Proof.K.Run
import proofs.«137311_j86784109183564_2_alg».proof.Proof.KI.Run
import proofs.«137311_j86784109183564_2_alg».proof.Proof.RefRun
import proofs.«137311_j86784109183564_2_alg».proof.Proof.Algebraic
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
